-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024 : Shape := ⟨1, ![1024]⟩
abbrev S1024x2x512 : Shape := ⟨3, ![1024, 2, 512]⟩
abbrev S1024x128x16x16 : Shape := ⟨4, ![1024, 128, 16, 16]⟩
abbrev S_ : Shape := ⟨0, ![]⟩

class Facts : Prop where
  bcast_S_S1024x2x512 : S_.BroadcastsInDim S1024x2x512 (![] : Fin 0 → Fin S1024x2x512.rank)
  reducesTo_S1024x2x512_S_d0_1_2 : S1024x2x512.ReducesTo [0, 1, 2] S_
  h_S_ : 0 < S_.numel
  bcast_S_S1024x128x16x16 : S_.BroadcastsInDim S1024x128x16x16 (![] : Fin 0 → Fin S1024x128x16x16.rank)
  reducesTo_S1024x128x16x16_S_d0_1_2_3 : S1024x128x16x16.ReducesTo [0, 1, 2, 3] S_
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S1024 32) (main_arg1 : FVec F S1024x2x512 .f32) (main_arg2 : FVec F S1024x128x16x16 .f32) : IVec S_ 1 :=
  let main_v0 : FVec F S1024x2x512 .f32 := Host.absf main_arg1
  let main_cst : FVec F S_ .f32 := constant S_ .f32 0x7F800000#32
  let main_v1 : FVec F S1024x2x512 .f32 := broadcastInDim S1024x2x512 ![] bcast_S_S1024x2x512 main_cst
  let main_v2 : IVec S1024x2x512 1 := cmpf .olt main_v0 main_v1
  let main_c : IVec S_ 1 := constantI S_ 1 1#1
  let main_v3 : IVec S_ 1 := (fun x v => Host.reduce IntOp.andi x v reducesTo_S1024x2x512_S_d0_1_2 h_S_) main_v2 main_c
  let main_v4 : FVec F S1024x128x16x16 .f32 := Host.absf main_arg2
  let main_cst_0 : FVec F S_ .f32 := constant S_ .f32 0x7F800000#32
  let main_v5 : FVec F S1024x128x16x16 .f32 := broadcastInDim S1024x128x16x16 ![] bcast_S_S1024x128x16x16 main_cst_0
  let main_v6 : IVec S1024x128x16x16 1 := cmpf .olt main_v4 main_v5
  let main_c_1 : IVec S_ 1 := constantI S_ 1 1#1
  let main_v7 : IVec S_ 1 := (fun x v => Host.reduce IntOp.andi x v reducesTo_S1024x128x16x16_S_d0_1_2_3 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg0 main_v9
  let main_c_3 : IVec S_ 32 := constantI S_ 32 1023#32
  let main_v11 : IVec S1024 32 := broadcastInDim S1024 ![] bcast_S_S1024 main_c_3
  let main_v12 : IVec S1024 1 := cmpi .sle main_arg0 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024 : Shape := ⟨1, ![1024]⟩
abbrev S1024x2x512 : Shape := ⟨3, ![1024, 2, 512]⟩
abbrev S1024x128x16x16 : Shape := ⟨4, ![1024, 128, 16, 16]⟩
abbrev S33554432 : Shape := ⟨1, ![33554432]⟩
abbrev S1024x65536 : Shape := ⟨2, ![1024, 65536]⟩
abbrev S32 : Shape := ⟨1, ![32]⟩
abbrev S1x2x512 : Shape := ⟨3, ![1, 2, 512]⟩
abbrev S32768 : Shape := ⟨1, ![32768]⟩
abbrev S4x512 : Shape := ⟨2, ![4, 512]⟩
abbrev S1x65536 : Shape := ⟨2, ![1, 65536]⟩
abbrev S_ : Shape := ⟨0, ![]⟩
abbrev S16 : Shape := ⟨1, ![16]⟩
abbrev S1 : Shape := ⟨1, ![1]⟩
abbrev S1x1x16 : Shape := ⟨3, ![1, 1, 16]⟩
abbrev S1x16 : Shape := ⟨2, ![1, 16]⟩
abbrev S1024x128x512 : Shape := ⟨3, ![1024, 128, 512]⟩

abbrev nBuf : Table → Nat
  | .hbm => 6
  | .local .scVector .vmem => 6
  | _ => 0

abbrev bufTy : (tb : Table) → Fin (nBuf tb) → BufTy
  | .hbm, ⟨0, _⟩ => ⟨S1024, .i32⟩
  | .hbm, ⟨1, _⟩ => ⟨S1024x2x512, .f32⟩
  | .hbm, ⟨2, _⟩ => ⟨S1024x128x16x16, .f32⟩
  | .hbm, ⟨3, _⟩ => ⟨S33554432, .f32⟩
  | .hbm, ⟨4, _⟩ => ⟨S1024x65536, .f32⟩
  | .hbm, ⟨5, _⟩ => ⟨S1024x128x512, .f32⟩
  | .local .scVector .vmem, ⟨0, _⟩ => ⟨S32, .i32⟩
  | .local .scVector .vmem, ⟨1, _⟩ => ⟨S1x2x512, .f32⟩
  | .local .scVector .vmem, ⟨2, _⟩ => ⟨S32768, .f32⟩
  | .local .scVector .vmem, ⟨3, _⟩ => ⟨S4x512, .i32⟩
  | .local .scVector .vmem, ⟨4, _⟩ => ⟨S4x512, .f32⟩
  | .local .scVector .vmem, ⟨5, _⟩ => ⟨S1x65536, .f32⟩
  | _, _ => ⟨S1024, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
@[reducible] def k0_t1_loop : Scf.Loop 32 :=
  let c0_i32_0 : BitVec 32 := 0#32
  let c32_i32_1 : BitVec 32 := 32#32
  let v3 : BitVec 32 := Scalar.addi c0_i32_0 c32_i32_1
  let c1_i32 : BitVec 32 := 1#32
  ⟨c0_i32_0, v3, c1_i32⟩

def k0_chk1 (v6 : IVec S16 32) : Prop :=
  (∀ a x, ((![v6] : Fin 1 → IVec S16 32) a x).toNat < S32.size a)
instance k0_chk1.dec : ∀ (v6 : IVec S16 32), Decidable (k0_chk1 v6) := fun v6 => decidable_of_iff' _ (Iff.of_eq (k0_chk1.eq_1 v6))
theorem k0_idx1_inb : ∀ (v6 : IVec S16 32) (k0_hw1 : k0_chk1 v6), ∀ a x, ((![v6] : Fin 1 → IVec S16 32) a x).toNat < S32.size a := fun v6 k0_hw1 => k0_hw1
def k0_off2 (v9 : BitVec 32) : Fin 1 → Nat :=
  let c32768_i32 : BitVec 32 := 32768#32
  let v10 : BitVec 32 := Scalar.muli v9 c32768_i32
  ![v10.toNat]

def k0_chk2 (v9 : BitVec 32) : Prop :=
  (∀ a, (k0_off2 v9) a + S32768.size a ≤ S33554432.size a)
instance k0_chk2.dec : ∀ (v9 : BitVec 32), Decidable (k0_chk2 v9) := fun v9 => decidable_of_iff' _ (Iff.of_eq (k0_chk2.eq_1 v9))
theorem k0_off2_inb : ∀ (v9 : BitVec 32) (k0_hw2 : k0_chk2 v9), ∀ a, (k0_off2 v9) a + S32768.size a ≤ S33554432.size a := fun v9 k0_hw2 => k0_hw2

def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_0 : BitVec 32 := 0#32
  let c1_i32 : BitVec 32 := 1#32
  let arg13 : BitVec 32 := Scf.iv c0_i32_0 c1_i32 k0_t1
  let v5 : BitVec 32 := Scalar.addi v2 arg13
  let c0_i32_14_r1 : BitVec 32 := 0#32
  let c0_i32_15_r1 : BitVec 32 := 0#32
  ![v5.toNat, 0, 0]
@[reducible] def k0_t2_loop : Scf.Loop 32 :=
  let c0_i32_4 : BitVec 32 := 0#32
  let c32_i32_5 : BitVec 32 := 32#32
  let v15 : BitVec 32 := Scalar.addi c0_i32_4 c32_i32_5
  let c1_i32_6 : BitVec 32 := 1#32
  ⟨c0_i32_4, v15, c1_i32_6⟩
def k0_off4 (k0_t2 : Fin k0_t2_loop.trips) : Fin 3 → Nat :=
  let c0_i32_14 : BitVec 32 := 0#32
  let v20 : Index := Scalar.indexCast c0_i32_14
  let c0_i32_15 : BitVec 32 := 0#32
  let v21 : Index := Scalar.indexCast c0_i32_15
  let c0_i32_4 : BitVec 32 := 0#32
  let c1_i32_6 : BitVec 32 := 1#32
  let arg15 : BitVec 32 := Scf.iv c0_i32_4 c1_i32_6 k0_t2
  let c16_i32 : BitVec 32 := 16#32
  let v19 : BitVec 32 := Scalar.muli arg15 c16_i32
  let v22 : Index := Scalar.indexCast v19
  ![0, 0, v22.toNat]
def k0_off5 (k0_t2 : Fin k0_t2_loop.trips) : Fin 3 → Nat :=
  let c0_i32_16 : BitVec 32 := 0#32
  let v24 : Index := Scalar.indexCast c0_i32_16
  let c1_i32_17 : BitVec 32 := 1#32
  let v25 : Index := Scalar.indexCast c1_i32_17
  let c0_i32_4 : BitVec 32 := 0#32
  let c1_i32_6 : BitVec 32 := 1#32
  let arg15 : BitVec 32 := Scf.iv c0_i32_4 c1_i32_6 k0_t2
  let c16_i32 : BitVec 32 := 16#32
  let v19 : BitVec 32 := Scalar.muli arg15 c16_i32
  let v26 : Index := Scalar.indexCast v19
  ![0, 1, v26.toNat]
def k0_off6 (k0_t2 : Fin k0_t2_loop.trips) : Fin 2 → Nat :=
  let c0_i32_42 : BitVec 32 := 0#32
  let v87 : Index := Scalar.indexCast c0_i32_42
  let c0_i32_4 : BitVec 32 := 0#32
  let c1_i32_6 : BitVec 32 := 1#32
  let arg15 : BitVec 32 := Scf.iv c0_i32_4 c1_i32_6 k0_t2
  let c16_i32 : BitVec 32 := 16#32
  let v19 : BitVec 32 := Scalar.muli arg15 c16_i32
  let v88 : Index := Scalar.indexCast v19
  ![0, v88.toNat]
def k0_off7 (k0_t2 : Fin k0_t2_loop.trips) : Fin 2 → Nat :=
  let c1_i32_43 : BitVec 32 := 1#32
  let v91 : Index := Scalar.indexCast c1_i32_43
  let c0_i32_4 : BitVec 32 := 0#32
  let c1_i32_6 : BitVec 32 := 1#32
  let arg15 : BitVec 32 := Scf.iv c0_i32_4 c1_i32_6 k0_t2
  let c16_i32 : BitVec 32 := 16#32
  let v19 : BitVec 32 := Scalar.muli arg15 c16_i32
  let v92 : Index := Scalar.indexCast v19
  ![1, v92.toNat]
def k0_off8 (k0_t2 : Fin k0_t2_loop.trips) : Fin 2 → Nat :=
  let c2_i32_44 : BitVec 32 := 2#32
  let v95 : Index := Scalar.indexCast c2_i32_44
  let c0_i32_4 : BitVec 32 := 0#32
  let c1_i32_6 : BitVec 32 := 1#32
  let arg15 : BitVec 32 := Scf.iv c0_i32_4 c1_i32_6 k0_t2
  let c16_i32 : BitVec 32 := 16#32
  let v19 : BitVec 32 := Scalar.muli arg15 c16_i32
  let v96 : Index := Scalar.indexCast v19
  ![2, v96.toNat]
def k0_off9 (k0_t2 : Fin k0_t2_loop.trips) : Fin 2 → Nat :=
  let c3_i32 : BitVec 32 := 3#32
  let v99 : Index := Scalar.indexCast c3_i32
  let c0_i32_4 : BitVec 32 := 0#32
  let c1_i32_6 : BitVec 32 := 1#32
  let arg15 : BitVec 32 := Scf.iv c0_i32_4 c1_i32_6 k0_t2
  let c16_i32 : BitVec 32 := 16#32
  let v19 : BitVec 32 := Scalar.muli arg15 c16_i32
  let v100 : Index := Scalar.indexCast v19
  ![3, v100.toNat]
@[reducible] def k0_t3_loop : Scf.Loop 32 :=
  let c0_i32_9 : BitVec 32 := 0#32
  let c32_i32_10 : BitVec 32 := 32#32
  let v17 : BitVec 32 := Scalar.addi c0_i32_9 c32_i32_10
  let c1_i32_11 : BitVec 32 := 1#32
  ⟨c0_i32_9, v17, c1_i32_11⟩
def k0_off10 (k0_t3 : Fin k0_t3_loop.trips) : Fin 2 → Nat :=
  let c0_i32_14 : BitVec 32 := 0#32
  let v20 : Index := Scalar.indexCast c0_i32_14
  let c0_i32_9 : BitVec 32 := 0#32
  let c1_i32_11 : BitVec 32 := 1#32
  let arg15 : BitVec 32 := Scf.iv c0_i32_9 c1_i32_11 k0_t3
  let c16_i32 : BitVec 32 := 16#32
  let v19 : BitVec 32 := Scalar.muli arg15 c16_i32
  let v21 : Index := Scalar.indexCast v19
  ![0, v21.toNat]
def k0_off11 (k0_t3 : Fin k0_t3_loop.trips) : Fin 2 → Nat :=
  let c1_i32_15 : BitVec 32 := 1#32
  let v23 : Index := Scalar.indexCast c1_i32_15
  let c0_i32_9 : BitVec 32 := 0#32
  let c1_i32_11 : BitVec 32 := 1#32
  let arg15 : BitVec 32 := Scf.iv c0_i32_9 c1_i32_11 k0_t3
  let c16_i32 : BitVec 32 := 16#32
  let v19 : BitVec 32 := Scalar.muli arg15 c16_i32
  let v24 : Index := Scalar.indexCast v19
  ![1, v24.toNat]
def k0_off12 (k0_t3 : Fin k0_t3_loop.trips) : Fin 2 → Nat :=
  let c2_i32_16 : BitVec 32 := 2#32
  let v26 : Index := Scalar.indexCast c2_i32_16
  let c0_i32_9 : BitVec 32 := 0#32
  let c1_i32_11 : BitVec 32 := 1#32
  let arg15 : BitVec 32 := Scf.iv c0_i32_9 c1_i32_11 k0_t3
  let c16_i32 : BitVec 32 := 16#32
  let v19 : BitVec 32 := Scalar.muli arg15 c16_i32
  let v27 : Index := Scalar.indexCast v19
  ![2, v27.toNat]
def k0_off13 (k0_t3 : Fin k0_t3_loop.trips) : Fin 2 → Nat :=
  let c3_i32 : BitVec 32 := 3#32
  let v29 : Index := Scalar.indexCast c3_i32
  let c0_i32_9 : BitVec 32 := 0#32
  let c1_i32_11 : BitVec 32 := 1#32
  let arg15 : BitVec 32 := Scf.iv c0_i32_9 c1_i32_11 k0_t3
  let c16_i32 : BitVec 32 := 16#32
  let v19 : BitVec 32 := Scalar.muli arg15 c16_i32
  let v30 : Index := Scalar.indexCast v19
  ![3, v30.toNat]
@[reducible] def k0_t4_loop : Scf.Loop 32 :=
  let c0_i32_21 : BitVec 32 := 0#32
  let c128_i32 : BitVec 32 := 128#32
  let v44 : BitVec 32 := Scalar.addi c0_i32_21 c128_i32
  let c1_i32_22 : BitVec 32 := 1#32
  ⟨c0_i32_21, v44, c1_i32_22⟩

def k0_chk3 (arg18 : IVec S16 32) : Prop :=
  (∀ a x, ((![arg18] : Fin 1 → IVec S16 32) a x).toNat < S32768.size a)
instance k0_chk3.dec : ∀ (arg18 : IVec S16 32), Decidable (k0_chk3 arg18) := fun arg18 => decidable_of_iff' _ (Iff.of_eq (k0_chk3.eq_1 arg18))
theorem k0_idx2_inb : ∀ (arg18 : IVec S16 32) (k0_hw3 : k0_chk3 arg18), ∀ a x, ((![arg18] : Fin 1 → IVec S16 32) a x).toNat < S32768.size a := fun arg18 k0_hw3 => k0_hw3

def k0_chk4 (arg19 : IVec S16 32) : Prop :=
  (∀ a x, ((![arg19] : Fin 1 → IVec S16 32) a x).toNat < S32768.size a)
instance k0_chk4.dec : ∀ (arg19 : IVec S16 32), Decidable (k0_chk4 arg19) := fun arg19 => decidable_of_iff' _ (Iff.of_eq (k0_chk4.eq_1 arg19))
theorem k0_idx3_inb : ∀ (arg19 : IVec S16 32) (k0_hw4 : k0_chk4 arg19), ∀ a x, ((![arg19] : Fin 1 → IVec S16 32) a x).toNat < S32768.size a := fun arg19 k0_hw4 => k0_hw4

def k0_chk5 (arg20 : IVec S16 32) : Prop :=
  (∀ a x, ((![arg20] : Fin 1 → IVec S16 32) a x).toNat < S32768.size a)
instance k0_chk5.dec : ∀ (arg20 : IVec S16 32), Decidable (k0_chk5 arg20) := fun arg20 => decidable_of_iff' _ (Iff.of_eq (k0_chk5.eq_1 arg20))
theorem k0_idx4_inb : ∀ (arg20 : IVec S16 32) (k0_hw5 : k0_chk5 arg20), ∀ a x, ((![arg20] : Fin 1 → IVec S16 32) a x).toNat < S32768.size a := fun arg20 k0_hw5 => k0_hw5

def k0_chk6 (arg21 : IVec S16 32) : Prop :=
  (∀ a x, ((![arg21] : Fin 1 → IVec S16 32) a x).toNat < S32768.size a)
instance k0_chk6.dec : ∀ (arg21 : IVec S16 32), Decidable (k0_chk6 arg21) := fun arg21 => decidable_of_iff' _ (Iff.of_eq (k0_chk6.eq_1 arg21))
theorem k0_idx5_inb : ∀ (arg21 : IVec S16 32) (k0_hw6 : k0_chk6 arg21), ∀ a x, ((![arg21] : Fin 1 → IVec S16 32) a x).toNat < S32768.size a := fun arg21 k0_hw6 => k0_hw6
def k0_off14 (arg22 : BitVec 32) : Fin 2 → Nat :=
  let c0_i32_25 : BitVec 32 := 0#32
  let v57 : Index := Scalar.indexCast c0_i32_25
  let v58 : Index := Scalar.indexCast arg22
  ![0, v58.toNat]

def k0_chk7 (arg22 : BitVec 32) : Prop :=
  (∀ a, (k0_off14 arg22) a + S1x16.size a ≤ S1x65536.size a)
instance k0_chk7.dec : ∀ (arg22 : BitVec 32), Decidable (k0_chk7 arg22) := fun arg22 => decidable_of_iff' _ (Iff.of_eq (k0_chk7.eq_1 arg22))
theorem k0_off14_inb : ∀ (arg22 : BitVec 32) (k0_hw7 : k0_chk7 arg22), ∀ a, (k0_off14 arg22) a + S1x16.size a ≤ S1x65536.size a := fun arg22 k0_hw7 => k0_hw7

def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_0 : BitVec 32 := 0#32
  let c1_i32 : BitVec 32 := 1#32
  let arg13 : BitVec 32 := Scf.iv c0_i32_0 c1_i32 k0_t1
  let v5 : BitVec 32 := Scalar.addi v2 arg13
  let c0_i32_14_r2 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x128x16x16_S33554432 : S1024x128x16x16.ShapeCasts S33554432
  h_S32 : 0 < S32.numel
  slices_S16_o0_S1 : S16.Slices ![0] S1
  inpos_S1_p0 : ∀ a, (![0] : Fin 1 → Nat) a < S1.size a
  h_S1x1x16 : 0 < S1x1x16.numel
  shapeCasts_S1x1x16_S16 : S1x1x16.ShapeCasts S16
  h_S1x16 : 0 < S1x16.numel
  shapeCasts_S1x16_S16 : S1x16.ShapeCasts S16
  shapeCasts_S16_S1x16 : S16.ShapeCasts S1x16
  h_S32768 : 0 < S32768.numel
  shapeCasts_S1024x65536_S1024x128x512 : S1024x65536.ShapeCasts S1024x128x512
  hcc0_scratch6 : 0 + S_.numel ≤ 4
  hcc0_scoped0 : 1 + S_.numel ≤ 4
  hcc0_scoped1 : 2 + S_.numel ≤ 4
  hcc0_scoped2 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32.size a ≤ S1024.size a
  k0_t1_ok : k0_t1_loop.OK
  k0_off3_inb : ∀ (i : grid0.Coords) (k0_t1 : Fin k0_t1_loop.trips), ∀ a, (k0_off3 i k0_t1) a + S1x2x512.size a ≤ S1024x2x512.size a
  k0_t2_ok : k0_t2_loop.OK
  k0_off4_inb : ∀ k0_t2 : Fin k0_t2_loop.trips, ∀ a, (k0_off4 k0_t2) a + S1x1x16.size a ≤ S1x2x512.size a
  k0_off5_inb : ∀ k0_t2 : Fin k0_t2_loop.trips, ∀ a, (k0_off5 k0_t2) a + S1x1x16.size a ≤ S1x2x512.size a
  k0_off6_inb : ∀ k0_t2 : Fin k0_t2_loop.trips, ∀ a, (k0_off6 k0_t2) a + S1x16.size a ≤ S4x512.size a
  k0_off7_inb : ∀ k0_t2 : Fin k0_t2_loop.trips, ∀ a, (k0_off7 k0_t2) a + S1x16.size a ≤ S4x512.size a
  k0_off8_inb : ∀ k0_t2 : Fin k0_t2_loop.trips, ∀ a, (k0_off8 k0_t2) a + S1x16.size a ≤ S4x512.size a
  k0_off9_inb : ∀ k0_t2 : Fin k0_t2_loop.trips, ∀ a, (k0_off9 k0_t2) a + S1x16.size a ≤ S4x512.size a
  k0_t3_ok : k0_t3_loop.OK
  k0_off10_inb : ∀ k0_t3 : Fin k0_t3_loop.trips, ∀ a, (k0_off10 k0_t3) a + S1x16.size a ≤ S4x512.size a
  k0_off11_inb : ∀ k0_t3 : Fin k0_t3_loop.trips, ∀ a, (k0_off11 k0_t3) a + S1x16.size a ≤ S4x512.size a
  k0_off12_inb : ∀ k0_t3 : Fin k0_t3_loop.trips, ∀ a, (k0_off12 k0_t3) a + S1x16.size a ≤ S4x512.size a
  k0_off13_inb : ∀ k0_t3 : Fin k0_t3_loop.trips, ∀ a, (k0_off13 k0_t3) a + S1x16.size a ≤ S4x512.size a
  k0_t4_ok : k0_t4_loop.OK
  k0_off15_inb : ∀ (i : grid0.Coords) (k0_t1 : Fin k0_t1_loop.trips), ∀ a, (k0_off15 i k0_t1) a + S1x65536.size a ≤ S1024x65536.size a

variable [Facts₀]

abbrev cc0_scratch6 : DmaSems sig S_ := SemArray.consecutive 0 S_ hcc0_scratch6
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2

class Facts : Prop extends Facts₀ where

variable [Facts]
-- ==== ReferenceIdeal.lean ====
abbrev S1024 : Shape := ⟨1, ![1024]⟩
abbrev S1024x2x512 : Shape := ⟨3, ![1024, 2, 512]⟩
abbrev S1024x128x16x16 : Shape := ⟨4, ![1024, 128, 16, 16]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x512x2 : Shape := ⟨3, ![1024, 512, 2]⟩
abbrev S1024x512x1x2 : Shape := ⟨4, ![1024, 512, 1, 2]⟩
abbrev S1024x512x1x1 : Shape := ⟨4, ![1024, 512, 1, 1]⟩
abbrev S1024x512x1 : Shape := ⟨3, ![1024, 512, 1]⟩
abbrev S1024x16x16x128 : Shape := ⟨4, ![1024, 16, 16, 128]⟩
abbrev S1024x1x1 : Shape := ⟨3, ![1024, 1, 1]⟩
abbrev S1024x512x1x3 : Shape := ⟨4, ![1024, 512, 1, 3]⟩
abbrev S1024x512x1x128 : Shape := ⟨4, ![1024, 512, 1, 128]⟩
abbrev S1024x512x128 : Shape := ⟨3, ![1024, 512, 128]⟩
abbrev S1024x128x512 : Shape := ⟨3, ![1024, 128, 512]⟩

abbrev nBuf : Space → Nat
  | .hbm => 246
  | .vmem => 0
  | .smem => 0
  | _ => 0

abbrev hbmTy0_0 (i : Nat) : BufTy := match i % 128 with
  | 0 => ⟨S1024, .i32⟩
  | 1 => ⟨S1024x2x512, .f32⟩
  | 2 => ⟨S1024x128x16x16, .f32⟩
  | 3 => ⟨S_, .i32⟩
  | 4 => ⟨S1024, .i32⟩
  | 5 => ⟨S1024, .i1⟩
  | 6 => ⟨S_, .i32⟩
  | 7 => ⟨S1024, .i32⟩
  | 8 => ⟨S1024, .i32⟩
  | 9 => ⟨S1024, .i32⟩
  | 10 => ⟨S1024x1, .i32⟩
  | 11 => ⟨S1, .i32⟩
  | 12 => ⟨S_, .i32⟩
  | 13 => ⟨S1024x1, .i32⟩
  | 14 => ⟨S1024x1, .i1⟩
  | 15 => ⟨S1x1, .i32⟩
  | 16 => ⟨S1024x1, .i32⟩
  | 17 => ⟨S1024x1, .i1⟩
  | 18 => ⟨S1024x1, .i1⟩
  | 19 => ⟨S_, .i1⟩
  | 20 => ⟨S1024, .i1⟩
  | 21 => ⟨S1024x128x16x16, .f32⟩
  | 22 => ⟨S1024x128x16x16, .i1⟩
  | 23 => ⟨S_, .f32⟩
  | 24 => ⟨S1024x128x16x16, .f32⟩
  | 25 => ⟨S1024x128x16x16, .f32⟩
  | 26 => ⟨S1024x512x2, .f32⟩
  | 27 => ⟨S1024x512x1x2, .f32⟩
  | 28 => ⟨S_, .f32⟩
  | 29 => ⟨S1024x512x1x2, .f32⟩
  | 30 => ⟨S1024x512x1x2, .f32⟩
  | 31 => ⟨S_, .f32⟩
  | 32 => ⟨S1024x512x1x2, .f32⟩
  | 33 => ⟨S1024x512x1x2, .f32⟩
  | 34 => ⟨S1024x512x1x1, .f32⟩
  | 35 => ⟨S1024x512x1, .f32⟩
  | 36 => ⟨S1024x512x1x1, .f32⟩
  | 37 => ⟨S1024x512x1, .f32⟩
  | 38 => ⟨S_, .f32⟩
  | 39 => ⟨S1024x512x1, .f32⟩
  | 40 => ⟨S1024x512x1, .f32⟩
  | 41 => ⟨S_, .f32⟩
  | 42 => ⟨S1024x512x1, .f32⟩
  | 43 => ⟨S1024x512x1, .f32⟩
  | 44 => ⟨S_, .f32⟩
  | 45 => ⟨S1024x512x1, .f32⟩
  | 46 => ⟨S1024x512x1, .f32⟩
  | 47 => ⟨S_, .f32⟩
  | 48 => ⟨S1024x512x1, .f32⟩
  | 49 => ⟨S1024x512x1, .f32⟩
  | 50 => ⟨S_, .f32⟩
  | 51 => ⟨S1024x512x1, .f32⟩
  | 52 => ⟨S1024x512x1, .f32⟩
  | 53 => ⟨S_, .f32⟩
  | 54 => ⟨S1024x512x1, .f32⟩
  | 55 => ⟨S1024x512x1, .f32⟩
  | 56 => ⟨S_, .f32⟩
  | 57 => ⟨S1024x512x1, .f32⟩
  | 58 => ⟨S1024x512x1, .f32⟩
  | 59 => ⟨S_, .f32⟩
  | 60 => ⟨S1024x512x1, .f32⟩
  | 61 => ⟨S1024x512x1, .f32⟩
  | 62 => ⟨S1024x512x1, .f32⟩
  | 63 => ⟨S1024x512x1, .f32⟩
  | 64 => ⟨S1024x512x1, .f32⟩
  | 65 => ⟨S1024x512x1, .f32⟩
  | 66 => ⟨S_, .f32⟩
  | 67 => ⟨S1024x512x1, .f32⟩
  | 68 => ⟨S1024x512x1, .f32⟩
  | 69 => ⟨S_, .f32⟩
  | 70 => ⟨S1024x512x1, .f32⟩
  | 71 => ⟨S1024x512x1, .f32⟩
  | 72 => ⟨S_, .i32⟩
  | 73 => ⟨S_, .i32⟩
  | 74 => ⟨S_, .f32⟩
  | 75 => ⟨S1024x512x1, .f32⟩
  | 76 => ⟨S1024x512x1, .f32⟩
  | 77 => ⟨S_, .f32⟩
  | 78 => ⟨S1024x512x1, .f32⟩
  | 79 => ⟨S1024x512x1, .f32⟩
  | 80 => ⟨S1024x512x1, .i32⟩
  | 81 => ⟨S_, .f32⟩
  | 82 => ⟨S1024x512x1, .f32⟩
  | 83 => ⟨S1024x512x1, .f32⟩
  | 84 => ⟨S_, .i32⟩
  | 85 => ⟨S_, .i32⟩
  | 86 => ⟨S_, .f32⟩
  | 87 => ⟨S1024x512x1, .f32⟩
  | 88 => ⟨S1024x512x1, .f32⟩
  | 89 => ⟨S_, .f32⟩
  | 90 => ⟨S1024x512x1, .f32⟩
  | 91 => ⟨S1024x512x1, .f32⟩
  | 92 => ⟨S1024x512x1, .i32⟩
  | 93 => ⟨S_, .i32⟩
  | 94 => ⟨S_, .i32⟩
  | 95 => ⟨S_, .f32⟩
  | 96 => ⟨S1024x512x1, .f32⟩
  | 97 => ⟨S1024x512x1, .f32⟩
  | 98 => ⟨S_, .f32⟩
  | 99 => ⟨S1024x512x1, .f32⟩
  | 100 => ⟨S1024x512x1, .f32⟩
  | 101 => ⟨S1024x512x1, .i32⟩
  | 102 => ⟨S_, .f32⟩
  | 103 => ⟨S1024x512x1, .f32⟩
  | 104 => ⟨S1024x512x1, .f32⟩
  | 105 => ⟨S_, .i32⟩
  | 106 => ⟨S_, .i32⟩
  | 107 => ⟨S_, .f32⟩
  | 108 => ⟨S1024x512x1, .f32⟩
  | 109 => ⟨S1024x512x1, .f32⟩
  | 110 => ⟨S_, .f32⟩
  | 111 => ⟨S1024x512x1, .f32⟩
  | 112 => ⟨S1024x512x1, .f32⟩
  | 113 => ⟨S1024x512x1, .i32⟩
  | 114 => ⟨S1024x16x16x128, .f32⟩
  | 115 => ⟨S1024, .i32⟩
  | 116 => ⟨S1024x1x1, .i32⟩
  | 117 => ⟨S_, .i32⟩
  | 118 => ⟨S1024x1x1, .i32⟩
  | 119 => ⟨S1024x1x1, .i1⟩
  | 120 => ⟨S_, .i32⟩
  | 121 => ⟨S1024x1x1, .i32⟩
  | 122 => ⟨S1024x1x1, .i32⟩
  | 123 => ⟨S1024x1x1, .i32⟩
  | 124 => ⟨S_, .i32⟩
  | 125 => ⟨S1024x512x1, .i32⟩
  | 126 => ⟨S1024x512x1, .i1⟩
  | 127 => ⟨S_, .i32⟩
  | _ => ⟨S1024, .i32⟩

abbrev hbmTy0_1 (i : Nat) : BufTy := match i % 128 with
  | 0 => ⟨S1024x512x1, .i32⟩
  | 1 => ⟨S1024x512x1, .i32⟩
  | 2 => ⟨S1024x512x1, .i32⟩
  | 3 => ⟨S_, .i32⟩
  | 4 => ⟨S1024x512x1, .i32⟩
  | 5 => ⟨S1024x512x1, .i1⟩
  | 6 => ⟨S_, .i32⟩
  | 7 => ⟨S1024x512x1, .i32⟩
  | 8 => ⟨S1024x512x1, .i32⟩
  | 9 => ⟨S1024x512x1, .i32⟩
  | 10 => ⟨S1024x512x1, .i32⟩
  | 11 => ⟨S1024x512x1x1, .i32⟩
  | 12 => ⟨S1024x512x1x1, .i32⟩
  | 13 => ⟨S1024x512x1x1, .i32⟩
  | 14 => ⟨S1024x512x1x3, .i32⟩
  | 15 => ⟨S1024x512x1x128, .f32⟩
  | 16 => ⟨S_, .i32⟩
  | 17 => ⟨S1024x1x1, .i32⟩
  | 18 => ⟨S1024x1x1, .i1⟩
  | 19 => ⟨S_, .i32⟩
  | 20 => ⟨S1024x1x1, .i32⟩
  | 21 => ⟨S1024x1x1, .i32⟩
  | 22 => ⟨S1024x1x1, .i32⟩
  | 23 => ⟨S_, .i32⟩
  | 24 => ⟨S1024x512x1, .i32⟩
  | 25 => ⟨S1024x512x1, .i1⟩
  | 26 => ⟨S_, .i32⟩
  | 27 => ⟨S1024x512x1, .i32⟩
  | 28 => ⟨S1024x512x1, .i32⟩
  | 29 => ⟨S1024x512x1, .i32⟩
  | 30 => ⟨S_, .i32⟩
  | 31 => ⟨S1024x512x1, .i32⟩
  | 32 => ⟨S1024x512x1, .i1⟩
  | 33 => ⟨S_, .i32⟩
  | 34 => ⟨S1024x512x1, .i32⟩
  | 35 => ⟨S1024x512x1, .i32⟩
  | 36 => ⟨S1024x512x1, .i32⟩
  | 37 => ⟨S1024x512x1, .i32⟩
  | 38 => ⟨S1024x512x1x1, .i32⟩
  | 39 => ⟨S1024x512x1x1, .i32⟩
  | 40 => ⟨S1024x512x1x1, .i32⟩
  | 41 => ⟨S1024x512x1x3, .i32⟩
  | 42 => ⟨S1024x512x1x128, .f32⟩
  | 43 => ⟨S_, .i32⟩
  | 44 => ⟨S1024x1x1, .i32⟩
  | 45 => ⟨S1024x1x1, .i1⟩
  | 46 => ⟨S_, .i32⟩
  | 47 => ⟨S1024x1x1, .i32⟩
  | 48 => ⟨S1024x1x1, .i32⟩
  | 49 => ⟨S1024x1x1, .i32⟩
  | 50 => ⟨S_, .i32⟩
  | 51 => ⟨S1024x512x1, .i32⟩
  | 52 => ⟨S1024x512x1, .i1⟩
  | 53 => ⟨S_, .i32⟩
  | 54 => ⟨S1024x512x1, .i32⟩
  | 55 => ⟨S1024x512x1, .i32⟩
  | 56 => ⟨S1024x512x1, .i32⟩
  | 57 => ⟨S_, .i32⟩
  | 58 => ⟨S1024x512x1, .i32⟩
  | 59 => ⟨S1024x512x1, .i1⟩
  | 60 => ⟨S_, .i32⟩
  | 61 => ⟨S1024x512x1, .i32⟩
  | 62 => ⟨S1024x512x1, .i32⟩
  | 63 => ⟨S1024x512x1, .i32⟩
  | 64 => ⟨S1024x512x1, .i32⟩
  | 65 => ⟨S1024x512x1x1, .i32⟩
  | 66 => ⟨S1024x512x1x1, .i32⟩
  | 67 => ⟨S1024x512x1x1, .i32⟩
  | 68 => ⟨S1024x512x1x3, .i32⟩
  | 69 => ⟨S1024x512x1x128, .f32⟩
  | 70 => ⟨S_, .i32⟩
  | 71 => ⟨S1024x1x1, .i32⟩
  | 72 => ⟨S1024x1x1, .i1⟩
  | 73 => ⟨S_, .i32⟩
  | 74 => ⟨S1024x1x1, .i32⟩
  | 75 => ⟨S1024x1x1, .i32⟩
  | 76 => ⟨S1024x1x1, .i32⟩
  | 77 => ⟨S_, .i32⟩
  | 78 => ⟨S1024x512x1, .i32⟩
  | 79 => ⟨S1024x512x1, .i1⟩
  | 80 => ⟨S_, .i32⟩
  | 81 => ⟨S1024x512x1, .i32⟩
  | 82 => ⟨S1024x512x1, .i32⟩
  | 83 => ⟨S1024x512x1, .i32⟩
  | 84 => ⟨S_, .i32⟩
  | 85 => ⟨S1024x512x1, .i32⟩
  | 86 => ⟨S1024x512x1, .i1⟩
  | 87 => ⟨S_, .i32⟩
  | 88 => ⟨S1024x512x1, .i32⟩
  | 89 => ⟨S1024x512x1, .i32⟩
  | 90 => ⟨S1024x512x1, .i32⟩
  | 91 => ⟨S1024x512x1, .i32⟩
  | 92 => ⟨S1024x512x1x1, .i32⟩
  | 93 => ⟨S1024x512x1x1, .i32⟩
  | 94 => ⟨S1024x512x1x1, .i32⟩
  | 95 => ⟨S1024x512x1x3, .i32⟩
  | 96 => ⟨S1024x512x1x128, .f32⟩
  | 97 => ⟨S1024x512x1, .f32⟩
  | 98 => ⟨S1024x512x1x1, .f32⟩
  | 99 => ⟨S1024x512x1, .f32⟩
  | 100 => ⟨S1024x512x1x1, .f32⟩
  | 101 => ⟨S1024x512x1, .f32⟩
  | 102 => ⟨S1024x512x1x1, .f32⟩
  | 103 => ⟨S1024x512x1, .f32⟩
  | 104 => ⟨S1024x512x1x1, .f32⟩
  | 105 => ⟨S1024x512x1x128, .f32⟩
  | 106 => ⟨S1024x512x1x128, .f32⟩
  | 107 => ⟨S1024x512x1x128, .f32⟩
  | 108 => ⟨S1024x512x1x128, .f32⟩
  | 109 => ⟨S1024x512x1x128, .f32⟩
  | 110 => ⟨S1024x512x1x128, .f32⟩
  | 111 => ⟨S1024x512x1x128, .f32⟩
  | 112 => ⟨S1024x512x1x128, .f32⟩
  | 113 => ⟨S1024x512x1x128, .f32⟩
  | 114 => ⟨S1024x512x1x128, .f32⟩
  | 115 => ⟨S1024x512x1x128, .f32⟩
  | 116 => ⟨S1024x512x128, .f32⟩
  | 117 => ⟨S1024x128x512, .f32⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_cst_3 : Ref sig .tc := ⟨.hbm, 44, rfl⟩
abbrev main_v15 : Ref sig .tc := ⟨.hbm, 45, rfl⟩
abbrev main_v16 : Ref sig .tc := ⟨.hbm, 46, rfl⟩
abbrev main_cst_4 : Ref sig .tc := ⟨.hbm, 47, rfl⟩
abbrev main_v17 : Ref sig .tc := ⟨.hbm, 48, rfl⟩
abbrev main_v18 : Ref sig .tc := ⟨.hbm, 49, rfl⟩
abbrev main_cst_5 : Ref sig .tc := ⟨.hbm, 50, rfl⟩
abbrev main_v19 : Ref sig .tc := ⟨.hbm, 51, rfl⟩
abbrev main_v20 : Ref sig .tc := ⟨.hbm, 52, rfl⟩
abbrev main_cst_6 : Ref sig .tc := ⟨.hbm, 53, rfl⟩
abbrev main_v21 : Ref sig .tc := ⟨.hbm, 54, rfl⟩
abbrev main_v22 : Ref sig .tc := ⟨.hbm, 55, rfl⟩
abbrev main_cst_7 : Ref sig .tc := ⟨.hbm, 56, rfl⟩
abbrev main_v23 : Ref sig .tc := ⟨.hbm, 57, rfl⟩
abbrev main_v24 : Ref sig .tc := ⟨.hbm, 58, rfl⟩
abbrev main_cst_8 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_9 : Ref sig .tc := ⟨.hbm, 66, rfl⟩
abbrev main_v31 : Ref sig .tc := ⟨.hbm, 67, rfl⟩
abbrev main_v32 : Ref sig .tc := ⟨.hbm, 68, rfl⟩
abbrev main_cst_10 : Ref sig .tc := ⟨.hbm, 69, rfl⟩
abbrev main_v33 : Ref sig .tc := ⟨.hbm, 70, rfl⟩
abbrev main_v34 : Ref sig .tc := ⟨.hbm, 71, rfl⟩
abbrev main_c : Ref sig .tc := ⟨.hbm, 72, rfl⟩
abbrev main_c_11 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v35 : Ref sig .tc := ⟨.hbm, 79, rfl⟩
abbrev main_v36 : Ref sig .tc := ⟨.hbm, 80, rfl⟩
abbrev main_cst_12 : Ref sig .tc := ⟨.hbm, 81, rfl⟩
abbrev main_v37 : Ref sig .tc := ⟨.hbm, 82, rfl⟩
abbrev main_v38 : Ref sig .tc := ⟨.hbm, 83, rfl⟩
abbrev main_c_13 : Ref sig .tc := ⟨.hbm, 84, rfl⟩
abbrev main_c_14 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v39 : Ref sig .tc := ⟨.hbm, 91, rfl⟩
abbrev main_v40 : Ref sig .tc := ⟨.hbm, 92, rfl⟩
abbrev main_c_15 : Ref sig .tc := ⟨.hbm, 93, rfl⟩
abbrev main_c_16 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v41 : Ref sig .tc := ⟨.hbm, 100, rfl⟩
abbrev main_v42 : Ref sig .tc := ⟨.hbm, 101, rfl⟩
abbrev main_cst_17 : Ref sig .tc := ⟨.hbm, 102, rfl⟩
abbrev main_v43 : Ref sig .tc := ⟨.hbm, 103, rfl⟩
abbrev main_v44 : Ref sig .tc := ⟨.hbm, 104, rfl⟩
abbrev main_c_18 : Ref sig .tc := ⟨.hbm, 105, rfl⟩
abbrev main_c_19 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_c_20 : Ref sig .tc := ⟨.hbm, 117, rfl⟩
abbrev main_v50 : Ref sig .tc := ⟨.hbm, 118, rfl⟩
abbrev main_v51 : Ref sig .tc := ⟨.hbm, 119, rfl⟩
abbrev main_c_21 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_c_22 : Ref sig .tc := ⟨.hbm, 124, rfl⟩
abbrev main_v55 : Ref sig .tc := ⟨.hbm, 125, rfl⟩
abbrev main_v56 : Ref sig .tc := ⟨.hbm, 126, rfl⟩
abbrev main_c_23 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_c_24 : Ref sig .tc := ⟨.hbm, 131, rfl⟩
abbrev main_v60 : Ref sig .tc := ⟨.hbm, 132, rfl⟩
abbrev main_v61 : Ref sig .tc := ⟨.hbm, 133, rfl⟩
abbrev main_c_25 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_c_26 : Ref sig .tc := ⟨.hbm, 144, rfl⟩
abbrev main_v71 : Ref sig .tc := ⟨.hbm, 145, rfl⟩
abbrev main_v72 : Ref sig .tc := ⟨.hbm, 146, rfl⟩
abbrev main_c_27 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_c_28 : Ref sig .tc := ⟨.hbm, 151, rfl⟩
abbrev main_v76 : Ref sig .tc := ⟨.hbm, 152, rfl⟩
abbrev main_v77 : Ref sig .tc := ⟨.hbm, 153, rfl⟩
abbrev main_c_29 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_c_30 : Ref sig .tc := ⟨.hbm, 158, rfl⟩
abbrev main_v81 : Ref sig .tc := ⟨.hbm, 159, rfl⟩
abbrev main_v82 : Ref sig .tc := ⟨.hbm, 160, rfl⟩
abbrev main_c_31 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_c_32 : Ref sig .tc := ⟨.hbm, 171, rfl⟩
abbrev main_v92 : Ref sig .tc := ⟨.hbm, 172, rfl⟩
abbrev main_v93 : Ref sig .tc := ⟨.hbm, 173, rfl⟩
abbrev main_c_33 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_c_34 : Ref sig .tc := ⟨.hbm, 178, rfl⟩
abbrev main_v97 : Ref sig .tc := ⟨.hbm, 179, rfl⟩
abbrev main_v98 : Ref sig .tc := ⟨.hbm, 180, rfl⟩
abbrev main_c_35 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_c_36 : Ref sig .tc := ⟨.hbm, 185, rfl⟩
abbrev main_v102 : Ref sig .tc := ⟨.hbm, 186, rfl⟩
abbrev main_v103 : Ref sig .tc := ⟨.hbm, 187, rfl⟩
abbrev main_c_37 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_c_38 : Ref sig .tc := ⟨.hbm, 198, rfl⟩
abbrev main_v113 : Ref sig .tc := ⟨.hbm, 199, rfl⟩
abbrev main_v114 : Ref sig .tc := ⟨.hbm, 200, rfl⟩
abbrev main_c_39 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_c_40 : Ref sig .tc := ⟨.hbm, 205, rfl⟩
abbrev main_v118 : Ref sig .tc := ⟨.hbm, 206, rfl⟩
abbrev main_v119 : Ref sig .tc := ⟨.hbm, 207, rfl⟩
abbrev main_c_41 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_c_42 : Ref sig .tc := ⟨.hbm, 212, rfl⟩
abbrev main_v123 : Ref sig .tc := ⟨.hbm, 213, rfl⟩
abbrev main_v124 : Ref sig .tc := ⟨.hbm, 214, rfl⟩
abbrev main_c_43 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x128x16x16_0 : S1024.BroadcastsInDim S1024x128x16x16 (![0] : Fin 1 → Fin S1024x128x16x16.rank)
  bcast_S_S1024x128x16x16 : S_.BroadcastsInDim S1024x128x16x16 (![] : Fin 0 → Fin S1024x128x16x16.rank)
  transposes_S1024x2x512_S1024x512x2_0_2_1 : S1024x2x512.Transposes [0, 2, 1] S1024x512x2
  bcast_S1024x512x2_S1024x512x1x2_0_1_3 : S1024x512x2.BroadcastsInDim S1024x512x1x2 (![0, 1, 3] : Fin 3 → Fin S1024x512x1x2.rank)
  bcast_S_S1024x512x1x2 : S_.BroadcastsInDim S1024x512x1x2 (![] : Fin 0 → Fin S1024x512x1x2.rank)
  slices_S1024x512x1x2_S1024x512x1x1_0_0_0_0 : S1024x512x1x2.Slices ![0, 0, 0, 0] S1024x512x1x1
  shapeCasts_S1024x512x1x1_S1024x512x1 : S1024x512x1x1.ShapeCasts S1024x512x1
  slices_S1024x512x1x2_S1024x512x1x1_0_0_0_1 : S1024x512x1x2.Slices ![0, 0, 0, 1] S1024x512x1x1
  bcast_S_S1024x512x1 : S_.BroadcastsInDim S1024x512x1 (![] : Fin 0 → Fin S1024x512x1.rank)
  transposes_S1024x128x16x16_S1024x16x16x128_0_2_3_1 : S1024x128x16x16.Transposes [0, 2, 3, 1] S1024x16x16x128
  bcast_S1024_S1024x1x1_0 : S1024.BroadcastsInDim S1024x1x1 (![0] : Fin 1 → Fin S1024x1x1.rank)
  bcast_S_S1024x1x1 : S_.BroadcastsInDim S1024x1x1 (![] : Fin 0 → Fin S1024x1x1.rank)
  bcast_S1024x1x1_S1024x512x1_0_1_2 : S1024x1x1.BroadcastsInDim S1024x512x1 (![0, 1, 2] : Fin 3 → Fin S1024x512x1.rank)
  bcast_S1024x512x1_S1024x512x1x1_0_1_2 : S1024x512x1.BroadcastsInDim S1024x512x1x1 (![0, 1, 2] : Fin 3 → Fin S1024x512x1x1.rank)
  concatenates_S1024x512x1x1_S1024x512x1x1_S1024x512x1x1_S1024x512x1x3_d3 : Shape.Concatenates [S1024x512x1x1, S1024x512x1x1, S1024x512x1x1] S1024x512x1x3 3
  bcast_S1024x512x1x1_S1024x512x1x128_0_1_2_3 : S1024x512x1x1.BroadcastsInDim S1024x512x1x128 (![0, 1, 2, 3] : Fin 4 → Fin S1024x512x1x128.rank)
  shapeCasts_S1024x512x1x128_S1024x512x128 : S1024x512x1x128.ShapeCasts S1024x512x128
  transposes_S1024x512x128_S1024x128x512_0_2_1 : S1024x512x128.Transposes [0, 2, 1] S1024x128x512
  gather_S1024x128x16x16_S1024x1_S1024x128x16x16_123_0_n_n_0_1_11281616_wf : GatherDims.WF S1024x128x16x16 S1024x1 S1024x128x16x16 [1, 2, 3] [0] [] [0] [] 1 ![1, 128, 16, 16]
  gather_S1024x16x16x128_S1024x512x1x3_S1024x512x1x128_3_012_n_n_012_3_111128_wf : GatherDims.WF S1024x16x16x128 S1024x512x1x3 S1024x512x1x128 [3] [0, 1, 2] [] [0, 1, 2] [] 3 ![1, 1, 1, 128]

variable [Facts₀]

def gather_S1024x128x16x16_S1024x1_S1024x128x16x16_123_0_n_n_0_1_11281616 : GatherDims S1024x128x16x16 S1024x1 S1024x128x16x16 where
  offsetDims := [1, 2, 3]
  collapsedSliceDims := [0]
  operandBatchingDims := []
  startIndicesBatchingDims := []
  startIndexMap := [0]
  indexVectorDim := 1
  sliceSizes := ![1, 128, 16, 16]
  wf := gather_S1024x128x16x16_S1024x1_S1024x128x16x16_123_0_n_n_0_1_11281616_wf
def gather_S1024x16x16x128_S1024x512x1x3_S1024x512x1x128_3_012_n_n_012_3_111128 : GatherDims S1024x16x16x128 S1024x512x1x3 S1024x512x1x128 where
  offsetDims := [3]
  collapsedSliceDims := [0, 1, 2]
  operandBatchingDims := []
  startIndicesBatchingDims := []
  startIndexMap := [0, 1, 2]
  indexVectorDim := 3
  sliceSizes := ![1, 1, 1, 128]
  wf := gather_S1024x16x16x128_S1024x512x1x3_S1024x512x1x128_3_012_n_n_012_3_111128_wf

class Facts : Prop extends Facts₀ where

variable [Facts]
-- ==== Proof.KBase.lean ====
/-
  The sampling kernel on one vector subcore: the names the other modules share.
-/
import proofs.«207350_g59966333387111_cont_9to1_m_496_19_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207350_g59966333387111_cont_9to1_m_496_19_alg».proof.Proof.Gen.KernelIdeal
import proofs.«207350_g59966333387111_cont_9to1_m_496_19_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

end Cert.Proof.KI

end
-- ==== Proof.KPay.lean ====
import proofs.«207350_g59966333387111_cont_9to1_m_496_19_alg».proof.Proof.KBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

/-!
  What the SparseCore call hands each of its 2 × 16 vector subcores and takes back.

  Subcore `s` of SparseCore `c` is worker number `2·s + c` and owns rows `[32·(2·s + c), 32·(2·s + c) + 32)` of the
  flat result (1024 × 65536); the three inputs (the image indices, the sampling grid, the flat features) are read by
  every worker at places that depend on the data, so every worker holds a read share of each of them whole: share
  number `16·c + s` of the 32 the full share is cut into.
-/

variable (m : (ℓ : Loc nD τ sig) → Buf (Elt F) ℓ)

/-- The image indices, the sampling grid, the flat features and the flat result, as locations of device `d`. -/
abbrev iiLoc (d : Dev nD) : Loc nD τ sig := (SparseCore.T d).loc main_arg0
abbrev gridLoc (d : Dev nD) : Loc nD τ sig := (SparseCore.T d).loc main_arg1
abbrev featLoc (d : Dev nD) : Loc nD τ sig := (SparseCore.T d).loc main_v0
abbrev oLoc (d : Dev nD) : Loc nD τ sig := (SparseCore.T d).loc main_v1

variable (FEAT : (d : Dev nD) → Buf (Elt F) (featLoc d)) (OUT : (d : Dev nD) → Buf (Elt F) (oLoc d))

theorem hdiv32 : 32 ∣ S1024x65536.size 0 := ⟨32, rfl⟩

/-- The worker number of subcore `s` of SparseCore `c`: `2·s + c`. -/
def wid (c : Fin 2) (s : Fin 16) : Fin 32 := ⟨2 * s.val + c.val, by omega⟩
/-- The number of its read share: `16·c + s`. -/
def tok (c : Fin 2) (s : Fin 16) : Fin 32 := ⟨16 * c.val + s.val, by omega⟩

/-- The 32 rows of the flat result worker `(c, s)` owns: block `2·s + c` of the 32 equal blocks of rows. -/
abbrev outRect (c : Fin 2) (s : Fin 16) : Rect S1024x65536 := Rect.part (s := S1024x65536) (a₀ := 0) hdiv32 (wid c s)
abbrev outRows (c : Fin 2) (s : Fin 16) : Finset S1024x65536.Idx := (outRect c s).set

/-- Worker `(c, s)`'s read share. -/
abbrev rq (c : Fin 2) (s : Fin 16) : PosShare TreeShare := Transfers.shareTok fullShare 32 (tok c s)

/-- What a worker is handed: its read share of each input, its rows of the result at the launch contents. -/
abbrev goP (d : Dev nD) (c : Fin 2) (s : Fin 16) : sProp 𝕄 :=
  iprop((iiLoc d ↦{rq c s} m (iiLoc d)) ∗ (gridLoc d ↦{rq c s} m (gridLoc d)) ∗ (featLoc d ↦{rq c s} FEAT d)
    ∗ (oLoc d ↦[outRows c s]{fullShare} m (oLoc d)))
/-- What it hands back: the same shares, its rows of the result at `OUT d`. -/
abbrev tdP (d : Dev nD) (c : Fin 2) (s : Fin 16) : sProp 𝕄 :=
  iprop((iiLoc d ↦{rq c s} m (iiLoc d)) ∗ (gridLoc d ↦{rq c s} m (gridLoc d)) ∗ (featLoc d ↦{rq c s} FEAT d)
    ∗ (oLoc d ↦[outRows c s]{fullShare} OUT d))

/-- The one call: a SparseCore takes its sixteen workers' pieces and brings them back; nothing of the launch's is kept. -/
def P : (K (F := F)).Pay (nD := nD) (Val := Elt F) (Name := ℕ) (U := UU) where
  st := fun q d c => match q with
    | 0 => bigSep Finset.univ fun i : Fin ((K (F := F)).nSub 0) => goP m FEAT d (Fin.cast nCore_zero c) (Fin.cast nSub_zero i)
  dn := fun q d c => match q with
    | 0 => bigSep Finset.univ fun i : Fin ((K (F := F)).nSub 0) => tdP m FEAT OUT d (Fin.cast nCore_zero c) (Fin.cast nSub_zero i)
  go := fun q d c i => match q with
    | 0 => goP m FEAT d (Fin.cast nCore_zero c) (Fin.cast nSub_zero i)
  td := fun q d c i => match q with
    | 0 => tdP m FEAT OUT d (Fin.cast nCore_zero c) (Fin.cast nSub_zero i)
  x := fun _ _ => iprop(emp)

instance P_storable : (P (F := F) m FEAT OUT).IsStorable where
  st q d c := match q with
    | 0 => (inferInstance : BI.Storable (upEmb : UEmb _ 𝕄)
        (bigSep Finset.univ fun i : Fin ((K (F := F)).nSub 0) => goP m FEAT d (Fin.cast nCore_zero c) (Fin.cast nSub_zero i)))
  dn q d c := match q with
    | 0 => (inferInstance : BI.Storable (upEmb : UEmb _ 𝕄)
        (bigSep Finset.univ fun i : Fin ((K (F := F)).nSub 0) => tdP m FEAT OUT d (Fin.cast nCore_zero c) (Fin.cast nSub_zero i)))
  go q d c i := match q with
    | 0 => (inferInstance : BI.Storable (upEmb : UEmb _ 𝕄) (goP m FEAT d (Fin.cast nCore_zero c) (Fin.cast nSub_zero i)))
  td q d c i := match q with
    | 0 => (inferInstance : BI.Storable (upEmb : UEmb _ 𝕄) (tdP m FEAT OUT d (Fin.cast nCore_zero c) (Fin.cast nSub_zero i)))

theorem P_go (d : Dev nD) (c : Fin ((K (F := F)).nCore 0)) (i : Fin ((K (F := F)).nSub 0)) :
    (P (F := F) m FEAT OUT).go 0 d c i = goP m FEAT d (Fin.cast nCore_zero c) (Fin.cast nSub_zero i) := rfl
theorem P_td (d : Dev nD) (c : Fin ((K (F := F)).nCore 0)) (i : Fin ((K (F := F)).nSub 0)) :
    (P (F := F) m FEAT OUT).td 0 d c i = tdP m FEAT OUT d (Fin.cast nCore_zero c) (Fin.cast nSub_zero i) := rfl
theorem P_st (d : Dev nD) (c : Fin ((K (F := F)).nCore 0)) :
    (P (F := F) m FEAT OUT).st 0 d c = bigSep Finset.univ fun i : Fin ((K (F := F)).nSub 0) => (P (F := F) m FEAT OUT).go 0 d c i := rfl
theorem P_dn (d : Dev nD) (c : Fin ((K (F := F)).nCore 0)) :
    (P (F := F) m FEAT OUT).dn 0 d c = bigSep Finset.univ fun i : Fin ((K (F := F)).nSub 0) => (P (F := F) m FEAT OUT).td 0 d c i := rfl
theorem P_x (q : Fin 1) (thr : Thread nD τ) : (P (F := F) m FEAT OUT).x q thr = iprop(emp) := rfl

end Cert.Proof.KI

end
-- ==== Proof.KLaunch.lean ====
import proofs.«207350_g59966333387111_cont_9to1_m_496_19_alg».proof.Proof.KPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

/-!
  The launch: @main on the TensorCore flattens the features, starts the SparseCore call and waits for it, and gives the
  flat result its final shape. The call's operands are cut into the 2 × 16 workers' pieces (a read share of each input,
  32 rows of the result) and put together again after it.
-/

variable (m : (ℓ : Loc nD τ sig) → Buf (Elt F) ℓ) (ρ : Dev nD → PrngReg)

/-- The features as given (rank 4) and the result in its final shape, as locations of device `d`. -/
abbrev a2Loc (d : Dev nD) : Loc nD τ sig := (SparseCore.T d).loc main_arg2
abbrev rLoc (d : Dev nD) : Loc nD τ sig := (SparseCore.T d).loc main_v2

/-- The flat features: the given ones in row-major order. -/
def featOf (d : Dev nD) : Buf (Elt F) (featLoc d) :=
  fun i => shapeCast S33554432 (m (a2Loc d)) shapeCasts_S1024x128x16x16_S33554432 i
/-- The result in its final shape: the flat one in row-major order. -/
def resOf {d : Dev nD} (o : Buf (Elt F) (oLoc d)) : Buf (Elt F) (rLoc d) :=
  fun i => shapeCast S1024x128x512 o shapeCasts_S1024x65536_S1024x128x512 i

variable (OUT : (d : Dev nD) → Buf (Elt F) (oLoc d))

/-! ## The 2 × 16 workers, numbered -/

theorem wid_bij : Function.Bijective fun p : Fin 2 × Fin 16 => wid p.1 p.2 := by
  constructor
  · rintro ⟨c, s⟩ ⟨c', s'⟩ h
    have h' : 2 * s.val + c.val = 2 * s'.val + c'.val := congrArg Fin.val h
    have hc := c.isLt; have hc' := c'.isLt
    have e1 : c.val = c'.val := by omega
    have e2 : s.val = s'.val := by omega
    exact Prod.ext (Fin.ext e1) (Fin.ext e2)
  · intro w
    refine ⟨(⟨w.val % 2, Nat.mod_lt _ (by omega)⟩, ⟨w.val / 2, by have := w.isLt; omega⟩), Fin.ext ?_⟩
    show 2 * (w.val / 2) + w.val % 2 = w.val
    omega

theorem tok_bij : Function.Bijective fun p : Fin 2 × Fin 16 => tok p.1 p.2 := by
  constructor
  · rintro ⟨c, s⟩ ⟨c', s'⟩ h
    have h' : 16 * c.val + s.val = 16 * c'.val + s'.val := congrArg Fin.val h
    have hs := s.isLt; have hs' := s'.isLt
    have e1 : c.val = c'.val := by omega
    have e2 : s.val = s'.val := by omega
    exact Prod.ext (Fin.ext e1) (Fin.ext e2)
  · intro w
    refine ⟨(⟨w.val / 16, by have := w.isLt; omega⟩, ⟨w.val % 16, Nat.mod_lt _ (by omega)⟩), Fin.ext ?_⟩
    show 16 * (w.val / 16) + w.val % 16 = w.val
    omega

/-- A family over the 32 numbers, taken worker by worker along a numbering of the workers. -/
theorem bigSep_workers (e : Fin 2 → Fin 16 → Fin 32) (he : Function.Bijective fun p : Fin 2 × Fin 16 => e p.1 p.2) (Φ : Fin 32 → sProp 𝕄) :
    (bigSep Finset.univ fun c : Fin ((K (F := F)).nCore 0) => bigSep Finset.univ fun i : Fin ((K (F := F)).nSub 0) =>
        Φ (e (Fin.cast nCore_zero c) (Fin.cast nSub_zero i))) = bigSep Finset.univ Φ := by
  have h1 : (bigSep Finset.univ fun c : Fin ((K (F := F)).nCore 0) => bigSep Finset.univ fun i : Fin ((K (F := F)).nSub 0) =>
        Φ (e (Fin.cast nCore_zero c) (Fin.cast nSub_zero i)))
      = bigSep (Finset.univ : Finset (Fin 2)) fun c => bigSep (Finset.univ : Finset (Fin 16)) fun i => Φ (e c i) := rfl
  rw [h1, ← SparseCore.bigSep_product Finset.univ Finset.univ (fun p : Fin 2 × Fin 16 => Φ (e p.1 p.2)), Finset.univ_product_univ,
    ← SparseCore.bigSep_image_of_injOn (f := fun p : Fin 2 × Fin 16 => e p.1 p.2) he.1.injOn Φ, Finset.image_univ_of_surjective he.2]

/-- Four families, three along the share numbering and one along the worker numbering. -/
theorem bigSep_workers4 (A B C D : Fin 32 → sProp 𝕄) :
    (bigSep Finset.univ fun c : Fin ((K (F := F)).nCore 0) => bigSep Finset.univ fun i : Fin ((K (F := F)).nSub 0) =>
        iprop(A (tok (Fin.cast nCore_zero c) (Fin.cast nSub_zero i)) ∗ B (tok (Fin.cast nCore_zero c) (Fin.cast nSub_zero i))
          ∗ C (tok (Fin.cast nCore_zero c) (Fin.cast nSub_zero i)) ∗ D (wid (Fin.cast nCore_zero c) (Fin.cast nSub_zero i))))
      = iprop(bigSep Finset.univ A ∗ bigSep Finset.univ B ∗ bigSep Finset.univ C ∗ bigSep Finset.univ D) := by
  rw [← bigSep_workers (F := F) tok tok_bij A, ← bigSep_workers (F := F) tok tok_bij B, ← bigSep_workers (F := F) tok tok_bij C,
    ← bigSep_workers (F := F) wid wid_bij D]
  simp only [bigSep_sep']

/-! ## The result's 32 blocks of rows -/

theorem blocks_disjoint : ∀ i ∈ (Finset.univ : Finset (Fin 32)), ∀ j ∈ (Finset.univ : Finset (Fin 32)), i ≠ j →
    Disjoint (Rect.part (s := S1024x65536) (a₀ := 0) hdiv32 i).set (Rect.part (s := S1024x65536) (a₀ := 0) hdiv32 j).set :=
  fun _ _ _ _ h => Rect.part_disjoint hdiv32 h
theorem blocks_cover : (Finset.univ : Finset (Fin 32)).biUnion (fun i => (Rect.part (s := S1024x65536) (a₀ := 0) hdiv32 i).set) = Finset.univ :=
  Rect.biUnion_part hdiv32

theorem oPts_blocks (d : Dev nD) (f : Buf (Elt F) (oLoc d)) :
    (oLoc d ↦{fullShare} f : sProp 𝕄)
      = bigSep Finset.univ fun i : Fin 32 => oLoc d ↦[(Rect.part (s := S1024x65536) (a₀ := 0) hdiv32 i).set]{fullShare} f := by
  rw [← pointsTo_biUnion Finset.univ (ℓ := oLoc d) (fun i : Fin 32 => (Rect.part (s := S1024x65536) (a₀ := 0) hdiv32 i).set) blocks_disjoint,
    blocks_cover]; try rfl

/-! ## What the call takes and brings back, regrouped -/

variable [FloatOps F]

/-- The 32 read shares of an array. -/
abbrev toks (ℓ : Loc nD τ sig) (f : Buf (Elt F) ℓ) : sProp 𝕄 :=
  bigSep Finset.univ fun t : Fin 32 => ℓ ↦{Transfers.shareTok fullShare 32 t} f

theorem st0_eq (FEAT : (d : Dev nD) → Buf (Elt F) (featLoc d)) (d : Dev nD) :
    (bigSep Finset.univ fun c : Fin ((K (F := F)).nCore 0) => (P m FEAT OUT).st 0 d c)
      = iprop(toks (iiLoc d) (m (iiLoc d)) ∗ toks (gridLoc d) (m (gridLoc d)) ∗ toks (featLoc d) (FEAT d) ∗ oLoc d ↦{fullShare} m (oLoc d)) := by
  rw [oPts_blocks]
  exact bigSep_workers4 (F := F) (fun t => iiLoc d ↦{Transfers.shareTok fullShare 32 t} m (iiLoc d))
    (fun t => gridLoc d ↦{Transfers.shareTok fullShare 32 t} m (gridLoc d)) (fun t => featLoc d ↦{Transfers.shareTok fullShare 32 t} FEAT d)
    (fun w => oLoc d ↦[(Rect.part (s := S1024x65536) (a₀ := 0) hdiv32 w).set]{fullShare} m (oLoc d))

theorem dn0_eq (FEAT : (d : Dev nD) → Buf (Elt F) (featLoc d)) (d : Dev nD) :
    (bigSep Finset.univ fun c : Fin ((K (F := F)).nCore 0) => (P m FEAT OUT).dn 0 d c)
      = iprop(toks (iiLoc d) (m (iiLoc d)) ∗ toks (gridLoc d) (m (gridLoc d)) ∗ toks (featLoc d) (FEAT d) ∗ oLoc d ↦{fullShare} OUT d) := by
  rw [oPts_blocks]
  exact bigSep_workers4 (F := F) (fun t => iiLoc d ↦{Transfers.shareTok fullShare 32 t} m (iiLoc d))
    (fun t => gridLoc d ↦{Transfers.shareTok fullShare 32 t} m (gridLoc d)) (fun t => featLoc d ↦{Transfers.shareTok fullShare 32 t} FEAT d)
    (fun w => oLoc d ↦[(Rect.part (s := S1024x65536) (a₀ := 0) hdiv32 w).set]{fullShare} OUT d)

/-- The workers' pieces are the SparseCore's operands as they stand: nothing to cut. -/
theorem vecSplit (FEAT : (d : Dev nD) → Buf (Elt F) (featLoc d)) : (K (F := F)).VecSplit' (P m FEAT OUT) 0 := by
  intro d c
  rw [P_st, P_dn]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (FEAT : (d : Dev nD) → Buf (Elt F) (featLoc d)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m FEAT OUT).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The two host operations: the features flattened, the flat result given its final shape. -/
abbrev opR1 : HloOp τ sig (Elt F) := StableHlo.reshape main_arg2 main_v0 rfl shapeCasts_S1024x128x16x16_S33554432
abbrev opR2 : HloOp τ sig (Elt F) := StableHlo.reshape main_v1 main_v2 rfl shapeCasts_S1024x65536_S1024x128x512

/-- The TensorCore's arrays, all unscoped. -/
abbrev S6 : Finset (DevRef τ sig) := {a0', a1', a2', v0', v1', v2'}

omit [FloatOps F] in
theorem held_S6 (d : Dev nD) (W : Valuation τ sig (Elt F)) :
    (held (SparseCore.T d) S6 W : sProp 𝕄)
      = iprop((iiLoc d ↦{fullShare} W a0') ∗ (gridLoc d ↦{fullShare} W a1') ∗ (a2Loc d ↦{fullShare} W a2') ∗ (featLoc d ↦{fullShare} W v0')
          ∗ (oLoc d ↦{fullShare} W v1') ∗ rLoc d ↦{fullShare} W v2') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((iiLoc d ↦{fullShare} W main_arg0) ∗ (gridLoc d ↦{fullShare} W main_arg1) ∗ (a2Loc d ↦{fullShare} W main_arg2)
          ∗ (featLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (SparseCore.T d) S6 (V0 m d) := by
  rw [unscopedBufs_eq, held_S6]; rfl

theorem hR1 : (opR1 (F := F)).bufs ⊆ S6 := show ({a2', v0'} : Finset (DevRef τ sig)) ⊆ S6 by decide
theorem hR2 : (opR2 (F := F)).bufs ⊆ S6 := show ({v1', v2'} : Finset (DevRef τ sig)) ⊆ S6 by decide

/-- After the first reshape: the flat features where they belong, everything else as launched. -/
theorem R1_a0 (d : Dev nD) : (opR1 (F := F)).result (V0 m d) a0' = m (iiLoc d) :=
  StableHlo.reshape_result_ne _ _ _ _ _ _ (V0 m d) (show main_arg0 ≠ main_v0 by decide)
theorem R1_a1 (d : Dev nD) : (opR1 (F := F)).result (V0 m d) a1' = m (gridLoc d) :=
  StableHlo.reshape_result_ne _ _ _ _ _ _ (V0 m d) (show main_arg1 ≠ main_v0 by decide)
theorem R1_a2 (d : Dev nD) : (opR1 (F := F)).result (V0 m d) a2' = m (a2Loc d) :=
  StableHlo.reshape_result_ne _ _ _ _ _ _ (V0 m d) (show main_arg2 ≠ main_v0 by decide)
theorem R1_v0 (d : Dev nD) : (opR1 (F := F)).result (V0 m d) v0' = featOf m d :=
  StableHlo.reshape_result _ _ _ _ _ _ (V0 m d)
theorem R1_v1 (d : Dev nD) : (opR1 (F := F)).result (V0 m d) v1' = m (oLoc d) :=
  StableHlo.reshape_result_ne _ _ _ _ _ _ (V0 m d) (show main_v1 ≠ main_v0 by decide)
theorem R1_v2 (d : Dev nD) : (opR1 (F := F)).result (V0 m d) v2' = m (rLoc d) :=
  StableHlo.reshape_result_ne _ _ _ _ _ _ (V0 m d) (show main_v2 ≠ main_v0 by decide)

theorem held_V1 (d : Dev nD) :
    (held (SparseCore.T d) S6 ((opR1 (F := F)).result (V0 m d)) : sProp 𝕄)
      = iprop((iiLoc d ↦{fullShare} m (iiLoc d)) ∗ (gridLoc d ↦{fullShare} m (gridLoc d)) ∗ (a2Loc d ↦{fullShare} m (a2Loc d))
          ∗ (featLoc d ↦{fullShare} featOf m d) ∗ (oLoc d ↦{fullShare} m (oLoc d)) ∗ rLoc d ↦{fullShare} m (rLoc d)) := by
  rw [held_S6, R1_a0, R1_a1, R1_a2, R1_v0, R1_v1, R1_v2]

/-- After the call: the flat result at what the kernel left. -/
def V2 (d : Dev nD) : Valuation τ sig (Elt F) := Function.update ((opR1 (F := F)).result (V0 m d)) v1' (OUT d)

theorem V2_a0 (d : Dev nD) : V2 m OUT d a0' = m (iiLoc d) := (Function.update_of_ne (show a0' ≠ v1' by decide) _ _).trans (R1_a0 m d)
theorem V2_a1 (d : Dev nD) : V2 m OUT d a1' = m (gridLoc d) := (Function.update_of_ne (show a1' ≠ v1' by decide) _ _).trans (R1_a1 m d)
theorem V2_a2 (d : Dev nD) : V2 m OUT d a2' = m (a2Loc d) := (Function.update_of_ne (show a2' ≠ v1' by decide) _ _).trans (R1_a2 m d)
theorem V2_v0 (d : Dev nD) : V2 m OUT d v0' = featOf m d := (Function.update_of_ne (show v0' ≠ v1' by decide) _ _).trans (R1_v0 m d)
theorem V2_v1 (d : Dev nD) : V2 m OUT d v1' = OUT d := Function.update_self _ _ _
theorem V2_v2 (d : Dev nD) : V2 m OUT d v2' = m (rLoc d) := (Function.update_of_ne (show v2' ≠ v1' by decide) _ _).trans (R1_v2 m d)

theorem held_V2 (d : Dev nD) :
    (held (SparseCore.T d) S6 (V2 m OUT d) : sProp 𝕄)
      = iprop((iiLoc d ↦{fullShare} m (iiLoc d)) ∗ (gridLoc d ↦{fullShare} m (gridLoc d)) ∗ (a2Loc d ↦{fullShare} m (a2Loc d))
          ∗ (featLoc d ↦{fullShare} featOf m d) ∗ (oLoc d ↦{fullShare} OUT d) ∗ rLoc d ↦{fullShare} m (rLoc d)) := by
  rw [held_S6, V2_a0, V2_a1, V2_a2, V2_v0, V2_v1, V2_v2]

/-- After the second reshape: the result in its final shape. -/
theorem R2_a0 (d : Dev nD) : (opR2 (F := F)).result (V2 m OUT d) a0' = m (iiLoc d) :=
  (StableHlo.reshape_result_ne _ _ _ _ _ _ (V2 m OUT d) (show main_arg0 ≠ main_v2 by decide)).trans (V2_a0 m OUT d)
theorem R2_a1 (d : Dev nD) : (opR2 (F := F)).result (V2 m OUT d) a1' = m (gridLoc d) :=
  (StableHlo.reshape_result_ne _ _ _ _ _ _ (V2 m OUT d) (show main_arg1 ≠ main_v2 by decide)).trans (V2_a1 m OUT d)
theorem R2_a2 (d : Dev nD) : (opR2 (F := F)).result (V2 m OUT d) a2' = m (a2Loc d) :=
  (StableHlo.reshape_result_ne _ _ _ _ _ _ (V2 m OUT d) (show main_arg2 ≠ main_v2 by decide)).trans (V2_a2 m OUT d)
theorem R2_v0 (d : Dev nD) : (opR2 (F := F)).result (V2 m OUT d) v0' = featOf m d :=
  (StableHlo.reshape_result_ne _ _ _ _ _ _ (V2 m OUT d) (show main_v0 ≠ main_v2 by decide)).trans (V2_v0 m OUT d)
theorem R2_v1 (d : Dev nD) : (opR2 (F := F)).result (V2 m OUT d) v1' = OUT d :=
  (StableHlo.reshape_result_ne _ _ _ _ _ _ (V2 m OUT d) (show main_v1 ≠ main_v2 by decide)).trans (V2_v1 m OUT d)
theorem R2_v2 (d : Dev nD) : (opR2 (F := F)).result (V2 m OUT d) v2' = resOf (OUT d) := by
  refine (StableHlo.reshape_result _ _ _ _ _ _ (V2 m OUT d)).trans ?_
  show (fun i => shapeCast S1024x128x512 (V2 m OUT d v1') shapeCasts_S1024x65536_S1024x128x512 i) = _
  rw [V2_v1]; rfl

theorem held_V3 (d : Dev nD) :
    (held (SparseCore.T d) S6 ((opR2 (F := F)).result (V2 m OUT d)) : sProp 𝕄)
      = iprop((iiLoc d ↦{fullShare} m (iiLoc d)) ∗ (gridLoc d ↦{fullShare} m (gridLoc d)) ∗ (a2Loc d ↦{fullShare} m (a2Loc d))
          ∗ (featLoc d ↦{fullShare} featOf m d) ∗ (oLoc d ↦{fullShare} OUT d) ∗ rLoc d ↦{fullShare} resOf (OUT d)) := by
  rw [held_S6, R2_a0, R2_a1, R2_a2, R2_v0, R2_v1, R2_v2]

/-- What @main leaves the claim: the three arguments whole as launched, the result at the kernel's rows reshaped. -/
abbrev FIN (d : Dev nD) : sProp 𝕄 :=
  iprop((iiLoc d ↦{fullShare} m (iiLoc d)) ∗ (gridLoc d ↦{fullShare} m (gridLoc d)) ∗ (a2Loc d ↦{fullShare} m (a2Loc d))
    ∗ rLoc d ↦{fullShare} resOf (OUT d))

/-- @main on device `d`'s TensorCore: the features flattened, the call (the inputs cut into the workers' read shares, the
    result into their blocks of rows; all put together after it), the result reshaped. -/
theorem hmain (κ : GSem nD τ sig → ℕ) (d : Dev nD) :
    iprop((K (F := F)).ctx EH (P m (featOf m) OUT) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m OUT d) := by
  unfold SparseCore.Cfg.tcRes
  rw [unscoped_held]
  simp only [main, wp_bind, wp_pure]
  iintro ⟨#Hctx, Hst, ⟨Hb, Hheld, -, -⟩, -⟩
  -- the features flattened
  iapply (wp_hlo_within 𝒱 (SparseCore.T d) none Set.univ (op := opR1) (S := S6) hR1 (V := V0 m d)) $$ [Hb Hheld]
  · isplitl [Hb]; · iexact Hb
    iexact Hheld
  iintro ⟨Hb, Hheld⟩
  ihave Hh := (Entails.of_eq (held_V1 (F := F) m d)) $$ Hheld
  icases Hh with ⟨Ha0, Ha1, Ha2, Hv0, Hv1, Hv2⟩
  rw [wp_ret]; imodintro
  -- the inputs cut into 32 read shares each, the remainders kept aside
  ihave Ha0s := (Transfers.pointsTo_toks_split fullShare 32) $$ Ha0
  icases Ha0s with ⟨Ha0d, Ha0t⟩
  ihave Ha1s := (Transfers.pointsTo_toks_split fullShare 32) $$ Ha1
  icases Ha1s with ⟨Ha1d, Ha1t⟩
  ihave Hv0s := (Transfers.pointsTo_toks_split fullShare 32) $$ Hv0
  icases Hv0s with ⟨Hv0d, Hv0t⟩
  -- the call
  iapply ((K (F := F)).wp_run (D (F := F)) 𝒱 (EH := EH) (P := P m (featOf m) OUT) κ d 0) $$ [Hst Ha0t Ha1t Hv0t Hv1 Ha0d Ha1d Hv0d Hb Ha2 Hv2]
  isplitr; · iexact Hctx
  isplitl [Hst]; · iexact Hst
  isplitl [Ha0t Ha1t Hv0t Hv1]
  · rw [st0_eq]
    isplitl [Ha0t]; · iexact Ha0t
    isplitl [Ha1t]; · iexact Ha1t
    isplitl [Hv0t]; · iexact Hv0t
    iexact Hv1
  iintro ⟨Hst, Hdn⟩
  ihave Hdn' := (Entails.of_eq (dn0_eq m OUT (featOf m) d)) $$ Hdn
  icases Hdn' with ⟨Ha0t, Ha1t, Hv0t, Hv1⟩
  ihave Ha0 := (Transfers.pointsTo_toks_join fullShare 32) $$ [Ha0d Ha0t]
  · isplitl [Ha0d]; · iexact Ha0d
    iexact Ha0t
  ihave Ha1 := (Transfers.pointsTo_toks_join fullShare 32) $$ [Ha1d Ha1t]
  · isplitl [Ha1d]; · iexact Ha1d
    iexact Ha1t
  ihave Hv0 := (Transfers.pointsTo_toks_join fullShare 32) $$ [Hv0d Hv0t]
  · isplitl [Hv0d]; · iexact Hv0d
    iexact Hv0t
  -- the result reshaped
  iapply (wp_hlo_within 𝒱 (SparseCore.T d) none Set.univ (op := opR2) (S := S6) hR2 (V := V2 m OUT d)) $$ [Hb Ha0 Ha1 Ha2 Hv0 Hv1 Hv2]
  · isplitl [Hb]; · iexact Hb
    rw [held_V2]
    isplitl [Ha0]; · iexact Ha0
    isplitl [Ha1]; · iexact Ha1
    isplitl [Ha2]; · iexact Ha2
    isplitl [Hv0]; · iexact Hv0
    isplitl [Hv1]; · iexact Hv1
    iexact Hv2
  iintro ⟨Hb, Hheld⟩
  ihave Hh := (Entails.of_eq (held_V3 (F := F) m OUT d)) $$ Hheld
  icases Hh with ⟨Ha0, Ha1, Ha2, -, -, Hv2⟩
  rw [wp_ret]; imodintro; imodintro
  isplitl [Hst]; · iexact Hst
  isplitl [Ha0]; · iexact Ha0
  isplitl [Ha1]; · iexact Ha1
  isplitl [Ha2]; · iexact Ha2
  iexact Hv2

/-- What the claim reads off the final state: the result and the three arguments. -/
def fq (d : Dev nD) (s' : Phys nD τ sig (Elt F)) : Prop :=
  s'.mem.mem (rLoc d) = resOf (OUT d) ∧ s'.mem.mem (iiLoc d) = m (iiLoc d) ∧ s'.mem.mem (gridLoc d) = m (gridLoc d) ∧ s'.mem.mem (a2Loc d) = m (a2Loc d)

theorem hfin (d : Dev nD) (s' : Phys nD τ sig (Elt F)) : iprop(FIN m OUT d ∗ SI s') ⊢ (⌜fq m OUT d s'⌝ : sProp 𝕄) := by
  iintro ⟨⟨Ha0, Ha1, Ha2, Hv2⟩, HSI⟩
  ihave H := (persistent_entails_right (SI_pointsTo_agree (st := s') (ℓ := iiLoc d) (I := Finset.univ) (q := fullShare) (f := m (iiLoc d)))) $$ [HSI Ha0]
  · isplitl [HSI] <;> iassumption
  icases H with ⟨%h0, HSI, -⟩
  ihave H := (persistent_entails_right (SI_pointsTo_agree (st := s') (ℓ := gridLoc d) (I := Finset.univ) (q := fullShare) (f := m (gridLoc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (SI_pointsTo_agree (st := s') (ℓ := rLoc d) (I := Finset.univ) (q := fullShare) (f := resOf (OUT d))) $$ [HSI Hv2]
  · isplitl [HSI] <;> iassumption
  icases H with %h3
  ipureintro
  exact ⟨funext fun i => h3 i (Finset.mem_univ i), funext fun i => h0 i (Finset.mem_univ i), funext fun i => h1 i (Finset.mem_univ i),
    funext fun i => h2 i (Finset.mem_univ i)⟩

/-! ## The program's run -/

/-- The run's post: on every device the result is the kernel's flat result reshaped and the three arguments are as launched. -/
def QC : PUnit × MemSt nD τ sig (Elt F) → Prop := fun r => ∀ c : Dev nD,
  r.2.mem ((c.tc : Thread nD τ).loc main_v2) = resOf (OUT c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

/-- The whole device program runs, given that every vector subcore's body meets its obligation. -/
theorem run_main [∀ e, Nonempty (Elt F e)] (hT : (K (F := F)).TileObl (D (F := F)) 𝒱 (P m (featOf m) OUT) v₀ 0) :
    θ_run (Cert.KernelIdeal.defs (F := F)) (Cert.KernelIdeal.threads (F := F)) ⟨m, fun _ => 0, ρ⟩ (QC m OUT) :=
  SparseCore.Cfg.θ_run_sc (K := K (F := F)) (D := D (F := F)) (𝒱 := 𝒱) (EH := EH) (P := P m (featOf m) OUT) facts v₀
    (fun q hq => match q with | 0 => nomatch hq)
    (fun q _ => match q with | 0 => hT)
    (fun q _ => match q with | 0 => SparseCore.Cfg.VecSplit.of_plain (vecSplit m OUT (featOf m)))
    m ρ main (fun _ => iprop(emp)) (FIN m OUT) (u₀ (F := F)) (sep_elim_left.trans (hu₀ m OUT (featOf m))) (hmain m ρ OUT) (fq m OUT) (hfin m OUT)
    (QC m OUT) (fun _ h => h)

end Cert.Proof.KI

end
-- ==== Proof.KRows.lean ====
/-
  The sampling kernel on one vector subcore: the rows of the flat result a subcore owns, one per trip of its outer
  loop, and where the kernel's slices of the image indices, the grid and the result sit in the whole arrays.
-/
import proofs.«207350_g59966333387111_cont_9to1_m_496_19_alg».proof.Proof.KPay
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

open Idealize.ShloMosaic.ValueIdx

/-!
  The rows of the flat result, one at a time.

  Subcore `s` of SparseCore `c` owns rows `32·(2·s + c) … 32·(2·s + c) + 31` of the flat result (1024 × 65536).
  Trip `k` of its outer loop slices row `64·s + 32·c + k` of the result, element `64·s + 32·c + k` of the grid and,
  before the loop, elements `64·s + 32·c … 64·s + 32·c + 31` of the image indices. The 32 rows of the trips are
  pairwise disjoint and together are the block the subcore owns; each slice places its own index at the expected
  place of the whole array.
-/

theorem bound_zero : grid0.bound 0 = 2 := rfl
theorem bound_one : grid0.bound 1 = 16 := rfl
theorem t1_trips : k0_t1_loop.trips = 32 := rfl

/-- The SparseCore and the subcore of a grid point. -/
abbrev cOf (L : grid0.Coords) : Fin 2 := Fin.cast bound_zero (L 0)
abbrev sOf (L : grid0.Coords) : Fin 16 := Fin.cast bound_one (L 1)

/-- Row `64·s + 32·c + k` of the flat result, as trip `k` slices it. -/
abbrev rowRect (L : grid0.Coords) (k : Fin k0_t1_loop.trips) : Rect S1024x65536 :=
  Rect.unit (s := S1024x65536) (k0_off15 L k) S1x65536.size (k0_off15_inb L k)
abbrev rowMem (L : grid0.Coords) (k : Fin k0_t1_loop.trips) : Memref sig .scVector .hbm S1x65536 .f32 :=
  (a5).slice (rowRect L k) (fun _ => rfl)
abbrev rowSetK (L : grid0.Coords) (k : Fin k0_t1_loop.trips) : Finset S1024x65536.Idx := (rowMem L k).view.set

theorem rowSetK_eq (L : grid0.Coords) (k : Fin k0_t1_loop.trips) : rowSetK L k = (rowRect L k).set := by
  show ((View.whole (main_v1_scv : Ref sig .scVector)).slice (rowRect L k)).set = _
  rw [View.set_slice]; exact Finset.map_refl

/-- An index of the flat result lies in trip `k`'s row exactly when its row number is `64·s + 32·c + k`. -/
theorem mem_rowSetK (L : grid0.Coords) (k : Fin k0_t1_loop.trips) (i : S1024x65536.Idx) :
    i ∈ rowSetK L k ↔ (i 0).val = 64 * (L 1).val + 32 * (L 0).val + k.val := by
  rw [rowSetK_eq, Rect.mem_set_unit, k0_off15_eq, Fin.forall_fin_two]
  have h1 : (i 1).val < 65536 := (i 1).isLt
  show ((64 * (L 1).val + 32 * (L 0).val + k.val ≤ (i 0).val ∧ (i 0).val < 64 * (L 1).val + 32 * (L 0).val + k.val + 1)
    ∧ (0 ≤ (i 1).val ∧ (i 1).val < 0 + 65536)) ↔ _
  omega

/-- An index of the flat result lies in the block of worker `(c, s)` exactly when its row number is in
    `[32·(2·s + c), 32·(2·s + c) + 32)`. -/
theorem mem_outRows (c : Fin 2) (s : Fin 16) (i : S1024x65536.Idx) :
    i ∈ outRows c s ↔ 32 * (2 * s.val + c.val) ≤ (i 0).val ∧ (i 0).val < 32 * (2 * s.val + c.val) + 32 := by
  show i ∈ (Rect.unit (s := S1024x65536) _ _ _).set ↔ _
  rw [Rect.mem_set_unit, Fin.forall_fin_two]
  have h1 : (i 1).val < 65536 := (i 1).isLt
  show (((2 * s.val + c.val) * 32 ≤ (i 0).val ∧ (i 0).val < (2 * s.val + c.val) * 32 + 32)
    ∧ (0 * 65536 ≤ (i 1).val ∧ (i 1).val < 0 * 65536 + 65536)) ↔ _
  omega

theorem rows_disjointK (L : grid0.Coords) :
    ∀ k ∈ (Finset.univ : Finset (Fin k0_t1_loop.trips)), ∀ k' ∈ (Finset.univ : Finset (Fin k0_t1_loop.trips)), k ≠ k' →
      Disjoint (rowSetK L k) (rowSetK L k') := by
  intro k _ k' _ h
  rw [Finset.disjoint_left]
  intro i hi hi'
  rw [mem_rowSetK] at hi hi'
  exact h (Fin.ext (by omega))

theorem rows_coverK (L : grid0.Coords) :
    (Finset.univ : Finset (Fin k0_t1_loop.trips)).biUnion (rowSetK L) = outRows (cOf L) (sOf L) := by
  ext i
  rw [mem_outRows]
  simp only [Finset.mem_biUnion, Finset.mem_univ, true_and, mem_rowSetK]
  show (∃ k : Fin k0_t1_loop.trips, (i 0).val = 64 * (L 1).val + 32 * (L 0).val + k.val)
    ↔ 32 * (2 * (L 1).val + (L 0).val) ≤ (i 0).val ∧ (i 0).val < 32 * (2 * (L 1).val + (L 0).val) + 32
  constructor
  · rintro ⟨k, hk⟩
    have hk32 : k.val < 32 := k.isLt
    omega
  · rintro ⟨hlo, hhi⟩
    exact ⟨⟨(i 0).val - (64 * (L 1).val + 32 * (L 0).val), by show _ < 32; omega⟩, by show _ = _ + ((i 0).val - _); omega⟩

/-- The block a worker owns, held whole, is its 32 rows held one by one. -/
theorem block_rows (d : Dev nD) (L : grid0.Coords) (f : Buf (Elt F) (oLoc d)) :
    (oLoc d ↦[outRows (cOf L) (sOf L)]{fullShare} f : sProp 𝕄)
      = bigSep Finset.univ fun k : Fin k0_t1_loop.trips => oLoc d ↦[rowSetK L k]{fullShare} f := by
  rw [← pointsTo_biUnion Finset.univ (ℓ := oLoc d) (rowSetK L) (rows_disjointK L), rows_coverK]

/-- Holding trip `k`'s row through the memref the kernel slices is holding that row of the flat result. -/
theorem pts_row (d : Dev nD) (L : grid0.Coords) (k : Fin k0_t1_loop.trips) (f : Buf (Elt F) (oLoc d)) :
    ((rowMem L k).view.loc (V d (cV L) (jV L)) ↦[(rowMem L k).view.set]{fullShare} f : sProp 𝕄)
      = oLoc d ↦[rowSetK L k]{fullShare} f := rfl

/-- Where trip `k`'s row places its own index: row `64·s + 32·c + k`, the same column. -/
theorem row_emb (L : grid0.Coords) (k : Fin k0_t1_loop.trips) (x : S1x65536.Idx) :
    ((rowMem L k).view.emb x 0).val = 64 * (L 1).val + 32 * (L 0).val + k.val
      ∧ ((rowMem L k).view.emb x 1).val = (x 1).val := by
  have h0 : (x 0).val < 1 := (x 0).isLt
  have e := k0_off15_eq L k
  constructor
  · show k0_off15 L k 0 + 1 * (x 0).val = _
    rw [e]; show 64 * (L 1).val + 32 * (L 0).val + k.val + 1 * (x 0).val = _; omega
  · show k0_off15 L k 1 + 1 * (x 1).val = _
    rw [e]; show 0 + 1 * (x 1).val = _; omega

/-- The same as an equation of indices of the flat result. -/
theorem row_emb_ix (L : grid0.Coords) (k : Fin k0_t1_loop.trips) (x : S1x65536.Idx) :
    (rowMem L k).view.emb x
      = ix2 (⟨64 * (L 1).val + 32 * (L 0).val + k.val, by
          show _ < 1024
          have h1 : (L 1).val < 16 := (L 1).isLt
          have h0 : (L 0).val < 2 := (L 0).isLt
          have hk : k.val < 32 := k.isLt
          omega⟩ : Fin 1024) (x 1) := by
  obtain ⟨e0, e1⟩ := row_emb L k x
  funext a
  match a with
  | ⟨0, _⟩ => exact Fin.ext e0
  | ⟨1, _⟩ => exact Fin.ext e1

/-- The row number `64·s + 32·c + k` is `32·(2·s + c) + k`: row `k` of the block of worker `2·s + c`. -/
theorem row_num (L : grid0.Coords) (k : Fin k0_t1_loop.trips) :
    64 * (L 1).val + 32 * (L 0).val + k.val = 32 * (wid (cOf L) (sOf L)).val + k.val := by
  show _ = 32 * (2 * (L 1).val + (L 0).val) + k.val
  omega

/-! ### The image indices and the grid, as the kernel slices them -/

/-- Elements `64·s + 32·c … + 31` of the image indices: the first copy's source. -/
abbrev iiRect (L : grid0.Coords) : Rect S1024 := Rect.unit (s := S1024) (k0_off1 L) S32.size (k0_off1_inb L)
abbrev iiMem (L : grid0.Coords) : Memref sig .scVector .hbm S32 .i32 := (a2).slice (iiRect L) (fun _ => rfl)

theorem ii_emb (L : grid0.Coords) (x : S32.Idx) :
    ((iiMem L).view.emb x 0).val = 64 * (L 1).val + 32 * (L 0).val + (x 0).val := by
  show k0_off1 L 0 + 1 * (x 0).val = _
  rw [k0_off1_eq]; show 64 * (L 1).val + 32 * (L 0).val + 1 * (x 0).val = _; omega

/-- Element `64·s + 32·c + k` of the grid (a 2 × 512 plane), as trip `k` slices it. -/
abbrev gridRect (L : grid0.Coords) (k : Fin k0_t1_loop.trips) : Rect S1024x2x512 :=
  Rect.unit (s := S1024x2x512) (k0_off3 L k) S1x2x512.size (k0_off3_inb L k)
abbrev gridMem (L : grid0.Coords) (k : Fin k0_t1_loop.trips) : Memref sig .scVector .hbm S1x2x512 .f32 :=
  (a3).slice (gridRect L k) (fun _ => rfl)

theorem grid_emb (L : grid0.Coords) (k : Fin k0_t1_loop.trips) (x : S1x2x512.Idx) :
    ((gridMem L k).view.emb x 0).val = 64 * (L 1).val + 32 * (L 0).val + k.val
      ∧ ((gridMem L k).view.emb x 1).val = (x 1).val ∧ ((gridMem L k).view.emb x 2).val = (x 2).val := by
  have h0 : (x 0).val < 1 := (x 0).isLt
  have e := k0_off3_eq L k
  refine ⟨?_, ?_, ?_⟩
  · show k0_off3 L k 0 + 1 * (x 0).val = _
    rw [e]; show 64 * (L 1).val + 32 * (L 0).val + k.val + 1 * (x 0).val = _; omega
  · show k0_off3 L k 1 + 1 * (x 1).val = _
    rw [e]; show 0 + 1 * (x 1).val = _; omega
  · show k0_off3 L k 2 + 1 * (x 2).val = _
    rw [e]; show 0 + 1 * (x 2).val = _; omega

end Cert.Proof.KI

end
-- ==== Proof.KObl.lean ====
import proofs.«207350_g59966333387111_cont_9to1_m_496_19_alg».proof.Proof.KLaunch
import proofs.«207350_g59966333387111_cont_9to1_m_496_19_alg».proof.Proof.KRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

/-!
  The obligation of a vector subcore at the one call, from the run of the kernel's body: the body's program is the
  call's program on that subcore, its pieces are the subcore's pieces, and what it hands back is what the call takes back.
-/

variable [FloatOps F]

-- What the kernel leaves in the flat result, as a function of the three inputs.
variable (OUTF : (S1024.Idx → BitVec 32) → (S1024x2x512.Idx → Elt F .f32) → (S33554432.Idx → Elt F .f32) → (S1024x65536.Idx → Elt F .f32))

/-- The flat result on every device, from that device's inputs. -/
abbrev outOf (m : (ℓ : Loc nD τ sig) → Buf (Elt F) ℓ) (FEAT : (d : Dev nD) → Buf (Elt F) (featLoc d)) : (d : Dev nD) → Buf (Elt F) (oLoc d) :=
  fun d => OUTF (m (iiLoc d)) (m (gridLoc d)) (FEAT d)

/-- The run of the kernel's body on the subcore of grid point `L` of device `d`: from its read shares of the three inputs
    and its 32 rows of the result, with every image index in `[0, 1023]`, it ends with the same shares and its rows at
    `OUTF` of the inputs; its own buffers and semaphores as it found them; nothing waited for that it may not. -/
abbrev BodyObl : Prop :=
  ∀ (m : (ℓ : Loc nD τ sig) → Buf (Elt F) ℓ) (FEAT : (d : Dev nD) → Buf (Elt F) (featLoc d)) (d : Dev nD) (L : grid0.Coords)
    (O : CellTallies nD τ sig (HIx 1)) (W : Waits sig (HIx 1)), (∀ g, O g none = 0) →
    (∀ b, 0 ≤ (m (iiLoc d) b).toInt ∧ (m (iiLoc d) b).toInt ≤ 1023) →
    iprop(levAts (K (F := F)).L (K (F := F)).lev ∗ emp ∗ goP m FEAT d (cOf L) (sOf L) ∗ scopedBufs (V d (cV L) (jV L)) ∗ scopedSems0 (V d (cV L) (jV L))
        ∗ owes (V d (cV L) (jV L)) O W)
      ⊢ wp frame (wpE (defs₀ (F := F)) 𝒱₀ (V d (cV L) (jV L)) none) Set.univ
          (cc0__sc_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            a10 (Memref.isWhole_whole _) a11 (Memref.isWhole_whole _) cc0_scratch6 cc0_scoped0 cc0_scoped1 cc0_scoped2)
          fun _ => iprop(tdP m FEAT (outOf OUTF m FEAT) d (cOf L) (sOf L) ∗ scopedBufs (V d (cV L) (jV L)) ∗ scopedSems0 (V d (cV L) (jV L))
            ∗ ∃ W', ⌜∀ p ∈ W', p ∈ W ∨ p.2 = none⌝ ∗ owes (V d (cV L) (jV L)) O W')

/-- The call's program on a vector subcore is the kernel's body at the subcore's grid point. -/
theorem defs₀_vector (c : Fin τ.nSC) (s : Fin τ.nSub) :
    defs₀ (F := F) (.scVector c s) 0 ()
      = SparseCore.onTile hcore0 hsub0 (fun c s => cc0__sc_body (coordsV c s)
          a2 (Memref.isWhole_whole _) a3 (Memref.isWhole_whole _) a4 (Memref.isWhole_whole _) a5 (Memref.isWhole_whole _)
          a6 (Memref.isWhole_whole _) a7 (Memref.isWhole_whole _) a8 (Memref.isWhole_whole _) a9 (Memref.isWhole_whole _)
          a10 (Memref.isWhole_whole _) a11 (Memref.isWhole_whole _) cc0_scratch6 cc0_scoped0 cc0_scoped1 cc0_scoped2) ⟨⟩ c s := rfl

omit [FloatOps F] in
/-- A wait the body may not make is one the call may not make. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The subcore's obligation at the call, from the body's run. -/
theorem tileObl_of (m : (ℓ : Loc nD τ sig) → Buf (Elt F) ℓ)
    (hii : ∀ (d : Dev nD) (b : S1024.Idx), 0 ≤ (m (iiLoc d) b).toInt ∧ (m (iiLoc d) b).toInt ≤ 1023) (hbody : BodyObl OUTF) :
    (K (F := F)).TileObl (D (F := F)) 𝒱 (P m (featOf m) (outOf OUTF m (featOf m))) v₀ 0 := by
  intro d c i O W hO _ _
  -- the kernel owes nothing for a protocol of its own
  simp only [show (P m (featOf m) (outOf OUTF m (featOf m))).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody m (featOf m) d (coordsV ⟨_, hc.1⟩ ⟨_, hc.2⟩) O W hO (hii d)).trans (wp_mono frame _ _ fun _ => obl_post)

end Cert.Proof.KI

end
-- ==== Proof.KPre.lean ====
import proofs.«207350_g59966333387111_cont_9to1_m_496_19_alg».proof.Proof.KPay
import Idealize.ShloMosaic.Lib.ReduceAll

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

/-!
  The precondition read back: the conjunction of three `all`s (the grid finite, the features finite, every image
  index in `[0, 1023]`) is one, so each conjunct is, at every element.
-/

instance : Subsingleton Cert.Pre_input_domain.S_.Idx := ⟨fun a b => funext fun d => d.elim0⟩

variable [FloatOps F] [Cert.Pre_input_domain.Facts]

/-- The printed precondition over device `d`'s three arguments. -/
abbrev PreAt (m : (ℓ : Loc nD τ sig) → Buf (Elt F) ℓ) (d : Dev nD) : Prop :=
  Cert.Pre_input_domain.fn (F := F) (m ((SparseCore.T d).loc main_arg0)) (m ((SparseCore.T d).loc main_arg1)) (m ((SparseCore.T d).loc main_arg2)) = (fun _ => 1#1)

/-- Every image index is a row number of the feature table: between 0 and 1023, read signed. -/
theorem ii_range (m : (ℓ : Loc nD τ sig) → Buf (Elt F) ℓ) (d : Dev nD) (h : PreAt m d) (b : S1024.Idx) :
    0 ≤ (m (iiLoc d) b).toInt ∧ (m (iiLoc d) b).toInt ≤ 1023 := by
  have e := congrFun h (fun a => a.elim0)
  dsimp only [Cert.Pre_input_domain.fn] at e
  obtain ⟨-, e14⟩ := IntOp.andi_eq_one.1 e
  have e13 := Host.reduce_andi_all _ _ _ _ _ e14 b
  obtain ⟨e10, e12⟩ := IntOp.andi_eq_one.1 e13
  have h10 := IntOp.cmpi_sge.1 e10
  have h12 := IntOp.cmpi_sle.1 e12
  exact ⟨h10, h12⟩

/-! ### At the ideal instance: the grid and the features are real numbers -/

/-- An extended real whose absolute value is below `+∞` (the pattern `0x7F800000`) is a real number. -/
theorem real_of_abs_lt (x : EReal) (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  have hlt : max x (-x) < ⊤ := by
    by_contra hn
    have h0 : Ideal.cmp .olt (max x (-x)) ⊤ = 0#1 := by simp [Ideal.cmp, hn]
    rw [h0] at h; exact absurd h (by decide)
  induction x using EReal.rec with
  | bot => simp at hlt
  | coe r => exact ⟨r, rfl⟩
  | top => simp at hlt

/-- Every grid coordinate is a real number. -/
theorem grid_real (m : (ℓ : Loc nD τ sig) → Buf (Elt Ideal) ℓ) (d : Dev nD) (h : PreAt (F := Ideal) m d) (j : S1024x2x512.Idx) :
    ∃ r : ℝ, m (gridLoc d) j = (r : EReal) := by
  have e := congrFun h (fun a => a.elim0)
  dsimp only [Cert.Pre_input_domain.fn] at e
  obtain ⟨e8, -⟩ := IntOp.andi_eq_one.1 e
  obtain ⟨e3, -⟩ := IntOp.andi_eq_one.1 e8
  exact real_of_abs_lt _ (Host.reduce_andi_all _ _ _ _ _ e3 j)

/-- Every feature is a real number. -/
theorem feat_real (m : (ℓ : Loc nD τ sig) → Buf (Elt Ideal) ℓ) (d : Dev nD) (h : PreAt (F := Ideal) m d) (j : S1024x128x16x16.Idx) :
    ∃ r : ℝ, m ((SparseCore.T d).loc main_arg2) j = (r : EReal) := by
  have e := congrFun h (fun a => a.elim0)
  dsimp only [Cert.Pre_input_domain.fn] at e
  obtain ⟨e8, -⟩ := IntOp.andi_eq_one.1 e
  obtain ⟨-, e7⟩ := IntOp.andi_eq_one.1 e8
  exact real_of_abs_lt _ (Host.reduce_andi_all _ _ _ _ _ e7 j)

end Cert.Proof.KI

end
-- ==== Proof.KTables.lean ====
import proofs.«207350_g59966333387111_cont_9to1_m_496_19_alg».proof.Proof.KBase
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

variable [FloatOps F]

/-! ## The tables a query builds from its grid row

For each of the 32 chunks of 16 sample points, the two coordinate rows of the chunk give four rows of flat corner
offsets (row·16 + column, each line pulled back into 0 … 15) and four rows of corner weights. -/

/-- The 16 x-coordinates (row 0) and y-coordinates (row 1) of chunk `k`. -/
def xLd (gv : S1x2x512.Idx → Elt F EltTy.f32) (k : Fin k0_t2_loop.trips) : Vec F S1x1x16 .f32 :=
  (a7).view.readAt (Elt F) (Rect.unit (s := S1x2x512) (k0_off4 k) S1x1x16.size (k0_off4_inb k)).toLoadRect gv
def yLd (gv : S1x2x512.Idx → Elt F EltTy.f32) (k : Fin k0_t2_loop.trips) : Vec F S1x1x16 .f32 :=
  (a7).view.readAt (Elt F) (Rect.unit (s := S1x2x512) (k0_off5 k) S1x1x16.size (k0_off5_inb k)).toLoadRect gv

/-- Row `r` of the offsets table on chunk `k`. -/
def idxRow (gv : S1x2x512.Idx → Elt F EltTy.f32) (r : ℕ) (k : Fin k0_t2_loop.trips) : S1x16.Idx → BitVec 32 :=
  match r with
  | 0 => shapeCast S1x16 (k0_pay28 (k0_pay18 (xLd gv k)) (k0_pay19 (yLd gv k))) shapeCasts_S16_S1x16
  | 1 => shapeCast S1x16 (k0_pay29 (k0_pay18 (xLd gv k)) (k0_pay19 (yLd gv k))) shapeCasts_S16_S1x16
  | 2 => shapeCast S1x16 (k0_pay30 (k0_pay18 (xLd gv k)) (k0_pay19 (yLd gv k))) shapeCasts_S16_S1x16
  | _ => shapeCast S1x16 (k0_pay2 (k0_pay25 (k0_pay18 (xLd gv k))) (k0_pay27 (k0_pay19 (yLd gv k)))) shapeCasts_S16_S1x16

/-- The two upper weights and the two lower weights of chunk `k`. -/
def wx1 (gv : S1x2x512.Idx → Elt F EltTy.f32) (k : Fin k0_t2_loop.trips) : FVec F S16 .f32 := k0_pay20 (xLd gv k)
def wy1 (gv : S1x2x512.Idx → Elt F EltTy.f32) (k : Fin k0_t2_loop.trips) : FVec F S16 .f32 := k0_pay21 (yLd gv k)
def wx0 (gv : S1x2x512.Idx → Elt F EltTy.f32) (k : Fin k0_t2_loop.trips) : FVec F S16 .f32 := k0_pay22 (wx1 gv k) (Scalar.ofBits .f32 0x3F800000#32)
def wy0 (gv : S1x2x512.Idx → Elt F EltTy.f32) (k : Fin k0_t2_loop.trips) : FVec F S16 .f32 := k0_pay23 (wy1 gv k)

/-- Row `r` of the weights table on chunk `k`. -/
def wRow (gv : S1x2x512.Idx → Elt F EltTy.f32) (r : ℕ) (k : Fin k0_t2_loop.trips) : S1x16.Idx → Elt F EltTy.f32 :=
  match r with
  | 0 => shapeCast S1x16 (k0_pay3 (wx0 gv k) (wy0 gv k)) shapeCasts_S16_S1x16
  | 1 => shapeCast S1x16 (k0_pay4 (wx1 gv k) (wy0 gv k)) shapeCasts_S16_S1x16
  | 2 => shapeCast S1x16 (k0_pay5 (wy1 gv k) (wx0 gv k)) shapeCasts_S16_S1x16
  | _ => shapeCast S1x16 (k0_pay6 (wx1 gv k) (wy1 gv k)) shapeCasts_S16_S1x16

theorem t2_trips : k0_t2_loop.trips = 32 := rfl

/-- The chunk and the lane of a column. -/
def chunkOf (y : S4x512.Idx) : Fin k0_t2_loop.trips := ⟨(y 1).val / 16, by
  have h : (y 1).val < 512 := (y 1).isLt
  show (y 1).val / 16 < 32
  omega⟩
def laneOf (y : S4x512.Idx) : S1x16.Idx := Idealize.ShloMosaic.ValueIdx.ix2 (0 : Fin 1) (⟨(y 1).val % 16, Nat.mod_lt _ (by norm_num)⟩ : Fin 16)

/-- The offsets table and the weights table, whole. -/
def GIdx (gv : S1x2x512.Idx → Elt F EltTy.f32) : S4x512.Idx → BitVec 32 := fun y => idxRow gv (y 0).val (chunkOf y) (laneOf y)
def GW (gv : S1x2x512.Idx → Elt F EltTy.f32) : S4x512.Idx → Elt F EltTy.f32 := fun y => wRow gv (y 0).val (chunkOf y) (laneOf y)

/-- A table entry named by row, chunk and position within the chunk. -/
theorem chunk_lane (y : S4x512.Idx) (k : Fin k0_t2_loop.trips) (x : S1x16.Idx) (h1 : (y 1).val = 16 * k.val + (x 1).val) :
    chunkOf y = k ∧ laneOf y = x := by
  have hx : (x 1).val < 16 := (x 1).isLt
  have hk : k.val < 32 := k.isLt
  refine ⟨Fin.ext (by show (y 1).val / 16 = k.val; omega), ?_⟩
  funext a
  match a with
  | ⟨0, _⟩ => exact Fin.ext (by have h0 : (x 0).val < 1 := (x 0).isLt; show (0 : ℕ) = (x 0).val; omega)
  | ⟨1, _⟩ => exact Fin.ext (by show (y 1).val % 16 = (x 1).val; omega)

set_option maxHeartbeats 4000000 in
theorem t2_trip (d : Dev nD) (L : grid0.Coords) (k : Fin k0_t2_loop.trips) (acc : BitVec 32)
    (gv : S1x2x512.Idx → Elt F EltTy.f32) (iv : S4x512.Idx → BitVec 32) (wv : S4x512.Idx → Elt F EltTy.f32) :
    iprop(((a7).view.loc (V d (cV L) (jV L)) ↦{fullShare} gv) ∗ ((a9).view.loc (V d (cV L) (jV L)) ↦{fullShare} iv) ∗ ((a10).view.loc (V d (cV L) (jV L)) ↦{fullShare} wv))
      ⊢ (wp frame (wpE (defs₀ (F := F)) 𝒱₀ (V d (cV L) (jV L)) none) Set.univ
          (k0_t2_body L a2 (Memref.isWhole_whole _) a3 (Memref.isWhole_whole _) a4 (Memref.isWhole_whole _) a5 (Memref.isWhole_whole _) a6 (Memref.isWhole_whole _) a7 (Memref.isWhole_whole _)
            a8 (Memref.isWhole_whole _) a9 (Memref.isWhole_whole _) a10 (Memref.isWhole_whole _) a11 (Memref.isWhole_whole _) cc0_scratch6 cc0_scoped0 cc0_scoped1 cc0_scoped2 k acc)
          (fun _ => iprop(((a7).view.loc (V d (cV L) (jV L)) ↦{fullShare} gv)
            ∗ ((a9).view.loc (V d (cV L) (jV L)) ↦{fullShare} (a9).view.writes (Elt F) iv
                [⟨Rect.unit (k0_off9 k) S1x16.size (k0_off9_inb k), idxRow gv 3 k⟩, ⟨Rect.unit (k0_off8 k) S1x16.size (k0_off8_inb k), idxRow gv 2 k⟩,
                 ⟨Rect.unit (k0_off7 k) S1x16.size (k0_off7_inb k), idxRow gv 1 k⟩, ⟨Rect.unit (k0_off6 k) S1x16.size (k0_off6_inb k), idxRow gv 0 k⟩])
            ∗ ((a10).view.loc (V d (cV L) (jV L)) ↦{fullShare} (a10).view.writes (Elt F) wv
                [⟨Rect.unit (k0_off9 k) S1x16.size (k0_off9_inb k), wRow gv 3 k⟩, ⟨Rect.unit (k0_off8 k) S1x16.size (k0_off8_inb k), wRow gv 2 k⟩,
                 ⟨Rect.unit (k0_off7 k) S1x16.size (k0_off7_inb k), wRow gv 1 k⟩, ⟨Rect.unit (k0_off6 k) S1x16.size (k0_off6_inb k), wRow gv 0 k⟩]))) : sProp 𝕄) := by
  unfold k0_t2_body
  iintro ⟨Hg, Hi, Hw⟩
  sl_exec
  sl_step
  isplitl [Hg]; · iexact Hg
  isplitl [Hi]
  · iexact Hi
  · iexact Hw

end Cert.Proof.KI

end
-- ==== Proof.KTablesLoop.lean ====
import proofs.«207350_g59966333387111_cont_9to1_m_496_19_alg».proof.Proof.KTables
import Idealize.ShloMosaic.Lib.WritesUnit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

variable [FloatOps F]

theorem GIdx_at (gv : S1x2x512.Idx → Elt F EltTy.f32) (k : Fin k0_t2_loop.trips) (y : S4x512.Idx) (x : S1x16.Idx) (r : ℕ)
    (h0 : (y 0).val = r) (h1 : (y 1).val = 16 * k.val + (x 1).val) : GIdx gv y = idxRow gv r k x := by
  obtain ⟨hk, hx⟩ := chunk_lane y k x h1
  unfold GIdx; rw [hk, hx, h0]

theorem GIdx_step (gv : S1x2x512.Idx → Elt F EltTy.f32) (k : Fin k0_t2_loop.trips) (f : S4x512.Idx → BitVec 32)
    (hf : ∀ y : S4x512.Idx, (y 1).val < 16 * k.val → f y = GIdx gv y) (y : S4x512.Idx) (hy : (y 1).val < 16 * (k.val + 1)) :
    (a9).view.writes (Elt F) f
        [⟨Rect.unit (k0_off9 k) S1x16.size (k0_off9_inb k), idxRow gv 3 k⟩, ⟨Rect.unit (k0_off8 k) S1x16.size (k0_off8_inb k), idxRow gv 2 k⟩,
         ⟨Rect.unit (k0_off7 k) S1x16.size (k0_off7_inb k), idxRow gv 1 k⟩, ⟨Rect.unit (k0_off6 k) S1x16.size (k0_off6_inb k), idxRow gv 0 k⟩] y = GIdx gv y := by
  have hy0 : (y 0).val < 4 := (y 0).isLt
  have hrd : ∀ g : S4x512.Idx → BitVec 32, (a9).view.read (Elt F) g = g := fun _ => rfl
  rw [← hrd ((a9).view.writes (Elt F) f _)]
  by_cases hc : 16 * k.val ≤ (y 1).val
  · -- a column of this chunk: the piece of its row
    let x : S1x16.Idx := Idealize.ShloMosaic.ValueIdx.ix2 (0 : Fin 1) (⟨(y 1).val - 16 * k.val, by omega⟩ : Fin 16)
    have hx1 : (y 1).val = 16 * k.val + (x 1).val := by show _ = 16 * k.val + ((y 1).val - 16 * k.val); omega
    have hx0 : (x 0).val = 0 := rfl
    by_cases h3 : (y 0).val = 3
    · refine (View.read_writes_cons_unit_of_mem (Val := Elt F) (a9).view f (off := k0_off9 k) (size := S1x16.size) (k0_off9_inb k) (idxRow gv 3 k) _ y x (k0_off9_eq k) (Fin.forall_fin_two.mpr ⟨by show _ = 3 + (x 0).val; omega, hx1⟩)).trans ?_
      exact (GIdx_at gv k y x 3 h3 hx1).symm
    refine (View.read_writes_cons_unit_of_not_mem (Val := Elt F) (a9).view f (off := k0_off9 k) (size := S1x16.size) (k0_off9_inb k) (idxRow gv 3 k) _ y (k0_off9_eq k) 0 (Or.inl (by show (y 0).val < 3; omega))).trans ?_
    by_cases h2 : (y 0).val = 2
    · refine (View.read_writes_cons_unit_of_mem (Val := Elt F) (a9).view f (off := k0_off8 k) (size := S1x16.size) (k0_off8_inb k) (idxRow gv 2 k) _ y x (k0_off8_eq k) (Fin.forall_fin_two.mpr ⟨by show _ = 2 + (x 0).val; omega, hx1⟩)).trans ?_
      exact (GIdx_at gv k y x 2 h2 hx1).symm
    refine (View.read_writes_cons_unit_of_not_mem (Val := Elt F) (a9).view f (off := k0_off8 k) (size := S1x16.size) (k0_off8_inb k) (idxRow gv 2 k) _ y (k0_off8_eq k) 0 (Or.inl (by show (y 0).val < 2; omega))).trans ?_
    by_cases h1 : (y 0).val = 1
    · refine (View.read_writes_cons_unit_of_mem (Val := Elt F) (a9).view f (off := k0_off7 k) (size := S1x16.size) (k0_off7_inb k) (idxRow gv 1 k) _ y x (k0_off7_eq k) (Fin.forall_fin_two.mpr ⟨by show _ = 1 + (x 0).val; omega, hx1⟩)).trans ?_
      exact (GIdx_at gv k y x 1 h1 hx1).symm
    refine (View.read_writes_cons_unit_of_not_mem (Val := Elt F) (a9).view f (off := k0_off7 k) (size := S1x16.size) (k0_off7_inb k) (idxRow gv 1 k) _ y (k0_off7_eq k) 0 (Or.inl (by show (y 0).val < 1; omega))).trans ?_
    have h0 : (y 0).val = 0 := by omega
    refine (View.read_writes_cons_unit_of_mem (Val := Elt F) (a9).view f (off := k0_off6 k) (size := S1x16.size) (k0_off6_inb k) (idxRow gv 0 k) _ y x (k0_off6_eq k) (Fin.forall_fin_two.mpr ⟨by show _ = 0 + (x 0).val; omega, hx1⟩)).trans ?_
    exact (GIdx_at gv k y x 0 h0 hx1).symm
  · -- a column of an earlier chunk: untouched
    have hlt : (y 1).val < 16 * k.val := by omega
    refine (View.read_writes_cons_unit_of_not_mem (Val := Elt F) (a9).view f (off := k0_off9 k) (size := S1x16.size) (k0_off9_inb k) (idxRow gv 3 k) _ y (k0_off9_eq k) 1 (Or.inl (by show (y 1).val < 16 * k.val; exact hlt))).trans ?_
    refine (View.read_writes_cons_unit_of_not_mem (Val := Elt F) (a9).view f (off := k0_off8 k) (size := S1x16.size) (k0_off8_inb k) (idxRow gv 2 k) _ y (k0_off8_eq k) 1 (Or.inl (by show (y 1).val < 16 * k.val; exact hlt))).trans ?_
    refine (View.read_writes_cons_unit_of_not_mem (Val := Elt F) (a9).view f (off := k0_off7 k) (size := S1x16.size) (k0_off7_inb k) (idxRow gv 1 k) _ y (k0_off7_eq k) 1 (Or.inl (by show (y 1).val < 16 * k.val; exact hlt))).trans ?_
    refine (View.read_writes_cons_unit_of_not_mem (Val := Elt F) (a9).view f (off := k0_off6 k) (size := S1x16.size) (k0_off6_inb k) (idxRow gv 0 k) _ y (k0_off6_eq k) 1 (Or.inl (by show (y 1).val < 16 * k.val; exact hlt))).trans ?_
    rw [View.writes_nil]
    exact hf y hlt

theorem GW_at (gv : S1x2x512.Idx → Elt F EltTy.f32) (k : Fin k0_t2_loop.trips) (y : S4x512.Idx) (x : S1x16.Idx) (r : ℕ)
    (h0 : (y 0).val = r) (h1 : (y 1).val = 16 * k.val + (x 1).val) : GW gv y = wRow gv r k x := by
  obtain ⟨hk, hx⟩ := chunk_lane y k x h1
  unfold GW; rw [hk, hx, h0]

theorem GW_step (gv : S1x2x512.Idx → Elt F EltTy.f32) (k : Fin k0_t2_loop.trips) (f : S4x512.Idx → Elt F EltTy.f32)
    (hf : ∀ y : S4x512.Idx, (y 1).val < 16 * k.val → f y = GW gv y) (y : S4x512.Idx) (hy : (y 1).val < 16 * (k.val + 1)) :
    (a10).view.writes (Elt F) f
        [⟨Rect.unit (k0_off9 k) S1x16.size (k0_off9_inb k), wRow gv 3 k⟩, ⟨Rect.unit (k0_off8 k) S1x16.size (k0_off8_inb k), wRow gv 2 k⟩,
         ⟨Rect.unit (k0_off7 k) S1x16.size (k0_off7_inb k), wRow gv 1 k⟩, ⟨Rect.unit (k0_off6 k) S1x16.size (k0_off6_inb k), wRow gv 0 k⟩] y = GW gv y := by
  have hy0 : (y 0).val < 4 := (y 0).isLt
  have hrd : ∀ g : S4x512.Idx → Elt F EltTy.f32, (a10).view.read (Elt F) g = g := fun _ => rfl
  rw [← hrd ((a10).view.writes (Elt F) f _)]
  by_cases hc : 16 * k.val ≤ (y 1).val
  · -- a column of this chunk: the piece of its row
    let x : S1x16.Idx := Idealize.ShloMosaic.ValueIdx.ix2 (0 : Fin 1) (⟨(y 1).val - 16 * k.val, by omega⟩ : Fin 16)
    have hx1 : (y 1).val = 16 * k.val + (x 1).val := by show _ = 16 * k.val + ((y 1).val - 16 * k.val); omega
    have hx0 : (x 0).val = 0 := rfl
    by_cases h3 : (y 0).val = 3
    · refine (View.read_writes_cons_unit_of_mem (Val := Elt F) (a10).view f (off := k0_off9 k) (size := S1x16.size) (k0_off9_inb k) (wRow gv 3 k) _ y x (k0_off9_eq k) (Fin.forall_fin_two.mpr ⟨by show _ = 3 + (x 0).val; omega, hx1⟩)).trans ?_
      exact (GW_at gv k y x 3 h3 hx1).symm
    refine (View.read_writes_cons_unit_of_not_mem (Val := Elt F) (a10).view f (off := k0_off9 k) (size := S1x16.size) (k0_off9_inb k) (wRow gv 3 k) _ y (k0_off9_eq k) 0 (Or.inl (by show (y 0).val < 3; omega))).trans ?_
    by_cases h2 : (y 0).val = 2
    · refine (View.read_writes_cons_unit_of_mem (Val := Elt F) (a10).view f (off := k0_off8 k) (size := S1x16.size) (k0_off8_inb k) (wRow gv 2 k) _ y x (k0_off8_eq k) (Fin.forall_fin_two.mpr ⟨by show _ = 2 + (x 0).val; omega, hx1⟩)).trans ?_
      exact (GW_at gv k y x 2 h2 hx1).symm
    refine (View.read_writes_cons_unit_of_not_mem (Val := Elt F) (a10).view f (off := k0_off8 k) (size := S1x16.size) (k0_off8_inb k) (wRow gv 2 k) _ y (k0_off8_eq k) 0 (Or.inl (by show (y 0).val < 2; omega))).trans ?_
    by_cases h1 : (y 0).val = 1
    · refine (View.read_writes_cons_unit_of_mem (Val := Elt F) (a10).view f (off := k0_off7 k) (size := S1x16.size) (k0_off7_inb k) (wRow gv 1 k) _ y x (k0_off7_eq k) (Fin.forall_fin_two.mpr ⟨by show _ = 1 + (x 0).val; omega, hx1⟩)).trans ?_
      exact (GW_at gv k y x 1 h1 hx1).symm
    refine (View.read_writes_cons_unit_of_not_mem (Val := Elt F) (a10).view f (off := k0_off7 k) (size := S1x16.size) (k0_off7_inb k) (wRow gv 1 k) _ y (k0_off7_eq k) 0 (Or.inl (by show (y 0).val < 1; omega))).trans ?_
    have h0 : (y 0).val = 0 := by omega
    refine (View.read_writes_cons_unit_of_mem (Val := Elt F) (a10).view f (off := k0_off6 k) (size := S1x16.size) (k0_off6_inb k) (wRow gv 0 k) _ y x (k0_off6_eq k) (Fin.forall_fin_two.mpr ⟨by show _ = 0 + (x 0).val; omega, hx1⟩)).trans ?_
    exact (GW_at gv k y x 0 h0 hx1).symm
  · -- a column of an earlier chunk: untouched
    have hlt : (y 1).val < 16 * k.val := by omega
    refine (View.read_writes_cons_unit_of_not_mem (Val := Elt F) (a10).view f (off := k0_off9 k) (size := S1x16.size) (k0_off9_inb k) (wRow gv 3 k) _ y (k0_off9_eq k) 1 (Or.inl (by show (y 1).val < 16 * k.val; exact hlt))).trans ?_
    refine (View.read_writes_cons_unit_of_not_mem (Val := Elt F) (a10).view f (off := k0_off8 k) (size := S1x16.size) (k0_off8_inb k) (wRow gv 2 k) _ y (k0_off8_eq k) 1 (Or.inl (by show (y 1).val < 16 * k.val; exact hlt))).trans ?_
    refine (View.read_writes_cons_unit_of_not_mem (Val := Elt F) (a10).view f (off := k0_off7 k) (size := S1x16.size) (k0_off7_inb k) (wRow gv 1 k) _ y (k0_off7_eq k) 1 (Or.inl (by show (y 1).val < 16 * k.val; exact hlt))).trans ?_
    refine (View.read_writes_cons_unit_of_not_mem (Val := Elt F) (a10).view f (off := k0_off6 k) (size := S1x16.size) (k0_off6_inb k) (wRow gv 0 k) _ y (k0_off6_eq k) 1 (Or.inl (by show (y 1).val < 16 * k.val; exact hlt))).trans ?_
    rw [View.writes_nil]
    exact hf y hlt

/-- Before chunk `k`: the grid row as fetched, the two tables right on the columns of the chunks done. -/
def invT2 (d : Dev nD) (L : grid0.Coords) (gv : S1x2x512.Idx → Elt F EltTy.f32) (k : Nat) (_ : BitVec 32) : sProp 𝕄 :=
  iprop(((a7).view.loc (V d (cV L) (jV L)) ↦{fullShare} gv)
    ∗ (∃ fi : S4x512.Idx → BitVec 32, ((a9).view.loc (V d (cV L) (jV L)) ↦{fullShare} fi) ∗ ⌜∀ y : S4x512.Idx, (y 1).val < 16 * k → fi y = GIdx gv y⌝)
    ∗ (∃ fw : S4x512.Idx → Elt F EltTy.f32, ((a10).view.loc (V d (cV L) (jV L)) ↦{fullShare} fw) ∗ ⌜∀ y : S4x512.Idx, (y 1).val < 16 * k → fw y = GW gv y⌝))

set_option maxHeartbeats 4000000 in
/-- The weights loop: from the grid row, the two tables whole. -/
theorem t2_loop (d : Dev nD) (L : grid0.Coords)
    (gv : S1x2x512.Idx → Elt F EltTy.f32) (iv : S4x512.Idx → BitVec 32) (wv : S4x512.Idx → Elt F EltTy.f32) :
    iprop(((a7).view.loc (V d (cV L) (jV L)) ↦{fullShare} gv) ∗ ((a9).view.loc (V d (cV L) (jV L)) ↦{fullShare} iv) ∗ ((a10).view.loc (V d (cV L) (jV L)) ↦{fullShare} wv))
      ⊢ (wp frame (wpE (defs₀ (F := F)) 𝒱₀ (V d (cV L) (jV L)) none) Set.univ
          (Scf.Loop.for k0_t2_loop k0_t2_ok 0#32 (k0_t2_body L a2 (Memref.isWhole_whole _) a3 (Memref.isWhole_whole _) a4 (Memref.isWhole_whole _) a5 (Memref.isWhole_whole _) a6 (Memref.isWhole_whole _) a7 (Memref.isWhole_whole _)
            a8 (Memref.isWhole_whole _) a9 (Memref.isWhole_whole _) a10 (Memref.isWhole_whole _) a11 (Memref.isWhole_whole _) cc0_scratch6 cc0_scoped0 cc0_scoped1 cc0_scoped2))
          (fun _ => iprop(((a7).view.loc (V d (cV L) (jV L)) ↦{fullShare} gv)
            ∗ ((a9).view.loc (V d (cV L) (jV L)) ↦{fullShare} GIdx gv) ∗ ((a10).view.loc (V d (cV L) (jV L)) ↦{fullShare} GW gv))) : sProp 𝕄) := by
  iintro ⟨Hg, Hi, Hw⟩
  sl_for (invT2 d L gv) $$ [Hg Hi Hw]
  case region =>
    intro k acc
    unfold invT2
    iintro ⟨Hg, ⟨%fi, Hi, %hfi⟩, ⟨%fw, Hw, %hfw⟩⟩
    iapply (wp_wand_r frame (wpE (defs₀ (F := F)) 𝒱₀ (V d (cV L) (jV L)) none) Set.univ)
    isplitl [Hg Hi Hw]
    · iapply (t2_trip d L k acc gv fi fw)
      isplitl [Hg]; · iexact Hg
      isplitl [Hi]; · iexact Hi
      iexact Hw
    iintro %_ ⟨Hg, Hi, Hw⟩
    isplitl [Hg]; · iexact Hg
    isplitl [Hi]
    · iexists _; isplitl [Hi]; · iexact Hi
      ipureintro; exact fun y hy => GIdx_step gv k fi hfi y hy
    · iexists _; isplitl [Hw]; · iexact Hw
      ipureintro; exact fun y hy => GW_step gv k fw hfw y hy
  unfold invT2
  isplitl [Hg Hi Hw]
  · isplitl [Hg]; · iexact Hg
    isplitl [Hi]
    · iexists iv; isplitl [Hi]; · iexact Hi
      ipureintro; intro y hy; omega
    · iexists wv; isplitl [Hw]; · iexact Hw
      ipureintro; intro y hy; omega
  iintro %_ ⟨Hg, ⟨%fi, Hi, %hfi⟩, ⟨%fw, Hw, %hfw⟩⟩
  have ei : fi = GIdx gv := funext fun y => hfi y (by have h512 : (y 1).val < 512 := (y 1).isLt; show (y 1).val < 16 * 32; omega)
  have ew : fw = GW gv := funext fun y => hfw y (by have h512 : (y 1).val < 512 := (y 1).isLt; show (y 1).val < 16 * 32; omega)
  subst ei; subst ew
  isplitl [Hg]; · iexact Hg
  isplitl [Hi]; · iexact Hi
  iexact Hw

end Cert.Proof.KI

end
-- ==== Proof.Spec.lean ====
/-
  Bilinear sampling of a 16 × 16 plane with the border rule, on the extended reals.

  A sample position on one axis is described by two grid lines (the cell's lower and upper line, each pulled back
  into 0 … 15) and two weights that add up to 1.  The sampled value is the weighted sum of the four corner values.
  Two ways of computing the axis data are written down: one clips the continuous coordinate to [-1, 16] first and
  takes the integer part by truncating a shifted, non-negative number; the other takes the floor of the unclipped
  coordinate and clips the grid lines afterwards.  They differ only where both grid lines collapse onto the same
  border line, where the two weights multiply the same corner value and add up to 1 either way.
-/
import Idealize.ShloMosaic.PureOps.Ideal
import Idealize.ShloMosaic.Lib.ValueIdx

noncomputable section

namespace Cert.Spec

open Idealize.ShloMosaic Idealize.ShloMosaic.ValueIdx

/-- The numbers 16, 1/2, -1, 1 and 2 as the programs spell them. -/
abbrev c16 : EReal := Ideal.ofBits .f32 0x41800000#32
abbrev chalf : EReal := Ideal.ofBits .f32 0x3F000000#32
abbrev cneg1 : EReal := Ideal.ofBits .f32 0xBF800000#32
abbrev c1 : EReal := Ideal.ofBits .f32 0x3F800000#32
abbrev c2 : EReal := Ideal.ofBits .f32 0x40000000#32

/-- One axis of a sample: the two grid lines (as 32-bit words, each in 0 … 15) and their weights. -/
structure Axis where
  i0 : BitVec 32
  i1 : BitVec 32
  w0 : EReal
  w1 : EReal

/-- Clip first: `t = min 16 (max (-1) (16 x - 1/2))`, the cell's lower line `n = trunc (t + 16) - 16`,
    the upper weight `t - n`, the lines pulled back into 0 … 15 as integers. -/
def clipFirst (x : EReal) : Axis :=
  let t : EReal := min c16 (max cneg1 (x * c16 - chalf))
  let n : BitVec 32 := IntOp.subi (Ideal.fptosi 32 (t + c16)) 16#32
  let w1 : EReal := t - ((n.toInt : ℝ) : EReal)
  { i0 := IntOp.minsi 15#32 (IntOp.maxsi 0#32 n)
    i1 := IntOp.minsi 15#32 (IntOp.maxsi 0#32 (IntOp.addi n 1#32))
    w0 := c1 - w1
    w1 := w1 }

/-- Pull a (real-valued) grid line back into 0 … 15. -/
def clipLine (v : EReal) : EReal :=
  min (((15#32 : BitVec 32).toInt : ℝ) : EReal) (max (((0#32 : BitVec 32).toInt : ℝ) : EReal) v)

/-- Floor first: `t = ((2 x - 1 + 1) 16 - 1) / 2`, the cell's lower line `⌊t⌋`, the upper weight `t - ⌊t⌋`,
    the lines pulled back into 0 … 15 as reals and then converted. -/
def floorFirst (x : EReal) : Axis :=
  let g : EReal := x * c2 - c1
  let t : EReal := Ideal.div ((g + c1) * c16 - c1) c2
  let fl : EReal := Ideal.liftRound Int.floor t
  let w1 : EReal := t - fl
  { i0 := Ideal.fptosi 32 (clipLine fl)
    i1 := Ideal.fptosi 32 (clipLine (fl + c1))
    w0 := c1 - w1
    w1 := w1 }

/-- The weighted sum of the four corners, rows by `ay`, columns by `ax`, added left to right. -/
def blend (ay ax : Axis) (f : BitVec 32 → BitVec 32 → EReal) : EReal :=
  f ay.i0 ax.i0 * (ay.w0 * ax.w0) + f ay.i0 ax.i1 * (ay.w0 * ax.w1) + f ay.i1 ax.i0 * (ay.w1 * ax.w0)
    + f ay.i1 ax.i1 * (ay.w1 * ax.w1)

end Cert.Spec

end
-- ==== Proof.SpecLits.lean ====
/-
  The five literals of the sampling rule as real numbers, and the small facts about 32-bit words, the conversion of
  an extended real to a signed word, and the order on the extended reals that the range facts and the law use.
-/
import proofs.«207350_g59966333387111_cont_9to1_m_496_19_alg».proof.Proof.Spec

namespace Cert.Spec

open Idealize.ShloMosaic

/-! ### The literals -/

theorem c16_eq : c16 = ((16 : ℝ) : EReal) := by
  simp [Ideal.ofBits, Ideal.ieee, -EReal.coe_mul]; norm_num

theorem chalf_eq : chalf = (((1 : ℝ) / 2 : ℝ) : EReal) := by
  simp [Ideal.ofBits, Ideal.ieee, -EReal.coe_mul]; norm_num

theorem cneg1_eq : cneg1 = ((-1 : ℝ) : EReal) := by
  simp [Ideal.ofBits, Ideal.ieee, -EReal.coe_mul, -EReal.coe_neg]; norm_num

theorem c1_eq : c1 = ((1 : ℝ) : EReal) := by
  simp [Ideal.ofBits, Ideal.ieee, -EReal.coe_mul]; norm_num

theorem c2_eq : c2 = ((2 : ℝ) : EReal) := by
  simp [Ideal.ofBits, Ideal.ieee, -EReal.coe_mul]; norm_num

/-! ### Maximum and minimum of two reals inside the extended reals -/

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

/-! ### Signed 32-bit words -/

/-- An integer in the signed 32-bit range is the signed value of its word. -/
theorem toInt_ofInt32 {m : ℤ} (h0 : -2147483648 ≤ m) (h1 : m < 2147483648) : (BitVec.ofInt 32 m).toInt = m := by
  apply BitVec.toInt_ofInt_eq_self (by decide) <;> simpa using ‹_›

/-- Pulling a word back into 0 … 15 (signed maximum with 0, then signed minimum with 15) acts on the signed value
    as the integer clamp. -/
theorem clampWord_toInt (n : BitVec 32) :
    (IntOp.minsi 15#32 (IntOp.maxsi 0#32 n)).toInt = min 15 (max 0 n.toInt) := by
  have h15 : (15#32 : BitVec 32).toInt = 15 := by decide
  have h0 : (0#32 : BitVec 32).toInt = 0 := by decide
  unfold IntOp.minsi IntOp.maxsi
  simp only [BitVec.slt_eq_decide, h15, h0, decide_eq_true_eq]
  split_ifs <;> (try simp only [h15, h0]) <;> omega

/-- A word whose signed value lies in 0 … 15 has unsigned value below 16. -/
theorem toNat_lt_of_toInt {w : BitVec 32} (h0 : 0 ≤ w.toInt) (h1 : w.toInt ≤ 15) : w.toNat < 16 := by
  rw [BitVec.toInt_eq_toNat_cond] at h0 h1
  split_ifs at h0 h1 <;> omega

/-- The clamp of the word of an integer is the word of the clamped integer. -/
theorem clampWord_ofInt {m : ℤ} (h0 : -2147483648 ≤ m) (h1 : m < 2147483648) :
    IntOp.minsi 15#32 (IntOp.maxsi 0#32 (BitVec.ofInt 32 m)) = BitVec.ofInt 32 (min 15 (max 0 m)) := by
  apply BitVec.eq_of_toInt_eq
  rw [clampWord_toInt, toInt_ofInt32 h0 h1, toInt_ofInt32 (by omega) (by omega)]

theorem ofInt_sub16 (m : ℤ) : IntOp.subi (BitVec.ofInt 32 (m + 16)) 16#32 = BitVec.ofInt 32 m := by
  unfold IntOp.subi
  rw [BitVec.ofInt_add]
  have : (16#32 : BitVec 32) = BitVec.ofInt 32 16 := rfl
  rw [this]
  exact BitVec.add_sub_cancel (BitVec.ofInt 32 m) (BitVec.ofInt 32 16)

theorem ofInt_add1 (m : ℤ) : IntOp.addi (BitVec.ofInt 32 m) 1#32 = BitVec.ofInt 32 (m + 1) := by
  unfold IntOp.addi
  rw [BitVec.ofInt_add]; rfl

/-! ### Converting an extended real to a signed word -/

theorem clamp32 {k : ℤ} (h0 : -2147483648 ≤ k) (h1 : k ≤ 2147483647) :
    max (-((2 ^ (32 - 1) : ℕ) : ℤ)) (min (((2 ^ (32 - 1) : ℕ) : ℤ) - 1) k) = k := by
  have e : ((2 ^ (32 - 1) : ℕ) : ℤ) = 2147483648 := by norm_num
  rw [e]; omega

/-- A non-negative real below 2³¹ converts to the word of its floor. -/
theorem fptosi_coe_nonneg {r : ℝ} (h0 : 0 ≤ r) (h1 : r < 2147483648) :
    Ideal.fptosi 32 (r : EReal) = BitVec.ofInt 32 ⌊r⌋ := by
  unfold Ideal.fptosi
  rw [Ideal.toIntClamped_coe, if_pos h0]
  have hf0 : 0 ≤ ⌊r⌋ := Int.floor_nonneg.mpr h0
  have hf1 : ⌊r⌋ < 2147483648 := by
    rw [Int.floor_lt]; exact_mod_cast h1
  rw [clamp32 (by omega) (by omega)]

/-- An integer in the signed 32-bit range, as a real, converts to its own word. -/
theorem fptosi_intCast {k : ℤ} (h0 : -2147483648 ≤ k) (h1 : k ≤ 2147483647) :
    Ideal.fptosi 32 (((k : ℤ) : ℝ) : EReal) = BitVec.ofInt 32 k := by
  unfold Ideal.fptosi
  rw [Ideal.toIntClamped_coe, Int.floor_intCast, Int.ceil_intCast, ite_self, clamp32 h0 h1]

/-! ### Pulling a real-valued grid line back into 0 … 15 -/

theorem word15 : (((15#32 : BitVec 32).toInt : ℝ) : EReal) = ((15 : ℝ) : EReal) := by
  have : (15#32 : BitVec 32).toInt = 15 := by decide
  rw [this]; norm_num

theorem word0 : (((0#32 : BitVec 32).toInt : ℝ) : EReal) = ((0 : ℝ) : EReal) := by
  have : (0#32 : BitVec 32).toInt = 0 := by decide
  rw [this]; norm_num

/-- Whatever the extended real, the pulled-back line is a real number in [0, 15]. -/
theorem clipLine_real (v : EReal) : ∃ k : ℝ, 0 ≤ k ∧ k ≤ 15 ∧ clipLine v = (k : EReal) := by
  unfold clipLine; rw [word15, word0]
  induction v using EReal.rec with
  | bot => exact ⟨0, le_refl _, by norm_num, by rw [max_bot_right, coe_min]; norm_num⟩
  | top => exact ⟨15, by norm_num, le_refl _, by rw [max_top_right, min_top_right]⟩
  | coe r =>
    exact ⟨min 15 (max 0 r), le_min (by norm_num) (le_max_left _ _), min_le_left _ _, by rw [coe_max, coe_min]⟩

/-- On an integer the pull-back is the integer clamp. -/
theorem clipLine_intCast (k : ℤ) :
    clipLine (((k : ℤ) : ℝ) : EReal) = (((min 15 (max 0 k) : ℤ) : ℝ) : EReal) := by
  unfold clipLine; rw [word15, word0, coe_max, coe_min]
  push_cast; rfl

end Cert.Spec
-- ==== Proof.SpecRange.lean ====
/-
  Both ways of computing an axis name grid lines in 0 … 15, whatever the extended real they start from: the
  clip-first lines are an integer clamp of a word, the floor-first lines are the conversion of a real number that
  was clamped into [0, 15] before it was converted.
-/
import proofs.«207350_g59966333387111_cont_9to1_m_496_19_alg».proof.Proof.SpecLits

namespace Cert.Spec

open Idealize.ShloMosaic

/-- The integer clamp of any word has signed value in 0 … 15. -/
theorem clampWord_bounds (n : BitVec 32) :
    0 ≤ (IntOp.minsi 15#32 (IntOp.maxsi 0#32 n)).toInt ∧ (IntOp.minsi 15#32 (IntOp.maxsi 0#32 n)).toInt ≤ 15 := by
  rw [clampWord_toInt]; omega

/-- The conversion of any pulled-back line has signed value in 0 … 15: the line is a real k in [0, 15], its
    conversion is the word of ⌊k⌋, and 0 ≤ ⌊k⌋ ≤ 15. -/
theorem fptosi_clipLine_bounds (v : EReal) :
    0 ≤ (Ideal.fptosi 32 (clipLine v)).toInt ∧ (Ideal.fptosi 32 (clipLine v)).toInt ≤ 15 := by
  obtain ⟨k, h0, h1, hk⟩ := clipLine_real v
  have hf0 : 0 ≤ ⌊k⌋ := Int.floor_nonneg.mpr h0
  have hf1 : ⌊k⌋ < 16 := by
    rw [Int.floor_lt]; push_cast; linarith
  rw [hk, fptosi_coe_nonneg h0 (by linarith), toInt_ofInt32 (by omega) (by omega)]
  exact ⟨hf0, by omega⟩

theorem clipFirst_i0_toInt (x : EReal) : 0 ≤ (clipFirst x).i0.toInt ∧ (clipFirst x).i0.toInt ≤ 15 :=
  clampWord_bounds _

theorem clipFirst_i1_toInt (x : EReal) : 0 ≤ (clipFirst x).i1.toInt ∧ (clipFirst x).i1.toInt ≤ 15 :=
  clampWord_bounds _

theorem floorFirst_i0_toInt (x : EReal) : 0 ≤ (floorFirst x).i0.toInt ∧ (floorFirst x).i0.toInt ≤ 15 :=
  fptosi_clipLine_bounds _

theorem floorFirst_i1_toInt (x : EReal) : 0 ≤ (floorFirst x).i1.toInt ∧ (floorFirst x).i1.toInt ≤ 15 :=
  fptosi_clipLine_bounds _

theorem clipFirst_i0_lt (x : EReal) : (clipFirst x).i0.toNat < 16 :=
  toNat_lt_of_toInt (clipFirst_i0_toInt x).1 (clipFirst_i0_toInt x).2

theorem clipFirst_i1_lt (x : EReal) : (clipFirst x).i1.toNat < 16 :=
  toNat_lt_of_toInt (clipFirst_i1_toInt x).1 (clipFirst_i1_toInt x).2

theorem floorFirst_i0_lt (x : EReal) : (floorFirst x).i0.toNat < 16 :=
  toNat_lt_of_toInt (floorFirst_i0_toInt x).1 (floorFirst_i0_toInt x).2

theorem floorFirst_i1_lt (x : EReal) : (floorFirst x).i1.toNat < 16 :=
  toNat_lt_of_toInt (floorFirst_i1_toInt x).1 (floorFirst_i1_toInt x).2

end Cert.Spec
-- ==== Proof.KTablesBound.lean ====
import proofs.«207350_g59966333387111_cont_9to1_m_496_19_alg».proof.Proof.KTables
import proofs.«207350_g59966333387111_cont_9to1_m_496_19_alg».proof.Proof.SpecRange

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

variable [FloatOps F]

/-! ## Every entry of the offsets table is below 256

Each entry is `16 · a + b` for two words `a`, `b` that were pulled back into 0 … 15 (signed maximum with 0, then signed
minimum with 15), so it is at most `16 · 15 + 15`, whatever the coordinates were. -/

/-- A word pulled back into 0 … 15 is below 16 as an unsigned number. -/
theorem clampWord_lt (n : BitVec 32) : (IntOp.minsi 15#32 (IntOp.maxsi 0#32 n)).toNat < 16 :=
  Cert.Spec.toNat_lt_of_toInt (Cert.Spec.clampWord_bounds n).1 (Cert.Spec.clampWord_bounds n).2

/-- `16 · a + b` with `a, b < 16` is below 256, and the 32-bit arithmetic does not wrap. -/
theorem flat_lt {a b : BitVec 32} (ha : a.toNat < 16) (hb : b.toNat < 16) :
    (IntOp.addi (IntOp.muli a 16#32) b).toNat < 256 := by
  unfold IntOp.addi IntOp.muli
  have h16 : (16#32 : BitVec 32).toNat = 16 := rfl
  rw [BitVec.toNat_add, BitVec.toNat_mul, h16]
  omega

theorem idxRow_lt (gv : S1x2x512.Idx → Elt F EltTy.f32) (r : ℕ) (k : Fin k0_t2_loop.trips) (x : S1x16.Idx) :
    (idxRow gv r k x).toNat < 256 := by
  unfold idxRow
  split <;> (unfold shapeCast; exact flat_lt (clampWord_lt _) (clampWord_lt _))

/-- Every entry of the offsets table is below 256. -/
theorem GIdx_lt (gv : S1x2x512.Idx → Elt F EltTy.f32) (y : S4x512.Idx) : (GIdx gv y).toNat < 256 :=
  idxRow_lt gv _ _ _

end Cert.Proof.KI

end
-- ==== Proof.KAccumDefs.lean ====
/-
  The gather-and-accumulate loops of the sampling kernel: the value they leave in the output row,
  stated pointwise, and the bookkeeping of which columns are final before a given trip.
-/
import proofs.«207350_g59966333387111_cont_9to1_m_496_19_alg».proof.Proof.KBase
import Idealize.ShloMosaic.Lib.ValueIdx
import Idealize.ShloMosaic.Lib.ValueLayout
import Idealize.ShloMosaic.Lib.WritesUnit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

/-! ## The sampled value, pointwise

Column `col = 512 * ch + p` of the output row holds channel `ch` at sample point `p`: the four
corner features of that channel's plane, each times the point's corner weight, summed left to
right. Corner `r` of point `p` is the word `iv (r, p)`; channel `ch`'s plane starts `256 * ch`
words further on. -/

/-- The feature index of corner `r` of point `p` in channel `ch`: the word `iv (r, p) + 256 * ch`
    (32-bit addition) as a natural number, reduced below the feature buffer's length so that the
    definition is total. -/
def tapIx (iv : S4x512.Idx → BitVec 32) (r : Fin 4) (p : Fin 512) (ch : ℕ) : S32768.Idx :=
  ix1 (⟨(iv (ix2 r p) + BitVec.ofNat 32 (256 * ch)).toNat % 32768, Nat.mod_lt _ (by decide)⟩ : Fin 32768)

variable [FloatOps F]

/-- One corner's contribution: the feature times the weight. -/
def tapTerm (iv : S4x512.Idx → BitVec 32) (wv : S4x512.Idx → F .f32) (fv : S32768.Idx → F .f32)
    (ch : ℕ) (p : Fin 512) (r : Fin 4) : F .f32 :=
  FloatOps.mulf (fv (tapIx iv r p ch)) (wv (ix2 r p))

/-- Channel `ch` at point `p`: `((t₀ + t₁) + t₂) + t₃`. -/
def OutAt (iv : S4x512.Idx → BitVec 32) (wv : S4x512.Idx → F .f32) (fv : S32768.Idx → F .f32)
    (ch : ℕ) (p : Fin 512) : F .f32 :=
  FloatOps.addf (FloatOps.addf (FloatOps.addf (tapTerm iv wv fv ch p 0) (tapTerm iv wv fv ch p 1))
    (tapTerm iv wv fv ch p 2)) (tapTerm iv wv fv ch p 3)

/-- The point a column belongs to. -/
def colPt (y : S1x65536.Idx) : Fin 512 := ⟨(y 1).val % 512, Nat.mod_lt _ (by decide)⟩
/-- The channel a column belongs to. -/
def colCh (y : S1x65536.Idx) : ℕ := (y 1).val / 512

/-- The output row after the two loops. -/
def OutV (iv : S4x512.Idx → BitVec 32) (wv : S4x512.Idx → F .f32) (fv : S32768.Idx → F .f32) :
    S1x65536.Idx → F .f32 :=
  fun y => OutAt iv wv fv (colCh y) (colPt y)

/-! ## What is written before a trip -/

/-- Before chunk `k` of the outer loop: every channel of the points below `16 * k`. -/
def Done3 (k : ℕ) (y : S1x65536.Idx) : Prop := (colPt y).val < 16 * k

/-- Before channel `ch` of chunk `k`'s inner loop: moreover the channels below `ch` of the
    chunk's own sixteen points. -/
def Done4 (k ch : ℕ) (y : S1x65536.Idx) : Prop :=
  (colPt y).val < 16 * k ∨ ((colPt y).val < 16 * k + 16 ∧ colCh y < ch)

instance (k : ℕ) (y : S1x65536.Idx) : Decidable (Done3 k y) := by unfold Done3; infer_instance
instance (k ch : ℕ) (y : S1x65536.Idx) : Decidable (Done4 k ch y) := by unfold Done4; infer_instance

/-- The row with the columns of `P` at their final value and the others as they were. -/
def mix (iv : S4x512.Idx → BitVec 32) (wv : S4x512.Idx → F .f32) (fv : S32768.Idx → F .f32)
    (ov : S1x65536.Idx → F .f32) (P : S1x65536.Idx → Prop) [DecidablePred P] : S1x65536.Idx → F .f32 :=
  fun y => if P y then OutV iv wv fv y else ov y

omit [FloatOps F] in
theorem colCh_lt (y : S1x65536.Idx) : colCh y < 128 := by
  have h : (y 1).val < 65536 := idx2_lt1 y
  unfold colCh; omega

theorem mix_congr (iv : S4x512.Idx → BitVec 32) (wv : S4x512.Idx → F .f32) (fv : S32768.Idx → F .f32)
    (ov : S1x65536.Idx → F .f32) (P Q : S1x65536.Idx → Prop) [DecidablePred P] [DecidablePred Q]
    (h : ∀ y, P y ↔ Q y) : mix iv wv fv ov P = mix iv wv fv ov Q := by
  funext y; unfold mix
  by_cases hp : P y
  · rw [if_pos hp, if_pos ((h y).1 hp)]
  · rw [if_neg hp, if_neg (fun hq => hp ((h y).2 hq))]

/-- No channel of the chunk's own points is done when its inner loop starts. -/
theorem mix_Done4_zero (iv wv fv ov) (k : ℕ) :
    mix (F := F) iv wv fv ov (Done4 k 0) = mix iv wv fv ov (Done3 k) :=
  mix_congr iv wv fv ov _ _ fun y => by unfold Done4 Done3; omega

/-- All 128 channels of the chunk's own points are done when its inner loop ends. -/
theorem mix_Done4_last (iv wv fv ov) (k : ℕ) :
    mix (F := F) iv wv fv ov (Done4 k 128) = mix iv wv fv ov (Done3 (k + 1)) :=
  mix_congr iv wv fv ov _ _ fun y => by
    have := colCh_lt y
    unfold Done4 Done3; omega

/-- Nothing is done before the first chunk. -/
theorem mix_Done3_zero (iv wv fv ov) : mix (F := F) iv wv fv ov (Done3 0) = ov := by
  funext y
  have h : ¬ Done3 0 y := by unfold Done3; omega
  unfold mix; rw [if_neg h]

/-- Everything is done after the last chunk. -/
theorem mix_Done3_last (iv wv fv ov) : mix (F := F) iv wv fv ov (Done3 32) = OutV iv wv fv := by
  funext y
  have h : Done3 32 y := by have := (colPt y).isLt; unfold Done3; omega
  unfold mix; rw [if_pos h]

/-! ## The values the inner loop carries -/

/-- Corner `r`'s index vector before channel `ch` of chunk `k`: the chunk's sixteen words of row
    `r`, each moved on by `256 * ch`. -/
def carIx (iv : S4x512.Idx → BitVec 32) (k : ℕ) (r : Fin 4) (ch : ℕ) : IVec S16 32 :=
  fun x => iv (ix2 r (⟨(16 * k + (x 0).val) % 512, Nat.mod_lt _ (by decide)⟩ : Fin 512)) + BitVec.ofNat 32 (256 * ch)

/-- The store offset before channel `ch` of chunk `k`. -/
def carOff (k ch : ℕ) : BitVec 32 := BitVec.ofNat 32 (16 * k + 512 * ch)

end Cert.Proof.KI

end
-- ==== Proof.KQuery.lean ====
import proofs.«207350_g59966333387111_cont_9to1_m_496_19_alg».proof.Proof.KTablesLoop
import proofs.«207350_g59966333387111_cont_9to1_m_496_19_alg».proof.Proof.KTablesBound
import proofs.«207350_g59966333387111_cont_9to1_m_496_19_alg».proof.Proof.KAccumDefs
import proofs.«207350_g59966333387111_cont_9to1_m_496_19_alg».proof.Proof.KRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

variable [FloatOps F]

/-! ## One query of a worker

Query `k` of the worker at grid point `L`: its image number read out of the worker's index scratch, the image's
feature planes and the query's grid row fetched, the two tables built, the samples accumulated, the row written out. -/

/-- The query's number is a lane of the index scratch. -/
theorem chk1_all : ∀ k : Fin k0_t1_loop.trips, k0_chk1 (broadcast S16 (Scf.iv 0#32 1#32 k)) := by decide +kernel

/-- The image number of query `k`. -/
def imgOf (iiv : S32.Idx → BitVec 32) (k : Fin k0_t1_loop.trips) : BitVec 32 :=
  extractAt ![0] (k0_pay1 (F := F) (loadIdx (View.read (Elt F) ((a6).access (Rect.whole cc0_scratch0.ty.shape)) iiv) ![broadcast S16 (Scf.iv 0#32 1#32 k)] (k0_idx1_inb _ (chk1_all k)))) inpos_S1_p0

/-- The query's grid row and its image's feature planes, as the copies read them out of the whole arrays. -/
def gvOf (grid : S1024x2x512.Idx → Elt F EltTy.f32) (L : grid0.Coords) (k : Fin k0_t1_loop.trips) : S1x2x512.Idx → Elt F EltTy.f32 :=
  View.read (Elt F) ((a3).slice (Rect.unit (s := S1024x2x512) (k0_off3 L k) S1x2x512.size (k0_off3_inb L k)) (fun _ => rfl)).view grid
def fvOf (feat : S33554432.Idx → Elt F EltTy.f32) (img : BitVec 32) (h2 : k0_chk2 img) : S32768.Idx → Elt F EltTy.f32 :=
  View.read (Elt F) ((a4).slice (Rect.unit (s := S33554432) (k0_off2 img) S32768.size (k0_off2_inb img h2)) (fun _ => rfl)).view feat
/-- The row the query writes out. -/
def rowX (grid : S1024x2x512.Idx → Elt F EltTy.f32) (feat : S33554432.Idx → Elt F EltTy.f32) (iiv : S32.Idx → BitVec 32) (L : grid0.Coords) (k : Fin k0_t1_loop.trips)
    (h2 : k0_chk2 (imgOf (F := F) iiv k)) : S1x65536.Idx → Elt F EltTy.f32 :=
  OutV (GIdx (gvOf grid L k)) (GW (gvOf grid L k)) (fvOf feat (imgOf (F := F) iiv k) h2)

set_option maxHeartbeats 8000000 in
theorem t1_trip (d : Dev nD) (L : grid0.Coords) (k : Fin k0_t1_loop.trips) (acc : BitVec 32) (q : PosShare TreeShare)
    (O : CellTallies nD τ sig (HIx 1)) (W : Waits sig (HIx 1))
    (grid : S1024x2x512.Idx → Elt F EltTy.f32) (feat : S33554432.Idx → Elt F EltTy.f32) (out : S1024x65536.Idx → Elt F EltTy.f32)
    (iiv : S32.Idx → BitVec 32) (gv : S1x2x512.Idx → Elt F EltTy.f32) (fv : S32768.Idx → Elt F EltTy.f32) (iv : S4x512.Idx → BitVec 32) (wv : S4x512.Idx → Elt F EltTy.f32)
    (ov : S1x65536.Idx → Elt F EltTy.f32)
    (h2 : k0_chk2 (imgOf (F := F) iiv k))
    (hT3 : ∀ (iv : S4x512.Idx → BitVec 32) (wv : S4x512.Idx → Elt F EltTy.f32) (fv : S32768.Idx → Elt F EltTy.f32) (ov : S1x65536.Idx → Elt F EltTy.f32), (∀ y, (iv y).toNat < 256) →
      (iprop(((a9).view.loc (V d (cV L) (jV L)) ↦{fullShare} iv) ∗ ((a10).view.loc (V d (cV L) (jV L)) ↦{fullShare} wv) ∗ ((a8).view.loc (V d (cV L) (jV L)) ↦{fullShare} fv) ∗ ((a11).view.loc (V d (cV L) (jV L)) ↦{fullShare} ov))
        ⊢ (wp frame (wpE (defs₀ (F := F)) 𝒱₀ (V d (cV L) (jV L)) none) Set.univ
          (Scf.Loop.for k0_t3_loop k0_t3_ok 0#32 (k0_t3_body L a2 (Memref.isWhole_whole _) a3 (Memref.isWhole_whole _) a4 (Memref.isWhole_whole _) a5 (Memref.isWhole_whole _) a6 (Memref.isWhole_whole _) a7 (Memref.isWhole_whole _)
            a8 (Memref.isWhole_whole _) a9 (Memref.isWhole_whole _) a10 (Memref.isWhole_whole _) a11 (Memref.isWhole_whole _) cc0_scratch6 cc0_scoped0 cc0_scoped1 cc0_scoped2))
          (fun _ => iprop(((a9).view.loc (V d (cV L) (jV L)) ↦{fullShare} iv) ∗ ((a10).view.loc (V d (cV L) (jV L)) ↦{fullShare} wv) ∗ ((a8).view.loc (V d (cV L) (jV L)) ↦{fullShare} fv)
            ∗ ((a11).view.loc (V d (cV L) (jV L)) ↦{fullShare} OutV iv wv fv))) : sProp 𝕄))) :
    iprop(Transfers.MayWaits (V d (cV L) (jV L)) (none : HIx 1) O
        ∗ ((a3).view.loc (V d (cV L) (jV L)) ↦{q} grid) ∗ ((a4).view.loc (V d (cV L) (jV L)) ↦{q} feat)
        ∗ ((rowMem L k).view.loc (V d (cV L) (jV L)) ↦[(rowMem L k).view.set]{fullShare} out)
        ∗ ((a6).view.loc (V d (cV L) (jV L)) ↦{fullShare} iiv) ∗ ((a7).view.loc (V d (cV L) (jV L)) ↦{fullShare} gv) ∗ ((a8).view.loc (V d (cV L) (jV L)) ↦{fullShare} fv)
        ∗ ((a9).view.loc (V d (cV L) (jV L)) ↦{fullShare} iv) ∗ ((a10).view.loc (V d (cV L) (jV L)) ↦{fullShare} wv) ∗ ((a11).view.loc (V d (cV L) (jV L)) ↦{fullShare} ov)
        ∗ semVal (V d (cV L) (jV L), SemLoc.dma cc0_scratch6.sem) 0 ∗ semVal (V d (cV L) (jV L), SemLoc.dma cc0_scoped1.sem) 0 ∗ semVal (V d (cV L) (jV L), SemLoc.dma cc0_scoped2.sem) 0
        ∗ owes (V d (cV L) (jV L)) O W)
      ⊢ (wp frame (wpE (defs₀ (F := F)) 𝒱₀ (V d (cV L) (jV L)) none) Set.univ
          (k0_t1_body L a2 (Memref.isWhole_whole _) a3 (Memref.isWhole_whole _) a4 (Memref.isWhole_whole _) a5 (Memref.isWhole_whole _) a6 (Memref.isWhole_whole _) a7 (Memref.isWhole_whole _)
            a8 (Memref.isWhole_whole _) a9 (Memref.isWhole_whole _) a10 (Memref.isWhole_whole _) a11 (Memref.isWhole_whole _) cc0_scratch6 cc0_scoped0 cc0_scoped1 cc0_scoped2 k acc)
          (fun _ => iprop(Transfers.MayWaits (V d (cV L) (jV L)) (none : HIx 1) O
            ∗ ((a3).view.loc (V d (cV L) (jV L)) ↦{q} grid) ∗ ((a4).view.loc (V d (cV L) (jV L)) ↦{q} feat)
            ∗ ((rowMem L k).view.loc (V d (cV L) (jV L)) ↦[(rowMem L k).view.set]{fullShare}
                (rowMem L k).view.writes (Elt F) out [⟨Rect.whole S1x65536, rowX grid feat iiv L k h2⟩])
            ∗ ((a6).view.loc (V d (cV L) (jV L)) ↦{fullShare} iiv)
            ∗ (∃ gv' : S1x2x512.Idx → Elt F EltTy.f32, (a7).view.loc (V d (cV L) (jV L)) ↦{fullShare} gv')
            ∗ (∃ fv' : S32768.Idx → Elt F EltTy.f32, (a8).view.loc (V d (cV L) (jV L)) ↦{fullShare} fv')
            ∗ (∃ iv' : S4x512.Idx → BitVec 32, (a9).view.loc (V d (cV L) (jV L)) ↦{fullShare} iv')
            ∗ (∃ wv' : S4x512.Idx → Elt F EltTy.f32, (a10).view.loc (V d (cV L) (jV L)) ↦{fullShare} wv')
            ∗ (∃ ov' : S1x65536.Idx → Elt F EltTy.f32, (a11).view.loc (V d (cV L) (jV L)) ↦{fullShare} ov')
            ∗ semVal (V d (cV L) (jV L), SemLoc.dma cc0_scratch6.sem) 0 ∗ semVal (V d (cV L) (jV L), SemLoc.dma cc0_scoped1.sem) 0 ∗ semVal (V d (cV L) (jV L), SemLoc.dma cc0_scoped2.sem) 0
            ∗ ∃ W', ⌜∀ p ∈ W', p ∈ W ∨ p.2 = none⌝ ∗ owes (V d (cV L) (jV L)) O W')) : sProp 𝕄) := by
  have h1 := chk1_all k
  unfold k0_t1_body
  iintro ⟨Hmw, H3, H4, H5, H6, H7, H8, H9, H10, H11, Hs6, Hs1, Hs2, HO⟩
  sl_exec
  ihave H6' := (Entails.of_eq (show ((a6).view.loc (V d (cV L) (jV L)) ↦{fullShare} iiv : sProp 𝕄) = (((a6).access (.whole S32)).loc (V d (cV L) (jV L)) ↦{fullShare} iiv) from rfl)) $$ H6
  iapply (SparseCore.wp_vectorLoadIdx 𝒱₀ (V d (cV L) (jV L)) none Set.univ (base := a6) (S := Finset.univ) (q := fullShare) (Finset.subset_univ _)) $$ H6'; iintro H6'
  have h2' : k0_chk2 (extractAt ![0] (k0_pay1 (F := F) (loadIdx (View.read (Elt F) ((a6).access (Rect.whole cc0_scratch0.ty.shape)) iiv) ![broadcast S16 (Scf.iv 0#32 1#32 k)] (k0_idx1_inb _ h1))) inpos_S1_p0) := h2
  sl_exec
  rw [wp_bind]
  iapply (wp_wand_r frame (wpE (defs₀ (F := F)) 𝒱₀ (V d (cV L) (jV L)) none) Set.univ)
  isplitl [H7 H9 H10]
  · iapply (t2_loop d L _ iv wv)
    isplitl [H7]; · iexact H7
    isplitl [H9]; · iexact H9
    iexact H10
  iintro %_ ⟨H7, H9, H10⟩
  rw [wp_bind]
  iapply (wp_wand_r frame (wpE (defs₀ (F := F)) 𝒱₀ (V d (cV L) (jV L)) none) Set.univ)
  isplitl [H8 H9 H10 H11]
  · iapply (hT3 _ _ _ ov (fun y => GIdx_lt _ y))
    isplitl [H9]; · iexact H9
    isplitl [H10]; · iexact H10
    isplitl [H8]; · iexact H8
    iexact H11
  iintro %_ ⟨H9, H10, H8, H11⟩
  sl_exec
  sl_step
  isplitl [Hmw]; · iexact Hmw
  isplitl [H3]; · iexact H3
  isplitl [H4]; · iexact H4
  isplitl [H5]
  · have e : t1_trip.sl.dma0_2 d L k grid feat iiv gv fv h2 h1 = rowX grid feat iiv L k h2 := by
      unfold t1_trip.sl.dma0_2 rowX gvOf fvOf
      simp only [View.write_whole_univ]
      rfl
    rw [e]; iexact H5
  isplitl [H6']; · iexact H6'
  isplitl [H7]; · iexists _; iexact H7
  isplitl [H8]; · iexists _; iexact H8
  isplitl [H9]; · iexists _; iexact H9
  isplitl [H10]; · iexists _; iexact H10
  isplitl [H11]; · iexists _; iexact H11
  isplitl [Hs6]; · iexact Hs6
  isplitl [Hs1]; · iexact Hs1
  isplitl [Hs2]; · iexact Hs2
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Cert.Proof.KI

end
-- ==== Proof.KOut.lean ====
import proofs.«207350_g59966333387111_cont_9to1_m_496_19_alg».proof.Proof.KQuery

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

open Idealize.ShloMosaic.ValueIdx

variable [FloatOps F]

/-! ## The whole flat result, pointwise

Row `b` of the flat result is the row its query writes: the samples of the feature planes of image `ii b` at the
512 points of grid row `b`. -/

/-- Grid row `b`, as a 1 × 2 × 512 array. -/
def gvRow (grid : S1024x2x512.Idx → Elt F EltTy.f32) (b : Fin 1024) : S1x2x512.Idx → Elt F EltTy.f32 :=
  fun z => grid (ix3 b (z 1) (z 2))

/-- The 128 feature planes of the image numbered by the word `img`, flat. -/
def fvSlab (feat : S33554432.Idx → Elt F EltTy.f32) (img : BitVec 32) : S32768.Idx → Elt F EltTy.f32 :=
  fun z => feat (ix1 (⟨(img.toNat * 32768 + (z 0).val) % 33554432, Nat.mod_lt _ (by norm_num)⟩ : Fin 33554432))

/-- The flat result. -/
def OutFlat (ii : S1024.Idx → BitVec 32) (grid : S1024x2x512.Idx → Elt F EltTy.f32) (feat : S33554432.Idx → Elt F EltTy.f32) :
    S1024x65536.Idx → Elt F EltTy.f32 :=
  fun y => OutV (GIdx (gvRow grid (y 0))) (GW (gvRow grid (y 0))) (fvSlab feat (ii (ix1 (y 0)))) (ix2 (0 : Fin 1) (y 1))

end Cert.Proof.KI

end
-- ==== Proof.KLoop.lean ====
import proofs.«207350_g59966333387111_cont_9to1_m_496_19_alg».proof.Proof.KOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

open Idealize.ShloMosaic.ValueIdx

variable [FloatOps F]

/-! ## The worker's loop over its 32 queries -/

/-- The worker's 32 rows of the flat result before query `k`: the rows of the queries done hold the result, the others
    what they held at the start. -/
def rowsAt (d : Dev nD) (L : grid0.Coords) (OUT out0 : S1024x65536.Idx → Elt F EltTy.f32) (k : Nat) : sProp 𝕄 :=
  bigSep Finset.univ fun j : Fin k0_t1_loop.trips => oLoc d ↦[rowSetK L j]{fullShare} (if j.val < k then OUT else out0)

/-- Before query `k`. -/
def invT1 (d : Dev nD) (L : grid0.Coords) (q : PosShare TreeShare) (O : CellTallies nD τ sig (HIx 1)) (W : Waits sig (HIx 1))
    (grid : S1024x2x512.Idx → Elt F EltTy.f32) (feat : S33554432.Idx → Elt F EltTy.f32) (OUT out0 : S1024x65536.Idx → Elt F EltTy.f32)
    (iiv : S32.Idx → BitVec 32) (k : Nat) (_ : BitVec 32) : sProp 𝕄 :=
  iprop(Transfers.MayWaits (V d (cV L) (jV L)) (none : HIx 1) O
    ∗ ((a3).view.loc (V d (cV L) (jV L)) ↦{q} grid) ∗ ((a4).view.loc (V d (cV L) (jV L)) ↦{q} feat)
    ∗ rowsAt d L OUT out0 k
    ∗ ((a6).view.loc (V d (cV L) (jV L)) ↦{fullShare} iiv)
    ∗ (∃ gv' : S1x2x512.Idx → Elt F EltTy.f32, (a7).view.loc (V d (cV L) (jV L)) ↦{fullShare} gv')
    ∗ (∃ fv' : S32768.Idx → Elt F EltTy.f32, (a8).view.loc (V d (cV L) (jV L)) ↦{fullShare} fv')
    ∗ (∃ iv' : S4x512.Idx → BitVec 32, (a9).view.loc (V d (cV L) (jV L)) ↦{fullShare} iv')
    ∗ (∃ wv' : S4x512.Idx → Elt F EltTy.f32, (a10).view.loc (V d (cV L) (jV L)) ↦{fullShare} wv')
    ∗ (∃ ov' : S1x65536.Idx → Elt F EltTy.f32, (a11).view.loc (V d (cV L) (jV L)) ↦{fullShare} ov')
    ∗ semVal ((V d (cV L) (jV L)), SemLoc.dma cc0_scratch6.sem) 0 ∗ semVal ((V d (cV L) (jV L)), SemLoc.dma cc0_scoped1.sem) 0 ∗ semVal ((V d (cV L) (jV L)), SemLoc.dma cc0_scoped2.sem) 0
    ∗ ∃ W', ⌜∀ p ∈ W', p ∈ W ∨ p.2 = none⌝ ∗ owes (V d (cV L) (jV L)) O W')

theorem rowsAt_step (d : Dev nD) (L : grid0.Coords) (OUT out0 : S1024x65536.Idx → Elt F EltTy.f32) (k : Fin k0_t1_loop.trips) :
    (bigSep ((Finset.univ : Finset (Fin k0_t1_loop.trips)).erase k) fun j => (oLoc d ↦[rowSetK L j]{fullShare} (if j.val < k.val then OUT else out0) : sProp 𝕄))
      = bigSep ((Finset.univ : Finset (Fin k0_t1_loop.trips)).erase k) fun j => oLoc d ↦[rowSetK L j]{fullShare} (if j.val < k.val + 1 then OUT else out0) := by
  refine bigSep_congr fun j hj => ?_
  have hne : j ≠ k := (Finset.mem_erase.mp hj).1
  have hv : j.val ≠ k.val := fun e => hne (Fin.ext e)
  by_cases h : j.val < k.val
  · rw [if_pos h, if_pos (by omega)]
  · rw [if_neg h, if_neg (by omega)]

set_option maxHeartbeats 8000000 in
theorem t1_loop (d : Dev nD) (L : grid0.Coords) (q : PosShare TreeShare) (O : CellTallies nD τ sig (HIx 1)) (W : Waits sig (HIx 1))
    (ii : S1024.Idx → BitVec 32) (grid : S1024x2x512.Idx → Elt F EltTy.f32) (feat : S33554432.Idx → Elt F EltTy.f32) (out0 : S1024x65536.Idx → Elt F EltTy.f32)
    (iiv : S32.Idx → BitVec 32)
    (hchk2 : ∀ k : Fin k0_t1_loop.trips, k0_chk2 (imgOf (F := F) iiv k))
    (hrow : ∀ (k : Fin k0_t1_loop.trips) (h2 : k0_chk2 (imgOf (F := F) iiv k)), ∀ y ∈ rowSetK L k,
      ((rowMem L k).view.writes (Elt F) out0 [⟨Rect.whole S1x65536, rowX grid feat iiv L k h2⟩]) y = OutFlat ii grid feat y)
    (hT3 : ∀ (iv : S4x512.Idx → BitVec 32) (wv : S4x512.Idx → Elt F EltTy.f32) (fv : S32768.Idx → Elt F EltTy.f32) (ov : S1x65536.Idx → Elt F EltTy.f32), (∀ y, (iv y).toNat < 256) →
      (iprop(((a9).view.loc (V d (cV L) (jV L)) ↦{fullShare} iv) ∗ ((a10).view.loc (V d (cV L) (jV L)) ↦{fullShare} wv) ∗ ((a8).view.loc (V d (cV L) (jV L)) ↦{fullShare} fv) ∗ ((a11).view.loc (V d (cV L) (jV L)) ↦{fullShare} ov))
        ⊢ (wp frame (wpE (defs₀ (F := F)) 𝒱₀ (V d (cV L) (jV L)) none) Set.univ
          (Scf.Loop.for k0_t3_loop k0_t3_ok 0#32 (k0_t3_body L a2 (Memref.isWhole_whole _) a3 (Memref.isWhole_whole _) a4 (Memref.isWhole_whole _) a5 (Memref.isWhole_whole _) a6 (Memref.isWhole_whole _) a7 (Memref.isWhole_whole _)
            a8 (Memref.isWhole_whole _) a9 (Memref.isWhole_whole _) a10 (Memref.isWhole_whole _) a11 (Memref.isWhole_whole _) cc0_scratch6 cc0_scoped0 cc0_scoped1 cc0_scoped2))
          (fun _ => iprop(((a9).view.loc (V d (cV L) (jV L)) ↦{fullShare} iv) ∗ ((a10).view.loc (V d (cV L) (jV L)) ↦{fullShare} wv) ∗ ((a8).view.loc (V d (cV L) (jV L)) ↦{fullShare} fv)
            ∗ ((a11).view.loc (V d (cV L) (jV L)) ↦{fullShare} OutV iv wv fv))) : sProp 𝕄))) :
    invT1 d L q O W grid feat (OutFlat ii grid feat) out0 iiv 0 0#32
      ⊢ (wp frame (wpE (defs₀ (F := F)) 𝒱₀ (V d (cV L) (jV L)) none) Set.univ
          (Scf.Loop.for k0_t1_loop k0_t1_ok 0#32 (k0_t1_body L a2 (Memref.isWhole_whole _) a3 (Memref.isWhole_whole _) a4 (Memref.isWhole_whole _) a5 (Memref.isWhole_whole _) a6 (Memref.isWhole_whole _) a7 (Memref.isWhole_whole _)
            a8 (Memref.isWhole_whole _) a9 (Memref.isWhole_whole _) a10 (Memref.isWhole_whole _) a11 (Memref.isWhole_whole _) cc0_scratch6 cc0_scoped0 cc0_scoped1 cc0_scoped2))
          (fun acc => invT1 d L q O W grid feat (OutFlat ii grid feat) out0 iiv 32 acc) : sProp 𝕄) := by
  iintro HI
  sl_for (invT1 d L q O W grid feat (OutFlat ii grid feat) out0 iiv) $$ [HI]
  case region =>
    intro k acc
    unfold invT1 rowsAt
    iintro ⟨Hmw, H3, H4, Hrows, H6, ⟨%gv, H7⟩, ⟨%fv, H8⟩, ⟨%iv, H9⟩, ⟨%wv, H10⟩, ⟨%ov, H11⟩, Hs6, Hs1, Hs2, %W', %hW', HO⟩
    ihave Hr := (Entails.of_eq (SparseCore.bigSep_erase' (Finset.mem_univ k))) $$ Hrows
    icases Hr with ⟨Hrow, Hrest⟩
    ihave Hrow := (Entails.of_eq (show (oLoc d ↦[rowSetK L k]{fullShare} (if k.val < k.val then OutFlat ii grid feat else out0) : sProp 𝕄)
        = ((rowMem L k).view.loc (V d (cV L) (jV L)) ↦[(rowMem L k).view.set]{fullShare} out0) from by rw [if_neg (lt_irrefl _)])) $$ Hrow
    iapply (wp_wand_r frame (wpE (defs₀ (F := F)) 𝒱₀ (V d (cV L) (jV L)) none) Set.univ)
    isplitl [Hmw H3 H4 Hrow H6 H7 H8 H9 H10 H11 Hs6 Hs1 Hs2 HO]
    · iapply (t1_trip d L k acc q O W' grid feat out0 iiv gv fv iv wv ov (hchk2 k) hT3)
      isplitl [Hmw]; · iexact Hmw
      isplitl [H3]; · iexact H3
      isplitl [H4]; · iexact H4
      isplitl [Hrow]; · iexact Hrow
      isplitl [H6]; · iexact H6
      isplitl [H7]; · iexact H7
      isplitl [H8]; · iexact H8
      isplitl [H9]; · iexact H9
      isplitl [H10]; · iexact H10
      isplitl [H11]; · iexact H11
      isplitl [Hs6]; · iexact Hs6
      isplitl [Hs1]; · iexact Hs1
      isplitl [Hs2]; · iexact Hs2
      iexact HO
    iintro %_ ⟨Hmw, H3, H4, Hrow, H6, H7, H8, H9, H10, H11, Hs6, Hs1, Hs2, %W'', %hW'', HO⟩
    ihave Hrow := (Entails.of_eq (show (((rowMem L k).view.loc (V d (cV L) (jV L)) ↦[(rowMem L k).view.set]{fullShare}
          (rowMem L k).view.writes (Elt F) out0 [⟨Rect.whole S1x65536, rowX grid feat iiv L k (hchk2 k)⟩]) : sProp 𝕄)
        = (oLoc d ↦[rowSetK L k]{fullShare} (if k.val < k.val + 1 then OutFlat ii grid feat else out0)) from by
          rw [if_pos (Nat.lt_succ_self _)]
          exact pointsTo_congr (hrow k (hchk2 k)))) $$ Hrow
    ihave Hrest := (Entails.of_eq (rowsAt_step d L (OutFlat ii grid feat) out0 k)) $$ Hrest
    isplitl [Hmw]; · iexact Hmw
    isplitl [H3]; · iexact H3
    isplitl [H4]; · iexact H4
    isplitl [Hrow Hrest]
    · iapply (Entails.of_eq (SparseCore.bigSep_erase' (Finset.mem_univ k)).symm)
      isplitl [Hrow]; · iexact Hrow
      iexact Hrest
    isplitl [H6]; · iexact H6
    isplitl [H7]; · iexact H7
    isplitl [H8]; · iexact H8
    isplitl [H9]; · iexact H9
    isplitl [H10]; · iexact H10
    isplitl [H11]; · iexact H11
    isplitl [Hs6]; · iexact Hs6
    isplitl [Hs1]; · iexact Hs1
    isplitl [Hs2]; · iexact Hs2
    iexists W''; isplitr
    · ipureintro; intro p hp
      rcases hW'' p hp with h | h
      · exact hW' p h
      · exact .inr h
    · iexact HO
  isplitl [HI]; · iexact HI
  iintro %acc HI
  iexact HI

end Cert.Proof.KI

end
-- ==== Proof.KOwn.lean ====
/-
  The sampling kernel on one vector subcore: what the subcore owns at launch, with the semaphore cells and scratch
  buffers the kernel names taken out of the whole.
-/
import proofs.«207350_g59966333387111_cont_9to1_m_496_19_alg».proof.Proof.KBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

/-!
  What a vector subcore owns, with the cells and buffers this kernel names taken out.

  The subcore's own semaphore cells are its four DMA semaphores (the scratch operand's and the three scoped
  allocations') and the rest; its own buffers are its six scratch buffers and the rest.
-/

/-- The four DMA semaphore cells of subcore `i` of SparseCore `c`: the scratch operand's and the three scoped ones. -/
abbrev cellQ (d : Dev nD) (c : Fin τ.nSC) (i : Fin τ.nSub) : GSem nD τ sig := (V d c i, .dma cc0_scratch6.sem)
abbrev cellA (d : Dev nD) (c : Fin τ.nSC) (i : Fin τ.nSub) : GSem nD τ sig := (V d c i, .dma cc0_scoped0.sem)
abbrev cellB (d : Dev nD) (c : Fin τ.nSC) (i : Fin τ.nSub) : GSem nD τ sig := (V d c i, .dma cc0_scoped1.sem)
abbrev cellC (d : Dev nD) (c : Fin τ.nSC) (i : Fin τ.nSub) : GSem nD τ sig := (V d c i, .dma cc0_scoped2.sem)

variable (d : Dev nD) (L : grid0.Coords)

/-- The subcore's own cells other than the four. -/
abbrev restCells : Finset (GSem nD τ sig) :=
  (((((ownCells (V d (cV L) (jV L))).erase (cellQ d (cV L) (jV L))).erase (cellA d (cV L) (jV L))).erase (cellB d (cV L) (jV L))).erase (cellC d (cV L) (jV L)))
/-- The subcore's own buffers other than the six scratch buffers. -/
abbrev restRefs : Finset (DevRef τ sig) :=
  (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))

theorem ownSems0_V4 :
    (ownSems0 (V d (cV L) (jV L)) : sProp 𝕄)
      = iprop(semVal (cellQ d (cV L) (jV L)) 0 ∗ semVal (cellA d (cV L) (jV L)) 0 ∗ semVal (cellB d (cV L) (jV L)) 0
          ∗ semVal (cellC d (cV L) (jV L)) 0 ∗ bigSep (restCells d L) fun g => semVal g 0) := by
  unfold SparseCore.Cfg.ownSems0
  rw [SparseCore.bigSep_erase' ((mem_ownCells (g := cellQ d (cV L) (jV L))).mpr ⟨rfl, by show (SemLoc.dma cc0_scratch6.sem : SemLoc sig).isScoped .scVector = true; decide⟩),
    SparseCore.bigSep_erase' (Finset.mem_erase.mpr ⟨fun e => absurd (congrArg Prod.snd e) (show (SemLoc.dma cc0_scoped0.sem : SemLoc sig) ≠ SemLoc.dma cc0_scratch6.sem by decide), (mem_ownCells (g := cellA d (cV L) (jV L))).mpr ⟨rfl, by show (SemLoc.dma cc0_scoped0.sem : SemLoc sig).isScoped .scVector = true; decide⟩⟩),
    SparseCore.bigSep_erase' (Finset.mem_erase.mpr ⟨fun e => absurd (congrArg Prod.snd e) (show (SemLoc.dma cc0_scoped1.sem : SemLoc sig) ≠ SemLoc.dma cc0_scoped0.sem by decide), Finset.mem_erase.mpr ⟨fun e => absurd (congrArg Prod.snd e) (show (SemLoc.dma cc0_scoped1.sem : SemLoc sig) ≠ SemLoc.dma cc0_scratch6.sem by decide), (mem_ownCells (g := cellB d (cV L) (jV L))).mpr ⟨rfl, by show (SemLoc.dma cc0_scoped1.sem : SemLoc sig).isScoped .scVector = true; decide⟩⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), Finset.mem_erase.mpr ⟨fun e => absurd (congrArg Prod.snd e) (show (SemLoc.dma cc0_scoped2.sem : SemLoc sig) ≠ SemLoc.dma cc0_scratch6.sem by decide), (mem_ownCells (g := cellC d (cV L) (jV L))).mpr ⟨rfl, by show (SemLoc.dma cc0_scoped2.sem : SemLoc sig).isScoped .scVector = true; decide⟩⟩⟩⟩)]

/-- The six scratch buffers are among the subcore's own: they are them, each at some contents, and the rest. -/
theorem ownBufs_V6 :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := (Proc.scVector (cV L) (jV L)).devRef cc0_scratch5) rfl⟩⟩⟩⟩⟩)]

end Cert.Proof.KI

end
-- ==== Proof.KQueryFacts.lean ====
/-
  The sampling kernel on one vector subcore: the values one query reads and writes, as values of the whole arrays.
-/
import proofs.«207350_g59966333387111_cont_9to1_m_496_19_alg».proof.Proof.KOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

open Idealize.ShloMosaic.ValueIdx

variable [FloatOps F]

/-!
  One query's values, as values of the whole arrays.

  The image number of query `k` is lane `k` of the index scratch; the grid row and the feature planes the copies
  read are grid row `64·s + 32·c + k` and the planes of that image; the row the query writes is the corresponding
  row of the flat result stated pointwise.
-/

/-- Trip `k`'s induction word is `k`. -/
theorem t1_iv_toNat : ∀ k : Fin k0_t1_loop.trips, (Scf.iv 0#32 1#32 k).toNat = k.val := by decide +kernel

/-- The image number of query `k` is lane `k` of the index scratch. -/
theorem imgOf_eq (iiv : S32.Idx → BitVec 32) (k : Fin k0_t1_loop.trips) :
    imgOf (F := F) iiv k = iiv (ix1 (⟨k.val, k.isLt⟩ : Fin 32)) := by
  unfold imgOf k0_pay1 extractAt extractStridedSlice loadIdx idxAt
  rw [Memref.read_access_whole]
  show iiv _ = iiv _
  congr 1
  funext a
  match a with
  | ⟨0, _⟩ => exact Fin.ext (t1_iv_toNat k)

/-- An image number in `[0, 1023]` names a slab inside the flat features. -/
theorem chk2_of_range (img : BitVec 32) (h : 0 ≤ img.toInt ∧ img.toInt ≤ 1023) : k0_chk2 img := by
  obtain ⟨h0, h1⟩ := h
  have hlt : img.toNat < 4294967296 := img.isLt
  have hn : img.toNat ≤ 1023 := by
    rw [BitVec.toInt_eq_toNat_cond] at h0 h1
    split at h0 <;> omega
  intro a
  match a with
  | ⟨0, _⟩ =>
    show (Scalar.muli img 32768#32).toNat + 32768 ≤ 33554432
    have e : (Scalar.muli img 32768#32).toNat = (img.toNat * 32768) % 4294967296 := by
      show (img * 32768#32).toNat = _
      rw [BitVec.toNat_mul]; rfl
    rw [e]; omega

/-- The grid row the copy reads is grid row `64·s + 32·c + k`. -/
theorem gvOf_eq (grid : S1024x2x512.Idx → Elt F EltTy.f32) (L : grid0.Coords) (k : Fin k0_t1_loop.trips) :
    gvOf grid L k = gvRow grid (⟨64 * (L 1).val + 32 * (L 0).val + k.val, by
      have h1 : (L 1).val < 16 := (L 1).isLt
      have h0 : (L 0).val < 2 := (L 0).isLt
      have hk : k.val < 32 := k.isLt
      omega⟩ : Fin 1024) := by
  funext z
  obtain ⟨e0, e1, e2⟩ := grid_emb L k z
  unfold gvOf gvRow
  refine ((View.read_apply _ _).trans (cast_eq _ _)).trans ?_
  congr 1
  funext a
  match a with
  | ⟨0, _⟩ => exact Fin.ext e0
  | ⟨1, _⟩ => exact Fin.ext e1
  | ⟨2, _⟩ => exact Fin.ext e2

/-- The feature planes the copy reads are the planes of the image the word numbers. -/
theorem fvOf_eq (feat : S33554432.Idx → Elt F EltTy.f32) (img : BitVec 32) (h2 : k0_chk2 img) :
    fvOf feat img h2 = fvSlab feat img := by
  funext z
  unfold fvOf fvSlab
  refine ((View.read_apply _ _).trans (cast_eq _ _)).trans ?_
  congr 1
  funext a
  match a with
  | ⟨0, _⟩ =>
    refine Fin.ext ?_
    have hz : (z 0).val < 32768 := (z 0).isLt
    have hb : (Scalar.muli img 32768#32).toNat + 32768 ≤ 33554432 := h2 0
    have e : (Scalar.muli img 32768#32).toNat = (img.toNat * 32768) % 4294967296 := by
      show (img * 32768#32).toNat = _
      rw [BitVec.toNat_mul]; rfl
    show (Scalar.muli img 32768#32).toNat + 1 * (z 0).val = (img.toNat * 32768 + (z 0).val) % 33554432
    rw [e] at hb ⊢; omega

/-- Lane `k` of the index scratch, when the scratch holds the worker's 32 image indices, is image index
    `64·s + 32·c + k`. -/
theorem ii_at (L : grid0.Coords) (k : Fin k0_t1_loop.trips) :
    (iiMem L).view.emb (ix1 (⟨k.val, k.isLt⟩ : Fin 32))
      = ix1 (⟨64 * (L 1).val + 32 * (L 0).val + k.val, by
          have h1 : (L 1).val < 16 := (L 1).isLt
          have h0 : (L 0).val < 2 := (L 0).isLt
          have hk : k.val < 32 := k.isLt
          omega⟩ : Fin 1024) := by
  funext a
  match a with
  | ⟨0, _⟩ => exact Fin.ext (ii_emb L (ix1 (⟨k.val, k.isLt⟩ : Fin 32)))

/-- The output row is a function of its three tables and the place. -/
theorem OutV_congr {iv iv' : S4x512.Idx → BitVec 32} {wv wv' : S4x512.Idx → Elt F EltTy.f32} {fv fv' : S32768.Idx → Elt F EltTy.f32}
    {y y' : S1x65536.Idx} (h1 : iv = iv') (h2 : wv = wv') (h3 : fv = fv') (h4 : y = y') :
    OutV iv wv fv y = OutV iv' wv' fv' y' := by
  subst h1 h2 h3 h4; rfl

/-- The row query `k` writes is row `64·s + 32·c + k` of the flat result. -/
theorem row_lands (L : grid0.Coords) (k : Fin k0_t1_loop.trips) (ii : S1024.Idx → BitVec 32)
    (grid : S1024x2x512.Idx → Elt F EltTy.f32) (feat : S33554432.Idx → Elt F EltTy.f32) (out : S1024x65536.Idx → Elt F EltTy.f32)
    (iiv : S32.Idx → BitVec 32) (hiiv : ∀ x, iiv x = ii ((iiMem L).view.emb x)) (h2 : k0_chk2 (imgOf (F := F) iiv k)) :
    ∀ y ∈ rowSetK L k,
      ((rowMem L k).view.writes (Elt F) out [⟨Rect.whole S1x65536, rowX grid feat iiv L k h2⟩]) y = OutFlat ii grid feat y := by
  intro y hy
  obtain ⟨x, -, rfl⟩ := Finset.mem_map.mp hy
  have hr := congrFun (View.read_writes_whole (rowMem L k).view out (rowX grid feat iiv L k h2)) x
  rw [View.read_apply] at hr
  refine ((cast_eq _ _).symm.trans hr).trans ?_
  obtain ⟨e0, e1⟩ := row_emb L k x
  have h0 : (rowMem L k).view.emb x 0 = (⟨64 * (L 1).val + 32 * (L 0).val + k.val, by
      have h1 : (L 1).val < 16 := (L 1).isLt
      have h0 : (L 0).val < 2 := (L 0).isLt
      have hk : k.val < 32 := k.isLt
      omega⟩ : Fin 1024) := Fin.ext e0
  have hx : x = ix2 (0 : Fin 1) ((rowMem L k).view.emb x 1) := by
    funext a
    match a with
    | ⟨0, _⟩ => exact Fin.ext (by have hx0 : (x 0).val < 1 := (x 0).isLt; show (x 0).val = 0; omega)
    | ⟨1, _⟩ => exact Fin.ext e1.symm
  show OutV (GIdx (gvOf grid L k)) (GW (gvOf grid L k)) (fvOf feat (imgOf (F := F) iiv k) h2) x
    = OutV (GIdx (gvRow grid ((rowMem L k).view.emb x 0))) (GW (gvRow grid ((rowMem L k).view.emb x 0)))
        (fvSlab feat (ii (ix1 ((rowMem L k).view.emb x 0)))) (ix2 (0 : Fin 1) ((rowMem L k).view.emb x 1))
  have hA : gvOf grid L k = gvRow grid ((rowMem L k).view.emb x 0) := by
    rw [gvOf_eq]; exact congrArg (gvRow grid) h0.symm
  have hC : fvOf feat (imgOf (F := F) iiv k) h2 = fvSlab feat (ii (ix1 ((rowMem L k).view.emb x 0))) := by
    rw [fvOf_eq, imgOf_eq, hiiv, ii_at]; exact congrArg (fun b : Fin 1024 => fvSlab feat (ii (ix1 b))) h0.symm
  exact OutV_congr (congrArg GIdx hA) (congrArg GW hA) hC hx

/-- What the first copy leaves in the index scratch: the worker's 32 image indices. -/
theorem ii_lands (L : grid0.Coords) (ii : S1024.Idx → BitVec 32) (iiv0 : S32.Idx → BitVec 32) :
    ∀ x, ((a6).view.write (Elt F) iiv0 ((iiMem L).view.read (Elt F) ii) Finset.univ) x = ii ((iiMem L).view.emb x) := by
  intro x
  have h := congrFun (View.write_whole_univ (Val := Elt F) cc0_scratch0 iiv0 ((iiMem L).view.read (Elt F) ii)) x
  exact h.trans ((View.read_apply _ _).trans (cast_eq _ _))

/-- The same, the data read as they are. -/
theorem ii_lands_same (L : grid0.Coords) (ii : S1024.Idx → BitVec 32) (iiv0 : S32.Idx → BitVec 32) :
    ∀ x, ((a6).view.write (Elt F) iiv0
        ((ReadAs.same : ReadAs (Elt F) S32 EltTy.i32 S32 EltTy.i32).apply ((iiMem L).view.read (Elt F) ii)) Finset.univ) x
      = ii ((iiMem L).view.emb x) :=
  ii_lands L ii iiv0

end Cert.Proof.KI

end
-- ==== Proof.KAccumLemmas.lean ====
/-
  The gather-and-accumulate loops: the carried words in closed form, and the effect of one store of
  the inner loop on the output row.
-/
import proofs.«207350_g59966333387111_cont_9to1_m_496_19_alg».proof.Proof.KBase
import proofs.«207350_g59966333387111_cont_9to1_m_496_19_alg».proof.Proof.KAccumDefs
import Idealize.ShloMosaic.Lib.ValueIdx
import Idealize.ShloMosaic.Lib.ValueLayout
import Idealize.ShloMosaic.Lib.WritesUnit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

variable [FloatOps F]

/-! ## Words -/

omit [FloatOps F] in
/-- A carried index is its loaded word plus `256 * ch`, as natural numbers: nothing wraps. -/
theorem carIx_toNat (iv : S4x512.Idx → BitVec 32) (hiv : ∀ y, (iv y).toNat < 256) (k : ℕ) (r : Fin 4) (ch : ℕ)
    (hch : ch < 128) (x : S16.Idx) :
    (carIx iv k r ch x).toNat
      = (iv (ix2 r (⟨(16 * k + (x 0).val) % 512, Nat.mod_lt _ (by decide)⟩ : Fin 512))).toNat + 256 * ch := by
  have h := hiv (ix2 r (⟨(16 * k + (x 0).val) % 512, Nat.mod_lt _ (by decide)⟩ : Fin 512))
  unfold carIx
  rw [BitVec.toNat_add, BitVec.toNat_ofNat]
  omega

omit [FloatOps F] in
theorem carIx_lt (iv : S4x512.Idx → BitVec 32) (hiv : ∀ y, (iv y).toNat < 256) (k : ℕ) (r : Fin 4) (ch : ℕ)
    (hch : ch < 128) (x : S16.Idx) : (carIx iv k r ch x).toNat < 32768 := by
  have h := hiv (ix2 r (⟨(16 * k + (x 0).val) % 512, Nat.mod_lt _ (by decide)⟩ : Fin 512))
  rw [carIx_toNat iv hiv k r ch hch x]; omega

omit [FloatOps F] in
/-- One more channel: each carried index moves on by 256. -/
theorem carIx_succ (iv : S4x512.Idx → BitVec 32) (k : ℕ) (r : Fin 4) (ch : ℕ) :
    addi (carIx iv k r ch) (broadcast S16 256#32) = carIx iv k r (ch + 1) := by
  funext x
  show carIx iv k r ch x + 256#32 = carIx iv k r (ch + 1) x
  unfold carIx
  rw [BitVec.add_assoc]
  congr 1
  apply BitVec.eq_of_toNat_eq
  rw [BitVec.toNat_add, BitVec.toNat_ofNat, BitVec.toNat_ofNat, BitVec.toNat_ofNat]
  omega

omit [FloatOps F] in
theorem carOff_toNat (k ch : ℕ) (hk : k < 32) (hch : ch < 128) : (carOff k ch).toNat = 16 * k + 512 * ch := by
  unfold carOff; rw [BitVec.toNat_ofNat]; omega

omit [FloatOps F] in
theorem carOff_succ (k ch : ℕ) : Scalar.addi (carOff k ch) 512#32 = carOff k (ch + 1) := by
  show carOff k ch + 512#32 = carOff k (ch + 1)
  unfold carOff
  apply BitVec.eq_of_toNat_eq
  rw [BitVec.toNat_add, BitVec.toNat_ofNat, BitVec.toNat_ofNat, BitVec.toNat_ofNat]
  omega

omit [FloatOps F] in
/-- The store's offsets before channel `ch` of chunk `k`: row 0, column `16 * k + 512 * ch`. -/
theorem off14_car (k ch : ℕ) (hk : k < 32) (hch : ch < 128) : k0_off14 (carOff k ch) = ![0, 16 * k + 512 * ch] := by
  show ![0, (carOff k ch).toNat] = _
  rw [carOff_toNat k ch hk hch]

/-! ## One store of the inner loop -/

/-- Storing channel `ch` of chunk `k`'s sixteen points finishes exactly those columns. -/
theorem store_eff (iv : S4x512.Idx → BitVec 32) (wv : S4x512.Idx → F .f32) (fv : S32768.Idx → F .f32)
    (ov : S1x65536.Idx → F .f32) (k ch : ℕ) (hk : k < 32) (hch : ch < 128)
    {off : Fin 2 → ℕ} (inb : ∀ a, off a + S1x16.size a ≤ S1x65536.size a)
    (w : (Rect.unit (s := S1x65536) off S1x16.size inb).shape.Idx → F .f32)
    (hoff : off = ![0, 16 * k + 512 * ch])
    (hw : ∀ j : S1x16.Idx, w j = OutAt iv wv fv ch (⟨(16 * k + (j 1).val) % 512, Nat.mod_lt _ (by decide)⟩ : Fin 512)) :
    (a11).view.writes (Elt F) (mix iv wv fv ov (Done4 k ch)) [⟨Rect.unit (s := S1x65536) off S1x16.size inb, w⟩]
      = mix iv wv fv ov (Done4 k (ch + 1)) := by
  refine funext fun (y : S1x65536.Idx) => ?_
  have hr : ∀ g : S1x65536.Idx → F .f32, (a11).view.read (Elt F) g y = g y := fun g =>
    congrFun (View.read_whole (Val := Elt F) cc0_scratch5 g) y
  have hy0 : (y 0).val < 1 := idx2_lt0 y
  have hy1 : (y 1).val < 65536 := idx2_lt1 y
  refine (hr _).symm.trans ?_
  rw [View.read_writes_cons_unit (Val := Elt F) (a11).view (mix iv wv fv ov (Done4 k ch)) inb w [] y hoff]
  split
  · rename_i h
    rw [hw]
    have h1' : 16 * k + 512 * ch ≤ (y 1).val ∧ (y 1).val < 16 * k + 512 * ch + 16 :=
      (Fin.forall_fin_two.mp h).2
    have hd : Done4 k (ch + 1) y := by unfold Done4 colPt colCh; simp only []; omega
    have e1 : colCh y = ch := by unfold colCh; omega
    unfold mix; rw [if_pos hd]
    unfold OutV; rw [e1]
    refine congrArg (OutAt iv wv fv ch) (Fin.ext ?_)
    show (16 * k + ((y 1).val - (16 * k + 512 * ch))) % 512 = (y 1).val % 512
    omega
  · rename_i h
    rw [View.writes_nil, hr]
    have hn : ¬ (16 * k + 512 * ch ≤ (y 1).val ∧ (y 1).val < 16 * k + 512 * ch + 16) := fun hc =>
      h (Fin.forall_fin_two.mpr ⟨⟨Nat.zero_le _, by show (y 0).val < 0 + 1; omega⟩, hc⟩)
    have hiff : Done4 k ch y ↔ Done4 k (ch + 1) y := by unfold Done4 colPt colCh; simp only []; omega
    unfold mix
    by_cases hd : Done4 k ch y
    · rw [if_pos hd, if_pos (hiff.1 hd)]
    · rw [if_neg hd, if_neg (fun hq => hd (hiff.2 hq))]

/-! ## The stored vector -/

/-- The point of chunk `k` that lane `x` works on. -/
abbrev lanePt (k x : ℕ) : Fin 512 := ⟨(16 * k + x) % 512, Nat.mod_lt _ (by decide)⟩

/-- A gather through corner `r`'s carried indices reads, in lane `x`, the feature of that corner of
    the lane's point in channel `ch`. -/
theorem gather_at (iv : S4x512.Idx → BitVec 32) (hiv : ∀ y, (iv y).toNat < 256) (fv : S32768.Idx → F .f32)
    (k : ℕ) (r : Fin 4) (ch : ℕ) (hch : ch < 128)
    (h : ∀ a x, ((![carIx iv k r ch] : Fin 1 → IVec S16 32) a x).toNat < S32768.size a) (x : S16.Idx) :
    loadIdx (F := F) (s := S32768) (e := .f32) fv ![carIx iv k r ch] h x = fv (tapIx iv r (lanePt k (x 0).val) ch) := by
  show fv (idxAt ![carIx iv k r ch] h x) = fv _
  refine congrArg fv (funext fun a => ?_)
  match a with
  | ⟨0, _⟩ =>
    apply Fin.ext
    show (carIx iv k r ch x).toNat = (iv (ix2 r (lanePt k (x 0).val)) + BitVec.ofNat 32 (256 * ch)).toNat % 32768
    have hlt := carIx_lt iv hiv k r ch hch x
    rw [Nat.mod_eq_of_lt (by exact hlt)]
    rfl

/-- The stored vector, read at a position of the store's rectangle: the final value of the lane's
    point in channel `ch`. The weights are the chunk's sixteen of each row; the gathered vectors are
    the four corners' features. -/
theorem pay11_at (iv : S4x512.Idx → BitVec 32) (wv : S4x512.Idx → F .f32) (fv : S32768.Idx → F .f32) (k ch : ℕ)
    (w0 w1 w2 w3 : Vec F S1x16 .f32) (g0 g1 g2 g3 : Vec F S16 .f32)
    (hw0 : ∀ x : Fin 16, w0 (ix2 (0 : Fin 1) x) = wv (ix2 0 (lanePt k x.val)))
    (hw1 : ∀ x : Fin 16, w1 (ix2 (0 : Fin 1) x) = wv (ix2 1 (lanePt k x.val)))
    (hw2 : ∀ x : Fin 16, w2 (ix2 (0 : Fin 1) x) = wv (ix2 2 (lanePt k x.val)))
    (hw3 : ∀ x : Fin 16, w3 (ix2 (0 : Fin 1) x) = wv (ix2 3 (lanePt k x.val)))
    (hg0 : ∀ x : S16.Idx, g0 x = fv (tapIx iv 0 (lanePt k (x 0).val) ch))
    (hg1 : ∀ x : S16.Idx, g1 x = fv (tapIx iv 1 (lanePt k (x 0).val) ch))
    (hg2 : ∀ x : S16.Idx, g2 x = fv (tapIx iv 2 (lanePt k (x 0).val) ch))
    (hg3 : ∀ x : S16.Idx, g3 x = fv (tapIx iv 3 (lanePt k (x 0).val) ch))
    (j : S1x16.Idx) :
    shapeCast S1x16 (k0_pay11 w0 w1 w2 w3 g0 g1 g2 g3) shapeCasts_S16_S1x16 j
      = OutAt iv wv fv ch (lanePt k (j 1).val) := by
  obtain ⟨u, i, rfl⟩ : ∃ (u : Fin 1) (i : Fin 16), j = ix2 u i := ⟨j 0, j 1, eq_ix2 j⟩
  refine (shapeCast_a_1a_apply (k0_pay11 w0 w1 w2 w3 g0 g1 g2 g3) shapeCasts_S16_S1x16 u i).trans ?_
  show FloatOps.addf (FloatOps.addf (FloatOps.addf
        (FloatOps.mulf (g0 (ix1 i)) (shapeCast S16 w0 shapeCasts_S1x16_S16 (ix1 i)))
        (FloatOps.mulf (g1 (ix1 i)) (shapeCast S16 w1 shapeCasts_S1x16_S16 (ix1 i))))
        (FloatOps.mulf (g2 (ix1 i)) (shapeCast S16 w2 shapeCasts_S1x16_S16 (ix1 i))))
        (FloatOps.mulf (g3 (ix1 i)) (shapeCast S16 w3 shapeCasts_S1x16_S16 (ix1 i))) = _
  rw [shapeCast_1a_a_apply w0, shapeCast_1a_a_apply w1, shapeCast_1a_a_apply w2, shapeCast_1a_a_apply w3,
    hw0, hw1, hw2, hw3, hg0, hg1, hg2, hg3]
  rfl

/-! ## What a chunk loads before its inner loop -/

omit [FloatOps F] in
/-- The chunk's sixteen words of row `r` of the index scratch are what the inner loop first carries. -/
theorem idxLoad_at (iv : S4x512.Idx → BitVec 32) (k : ℕ) (hk : k < 32) (r : Fin 4) {off : Fin 2 → ℕ}
    (inb : ∀ a, off a + S1x16.size a ≤ S4x512.size a) (hoff : off = ![r.val, 16 * k]) :
    shapeCast S16 ((a9).view.readAt (Elt F) (Rect.unit (s := S4x512) off S1x16.size inb).toLoadRect iv) shapeCasts_S1x16_S16
      = carIx iv k r 0 := by
  subst hoff
  funext x
  obtain ⟨i, rfl⟩ : ∃ i : Fin 16, x = ix1 i := ⟨x 0, eq_ix1 x⟩
  refine (shapeCast_1a_a_apply _ shapeCasts_S1x16_S16 i).trans ?_
  rw [View.readAt_apply]
  refine (congrFun (View.read_whole (Val := Elt F) cc0_scratch3 iv) _).trans ?_
  unfold carIx
  rw [Nat.mul_zero]
  refine (congrArg iv ?_).trans (BitVec.add_zero _).symm
  funext a
  match a with
  | ⟨0, _⟩ => exact Fin.ext (show r.val + 1 * 0 = r.val by omega)
  | ⟨1, _⟩ => exact Fin.ext (show 16 * k + 1 * i.val = (16 * k + i.val) % 512 by have := i.isLt; omega)

omit [FloatOps F] in
/-- The chunk's sixteen weights of row `r`, lane by lane. -/
theorem wLoad_at (wv : S4x512.Idx → F .f32) (k : ℕ) (hk : k < 32) (r : Fin 4) {off : Fin 2 → ℕ}
    (inb : ∀ a, off a + S1x16.size a ≤ S4x512.size a) (hoff : off = ![r.val, 16 * k]) (x : Fin 16) :
    (a10).view.readAt (Elt F) (Rect.unit (s := S4x512) off S1x16.size inb).toLoadRect wv (ix2 (0 : Fin 1) x)
      = wv (ix2 r (lanePt k x.val)) := by
  subst hoff
  rw [View.readAt_apply]
  refine (congrFun (View.read_whole (Val := Elt F) cc0_scratch4 wv) _).trans ?_
  refine congrArg wv ?_
  funext a
  match a with
  | ⟨0, _⟩ => exact Fin.ext (show r.val + 1 * 0 = r.val by omega)
  | ⟨1, _⟩ => exact Fin.ext (show 16 * k + 1 * x.val = (16 * k + x.val) % 512 by have := x.isLt; omega)

omit [FloatOps F] in
/-- The store offset a chunk's inner loop starts from. -/
theorem off_init (k : ℕ) (hk : k < 32) : Scalar.muli (Scf.iv 0#32 1#32 k) 16#32 = carOff k 0 := by
  unfold carOff
  apply BitVec.eq_of_toNat_eq
  show ((0#32 + BitVec.ofNat 32 k * 1#32) * 16#32).toNat = (BitVec.ofNat 32 (16 * k + 512 * 0)).toNat
  simp only [BitVec.toNat_mul, BitVec.toNat_add, BitVec.toNat_ofNat, Nat.reducePow, Nat.reduceMod]
  omega

end Cert.Proof.KI

end
-- ==== Proof.KAccumTrip.lean ====
/-
  The inner loop of the gather-and-accumulate stage: its invariant and one trip at a symbolic channel.
-/
import proofs.«207350_g59966333387111_cont_9to1_m_496_19_alg».proof.Proof.KBase
import proofs.«207350_g59966333387111_cont_9to1_m_496_19_alg».proof.Proof.KAccumDefs
import proofs.«207350_g59966333387111_cont_9to1_m_496_19_alg».proof.Proof.KAccumLemmas
import Idealize.ShloMosaic.Lib.ValueIdx
import Idealize.ShloMosaic.Lib.ValueLayout
import Idealize.ShloMosaic.Lib.WritesUnit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

variable [FloatOps F]

/-! ## The inner loop: one channel per trip -/

/-- The values the inner loop carries: the four corners' index vectors and the store offset. -/
abbrev Acc4 (F : FTy → Type) : Type := Vec F S16 .i32 × Vec F S16 .i32 × Vec F S16 .i32 × Vec F S16 .i32 × BitVec 32

/-- Before channel `ch` of chunk `k`: the carried values in closed form, the feature scratch as it
    was, and the output row final on the columns done so far. -/
def inv4 (d : Dev nD) (L : grid0.Coords) (iv : S4x512.Idx → BitVec 32) (wv : S4x512.Idx → F .f32)
    (fv : S32768.Idx → F .f32) (ov : S1x65536.Idx → F .f32) (k : ℕ) (ch : ℕ) (acc : Acc4 F) : sProp 𝕄 :=
  iprop(⌜acc = (carIx iv k 0 ch, carIx iv k 1 ch, carIx iv k 2 ch, carIx iv k 3 ch, carOff k ch)⌝
    ∗ ((a8).view.loc (V d (cV L) (jV L)) ↦{fullShare} fv)
    ∗ ((a11).view.loc (V d (cV L) (jV L)) ↦{fullShare} mix iv wv fv ov (Done4 k ch)))

omit [FloatOps F] in
/-- The feature scratch held whole is held as the indexed load addresses it. -/
theorem pts_a8 (d : Dev nD) (L : grid0.Coords) (f : S32768.Idx → F .f32) :
    (((a8).view.loc (V d (cV L) (jV L)) ↦{fullShare} f : sProp 𝕄))
      = (((a8).access (.whole S32768)).loc (V d (cV L) (jV L)) ↦{fullShare} f) := rfl

/-- The output row after channel `ch`'s store, the stored vector being the combination of the four
    gathers through the carried indices with the chunk's weights. -/
theorem store_pts (d : Dev nD) (L : grid0.Coords) (iv : S4x512.Idx → BitVec 32) (hiv : ∀ y, (iv y).toNat < 256)
    (wv : S4x512.Idx → F .f32) (fv : S32768.Idx → F .f32) (ov : S1x65536.Idx → F .f32)
    (k ch : ℕ) (hk : k < 32) (hch : ch < 128) (w0 w1 w2 w3 : Vec F S1x16 .f32)
    (hw0 : ∀ x : Fin 16, w0 (ix2 (0 : Fin 1) x) = wv (ix2 0 (lanePt k x.val)))
    (hw1 : ∀ x : Fin 16, w1 (ix2 (0 : Fin 1) x) = wv (ix2 1 (lanePt k x.val)))
    (hw2 : ∀ x : Fin 16, w2 (ix2 (0 : Fin 1) x) = wv (ix2 2 (lanePt k x.val)))
    (hw3 : ∀ x : Fin 16, w3 (ix2 (0 : Fin 1) x) = wv (ix2 3 (lanePt k x.val)))
    (inb : ∀ a, k0_off14 (carOff k ch) a + S1x16.size a ≤ S1x65536.size a)
    (h0 : ∀ a x, ((![carIx iv k 0 ch] : Fin 1 → IVec S16 32) a x).toNat < S32768.size a)
    (h1 : ∀ a x, ((![carIx iv k 1 ch] : Fin 1 → IVec S16 32) a x).toNat < S32768.size a)
    (h2 : ∀ a x, ((![carIx iv k 2 ch] : Fin 1 → IVec S16 32) a x).toNat < S32768.size a)
    (h3 : ∀ a x, ((![carIx iv k 3 ch] : Fin 1 → IVec S16 32) a x).toNat < S32768.size a) :
    ((a11).view.loc (V d (cV L) (jV L)) ↦{fullShare}
        (a11).view.writes (Elt F) (mix iv wv fv ov (Done4 k ch))
          [⟨Rect.unit (s := S1x65536) (k0_off14 (carOff k ch)) S1x16.size inb,
            shapeCast S1x16 (k0_pay11 w0 w1 w2 w3
              (loadIdx (((a8).access (Rect.whole S32768)).read (Elt F) fv) ![carIx iv k 0 ch] h0)
              (loadIdx (((a8).access (Rect.whole S32768)).read (Elt F) fv) ![carIx iv k 1 ch] h1)
              (loadIdx (((a8).access (Rect.whole S32768)).read (Elt F) fv) ![carIx iv k 2 ch] h2)
              (loadIdx (((a8).access (Rect.whole S32768)).read (Elt F) fv) ![carIx iv k 3 ch] h3))
              shapeCasts_S16_S1x16⟩] : sProp 𝕄)
      ⊢ ((a11).view.loc (V d (cV L) (jV L)) ↦{fullShare} mix iv wv fv ov (Done4 k (ch + 1))) := by
  have hread : ((a8).access (Rect.whole S32768)).read (Elt F) fv = fv := Memref.read_access_whole (Elt F) cc0_scratch2 fv
  rw [hread]
  exact Entails.of_eq (congrArg (fun g => ((a11).view.loc (V d (cV L) (jV L)) ↦{fullShare} g : sProp 𝕄))
    (store_eff iv wv fv ov k ch hk hch inb _ (off14_car k ch hk hch) fun j =>
      pay11_at iv wv fv k ch w0 w1 w2 w3 _ _ _ _ hw0 hw1 hw2 hw3
        (gather_at iv hiv fv k 0 ch hch h0) (gather_at iv hiv fv k 1 ch hch h1)
        (gather_at iv hiv fv k 2 ch hch h2) (gather_at iv hiv fv k 3 ch hch h3) j))

set_option maxHeartbeats 4000000 in
/-- One trip of the inner loop: the five assumed side conditions hold of the closed forms, the four
    gathers and the store take the row from channel `ch` to channel `ch + 1`. -/
theorem t4_step (d : Dev nD) (L : grid0.Coords) (iv : S4x512.Idx → BitVec 32) (wv : S4x512.Idx → F .f32)
    (fv : S32768.Idx → F .f32) (ov : S1x65536.Idx → F .f32) (hiv : ∀ y, (iv y).toNat < 256)
    (k : ℕ) (hk : k < 32) (w0 w1 w2 w3 : Vec F S1x16 .f32)
    (hw0 : ∀ x : Fin 16, w0 (ix2 (0 : Fin 1) x) = wv (ix2 0 (lanePt k x.val)))
    (hw1 : ∀ x : Fin 16, w1 (ix2 (0 : Fin 1) x) = wv (ix2 1 (lanePt k x.val)))
    (hw2 : ∀ x : Fin 16, w2 (ix2 (0 : Fin 1) x) = wv (ix2 2 (lanePt k x.val)))
    (hw3 : ∀ x : Fin 16, w3 (ix2 (0 : Fin 1) x) = wv (ix2 3 (lanePt k x.val)))
    (ch : Fin k0_t4_loop.trips) (acc : Acc4 F) :
    inv4 d L iv wv fv ov k ch acc
      ⊢ (wp frame (wpE (defs₀ (F := F)) 𝒱₀ (V d (cV L) (jV L)) none) Set.univ
          (k0_t4_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch6 cc0_scoped0 cc0_scoped1 cc0_scoped2 w0 w1 w2 w3 ch acc)
          (inv4 d L iv wv fv ov k (ch.val + 1)) : sProp 𝕄) := by
  have hch : ch.val < 128 := lt_of_lt_of_le ch.isLt k0_t4_abs.2.1
  rcases acc with ⟨a18, a19, a20, a21, off⟩
  unfold k0_t4_body
  simp only [Prog.lift, Prog.bind_op, Prog.bind_ret, Prog.pure_eq_ret]
  unfold inv4
  iintro ⟨%hacc, Hf, Ho⟩
  simp only [Prod.mk.injEq] at hacc
  obtain ⟨rfl, rfl, rfl, rfl, rfl⟩ := hacc
  have h7 : k0_chk7 (carOff k ch) := by
    intro a; rw [off14_car k ch hk hch]; revert a
    exact Fin.forall_fin_two.mpr ⟨by show 0 + 1 ≤ 1; omega, by show 16 * k + 512 * ch.val + 16 ≤ 65536; omega⟩
  have hc : ∀ r : Fin 4, ∀ a x, ((![carIx iv k r ch] : Fin 1 → IVec S16 32) a x).toNat < S32768.size a := by
    intro r a x
    match a with
    | ⟨0, _⟩ => exact carIx_lt iv hiv k r ch hch x
  have h6 : k0_chk6 (carIx iv k 3 ch) := hc 3
  have h5 : k0_chk5 (carIx iv k 2 ch) := hc 2
  have h4 : k0_chk4 (carIx iv k 1 ch) := hc 1
  have h3 : k0_chk3 (carIx iv k 0 ch) := hc 0
  rw [wp_assume_of _ _ _ _ h7]
  rw [wp_assume_of _ _ _ _ h6]
  rw [wp_assume_of _ _ _ _ h5]
  rw [wp_assume_of _ _ _ _ h4]
  rw [wp_assume_of _ _ _ _ h3]
  ihave Hf' := (Entails.of_eq (pts_a8 (F := F) d L _)) $$ Hf
  iapply (SparseCore.wp_vectorLoadIdx 𝒱₀ (V d (cV L) (jV L)) none Set.univ (base := a8) (S := Finset.univ) (q := fullShare) (Finset.subset_univ _)) $$ Hf'; iintro Hf'
  iapply (SparseCore.wp_vectorLoadIdx 𝒱₀ (V d (cV L) (jV L)) none Set.univ (base := a8) (S := Finset.univ) (q := fullShare) (Finset.subset_univ _)) $$ Hf'; iintro Hf'
  iapply (SparseCore.wp_vectorLoadIdx 𝒱₀ (V d (cV L) (jV L)) none Set.univ (base := a8) (S := Finset.univ) (q := fullShare) (Finset.subset_univ _)) $$ Hf'; iintro Hf'
  iapply (SparseCore.wp_vectorLoadIdx 𝒱₀ (V d (cV L) (jV L)) none Set.univ (base := a8) (S := Finset.univ) (q := fullShare) (Finset.subset_univ _)) $$ Hf'; iintro Hf'
  iapply (wp_load 𝒱₀ (V d (cV L) (jV L)) none Set.univ (m := a11) (S := Finset.univ) (Finset.subset_univ _)) $$ Ho; iintro Ho
  iapply (wp_store_writes₀ 𝒱₀ (V d (cV L) (jV L)) none Set.univ (m := a11) (Finset.subset_univ _)) $$ Ho; iintro Ho
  rw [wp_ret]; imodintro
  isplitr
  · ipureintro
    rw [← carIx_succ iv k 0 ch, ← carIx_succ iv k 1 ch, ← carIx_succ iv k 2 ch, ← carIx_succ iv k 3 ch, ← carOff_succ k ch]
    rfl
  isplitl [Hf']
  · iapply (Entails.of_eq (pts_a8 (F := F) d L _).symm); iexact Hf'
  · iapply (store_pts d L iv hiv wv fv ov k ch hk hch w0 w1 w2 w3 hw0 hw1 hw2 hw3 _ _ _ _ _); iexact Ho

end Cert.Proof.KI

end
-- ==== Proof.KAccum.lean ====
/-
  The gather-and-accumulate loops of the sampling kernel on one vector subcore: the outer loop over
  chunks of sixteen sample points, the inner loop over the 128 channels, and the value they leave in
  the output row.
-/
import proofs.«207350_g59966333387111_cont_9to1_m_496_19_alg».proof.Proof.KBase
import proofs.«207350_g59966333387111_cont_9to1_m_496_19_alg».proof.Proof.KAccumDefs
import proofs.«207350_g59966333387111_cont_9to1_m_496_19_alg».proof.Proof.KAccumLemmas
import proofs.«207350_g59966333387111_cont_9to1_m_496_19_alg».proof.Proof.KAccumTrip
import Idealize.ShloMosaic.Lib.ValueIdx
import Idealize.ShloMosaic.Lib.ValueLayout
import Idealize.ShloMosaic.Lib.WritesUnit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

variable [FloatOps F]

/-! ## The outer loop: sixteen sample points per trip -/

/-- Before chunk `k`: the three scratches the loops read as they were, the output row final on the
    points of the chunks before `k`. -/
def inv3 (d : Dev nD) (L : grid0.Coords) (iv : S4x512.Idx → BitVec 32) (wv : S4x512.Idx → F .f32)
    (fv : S32768.Idx → F .f32) (ov : S1x65536.Idx → F .f32) (k : ℕ) (_ : BitVec 32) : sProp 𝕄 :=
  iprop(((a9).view.loc (V d (cV L) (jV L)) ↦{fullShare} iv)
    ∗ ((a10).view.loc (V d (cV L) (jV L)) ↦{fullShare} wv)
    ∗ ((a8).view.loc (V d (cV L) (jV L)) ↦{fullShare} fv)
    ∗ ((a11).view.loc (V d (cV L) (jV L)) ↦{fullShare} mix iv wv fv ov (Done3 k)))

omit [FloatOps F] in
theorem trips4 : k0_t4_loop.trips = 128 := by decide
omit [FloatOps F] in
theorem trips3 : k0_t3_loop.trips = 32 := by decide

set_option maxHeartbeats 4000000 in
/-- One trip of the outer loop: the chunk's index words and weights are loaded, the inner loop runs
    by its invariant, and the chunk's sixteen points are final in every channel. -/
theorem t3_step (d : Dev nD) (L : grid0.Coords) (iv : S4x512.Idx → BitVec 32) (wv : S4x512.Idx → F .f32)
    (fv : S32768.Idx → F .f32) (ov : S1x65536.Idx → F .f32) (hiv : ∀ y, (iv y).toNat < 256)
    (k : Fin k0_t3_loop.trips) (acc : BitVec 32) :
    inv3 d L iv wv fv ov k acc
      ⊢ (wp frame (wpE (defs₀ (F := F)) 𝒱₀ (V d (cV L) (jV L)) none) Set.univ
          (k0_t3_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch6 cc0_scoped0 cc0_scoped1 cc0_scoped2 k acc)
          (inv3 d L iv wv fv ov (k.val + 1)) : sProp 𝕄) := by
  have hk : k.val < 32 := lt_of_lt_of_le k.isLt k0_t3_abs.2.1
  unfold k0_t3_body
  simp only [Prog.lift, Prog.bind_op, Prog.bind_ret, Prog.pure_eq_ret]
  unfold inv3
  iintro ⟨Hi, Hw, Hf, Ho⟩
  iapply (wp_load 𝒱₀ (V d (cV L) (jV L)) none Set.univ (m := a9) (S := Finset.univ) (Finset.subset_univ _)) $$ Hi; iintro Hi
  iapply (wp_load 𝒱₀ (V d (cV L) (jV L)) none Set.univ (m := a9) (S := Finset.univ) (Finset.subset_univ _)) $$ Hi; iintro Hi
  iapply (wp_load 𝒱₀ (V d (cV L) (jV L)) none Set.univ (m := a9) (S := Finset.univ) (Finset.subset_univ _)) $$ Hi; iintro Hi
  iapply (wp_load 𝒱₀ (V d (cV L) (jV L)) none Set.univ (m := a9) (S := Finset.univ) (Finset.subset_univ _)) $$ Hi; iintro Hi
  iapply (wp_load 𝒱₀ (V d (cV L) (jV L)) none Set.univ (m := a10) (S := Finset.univ) (Finset.subset_univ _)) $$ Hw; iintro Hw
  iapply (wp_load 𝒱₀ (V d (cV L) (jV L)) none Set.univ (m := a10) (S := Finset.univ) (Finset.subset_univ _)) $$ Hw; iintro Hw
  iapply (wp_load 𝒱₀ (V d (cV L) (jV L)) none Set.univ (m := a10) (S := Finset.univ) (Finset.subset_univ _)) $$ Hw; iintro Hw
  iapply (wp_load 𝒱₀ (V d (cV L) (jV L)) none Set.univ (m := a10) (S := Finset.univ) (Finset.subset_univ _)) $$ Hw; iintro Hw
  sl_for (inv4 d L iv wv fv ov k) $$ [Hf Ho]
  case region =>
    intro ch acc4
    exact t4_step d L iv wv fv ov hiv k hk _ _ _ _ (fun x => wLoad_at wv k hk 0 (k0_off10_inb k) (k0_off10_eq k) x) (fun x => wLoad_at wv k hk 1 (k0_off11_inb k) (k0_off11_eq k) x)
      (fun x => wLoad_at wv k hk 2 (k0_off12_inb k) (k0_off12_eq k) x) (fun x => wLoad_at wv k hk 3 (k0_off13_inb k) (k0_off13_eq k) x) ch acc4
  · unfold inv4
    isplitr
    · ipureintro
      rw [← idxLoad_at (F := F) iv k hk 0 (k0_off10_inb k) (k0_off10_eq k), ← idxLoad_at (F := F) iv k hk 1 (k0_off11_inb k) (k0_off11_eq k),
        ← idxLoad_at (F := F) iv k hk 2 (k0_off12_inb k) (k0_off12_eq k), ← idxLoad_at (F := F) iv k hk 3 (k0_off13_inb k) (k0_off13_eq k), ← off_init k hk]
      rfl
    isplitl [Hf]; · iexact Hf
    rw [mix_Done4_zero]; iexact Ho
  iintro %acc' HI
  rw [show Scf.trips k0_t4_loop.lb k0_t4_loop.ub k0_t4_loop.st = 128 from trips4]
  unfold inv4
  icases HI with ⟨-, Hf, Ho⟩
  rw [mix_Done4_last]
  sl_exec
  sl_step
  isplitl [Hi]; · iexact Hi
  isplitl [Hw]; · iexact Hw
  isplitl [Hf]; · iexact Hf
  iexact Ho

set_option maxHeartbeats 4000000 in
/-- The gather-and-accumulate loops: from the index, weight and feature scratches they leave the
    output row at `OutV`, whatever it held, and the three scratches as they were. -/
theorem t3_loop (d : Dev nD) (L : grid0.Coords) (iv : S4x512.Idx → BitVec 32) (wv : S4x512.Idx → F .f32)
    (fv : S32768.Idx → F .f32) (ov : S1x65536.Idx → F .f32) (hiv : ∀ y, (iv y).toNat < 256) :
    iprop(((a9).view.loc (V d (cV L) (jV L)) ↦{fullShare} iv)
        ∗ ((a10).view.loc (V d (cV L) (jV L)) ↦{fullShare} wv)
        ∗ ((a8).view.loc (V d (cV L) (jV L)) ↦{fullShare} fv)
        ∗ ((a11).view.loc (V d (cV L) (jV L)) ↦{fullShare} ov))
      ⊢ (wp frame (wpE (defs₀ (F := F)) 𝒱₀ (V d (cV L) (jV L)) none) Set.univ
          (Scf.Loop.for k0_t3_loop k0_t3_ok 0#32 (k0_t3_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch6 cc0_scoped0 cc0_scoped1 cc0_scoped2))
          (fun _ => iprop(((a9).view.loc (V d (cV L) (jV L)) ↦{fullShare} iv)
            ∗ ((a10).view.loc (V d (cV L) (jV L)) ↦{fullShare} wv)
            ∗ ((a8).view.loc (V d (cV L) (jV L)) ↦{fullShare} fv)
            ∗ ((a11).view.loc (V d (cV L) (jV L)) ↦{fullShare} OutV iv wv fv))) : sProp 𝕄) := by
  iintro ⟨Hi, Hw, Hf, Ho⟩
  sl_for (inv3 d L iv wv fv ov) $$ [Hi Hw Hf Ho]
  case region => exact t3_step d L iv wv fv ov hiv
  isplitl [Hi Hw Hf Ho]
  · unfold inv3
    rw [mix_Done3_zero]
    isplitl [Hi]; · iexact Hi
    isplitl [Hw]; · iexact Hw
    isplitl [Hf]; · iexact Hf
    iexact Ho
  · iintro %acc HI
    rw [show Scf.trips k0_t3_loop.lb k0_t3_loop.ub k0_t3_loop.st = 32 from trips3]
    unfold inv3
    rw [mix_Done3_last]
    iexact HI

end Cert.Proof.KI

end
-- ==== Proof.KBody.lean ====
import proofs.«207350_g59966333387111_cont_9to1_m_496_19_alg».proof.Proof.KLoop
import proofs.«207350_g59966333387111_cont_9to1_m_496_19_alg».proof.Proof.KOwn
import proofs.«207350_g59966333387111_cont_9to1_m_496_19_alg».proof.Proof.KObl
import proofs.«207350_g59966333387111_cont_9to1_m_496_19_alg».proof.Proof.KQueryFacts
import proofs.«207350_g59966333387111_cont_9to1_m_496_19_alg».proof.Proof.KAccum

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

open Idealize.ShloMosaic.ValueIdx

variable [FloatOps F]

/-! ## The worker's whole task

The worker fetches its 32 image numbers, runs its 32 queries, and hands back its read shares of the three inputs and
its 32 rows of the flat result, each row holding the samples of its query. -/

theorem rowsAt_zero (d : Dev nD) (L : grid0.Coords) (OUT out0 : S1024x65536.Idx → Elt F EltTy.f32) :
    (rowsAt d L OUT out0 0 : sProp 𝕄) = bigSep Finset.univ fun k : Fin k0_t1_loop.trips => oLoc d ↦[rowSetK L k]{fullShare} out0 :=
  bigSep_congr fun j _ => by rw [if_neg (Nat.not_lt_zero _)]
theorem rowsAt_full (d : Dev nD) (L : grid0.Coords) (OUT out0 : S1024x65536.Idx → Elt F EltTy.f32) :
    (rowsAt d L OUT out0 32 : sProp 𝕄) = bigSep Finset.univ fun k : Fin k0_t1_loop.trips => oLoc d ↦[rowSetK L k]{fullShare} OUT :=
  bigSep_congr fun j _ => by rw [if_pos (show j.val < 32 from j.isLt)]

set_option maxHeartbeats 8000000 in
theorem tile_body (hF : (K (F := F)).Facts) :
    BodyObl (F := F) OutFlat := by
  intro m FEAT d L O W hO hii
  have hT3 := fun (d : Dev nD) (L : grid0.Coords) (iv : S4x512.Idx → BitVec 32) (wv : S4x512.Idx → Elt F EltTy.f32) (fv : S32768.Idx → Elt F EltTy.f32)
    (ov : S1x65536.Idx → Elt F EltTy.f32) (hiv : ∀ y, (iv y).toNat < 256) => t3_loop (F := F) d L iv wv fv ov hiv
  have chk2_of_range' := chk2_of_range
  have imgOf_eq' := imgOf_eq (F := F)
  have ii_lands' := ii_lands (F := F)
  have row_lands' := row_lands (F := F)
  simp only [cc0__sc_body_eq_skeleton]; unfold cc0__sc_body_skel
  rw [(K (F := F)).scopedBufs_V hF d (cV L) (jV L), SparseCore.Cfg.scopedSems0_V (Val := Elt F) d (cV L) (jV L), ownSems0_V4, ownBufs_V6]
  iintro ⟨#Hlv, -, ⟨Hii, Hgrid, Hfeat, Hout⟩, ⟨⟨%f0, H6⟩, ⟨%f1, H7⟩, ⟨%f2, H8⟩, ⟨%f3, H9⟩, ⟨%f4, H10⟩, ⟨%f5, H11⟩, Hbufs⟩, ⟨Hs6, Hs0, Hs1, Hs2, Hsems⟩, HO⟩
  ihave Hmw := ((K (F := F)).mayWaits_none (thr := V d (cV L) (jV L)) hO) $$ Hlv
  ihave H2 := (Entails.of_eq (show (iiLoc d ↦{rq (cOf L) (sOf L)} m (iiLoc d) : sProp 𝕄) = ((a2).view.loc (V d (cV L) (jV L)) ↦{rq (cOf L) (sOf L)} m (iiLoc d)) from rfl)) $$ Hii
  ihave H3 := (Entails.of_eq (show (gridLoc d ↦{rq (cOf L) (sOf L)} m (gridLoc d) : sProp 𝕄) = ((a3).view.loc (V d (cV L) (jV L)) ↦{rq (cOf L) (sOf L)} m (gridLoc d)) from rfl)) $$ Hgrid
  ihave H4 := (Entails.of_eq (show (featLoc d ↦{rq (cOf L) (sOf L)} FEAT d : sProp 𝕄) = ((a4).view.loc (V d (cV L) (jV L)) ↦{rq (cOf L) (sOf L)} FEAT d) from rfl)) $$ Hfeat
  ihave H6 := (Entails.of_eq (show ((V d (cV L) (jV L)).loc cc0_scratch0 ↦{fullShare} f0 : sProp 𝕄) = ((a6).view.loc (V d (cV L) (jV L)) ↦{fullShare} f0) from rfl)) $$ H6
  sl_exec
  have hiiv : ∀ x : S32.Idx, (View.write (Elt F) (a6).view f0 (tile_body.sl.dma0 m d L) Finset.univ) x = m (iiLoc d) ((iiMem L).view.emb x) :=
    fun x => ii_lands' L (m (iiLoc d)) f0 x
  have hchk2 : ∀ k : Fin k0_t1_loop.trips, k0_chk2 (imgOf (F := F) (View.write (Elt F) (a6).view f0 (tile_body.sl.dma0 m d L) Finset.univ) k) :=
    fun k => chk2_of_range' _ (by rw [imgOf_eq', hiiv]; exact hii _)
  ihave Hrows := (Entails.of_eq ((block_rows d L (m (oLoc d))).trans (rowsAt_zero d L (OutFlat (m (iiLoc d)) (m (gridLoc d)) (FEAT d)) (m (oLoc d))).symm)) $$ Hout
  rw [wp_bind]
  iapply (wp_wand_r frame (wpE (defs₀ (F := F)) 𝒱₀ (V d (cV L) (jV L)) none) Set.univ)
  isplitl [H3 H4 Hrows H6 H7 H8 H9 H10 H11 Hs6 Hs1 Hs2 HO]
  · iapply (t1_loop d L (rq (cOf L) (sOf L)) O (insert ((SemLoc.dma cc0_scoped0.sem : SemLoc sig), (default : HIx 1)) W) (m (iiLoc d)) (m (gridLoc d)) (FEAT d) (m (oLoc d)) _ hchk2
      (fun k h2 => row_lands' L k (m (iiLoc d)) (m (gridLoc d)) (FEAT d) (m (oLoc d)) _ hiiv h2) (hT3 d L))
    unfold invT1
    isplitr; · iexact Hmw
    isplitl [H3]; · iexact H3
    isplitl [H4]; · iexact H4
    isplitl [Hrows]; · iexact Hrows
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [Hs6]; · iexact Hs6
    isplitl [Hs1]; · iexact Hs1
    isplitl [Hs2]; · iexact Hs2
    iexists _; isplitr
    rotate_left
    · iexact HO
    · ipureintro; exact fun p hp => .inl hp
  iintro %acc HI
  unfold invT1
  icases HI with ⟨-, H3, H4, Hrows, H6, ⟨%gv, H7⟩, ⟨%fv, H8⟩, ⟨%iv, H9⟩, ⟨%wv, H10⟩, ⟨%ov, H11⟩, Hs6, Hs1, Hs2, %W', %hW', HO⟩
  ihave Hout := (Entails.of_eq ((rowsAt_full d L (OutFlat (m (iiLoc d)) (m (gridLoc d)) (FEAT d)) (m (oLoc d))).trans (block_rows d L (OutFlat (m (iiLoc d)) (m (gridLoc d)) (FEAT d))).symm)) $$ Hrows
  sl_step
  isplitl [H2 H3 H4 Hout]
  · isplitl [H2]; · iexact H2
    isplitl [H3]; · iexact H3
    isplitl [H4]; · iexact H4
    iexact Hout
  isplitl [H6 H7 H8 H9 H10 H11 Hbufs]
  · isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexact Hbufs
  isplitl [Hs6 Hs0 Hs1 Hs2 Hsems]
  · isplitl [Hs6]; · iexact Hs6
    isplitl [Hs0]; · iexact Hs0
    isplitl [Hs1]; · iexact Hs1
    isplitl [Hs2]; · iexact Hs2
    iexact Hsems
  iexists W'; isplitr
  · ipureintro; intro p hp
    rcases hW' p hp with h | h
    · rcases Finset.mem_insert.mp h with h | h
      · exact .inr (h ▸ rfl)
      · exact .inl h
    · exact .inr h
  · iexact HO

end Cert.Proof.KI

end
-- ==== Proof.KTablesIdeal.lean ====
import proofs.«207350_g59966333387111_cont_9to1_m_496_19_alg».proof.Proof.KTables
import proofs.«207350_g59966333387111_cont_9to1_m_496_19_alg».proof.Proof.SpecRange
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

open Idealize.ShloMosaic.ValueIdx

variable [FloatOps F]

/-! ## What a chunk's loads read

The two loads of chunk `k` read 16 consecutive entries of row 0 (the x-coordinates) and of row 1 (the y-coordinates) of
the grid row, from column `16 k` on; re-indexing a 1 × 1 × 16 block as a 16-vector and a 16-vector as a 1 × 16 block
keeps the lane. -/

/-- A 16-vector seen as a 1 × 16 array reads, at `x`, the vector at `x 1`. -/
theorem cast16 {α : Type} (w : S16.Idx → α) (x : S1x16.Idx) :
    shapeCast S1x16 w shapeCasts_S16_S1x16 x = w (ix1 (x 1)) :=
  shapeCast_apply w shapeCasts_S16_S1x16 x (ix1 (x 1)) (by
    have h0 : (x 0).val < 1 := (x 0).isLt
    rw [Shape.rowMajor_val_one, Shape.rowMajor_val_two]
    show (x 1).val = (x 0).val * 16 + (x 1).val
    omega)

/-- A 1 × 1 × 16 array seen as a 16-vector reads, at `i`, the array at `(0, 0, i)`. -/
theorem cast1x1x16 {α : Type} (v : S1x1x16.Idx → α) (i : Fin 16) :
    shapeCast S16 v shapeCasts_S1x1x16_S16 (ix1 i) = v (ix3 (0 : Fin 1) (0 : Fin 1) i) :=
  shapeCast_apply v shapeCasts_S1x1x16_S16 (ix1 i) (ix3 (0 : Fin 1) (0 : Fin 1) i) (by
    rw [Shape.rowMajor_val_three, Shape.rowMajor_val_one]
    show (0 * 1 + 0) * 16 + i.val = i.val
    omega)

theorem col_lt (k : Fin k0_t2_loop.trips) (i : Fin 16) : 16 * k.val + i.val < 512 := by
  have hk : k.val < 32 := k.isLt
  have hi : i.val < 16 := i.isLt
  omega

/-- Column `16 k + i` of the grid row: lane `i` of chunk `k`. -/
abbrev col (k : Fin k0_t2_loop.trips) (i : Fin 16) : Fin 512 := ⟨16 * k.val + i.val, col_lt k i⟩

theorem xLd_apply (gv : S1x2x512.Idx → Elt F EltTy.f32) (k : Fin k0_t2_loop.trips) (i : Fin 16) :
    xLd gv k (ix3 (0 : Fin 1) (0 : Fin 1) i) = gv (ix3 (0 : Fin 1) (0 : Fin 2) (col k i)) := by
  unfold xLd
  rw [View.readAt_apply]
  simp only [Memref.view_whole, View.read_whole]
  refine congrArg gv (funext fun a => Fin.ext ?_)
  rw [LoadRect.idx_apply]
  show k0_off4 k a + 1 * _ = _
  rw [congrFun (k0_off4_eq k) a]
  match a with
  | ⟨0, _⟩ => rfl
  | ⟨1, _⟩ => rfl
  | ⟨2, _⟩ => show 16 * k.val + 1 * i.val = 16 * k.val + i.val; omega

theorem yLd_apply (gv : S1x2x512.Idx → Elt F EltTy.f32) (k : Fin k0_t2_loop.trips) (i : Fin 16) :
    yLd gv k (ix3 (0 : Fin 1) (0 : Fin 1) i) = gv (ix3 (0 : Fin 1) (1 : Fin 2) (col k i)) := by
  unfold yLd
  rw [View.readAt_apply]
  simp only [Memref.view_whole, View.read_whole]
  refine congrArg gv (funext fun a => Fin.ext ?_)
  rw [LoadRect.idx_apply]
  show k0_off5 k a + 1 * _ = _
  rw [congrFun (k0_off5_eq k) a]
  match a with
  | ⟨0, _⟩ => rfl
  | ⟨1, _⟩ => rfl
  | ⟨2, _⟩ => show 16 * k.val + 1 * i.val = 16 * k.val + i.val; omega

/-- The x-coordinate of chunk `k` at lane `i`, as the 16-vector the arithmetic sees it. -/
theorem ldX (gv : S1x2x512.Idx → Elt F EltTy.f32) (k : Fin k0_t2_loop.trips) (i : Fin 16) :
    shapeCast S16 (xLd gv k) shapeCasts_S1x1x16_S16 (ix1 i)
      = gv (ix3 (0 : Fin 1) (0 : Fin 2) (col k i)) := by
  rw [cast1x1x16, xLd_apply]

theorem ldY (gv : S1x2x512.Idx → Elt F EltTy.f32) (k : Fin k0_t2_loop.trips) (i : Fin 16) :
    shapeCast S16 (yLd gv k) shapeCasts_S1x1x16_S16 (ix1 i)
      = gv (ix3 (0 : Fin 1) (1 : Fin 2) (col k i)) := by
  rw [cast1x1x16, yLd_apply]

/-! ## At the ideal instance: each lane is the clip-first axis of its coordinate -/

open Cert.Spec (clipFirst)

section Lanes

variable (vx vy : Vec Ideal S1x1x16 .f32) (j : S16.Idx)

local notation "X" => (shapeCast S16 vx shapeCasts_S1x1x16_S16 j : EReal)
local notation "Y" => (shapeCast S16 vy shapeCasts_S1x1x16_S16 j : EReal)

theorem lane_i0x : k0_pay24 (k0_pay18 (F := Ideal) vx) j = (clipFirst X).i0 := by rfl
theorem lane_i1x : k0_pay25 (k0_pay18 (F := Ideal) vx) j = (clipFirst X).i1 := by rfl
theorem lane_i0y : k0_pay26 (k0_pay19 (F := Ideal) vy) j = IntOp.muli (clipFirst Y).i0 16#32 := by rfl
theorem lane_i1y : k0_pay27 (k0_pay19 (F := Ideal) vy) j = IntOp.muli (clipFirst Y).i1 16#32 := by rfl
theorem lane_w1x : k0_pay20 (F := Ideal) vx j = (clipFirst X).w1 := by rfl
theorem lane_w1y : k0_pay21 (F := Ideal) vy j = (clipFirst Y).w1 := by rfl
theorem lane_w0x : k0_pay22 (F := Ideal) (k0_pay20 (F := Ideal) vx) (Scalar.ofBits .f32 0x3F800000#32) j = (clipFirst X).w0 := by rfl
theorem lane_w0y : k0_pay23 (F := Ideal) (k0_pay21 (F := Ideal) vy) j = (clipFirst Y).w0 := by rfl

end Lanes

/-! ## The rows of the two tables on a chunk

Lane `x` of chunk `k` holds column `16 k + x 1` of the grid row; its x-coordinate is entry `(0, 0, ·)` and its
y-coordinate entry `(0, 1, ·)`.  Row `r` of the offsets table is `16 · (row line) + (column line)` and row `r` of the
weights table is `(row weight) · (column weight)`, the lines and weights being those of the clip-first axes of the two
coordinates: rows 0, 1, 2, 3 take the (lower, lower), (lower, upper), (upper, lower), (upper, upper) corner. -/

section Rows

variable (gv : S1x2x512.Idx → EReal) (k : Fin k0_t2_loop.trips) (x : S1x16.Idx)

theorem idxRow0 : idxRow (F := Ideal) gv 0 k x
    = IntOp.addi (IntOp.muli (clipFirst (gv (ix3 (0 : Fin 1) (1 : Fin 2) (col k (x 1))))).i0 16#32) (clipFirst (gv (ix3 (0 : Fin 1) (0 : Fin 2) (col k (x 1))))).i0 := by
  show shapeCast S1x16 (k0_pay28 (k0_pay18 (xLd (F := Ideal) gv k)) (k0_pay19 (yLd (F := Ideal) gv k))) shapeCasts_S16_S1x16 x = _
  rw [cast16, ← ldX (F := Ideal) gv k (x 1), ← ldY (F := Ideal) gv k (x 1)]
  rfl

theorem idxRow1 : idxRow (F := Ideal) gv 1 k x
    = IntOp.addi (IntOp.muli (clipFirst (gv (ix3 (0 : Fin 1) (1 : Fin 2) (col k (x 1))))).i0 16#32) (clipFirst (gv (ix3 (0 : Fin 1) (0 : Fin 2) (col k (x 1))))).i1 := by
  show shapeCast S1x16 (k0_pay29 (k0_pay18 (xLd (F := Ideal) gv k)) (k0_pay19 (yLd (F := Ideal) gv k))) shapeCasts_S16_S1x16 x = _
  rw [cast16, ← ldX (F := Ideal) gv k (x 1), ← ldY (F := Ideal) gv k (x 1)]
  rfl

theorem idxRow2 : idxRow (F := Ideal) gv 2 k x
    = IntOp.addi (IntOp.muli (clipFirst (gv (ix3 (0 : Fin 1) (1 : Fin 2) (col k (x 1))))).i1 16#32) (clipFirst (gv (ix3 (0 : Fin 1) (0 : Fin 2) (col k (x 1))))).i0 := by
  show shapeCast S1x16 (k0_pay30 (k0_pay18 (xLd (F := Ideal) gv k)) (k0_pay19 (yLd (F := Ideal) gv k))) shapeCasts_S16_S1x16 x = _
  rw [cast16, ← ldX (F := Ideal) gv k (x 1), ← ldY (F := Ideal) gv k (x 1)]
  rfl

theorem idxRow3 : idxRow (F := Ideal) gv 3 k x
    = IntOp.addi (IntOp.muli (clipFirst (gv (ix3 (0 : Fin 1) (1 : Fin 2) (col k (x 1))))).i1 16#32) (clipFirst (gv (ix3 (0 : Fin 1) (0 : Fin 2) (col k (x 1))))).i1 := by
  show shapeCast S1x16 (k0_pay2 (k0_pay25 (k0_pay18 (xLd (F := Ideal) gv k))) (k0_pay27 (k0_pay19 (yLd (F := Ideal) gv k)))) shapeCasts_S16_S1x16 x = _
  rw [cast16, ← ldX (F := Ideal) gv k (x 1), ← ldY (F := Ideal) gv k (x 1)]
  rfl

theorem wRow0 : wRow (F := Ideal) gv 0 k x
    = (clipFirst (gv (ix3 (0 : Fin 1) (1 : Fin 2) (col k (x 1))))).w0 * (clipFirst (gv (ix3 (0 : Fin 1) (0 : Fin 2) (col k (x 1))))).w0 := by
  show shapeCast S1x16 (k0_pay3 (wx0 (F := Ideal) gv k) (wy0 (F := Ideal) gv k)) shapeCasts_S16_S1x16 x = _
  rw [cast16, ← ldX (F := Ideal) gv k (x 1), ← ldY (F := Ideal) gv k (x 1)]
  rfl

theorem wRow1 : wRow (F := Ideal) gv 1 k x
    = (clipFirst (gv (ix3 (0 : Fin 1) (1 : Fin 2) (col k (x 1))))).w0 * (clipFirst (gv (ix3 (0 : Fin 1) (0 : Fin 2) (col k (x 1))))).w1 := by
  show shapeCast S1x16 (k0_pay4 (wx1 (F := Ideal) gv k) (wy0 (F := Ideal) gv k)) shapeCasts_S16_S1x16 x = _
  rw [cast16, ← ldX (F := Ideal) gv k (x 1), ← ldY (F := Ideal) gv k (x 1)]
  rfl

theorem wRow2 : wRow (F := Ideal) gv 2 k x
    = (clipFirst (gv (ix3 (0 : Fin 1) (1 : Fin 2) (col k (x 1))))).w1 * (clipFirst (gv (ix3 (0 : Fin 1) (0 : Fin 2) (col k (x 1))))).w0 := by
  show shapeCast S1x16 (k0_pay5 (wy1 (F := Ideal) gv k) (wx0 (F := Ideal) gv k)) shapeCasts_S16_S1x16 x = _
  rw [cast16, ← ldX (F := Ideal) gv k (x 1), ← ldY (F := Ideal) gv k (x 1)]
  rfl

theorem wRow3 : wRow (F := Ideal) gv 3 k x
    = (clipFirst (gv (ix3 (0 : Fin 1) (1 : Fin 2) (col k (x 1))))).w1 * (clipFirst (gv (ix3 (0 : Fin 1) (0 : Fin 2) (col k (x 1))))).w1 := by
  show shapeCast S1x16 (k0_pay6 (wx1 (F := Ideal) gv k) (wy1 (F := Ideal) gv k)) shapeCasts_S16_S1x16 x = _
  rw [cast16, ← ldX (F := Ideal) gv k (x 1), ← ldY (F := Ideal) gv k (x 1)]
  rfl

end Rows

/-! ## The whole tables at a column -/

/-- Column `p` is lane `p mod 16` of chunk `p / 16`. -/
theorem col_chunk_lane (r : Fin 4) (p : Fin 512) : col (chunkOf (ix2 r p)) ((laneOf (ix2 r p)) 1) = p :=
  Fin.ext (by show 16 * (p.val / 16) + p.val % 16 = p.val; omega)

section Tables

variable (gv : S1x2x512.Idx → EReal) (p : Fin 512)

theorem GIdx_row0 : GIdx (F := Ideal) gv (ix2 (0 : Fin 4) p)
    = IntOp.addi (IntOp.muli (clipFirst (gv (ix3 (0 : Fin 1) (1 : Fin 2) p))).i0 16#32) (clipFirst (gv (ix3 (0 : Fin 1) (0 : Fin 2) p))).i0 := by
  show idxRow (F := Ideal) gv 0 (chunkOf (ix2 (0 : Fin 4) p)) (laneOf (ix2 (0 : Fin 4) p)) = _
  rw [idxRow0, col_chunk_lane]

theorem GIdx_row1 : GIdx (F := Ideal) gv (ix2 (1 : Fin 4) p)
    = IntOp.addi (IntOp.muli (clipFirst (gv (ix3 (0 : Fin 1) (1 : Fin 2) p))).i0 16#32) (clipFirst (gv (ix3 (0 : Fin 1) (0 : Fin 2) p))).i1 := by
  show idxRow (F := Ideal) gv 1 (chunkOf (ix2 (1 : Fin 4) p)) (laneOf (ix2 (1 : Fin 4) p)) = _
  rw [idxRow1, col_chunk_lane]

theorem GIdx_row2 : GIdx (F := Ideal) gv (ix2 (2 : Fin 4) p)
    = IntOp.addi (IntOp.muli (clipFirst (gv (ix3 (0 : Fin 1) (1 : Fin 2) p))).i1 16#32) (clipFirst (gv (ix3 (0 : Fin 1) (0 : Fin 2) p))).i0 := by
  show idxRow (F := Ideal) gv 2 (chunkOf (ix2 (2 : Fin 4) p)) (laneOf (ix2 (2 : Fin 4) p)) = _
  rw [idxRow2, col_chunk_lane]

theorem GIdx_row3 : GIdx (F := Ideal) gv (ix2 (3 : Fin 4) p)
    = IntOp.addi (IntOp.muli (clipFirst (gv (ix3 (0 : Fin 1) (1 : Fin 2) p))).i1 16#32) (clipFirst (gv (ix3 (0 : Fin 1) (0 : Fin 2) p))).i1 := by
  show idxRow (F := Ideal) gv 3 (chunkOf (ix2 (3 : Fin 4) p)) (laneOf (ix2 (3 : Fin 4) p)) = _
  rw [idxRow3, col_chunk_lane]

theorem GW_row0 : GW (F := Ideal) gv (ix2 (0 : Fin 4) p)
    = (clipFirst (gv (ix3 (0 : Fin 1) (1 : Fin 2) p))).w0 * (clipFirst (gv (ix3 (0 : Fin 1) (0 : Fin 2) p))).w0 := by
  show wRow (F := Ideal) gv 0 (chunkOf (ix2 (0 : Fin 4) p)) (laneOf (ix2 (0 : Fin 4) p)) = _
  rw [wRow0, col_chunk_lane]

theorem GW_row1 : GW (F := Ideal) gv (ix2 (1 : Fin 4) p)
    = (clipFirst (gv (ix3 (0 : Fin 1) (1 : Fin 2) p))).w0 * (clipFirst (gv (ix3 (0 : Fin 1) (0 : Fin 2) p))).w1 := by
  show wRow (F := Ideal) gv 1 (chunkOf (ix2 (1 : Fin 4) p)) (laneOf (ix2 (1 : Fin 4) p)) = _
  rw [wRow1, col_chunk_lane]

theorem GW_row2 : GW (F := Ideal) gv (ix2 (2 : Fin 4) p)
    = (clipFirst (gv (ix3 (0 : Fin 1) (1 : Fin 2) p))).w1 * (clipFirst (gv (ix3 (0 : Fin 1) (0 : Fin 2) p))).w0 := by
  show wRow (F := Ideal) gv 2 (chunkOf (ix2 (2 : Fin 4) p)) (laneOf (ix2 (2 : Fin 4) p)) = _
  rw [wRow2, col_chunk_lane]

theorem GW_row3 : GW (F := Ideal) gv (ix2 (3 : Fin 4) p)
    = (clipFirst (gv (ix3 (0 : Fin 1) (1 : Fin 2) p))).w1 * (clipFirst (gv (ix3 (0 : Fin 1) (0 : Fin 2) p))).w1 := by
  show wRow (F := Ideal) gv 3 (chunkOf (ix2 (3 : Fin 4) p)) (laneOf (ix2 (3 : Fin 4) p)) = _
  rw [wRow3, col_chunk_lane]

end Tables

end Cert.Proof.KI

end
-- ==== Proof.SpecLaws.lean ====
/-
  The law: on a real coordinate, clipping first and flooring first blend to the same value.

  Put t = 16 x - 1/2 (the floor-first expression ((2 x - 1 + 1) · 16 - 1) / 2 is the same real number).  Either way the
  axis is "lines ⌊s⌋ and ⌊s⌋ + 1 pulled back into 0 … 15, upper weight s - ⌊s⌋" of a real s: clipping first takes
  s = min 16 (max (-1) t), flooring first takes s = t.  If -1 ≤ t ≤ 16 the two are the same s.  If t < -1 both lines
  are line 0 either way, if t > 16 both lines are line 15 either way; then the two weights multiply the same corner
  values and add up to 1, so they drop out of the weighted sum.  All weights and corner values are real numbers, so the
  weighted sum is computed in the reals and coerced once.
-/
import proofs.«207350_g59966333387111_cont_9to1_m_496_19_alg».proof.Proof.SpecLits

noncomputable section

namespace Cert.Spec

open Idealize.ShloMosaic

/-! ### Axes with real weights -/

/-- The axis with lines `i0`, `i1` and the real weights `1 - a`, `a`. -/
def Axis.real (i0 i1 : BitVec 32) (a : ℝ) : Axis := ⟨i0, i1, ((1 - a : ℝ) : EReal), (a : EReal)⟩

/-- The word of the grid line `m` pulled back into 0 … 15. -/
def lineOf (m : ℤ) : BitVec 32 := BitVec.ofInt 32 (min 15 (max 0 m))

/-- The axis of a real coordinate `t`: lines `⌊t⌋` and `⌊t⌋ + 1` pulled back, upper weight `t - ⌊t⌋`. -/
def axisOf (t : ℝ) : Axis := Axis.real (lineOf ⌊t⌋) (lineOf (⌊t⌋ + 1)) (t - ⌊t⌋)

theorem Axis.ext' {A B : Axis} (h0 : A.i0 = B.i0) (h1 : A.i1 = B.i1) (h2 : A.w0 = B.w0) (h3 : A.w1 = B.w1) :
    A = B := by
  cases A; cases B; simp only [Axis.mk.injEq]; exact ⟨h0, h1, h2, h3⟩

theorem lineOf_of_le {m : ℤ} (h : m ≤ 0) : lineOf m = BitVec.ofInt 32 0 := by
  unfold lineOf; congr 1; omega

theorem lineOf_of_ge {m : ℤ} (h : 15 ≤ m) : lineOf m = BitVec.ofInt 32 15 := by
  unfold lineOf; congr 1; omega

/-- Below the first line both lines are line 0. -/
theorem axisOf_low {t : ℝ} (h : t < 0) : axisOf t = Axis.real (BitVec.ofInt 32 0) (BitVec.ofInt 32 0) (t - ⌊t⌋) := by
  have hf : ⌊t⌋ ≤ -1 := Int.floor_le_neg_one_iff.mpr h
  unfold axisOf; rw [lineOf_of_le (by omega), lineOf_of_le (by omega)]

/-- From the last line on both lines are line 15. -/
theorem axisOf_high {t : ℝ} (h : 15 ≤ t) : axisOf t = Axis.real (BitVec.ofInt 32 15) (BitVec.ofInt 32 15) (t - ⌊t⌋) := by
  have hf : 15 ≤ ⌊t⌋ := Int.le_floor.mpr (by push_cast; exact h)
  unfold axisOf; rw [lineOf_of_ge (by omega), lineOf_of_ge (by omega)]

/-- Clipping the coordinate to [-1, 16] first either changes nothing or leaves both lines on the same border line. -/
theorem axisOf_clip_cases (t : ℝ) : ∃ i0 i1 a b,
    axisOf (min 16 (max (-1) t)) = Axis.real i0 i1 a ∧ axisOf t = Axis.real i0 i1 b ∧ (a = b ∨ i0 = i1) := by
  by_cases hlo : t < -1
  · have hr : min 16 (max (-1) t) = -1 := by
      rw [max_eq_left hlo.le]; norm_num
    exact ⟨_, _, _, _, by rw [hr]; exact axisOf_low (by norm_num), axisOf_low (by linarith), Or.inr rfl⟩
  · by_cases hhi : 16 < t
    · have hr : min 16 (max (-1) t) = 16 := by
        rw [max_eq_right (by linarith), min_eq_left hhi.le]
      exact ⟨_, _, _, _, by rw [hr]; exact axisOf_high (by norm_num), axisOf_high (by linarith), Or.inr rfl⟩
    · have hr : min 16 (max (-1) t) = t := by
        rw [max_eq_right (not_lt.mp hlo), min_eq_right (not_lt.mp hhi)]
      exact ⟨_, _, _, _, by rw [hr]; rfl, rfl, Or.inl rfl⟩

/-! ### The two ways on a real coordinate -/

theorem clipFirst_coe (x : ℝ) : clipFirst (x : EReal) = axisOf (min 16 (max (-1) (x * 16 - 1 / 2))) := by
  set r : ℝ := min 16 (max (-1) (x * 16 - 1 / 2)) with hrdef
  have hlo : -1 ≤ r := le_min (by norm_num) (le_max_left _ _)
  have hhi : r ≤ 16 := min_le_left _ _
  have ht : min c16 (max cneg1 ((x : EReal) * c16 - chalf)) = (r : EReal) := by
    rw [c16_eq, cneg1_eq, chalf_eq, ← EReal.coe_mul, ← EReal.coe_sub, coe_max, coe_min]
  have hfl0 : -1 ≤ ⌊r⌋ := Int.le_floor.mpr (by push_cast; exact hlo)
  have hfl1 : ⌊r⌋ < 17 := by rw [Int.floor_lt]; push_cast; linarith
  have hn : IntOp.subi (Ideal.fptosi 32 ((r : EReal) + c16)) 16#32 = BitVec.ofInt 32 ⌊r⌋ := by
    rw [c16_eq, ← EReal.coe_add, fptosi_coe_nonneg (by linarith) (by linarith), Int.floor_add_ofNat, ofInt_sub16]
  apply Axis.ext' <;> (unfold clipFirst; dsimp only; rw [ht, hn])
  · rw [clampWord_ofInt (by omega) (by omega)]; rfl
  · rw [ofInt_add1, clampWord_ofInt (by omega) (by omega)]; rfl
  · rw [toInt_ofInt32 (by omega) (by omega), c1_eq, ← EReal.coe_sub, ← EReal.coe_sub]; rfl
  · rw [toInt_ofInt32 (by omega) (by omega), ← EReal.coe_sub]; rfl

theorem floorFirst_coe (x : ℝ) : floorFirst (x : EReal) = axisOf (x * 16 - 1 / 2) := by
  set t : ℝ := x * 16 - 1 / 2 with htdef
  have ht : Ideal.div (((x : EReal) * c2 - c1 + c1) * c16 - c1) c2 = (t : EReal) := by
    rw [c2_eq, c1_eq, c16_eq, Ideal.div_coe (by norm_num : (2 : ℝ) ≠ 0), ← EReal.coe_mul, ← EReal.coe_sub,
      ← EReal.coe_add, ← EReal.coe_mul, ← EReal.coe_sub, ← EReal.coe_mul]
    congr 1; rw [htdef]; ring
  have h1 : (((⌊t⌋ : ℤ) : ℝ) : EReal) + c1 = (((⌊t⌋ + 1 : ℤ) : ℝ) : EReal) := by
    rw [c1_eq, ← EReal.coe_add]; push_cast; rfl
  apply Axis.ext' <;> (unfold floorFirst; dsimp only; rw [ht, Ideal.liftRound_coe])
  · rw [clipLine_intCast, fptosi_intCast (by omega) (by omega)]; rfl
  · rw [h1, clipLine_intCast, fptosi_intCast (by omega) (by omega)]; rfl
  · rw [c1_eq, ← EReal.coe_sub, ← EReal.coe_sub]; rfl
  · rw [← EReal.coe_sub]; rfl

/-- For a real coordinate the two ways give the same lines, and the same weights unless both lines coincide. -/
theorem axis_cases (x : ℝ) : ∃ i0 i1 a b,
    clipFirst (x : EReal) = Axis.real i0 i1 a ∧ floorFirst (x : EReal) = Axis.real i0 i1 b ∧ (a = b ∨ i0 = i1) := by
  rw [clipFirst_coe, floorFirst_coe]; exact axisOf_clip_cases _

/-! ### The blend over real data -/

/-- The weighted sum of the four corners as a real number. -/
def blendR (i0 i1 : BitVec 32) (a : ℝ) (j0 j1 : BitVec 32) (b : ℝ) (F : BitVec 32 → BitVec 32 → ℝ) : ℝ :=
  F i0 j0 * ((1 - a) * (1 - b)) + F i0 j1 * ((1 - a) * b) + F i1 j0 * (a * (1 - b)) + F i1 j1 * (a * b)

theorem blend_real (i0 i1 : BitVec 32) (a : ℝ) (j0 j1 : BitVec 32) (b : ℝ) (F : BitVec 32 → BitVec 32 → ℝ) :
    blend (Axis.real i0 i1 a) (Axis.real j0 j1 b) (fun i j => (F i j : EReal)) = (blendR i0 i1 a j0 j1 b F : EReal) := by
  unfold blend Axis.real blendR; dsimp only
  simp only [EReal.coe_mul, EReal.coe_add]

/-- When both row lines are the same line, the row weights add up to 1 and drop out. -/
theorem blendR_rows (k : BitVec 32) (a a' : ℝ) (j0 j1 : BitVec 32) (b : ℝ) (F : BitVec 32 → BitVec 32 → ℝ) :
    blendR k k a j0 j1 b F = blendR k k a' j0 j1 b F := by
  unfold blendR; ring

/-- When both column lines are the same line, the column weights add up to 1 and drop out. -/
theorem blendR_cols (i0 i1 : BitVec 32) (a : ℝ) (l : BitVec 32) (b b' : ℝ) (F : BitVec 32 → BitVec 32 → ℝ) :
    blendR i0 i1 a l l b F = blendR i0 i1 a l l b' F := by
  unfold blendR; ring

/-! ### The law -/

/-- On real coordinates and real corner values, clipping first and flooring first blend to the same value. -/
theorem blend_clipFirst_eq_floorFirst (x y : ℝ) (f : BitVec 32 → BitVec 32 → EReal)
    (hf : ∀ i j, ∃ r : ℝ, f i j = (r : EReal)) :
    blend (clipFirst (y : EReal)) (clipFirst (x : EReal)) f
      = blend (floorFirst (y : EReal)) (floorFirst (x : EReal)) f := by
  choose F hF using hf
  have hfF : f = fun i j => (F i j : EReal) := funext fun i => funext fun j => hF i j
  obtain ⟨i0, i1, a, a', hcy, hfy, hy⟩ := axis_cases y
  obtain ⟨j0, j1, b, b', hcx, hfx, hx⟩ := axis_cases x
  rw [hcy, hfy, hcx, hfx, hfF, blend_real, blend_real]
  congr 1
  rcases hy with rfl | rfl <;> rcases hx with rfl | rfl
  · rfl
  · exact blendR_cols _ _ _ _ _ _ _
  · exact blendR_rows _ _ _ _ _ _ _
  · exact (blendR_rows _ _ _ _ _ _ _).trans (blendR_cols _ _ _ _ _ _ _)

end Cert.Spec

end
-- ==== Proof.KAccumIdeal.lean ====
import proofs.«207350_g59966333387111_cont_9to1_m_496_19_alg».proof.Proof.KAccumDefs
import proofs.«207350_g59966333387111_cont_9to1_m_496_19_alg».proof.Proof.KTablesIdeal
import proofs.«207350_g59966333387111_cont_9to1_m_496_19_alg».proof.Proof.KTablesBound
import proofs.«207350_g59966333387111_cont_9to1_m_496_19_alg».proof.Proof.SpecRange

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

open Idealize.ShloMosaic.ValueIdx
open Cert.Spec (clipFirst clipFirst_i0_lt clipFirst_i1_lt)

/-! ## The accumulated sample is the clip-first blend

A tap reads the feature at the word `(16 · iy + ix) + 256 · ch`.  With both lines below 16 and the channel below 128
the 32-bit sums do not wrap and stay below 32768, so the tap is feature `256 · ch + 16 · iy + ix` of the buffer; the
four taps times the four products of weights, summed left to right, are the blend of the channel's plane. -/

/-- The tap's position as a natural number. -/
theorem tap_word {iy ix : BitVec 32} (hy : iy.toNat < 16) (hx : ix.toNat < 16) {ch : ℕ} (hc : ch < 128) :
    (IntOp.addi (IntOp.muli iy 16#32) ix + BitVec.ofNat 32 (256 * ch)).toNat % 32768
      = 256 * ch + 16 * (iy.toNat % 16) + ix.toNat % 16 := by
  unfold IntOp.addi IntOp.muli
  simp only [BitVec.toNat_add, BitVec.toNat_mul, BitVec.toNat_ofNat]
  omega

theorem tap_lt (ch : Fin 128) (iy ix : BitVec 32) : 256 * ch.val + 16 * (iy.toNat % 16) + ix.toNat % 16 < 32768 := by
  have hc : ch.val < 128 := ch.isLt
  omega

/-- A corner word `16 · iy + ix` with both lines below 16 taps the plane at `(iy, ix)`. -/
theorem tapIx_eq {iv : S4x512.Idx → BitVec 32} {r : Fin 4} {p : Fin 512} {iy ix : BitVec 32}
    (h : iv (ix2 r p) = IntOp.addi (IntOp.muli iy 16#32) ix) (hy : iy.toNat < 16) (hx : ix.toNat < 16)
    (ch : Fin 128) :
    tapIx iv r p ch.val = ix1 ⟨256 * ch.val + 16 * (iy.toNat % 16) + ix.toNat % 16, tap_lt ch iy ix⟩ := by
  unfold tapIx
  refine congrArg ix1 (Fin.ext ?_)
  show (iv (ix2 r p) + BitVec.ofNat 32 (256 * ch.val)).toNat % 32768 = _
  rw [h]
  exact tap_word hy hx ch.isLt

section Blend

variable (gv : S1x2x512.Idx → EReal) (fv : S32768.Idx → EReal)

/-- Channel `ch` at point `p` is the blend of the channel's plane along the clip-first axes of the point's two
    coordinates. -/
theorem OutAt_blend (ch : Fin 128) (p : Fin 512) :
    OutAt (F := Ideal) (GIdx (F := Ideal) gv) (GW (F := Ideal) gv) fv ch.val p
      = Cert.Spec.blend (clipFirst (gv (ix3 (0 : Fin 1) (1 : Fin 2) p))) (clipFirst (gv (ix3 (0 : Fin 1) (0 : Fin 2) p)))
          (fun iy ix => fv (ix1 ⟨256 * ch.val + 16 * (iy.toNat % 16) + ix.toNat % 16, tap_lt ch iy ix⟩)) := by
  unfold OutAt tapTerm Cert.Spec.blend
  rw [tapIx_eq (GIdx_row0 gv p) (clipFirst_i0_lt _) (clipFirst_i0_lt _) ch,
    tapIx_eq (GIdx_row1 gv p) (clipFirst_i0_lt _) (clipFirst_i1_lt _) ch,
    tapIx_eq (GIdx_row2 gv p) (clipFirst_i1_lt _) (clipFirst_i0_lt _) ch,
    tapIx_eq (GIdx_row3 gv p) (clipFirst_i1_lt _) (clipFirst_i1_lt _) ch,
    GW_row0, GW_row1, GW_row2, GW_row3]
  rfl

/-- The output row at column `512 · ch + p`. -/
theorem OutV_blend (y : S1x65536.Idx) (ch : Fin 128) (p : Fin 512) (h : (y 1).val = 512 * ch.val + p.val) :
    OutV (F := Ideal) (GIdx (F := Ideal) gv) (GW (F := Ideal) gv) fv y
      = Cert.Spec.blend (clipFirst (gv (ix3 (0 : Fin 1) (1 : Fin 2) p))) (clipFirst (gv (ix3 (0 : Fin 1) (0 : Fin 2) p)))
          (fun iy ix => fv (ix1 ⟨256 * ch.val + 16 * (iy.toNat % 16) + ix.toNat % 16, tap_lt ch iy ix⟩)) := by
  have hp : p.val < 512 := p.isLt
  have hch : colCh y = ch.val := by unfold colCh; omega
  have hpt : colPt y = p := Fin.ext (by show (y 1).val % 512 = p.val; omega)
  show OutAt (F := Ideal) (GIdx (F := Ideal) gv) (GW (F := Ideal) gv) fv (colCh y) (colPt y) = _
  rw [hch, hpt]
  exact OutAt_blend gv fv ch p

/-- The output row at any column, by the column's own channel and point. -/
theorem OutV_blend_col (y : S1x65536.Idx) :
    OutV (F := Ideal) (GIdx (F := Ideal) gv) (GW (F := Ideal) gv) fv y
      = Cert.Spec.blend (clipFirst (gv (ix3 (0 : Fin 1) (1 : Fin 2) (colPt y))))
          (clipFirst (gv (ix3 (0 : Fin 1) (0 : Fin 2) (colPt y))))
          (fun iy ix => fv (ix1 ⟨256 * (colCh y) + 16 * (iy.toNat % 16) + ix.toNat % 16,
            tap_lt ⟨colCh y, colCh_lt y⟩ iy ix⟩)) :=
  OutAt_blend gv fv ⟨colCh y, colCh_lt y⟩ (colPt y)

end Blend

end Cert.Proof.KI

end
-- ==== Proof.KValueIdeal.lean ====
import proofs.«207350_g59966333387111_cont_9to1_m_496_19_alg».proof.Proof.KLaunch
import proofs.«207350_g59966333387111_cont_9to1_m_496_19_alg».proof.Proof.KPre
import proofs.«207350_g59966333387111_cont_9to1_m_496_19_alg».proof.Proof.KOut
import proofs.«207350_g59966333387111_cont_9to1_m_496_19_alg».proof.Proof.KTablesIdeal
import proofs.«207350_g59966333387111_cont_9to1_m_496_19_alg».proof.Proof.SpecLaws
import proofs.«207350_g59966333387111_cont_9to1_m_496_19_alg».proof.Proof.KAccumIdeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.KernelIdeal.main_arg0_scv : Memref Cert.KernelIdeal.sig Kind.scVector Space.hbm Cert.KernelIdeal.S1024 EltTy.i32)
local notation "a3" => (Memref.whole Cert.KernelIdeal.main_arg1_scv : Memref Cert.KernelIdeal.sig Kind.scVector Space.hbm Cert.KernelIdeal.S1024x2x512 EltTy.f32)
local notation "a4" => (Memref.whole Cert.KernelIdeal.main_v0_scv : Memref Cert.KernelIdeal.sig Kind.scVector Space.hbm Cert.KernelIdeal.S33554432 EltTy.f32)
local notation "a5" => (Memref.whole Cert.KernelIdeal.main_v1_scv : Memref Cert.KernelIdeal.sig Kind.scVector Space.hbm Cert.KernelIdeal.S1024x65536 EltTy.f32)
local notation "a6" => (Memref.whole Cert.KernelIdeal.cc0_scratch0 : Memref Cert.KernelIdeal.sig Kind.scVector Space.vmem Cert.KernelIdeal.S32 EltTy.i32)
local notation "a7" => (Memref.whole Cert.KernelIdeal.cc0_scratch1 : Memref Cert.KernelIdeal.sig Kind.scVector Space.vmem Cert.KernelIdeal.S1x2x512 EltTy.f32)
local notation "a8" => (Memref.whole Cert.KernelIdeal.cc0_scratch2 : Memref Cert.KernelIdeal.sig Kind.scVector Space.vmem Cert.KernelIdeal.S32768 EltTy.f32)
local notation "a9" => (Memref.whole Cert.KernelIdeal.cc0_scratch3 : Memref Cert.KernelIdeal.sig Kind.scVector Space.vmem Cert.KernelIdeal.S4x512 EltTy.i32)
local notation "a10" => (Memref.whole Cert.KernelIdeal.cc0_scratch4 : Memref Cert.KernelIdeal.sig Kind.scVector Space.vmem Cert.KernelIdeal.S4x512 EltTy.f32)
local notation "a11" => (Memref.whole Cert.KernelIdeal.cc0_scratch5 : Memref Cert.KernelIdeal.sig Kind.scVector Space.vmem Cert.KernelIdeal.S1x65536 EltTy.f32)

open Idealize.ShloMosaic.ValueIdx
open Cert.Spec (clipFirst floorFirst blend)

/-!
  The kernel's whole result at the ideal instance, element by element: entry `(b, c, p)` of the result in its final
  shape is column `512·c + p` of row `b` of the flat result; that column is channel `c` at sample point `p` of query `b`,
  the four corner features of plane `(image of b, c)` weighted by the clip-first axes of the point's two coordinates;
  on real coordinates and real features that is the floor-first blend.
-/

/-! ## The two reshapes at coordinates -/

theorem colOf_lt (c : Fin 128) (p : Fin 512) : 512 * c.val + p.val < 65536 := by
  have hc := c.isLt; have hp := p.isLt; omega
/-- Column `512·c + p` of a flat row: channel `c`, point `p`. -/
abbrev colOf (c : Fin 128) (p : Fin 512) : Fin 65536 := ⟨512 * c.val + p.val, colOf_lt c p⟩

/-- Entry `(b, c, p)` of the result in its final shape is entry `(b, 512·c + p)` of the flat result. -/
theorem resOf_ix3 {d : Dev nD} (o : Buf (Elt F) (oLoc d)) (b : Fin 1024) (c : Fin 128) (p : Fin 512) :
    resOf o (ix3 b c p) = o (ix2 b (colOf c p)) := by
  unfold resOf
  exact shapeCast_apply (s := S1024x65536) (t := S1024x128x512) o shapeCasts_S1024x65536_S1024x128x512 (ix3 b c p) (ix2 b (colOf c p)) (by
    rw [Shape.rowMajor_val_two, Shape.rowMajor_val_three]
    show b.val * 65536 + (512 * c.val + p.val) = (b.val * 128 + c.val) * 512 + p.val
    omega)

/-- Entry `i·32768 + 256·c + 16·y + x` of the flat features is entry `(i, c, y, x)` of the features as given. -/
theorem featOf_ix (m : (ℓ : Loc nD τ sig) → Buf (Elt F) ℓ) (d : Dev nD) (i : Fin 1024) (c : Fin 128) (y x : Fin 16) (N : Fin 33554432)
    (hN : N.val = i.val * 32768 + 256 * c.val + 16 * y.val + x.val) :
    featOf m d (ix1 N) = m (a2Loc d) (ix4 i c y x) := by
  unfold featOf
  exact shapeCast_apply (s := S1024x128x16x16) (t := S33554432) (m (a2Loc d)) shapeCasts_S1024x128x16x16_S33554432 (ix1 N) (ix4 i c y x) (by
    rw [Shape.rowMajor_val_four, Shape.rowMajor_val_one]
    show ((i.val * 128 + c.val) * 16 + y.val) * 16 + x.val = N.val
    omega)

variable [FloatOps F]

/-! ## The flat result at a column -/

/-- Row `b` of the flat result is the row query `b` writes. -/
theorem OutFlat_ix2 (ii : S1024.Idx → BitVec 32) (grid : S1024x2x512.Idx → Elt F EltTy.f32) (feat : S33554432.Idx → Elt F EltTy.f32)
    (b : Fin 1024) (q : Fin 65536) :
    OutFlat ii grid feat (ix2 b q) = OutV (GIdx (gvRow grid b)) (GW (gvRow grid b)) (fvSlab feat (ii (ix1 b))) (ix2 (0 : Fin 1) q) := by
  rfl

/-- Column `512·c + p` of a row is channel `c` at point `p`. -/
theorem OutV_col (iv : S4x512.Idx → BitVec 32) (wv : S4x512.Idx → F .f32) (fv : S32768.Idx → F .f32) (c : Fin 128) (p : Fin 512) :
    OutV iv wv fv (ix2 (0 : Fin 1) (colOf c p)) = OutAt iv wv fv c.val p := by
  have hc := c.isLt; have hp := p.isLt
  have h1 : colCh (ix2 (0 : Fin 1) (colOf c p)) = c.val := by
    show (512 * c.val + p.val) / 512 = c.val; omega
  have h2 : colPt (ix2 (0 : Fin 1) (colOf c p)) = p := Fin.ext (by
    show (512 * c.val + p.val) % 512 = p.val; omega)
  unfold OutV
  rw [h1, h2]

/-- The grid row of query `b` holds the grid's entries `(b, ·, ·)`. -/
theorem gvRow_ix3 (grid : S1024x2x512.Idx → Elt F EltTy.f32) (b : Fin 1024) (j : Fin 2) (p : Fin 512) :
    gvRow grid b (ix3 (0 : Fin 1) j p) = grid (ix3 b j p) := by
  rfl

/-- The feature planes of image `img`, at offset `256·c + 16·y + x`: entry `(img, c, y, x)` of the features as given. -/
theorem fvSlab_featOf (m : (ℓ : Loc nD τ sig) → Buf (Elt F) ℓ) (d : Dev nD) (img : BitVec 32) (himg : img.toNat ≤ 1023) (c : Fin 128)
    (iy ix : BitVec 32) :
    fvSlab (featOf m d) img (ix1 (⟨256 * c.val + 16 * (iy.toNat % 16) + ix.toNat % 16, tap_lt c iy ix⟩ : Fin 32768))
      = m (a2Loc d) (ix4 (⟨img.toNat % 1024, Nat.mod_lt _ (by decide)⟩ : Fin 1024) c (⟨iy.toNat % 16, Nat.mod_lt _ (by decide)⟩ : Fin 16)
          (⟨ix.toNat % 16, Nat.mod_lt _ (by decide)⟩ : Fin 16)) := by
  unfold fvSlab
  refine featOf_ix m d _ c _ _ _ ?_
  have hc := c.isLt
  show (img.toNat * 32768 + (256 * c.val + 16 * (iy.toNat % 16) + ix.toNat % 16)) % 33554432
    = img.toNat % 1024 * 32768 + 256 * c.val + 16 * (iy.toNat % 16) + ix.toNat % 16
  omega

theorem toNat_le_of_toInt {v : BitVec 32} (h0 : 0 ≤ v.toInt) (h1 : v.toInt ≤ 1023) : v.toNat ≤ 1023 := by
  have e := BitVec.toInt_eq_toNat_cond v
  have hv := v.isLt
  split at e <;> omega

/-! ## The value -/

/-- The kernel's result at `(b, c, p)`, given that a channel at a point is the clip-first blend of its four corners. -/
theorem kernel_value_of [Cert.Pre_input_domain.Facts]
    (hblend : ∀ (gv : S1x2x512.Idx → EReal) (fv : S32768.Idx → EReal) (ch : Fin 128) (p : Fin 512),
      OutAt (F := Ideal) (GIdx (F := Ideal) gv) (GW (F := Ideal) gv) fv ch.val p
        = blend (clipFirst (gv (ix3 (0 : Fin 1) (1 : Fin 2) p))) (clipFirst (gv (ix3 (0 : Fin 1) (0 : Fin 2) p)))
            (fun iy ix => fv (ix1 (⟨256 * ch.val + 16 * (iy.toNat % 16) + ix.toNat % 16, tap_lt ch iy ix⟩ : Fin 32768))))
    (m : (ℓ : Loc nD τ sig) → Buf (Elt Ideal) ℓ) (d : Dev nD) (h : PreAt (F := Ideal) m d) (b : Fin 1024) (c : Fin 128) (p : Fin 512) :
    resOf (d := d) (OutFlat (m (iiLoc d)) (m (gridLoc d)) (featOf m d)) (ix3 b c p)
      = blend (floorFirst (m (gridLoc d) (ix3 b (1 : Fin 2) p))) (floorFirst (m (gridLoc d) (ix3 b (0 : Fin 2) p)))
          (fun iy ix => m (a2Loc d) (ix4 (⟨(m (iiLoc d) (ix1 b)).toNat % 1024, Nat.mod_lt _ (by decide)⟩ : Fin 1024) c
            (⟨iy.toNat % 16, Nat.mod_lt _ (by decide)⟩ : Fin 16) (⟨ix.toNat % 16, Nat.mod_lt _ (by decide)⟩ : Fin 16))) := by
  have himg : (m (iiLoc d) (ix1 b)).toNat ≤ 1023 := toNat_le_of_toInt (ii_range m d h (ix1 b)).1 (ii_range m d h (ix1 b)).2
  obtain ⟨x, hx⟩ := grid_real m d h (ix3 b (0 : Fin 2) p)
  obtain ⟨y, hy⟩ := grid_real m d h (ix3 b (1 : Fin 2) p)
  rw [resOf_ix3, OutFlat_ix2, OutV_col, hblend, gvRow_ix3, gvRow_ix3]
  have hf : (fun iy ix : BitVec 32 => fvSlab (featOf m d) (m (iiLoc d) (ix1 b))
        (ix1 (⟨256 * c.val + 16 * (iy.toNat % 16) + ix.toNat % 16, tap_lt c iy ix⟩ : Fin 32768)))
      = fun iy ix => m (a2Loc d) (ix4 (⟨(m (iiLoc d) (ix1 b)).toNat % 1024, Nat.mod_lt _ (by decide)⟩ : Fin 1024) c
          (⟨iy.toNat % 16, Nat.mod_lt _ (by decide)⟩ : Fin 16) (⟨ix.toNat % 16, Nat.mod_lt _ (by decide)⟩ : Fin 16)) :=
    funext fun iy => funext fun ix => fvSlab_featOf m d _ himg c iy ix
  rw [hf, hx, hy]
  exact Cert.Spec.blend_clipFirst_eq_floorFirst x y _ (fun i j => feat_real m d h _)

/-- The kernel's result at `(b, c, p)` is the floor-first blend of the four corner features of plane `(image of b, c)` at
    the two coordinates of point `p` of query `b`. -/
theorem kernel_value [Cert.Pre_input_domain.Facts]
    (m : (ℓ : Loc nD τ sig) → Buf (Elt Ideal) ℓ) (d : Dev nD) (h : PreAt (F := Ideal) m d) (b : Fin 1024) (c : Fin 128) (p : Fin 512) :
    resOf (d := d) (OutFlat (m (iiLoc d)) (m (gridLoc d)) (featOf m d)) (ix3 b c p)
      = blend (floorFirst (m (gridLoc d) (ix3 b (1 : Fin 2) p))) (floorFirst (m (gridLoc d) (ix3 b (0 : Fin 2) p)))
          (fun iy ix => m (a2Loc d) (ix4 (⟨(m (iiLoc d) (ix1 b)).toNat % 1024, Nat.mod_lt _ (by decide)⟩ : Fin 1024) c
            (⟨iy.toNat % 16, Nat.mod_lt _ (by decide)⟩ : Fin 16) (⟨ix.toNat % 16, Nat.mod_lt _ (by decide)⟩ : Fin 16))) :=
  kernel_value_of (fun gv fv ch p => OutAt_blend gv fv ch p) m d h b c p

end Cert.Proof.KI

end
-- ==== Proof.BBase.lean ====
/-
  The sampling kernel on one vector subcore: the names the other modules share.
-/
import proofs.«207350_g59966333387111_cont_9to1_m_496_19_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207350_g59966333387111_cont_9to1_m_496_19_alg».proof.Proof.Gen.Kernel
import proofs.«207350_g59966333387111_cont_9to1_m_496_19_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

end Cert.Proof.KB

end
-- ==== Proof.BPay.lean ====
import proofs.«207350_g59966333387111_cont_9to1_m_496_19_alg».proof.Proof.BBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

/-!
  What the SparseCore call hands each of its 2 × 16 vector subcores and takes back.

  Subcore `s` of SparseCore `c` is worker number `2·s + c` and owns rows `[32·(2·s + c), 32·(2·s + c) + 32)` of the
  flat result (1024 × 65536); the three inputs (the image indices, the sampling grid, the flat features) are read by
  every worker at places that depend on the data, so every worker holds a read share of each of them whole: share
  number `16·c + s` of the 32 the full share is cut into.
-/

variable (m : (ℓ : Loc nD τ sig) → Buf (Elt F) ℓ)

/-- The image indices, the sampling grid, the flat features and the flat result, as locations of device `d`. -/
abbrev iiLoc (d : Dev nD) : Loc nD τ sig := (SparseCore.T d).loc main_arg0
abbrev gridLoc (d : Dev nD) : Loc nD τ sig := (SparseCore.T d).loc main_arg1
abbrev featLoc (d : Dev nD) : Loc nD τ sig := (SparseCore.T d).loc main_v0
abbrev oLoc (d : Dev nD) : Loc nD τ sig := (SparseCore.T d).loc main_v1

variable (FEAT : (d : Dev nD) → Buf (Elt F) (featLoc d)) (OUT : (d : Dev nD) → Buf (Elt F) (oLoc d))

theorem hdiv32 : 32 ∣ S1024x65536.size 0 := ⟨32, rfl⟩

/-- The worker number of subcore `s` of SparseCore `c`: `2·s + c`. -/
def wid (c : Fin 2) (s : Fin 16) : Fin 32 := ⟨2 * s.val + c.val, by omega⟩
/-- The number of its read share: `16·c + s`. -/
def tok (c : Fin 2) (s : Fin 16) : Fin 32 := ⟨16 * c.val + s.val, by omega⟩

/-- The 32 rows of the flat result worker `(c, s)` owns: block `2·s + c` of the 32 equal blocks of rows. -/
abbrev outRect (c : Fin 2) (s : Fin 16) : Rect S1024x65536 := Rect.part (s := S1024x65536) (a₀ := 0) hdiv32 (wid c s)
abbrev outRows (c : Fin 2) (s : Fin 16) : Finset S1024x65536.Idx := (outRect c s).set

/-- Worker `(c, s)`'s read share. -/
abbrev rq (c : Fin 2) (s : Fin 16) : PosShare TreeShare := Transfers.shareTok fullShare 32 (tok c s)

/-- What a worker is handed: its read share of each input, its rows of the result at the launch contents. -/
abbrev goP (d : Dev nD) (c : Fin 2) (s : Fin 16) : sProp 𝕄 :=
  iprop((iiLoc d ↦{rq c s} m (iiLoc d)) ∗ (gridLoc d ↦{rq c s} m (gridLoc d)) ∗ (featLoc d ↦{rq c s} FEAT d)
    ∗ (oLoc d ↦[outRows c s]{fullShare} m (oLoc d)))
/-- What it hands back: the same shares, its rows of the result at `OUT d`. -/
abbrev tdP (d : Dev nD) (c : Fin 2) (s : Fin 16) : sProp 𝕄 :=
  iprop((iiLoc d ↦{rq c s} m (iiLoc d)) ∗ (gridLoc d ↦{rq c s} m (gridLoc d)) ∗ (featLoc d ↦{rq c s} FEAT d)
    ∗ (oLoc d ↦[outRows c s]{fullShare} OUT d))

/-- The one call: a SparseCore takes its sixteen workers' pieces and brings them back; nothing of the launch's is kept. -/
def P : (K (F := F)).Pay (nD := nD) (Val := Elt F) (Name := ℕ) (U := UU) where
  st := fun q d c => match q with
    | 0 => bigSep Finset.univ fun i : Fin ((K (F := F)).nSub 0) => goP m FEAT d (Fin.cast nCore_zero c) (Fin.cast nSub_zero i)
  dn := fun q d c => match q with
    | 0 => bigSep Finset.univ fun i : Fin ((K (F := F)).nSub 0) => tdP m FEAT OUT d (Fin.cast nCore_zero c) (Fin.cast nSub_zero i)
  go := fun q d c i => match q with
    | 0 => goP m FEAT d (Fin.cast nCore_zero c) (Fin.cast nSub_zero i)
  td := fun q d c i => match q with
    | 0 => tdP m FEAT OUT d (Fin.cast nCore_zero c) (Fin.cast nSub_zero i)
  x := fun _ _ => iprop(emp)

instance P_storable : (P (F := F) m FEAT OUT).IsStorable where
  st q d c := match q with
    | 0 => (inferInstance : BI.Storable (upEmb : UEmb _ 𝕄)
        (bigSep Finset.univ fun i : Fin ((K (F := F)).nSub 0) => goP m FEAT d (Fin.cast nCore_zero c) (Fin.cast nSub_zero i)))
  dn q d c := match q with
    | 0 => (inferInstance : BI.Storable (upEmb : UEmb _ 𝕄)
        (bigSep Finset.univ fun i : Fin ((K (F := F)).nSub 0) => tdP m FEAT OUT d (Fin.cast nCore_zero c) (Fin.cast nSub_zero i)))
  go q d c i := match q with
    | 0 => (inferInstance : BI.Storable (upEmb : UEmb _ 𝕄) (goP m FEAT d (Fin.cast nCore_zero c) (Fin.cast nSub_zero i)))
  td q d c i := match q with
    | 0 => (inferInstance : BI.Storable (upEmb : UEmb _ 𝕄) (tdP m FEAT OUT d (Fin.cast nCore_zero c) (Fin.cast nSub_zero i)))

theorem P_go (d : Dev nD) (c : Fin ((K (F := F)).nCore 0)) (i : Fin ((K (F := F)).nSub 0)) :
    (P (F := F) m FEAT OUT).go 0 d c i = goP m FEAT d (Fin.cast nCore_zero c) (Fin.cast nSub_zero i) := rfl
theorem P_td (d : Dev nD) (c : Fin ((K (F := F)).nCore 0)) (i : Fin ((K (F := F)).nSub 0)) :
    (P (F := F) m FEAT OUT).td 0 d c i = tdP m FEAT OUT d (Fin.cast nCore_zero c) (Fin.cast nSub_zero i) := rfl
theorem P_st (d : Dev nD) (c : Fin ((K (F := F)).nCore 0)) :
    (P (F := F) m FEAT OUT).st 0 d c = bigSep Finset.univ fun i : Fin ((K (F := F)).nSub 0) => (P (F := F) m FEAT OUT).go 0 d c i := rfl
theorem P_dn (d : Dev nD) (c : Fin ((K (F := F)).nCore 0)) :
    (P (F := F) m FEAT OUT).dn 0 d c = bigSep Finset.univ fun i : Fin ((K (F := F)).nSub 0) => (P (F := F) m FEAT OUT).td 0 d c i := rfl
theorem P_x (q : Fin 1) (thr : Thread nD τ) : (P (F := F) m FEAT OUT).x q thr = iprop(emp) := rfl

end Cert.Proof.KB

end
-- ==== Proof.BLaunch.lean ====
import proofs.«207350_g59966333387111_cont_9to1_m_496_19_alg».proof.Proof.BPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

/-!
  The launch: @main on the TensorCore flattens the features, starts the SparseCore call and waits for it, and gives the
  flat result its final shape. The call's operands are cut into the 2 × 16 workers' pieces (a read share of each input,
  32 rows of the result) and put together again after it.
-/

variable (m : (ℓ : Loc nD τ sig) → Buf (Elt F) ℓ) (ρ : Dev nD → PrngReg)

/-- The features as given (rank 4) and the result in its final shape, as locations of device `d`. -/
abbrev a2Loc (d : Dev nD) : Loc nD τ sig := (SparseCore.T d).loc main_arg2
abbrev rLoc (d : Dev nD) : Loc nD τ sig := (SparseCore.T d).loc main_v2

/-- The flat features: the given ones in row-major order. -/
def featOf (d : Dev nD) : Buf (Elt F) (featLoc d) :=
  fun i => shapeCast S33554432 (m (a2Loc d)) shapeCasts_S1024x128x16x16_S33554432 i
/-- The result in its final shape: the flat one in row-major order. -/
def resOf {d : Dev nD} (o : Buf (Elt F) (oLoc d)) : Buf (Elt F) (rLoc d) :=
  fun i => shapeCast S1024x128x512 o shapeCasts_S1024x65536_S1024x128x512 i

variable (OUT : (d : Dev nD) → Buf (Elt F) (oLoc d))

/-! ## The 2 × 16 workers, numbered -/

theorem wid_bij : Function.Bijective fun p : Fin 2 × Fin 16 => wid p.1 p.2 := by
  constructor
  · rintro ⟨c, s⟩ ⟨c', s'⟩ h
    have h' : 2 * s.val + c.val = 2 * s'.val + c'.val := congrArg Fin.val h
    have hc := c.isLt; have hc' := c'.isLt
    have e1 : c.val = c'.val := by omega
    have e2 : s.val = s'.val := by omega
    exact Prod.ext (Fin.ext e1) (Fin.ext e2)
  · intro w
    refine ⟨(⟨w.val % 2, Nat.mod_lt _ (by omega)⟩, ⟨w.val / 2, by have := w.isLt; omega⟩), Fin.ext ?_⟩
    show 2 * (w.val / 2) + w.val % 2 = w.val
    omega

theorem tok_bij : Function.Bijective fun p : Fin 2 × Fin 16 => tok p.1 p.2 := by
  constructor
  · rintro ⟨c, s⟩ ⟨c', s'⟩ h
    have h' : 16 * c.val + s.val = 16 * c'.val + s'.val := congrArg Fin.val h
    have hs := s.isLt; have hs' := s'.isLt
    have e1 : c.val = c'.val := by omega
    have e2 : s.val = s'.val := by omega
    exact Prod.ext (Fin.ext e1) (Fin.ext e2)
  · intro w
    refine ⟨(⟨w.val / 16, by have := w.isLt; omega⟩, ⟨w.val % 16, Nat.mod_lt _ (by omega)⟩), Fin.ext ?_⟩
    show 16 * (w.val / 16) + w.val % 16 = w.val
    omega

/-- A family over the 32 numbers, taken worker by worker along a numbering of the workers. -/
theorem bigSep_workers (e : Fin 2 → Fin 16 → Fin 32) (he : Function.Bijective fun p : Fin 2 × Fin 16 => e p.1 p.2) (Φ : Fin 32 → sProp 𝕄) :
    (bigSep Finset.univ fun c : Fin ((K (F := F)).nCore 0) => bigSep Finset.univ fun i : Fin ((K (F := F)).nSub 0) =>
        Φ (e (Fin.cast nCore_zero c) (Fin.cast nSub_zero i))) = bigSep Finset.univ Φ := by
  have h1 : (bigSep Finset.univ fun c : Fin ((K (F := F)).nCore 0) => bigSep Finset.univ fun i : Fin ((K (F := F)).nSub 0) =>
        Φ (e (Fin.cast nCore_zero c) (Fin.cast nSub_zero i)))
      = bigSep (Finset.univ : Finset (Fin 2)) fun c => bigSep (Finset.univ : Finset (Fin 16)) fun i => Φ (e c i) := rfl
  rw [h1, ← SparseCore.bigSep_product Finset.univ Finset.univ (fun p : Fin 2 × Fin 16 => Φ (e p.1 p.2)), Finset.univ_product_univ,
    ← SparseCore.bigSep_image_of_injOn (f := fun p : Fin 2 × Fin 16 => e p.1 p.2) he.1.injOn Φ, Finset.image_univ_of_surjective he.2]

/-- Four families, three along the share numbering and one along the worker numbering. -/
theorem bigSep_workers4 (A B C D : Fin 32 → sProp 𝕄) :
    (bigSep Finset.univ fun c : Fin ((K (F := F)).nCore 0) => bigSep Finset.univ fun i : Fin ((K (F := F)).nSub 0) =>
        iprop(A (tok (Fin.cast nCore_zero c) (Fin.cast nSub_zero i)) ∗ B (tok (Fin.cast nCore_zero c) (Fin.cast nSub_zero i))
          ∗ C (tok (Fin.cast nCore_zero c) (Fin.cast nSub_zero i)) ∗ D (wid (Fin.cast nCore_zero c) (Fin.cast nSub_zero i))))
      = iprop(bigSep Finset.univ A ∗ bigSep Finset.univ B ∗ bigSep Finset.univ C ∗ bigSep Finset.univ D) := by
  rw [← bigSep_workers (F := F) tok tok_bij A, ← bigSep_workers (F := F) tok tok_bij B, ← bigSep_workers (F := F) tok tok_bij C,
    ← bigSep_workers (F := F) wid wid_bij D]
  simp only [bigSep_sep']

/-! ## The result's 32 blocks of rows -/

theorem blocks_disjoint : ∀ i ∈ (Finset.univ : Finset (Fin 32)), ∀ j ∈ (Finset.univ : Finset (Fin 32)), i ≠ j →
    Disjoint (Rect.part (s := S1024x65536) (a₀ := 0) hdiv32 i).set (Rect.part (s := S1024x65536) (a₀ := 0) hdiv32 j).set :=
  fun _ _ _ _ h => Rect.part_disjoint hdiv32 h
theorem blocks_cover : (Finset.univ : Finset (Fin 32)).biUnion (fun i => (Rect.part (s := S1024x65536) (a₀ := 0) hdiv32 i).set) = Finset.univ :=
  Rect.biUnion_part hdiv32

theorem oPts_blocks (d : Dev nD) (f : Buf (Elt F) (oLoc d)) :
    (oLoc d ↦{fullShare} f : sProp 𝕄)
      = bigSep Finset.univ fun i : Fin 32 => oLoc d ↦[(Rect.part (s := S1024x65536) (a₀ := 0) hdiv32 i).set]{fullShare} f := by
  rw [← pointsTo_biUnion Finset.univ (ℓ := oLoc d) (fun i : Fin 32 => (Rect.part (s := S1024x65536) (a₀ := 0) hdiv32 i).set) blocks_disjoint,
    blocks_cover]; try rfl

/-! ## What the call takes and brings back, regrouped -/

variable [FloatOps F]

/-- The 32 read shares of an array. -/
abbrev toks (ℓ : Loc nD τ sig) (f : Buf (Elt F) ℓ) : sProp 𝕄 :=
  bigSep Finset.univ fun t : Fin 32 => ℓ ↦{Transfers.shareTok fullShare 32 t} f

theorem st0_eq (FEAT : (d : Dev nD) → Buf (Elt F) (featLoc d)) (d : Dev nD) :
    (bigSep Finset.univ fun c : Fin ((K (F := F)).nCore 0) => (P m FEAT OUT).st 0 d c)
      = iprop(toks (iiLoc d) (m (iiLoc d)) ∗ toks (gridLoc d) (m (gridLoc d)) ∗ toks (featLoc d) (FEAT d) ∗ oLoc d ↦{fullShare} m (oLoc d)) := by
  rw [oPts_blocks]
  exact bigSep_workers4 (F := F) (fun t => iiLoc d ↦{Transfers.shareTok fullShare 32 t} m (iiLoc d))
    (fun t => gridLoc d ↦{Transfers.shareTok fullShare 32 t} m (gridLoc d)) (fun t => featLoc d ↦{Transfers.shareTok fullShare 32 t} FEAT d)
    (fun w => oLoc d ↦[(Rect.part (s := S1024x65536) (a₀ := 0) hdiv32 w).set]{fullShare} m (oLoc d))

theorem dn0_eq (FEAT : (d : Dev nD) → Buf (Elt F) (featLoc d)) (d : Dev nD) :
    (bigSep Finset.univ fun c : Fin ((K (F := F)).nCore 0) => (P m FEAT OUT).dn 0 d c)
      = iprop(toks (iiLoc d) (m (iiLoc d)) ∗ toks (gridLoc d) (m (gridLoc d)) ∗ toks (featLoc d) (FEAT d) ∗ oLoc d ↦{fullShare} OUT d) := by
  rw [oPts_blocks]
  exact bigSep_workers4 (F := F) (fun t => iiLoc d ↦{Transfers.shareTok fullShare 32 t} m (iiLoc d))
    (fun t => gridLoc d ↦{Transfers.shareTok fullShare 32 t} m (gridLoc d)) (fun t => featLoc d ↦{Transfers.shareTok fullShare 32 t} FEAT d)
    (fun w => oLoc d ↦[(Rect.part (s := S1024x65536) (a₀ := 0) hdiv32 w).set]{fullShare} OUT d)

/-- The workers' pieces are the SparseCore's operands as they stand: nothing to cut. -/
theorem vecSplit (FEAT : (d : Dev nD) → Buf (Elt F) (featLoc d)) : (K (F := F)).VecSplit' (P m FEAT OUT) 0 := by
  intro d c
  rw [P_st, P_dn]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (FEAT : (d : Dev nD) → Buf (Elt F) (featLoc d)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m FEAT OUT).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The two host operations: the features flattened, the flat result given its final shape. -/
abbrev opR1 : HloOp τ sig (Elt F) := StableHlo.reshape main_arg2 main_v0 rfl shapeCasts_S1024x128x16x16_S33554432
abbrev opR2 : HloOp τ sig (Elt F) := StableHlo.reshape main_v1 main_v2 rfl shapeCasts_S1024x65536_S1024x128x512

/-- The TensorCore's arrays, all unscoped. -/
abbrev S6 : Finset (DevRef τ sig) := {a0', a1', a2', v0', v1', v2'}

omit [FloatOps F] in
theorem held_S6 (d : Dev nD) (W : Valuation τ sig (Elt F)) :
    (held (SparseCore.T d) S6 W : sProp 𝕄)
      = iprop((iiLoc d ↦{fullShare} W a0') ∗ (gridLoc d ↦{fullShare} W a1') ∗ (a2Loc d ↦{fullShare} W a2') ∗ (featLoc d ↦{fullShare} W v0')
          ∗ (oLoc d ↦{fullShare} W v1') ∗ rLoc d ↦{fullShare} W v2') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((iiLoc d ↦{fullShare} W main_arg0) ∗ (gridLoc d ↦{fullShare} W main_arg1) ∗ (a2Loc d ↦{fullShare} W main_arg2)
          ∗ (featLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (SparseCore.T d) S6 (V0 m d) := by
  rw [unscopedBufs_eq, held_S6]; rfl

theorem hR1 : (opR1 (F := F)).bufs ⊆ S6 := show ({a2', v0'} : Finset (DevRef τ sig)) ⊆ S6 by decide
theorem hR2 : (opR2 (F := F)).bufs ⊆ S6 := show ({v1', v2'} : Finset (DevRef τ sig)) ⊆ S6 by decide

/-- After the first reshape: the flat features where they belong, everything else as launched. -/
theorem R1_a0 (d : Dev nD) : (opR1 (F := F)).result (V0 m d) a0' = m (iiLoc d) :=
  StableHlo.reshape_result_ne _ _ _ _ _ _ (V0 m d) (show main_arg0 ≠ main_v0 by decide)
theorem R1_a1 (d : Dev nD) : (opR1 (F := F)).result (V0 m d) a1' = m (gridLoc d) :=
  StableHlo.reshape_result_ne _ _ _ _ _ _ (V0 m d) (show main_arg1 ≠ main_v0 by decide)
theorem R1_a2 (d : Dev nD) : (opR1 (F := F)).result (V0 m d) a2' = m (a2Loc d) :=
  StableHlo.reshape_result_ne _ _ _ _ _ _ (V0 m d) (show main_arg2 ≠ main_v0 by decide)
theorem R1_v0 (d : Dev nD) : (opR1 (F := F)).result (V0 m d) v0' = featOf m d :=
  StableHlo.reshape_result _ _ _ _ _ _ (V0 m d)
theorem R1_v1 (d : Dev nD) : (opR1 (F := F)).result (V0 m d) v1' = m (oLoc d) :=
  StableHlo.reshape_result_ne _ _ _ _ _ _ (V0 m d) (show main_v1 ≠ main_v0 by decide)
theorem R1_v2 (d : Dev nD) : (opR1 (F := F)).result (V0 m d) v2' = m (rLoc d) :=
  StableHlo.reshape_result_ne _ _ _ _ _ _ (V0 m d) (show main_v2 ≠ main_v0 by decide)

theorem held_V1 (d : Dev nD) :
    (held (SparseCore.T d) S6 ((opR1 (F := F)).result (V0 m d)) : sProp 𝕄)
      = iprop((iiLoc d ↦{fullShare} m (iiLoc d)) ∗ (gridLoc d ↦{fullShare} m (gridLoc d)) ∗ (a2Loc d ↦{fullShare} m (a2Loc d))
          ∗ (featLoc d ↦{fullShare} featOf m d) ∗ (oLoc d ↦{fullShare} m (oLoc d)) ∗ rLoc d ↦{fullShare} m (rLoc d)) := by
  rw [held_S6, R1_a0, R1_a1, R1_a2, R1_v0, R1_v1, R1_v2]

/-- After the call: the flat result at what the kernel left. -/
def V2 (d : Dev nD) : Valuation τ sig (Elt F) := Function.update ((opR1 (F := F)).result (V0 m d)) v1' (OUT d)

theorem V2_a0 (d : Dev nD) : V2 m OUT d a0' = m (iiLoc d) := (Function.update_of_ne (show a0' ≠ v1' by decide) _ _).trans (R1_a0 m d)
theorem V2_a1 (d : Dev nD) : V2 m OUT d a1' = m (gridLoc d) := (Function.update_of_ne (show a1' ≠ v1' by decide) _ _).trans (R1_a1 m d)
theorem V2_a2 (d : Dev nD) : V2 m OUT d a2' = m (a2Loc d) := (Function.update_of_ne (show a2' ≠ v1' by decide) _ _).trans (R1_a2 m d)
theorem V2_v0 (d : Dev nD) : V2 m OUT d v0' = featOf m d := (Function.update_of_ne (show v0' ≠ v1' by decide) _ _).trans (R1_v0 m d)
theorem V2_v1 (d : Dev nD) : V2 m OUT d v1' = OUT d := Function.update_self _ _ _
theorem V2_v2 (d : Dev nD) : V2 m OUT d v2' = m (rLoc d) := (Function.update_of_ne (show v2' ≠ v1' by decide) _ _).trans (R1_v2 m d)

theorem held_V2 (d : Dev nD) :
    (held (SparseCore.T d) S6 (V2 m OUT d) : sProp 𝕄)
      = iprop((iiLoc d ↦{fullShare} m (iiLoc d)) ∗ (gridLoc d ↦{fullShare} m (gridLoc d)) ∗ (a2Loc d ↦{fullShare} m (a2Loc d))
          ∗ (featLoc d ↦{fullShare} featOf m d) ∗ (oLoc d ↦{fullShare} OUT d) ∗ rLoc d ↦{fullShare} m (rLoc d)) := by
  rw [held_S6, V2_a0, V2_a1, V2_a2, V2_v0, V2_v1, V2_v2]

/-- After the second reshape: the result in its final shape. -/
theorem R2_a0 (d : Dev nD) : (opR2 (F := F)).result (V2 m OUT d) a0' = m (iiLoc d) :=
  (StableHlo.reshape_result_ne _ _ _ _ _ _ (V2 m OUT d) (show main_arg0 ≠ main_v2 by decide)).trans (V2_a0 m OUT d)
theorem R2_a1 (d : Dev nD) : (opR2 (F := F)).result (V2 m OUT d) a1' = m (gridLoc d) :=
  (StableHlo.reshape_result_ne _ _ _ _ _ _ (V2 m OUT d) (show main_arg1 ≠ main_v2 by decide)).trans (V2_a1 m OUT d)
theorem R2_a2 (d : Dev nD) : (opR2 (F := F)).result (V2 m OUT d) a2' = m (a2Loc d) :=
  (StableHlo.reshape_result_ne _ _ _ _ _ _ (V2 m OUT d) (show main_arg2 ≠ main_v2 by decide)).trans (V2_a2 m OUT d)
theorem R2_v0 (d : Dev nD) : (opR2 (F := F)).result (V2 m OUT d) v0' = featOf m d :=
  (StableHlo.reshape_result_ne _ _ _ _ _ _ (V2 m OUT d) (show main_v0 ≠ main_v2 by decide)).trans (V2_v0 m OUT d)
theorem R2_v1 (d : Dev nD) : (opR2 (F := F)).result (V2 m OUT d) v1' = OUT d :=
  (StableHlo.reshape_result_ne _ _ _ _ _ _ (V2 m OUT d) (show main_v1 ≠ main_v2 by decide)).trans (V2_v1 m OUT d)
theorem R2_v2 (d : Dev nD) : (opR2 (F := F)).result (V2 m OUT d) v2' = resOf (OUT d) := by
  refine (StableHlo.reshape_result _ _ _ _ _ _ (V2 m OUT d)).trans ?_
  show (fun i => shapeCast S1024x128x512 (V2 m OUT d v1') shapeCasts_S1024x65536_S1024x128x512 i) = _
  rw [V2_v1]; rfl

theorem held_V3 (d : Dev nD) :
    (held (SparseCore.T d) S6 ((opR2 (F := F)).result (V2 m OUT d)) : sProp 𝕄)
      = iprop((iiLoc d ↦{fullShare} m (iiLoc d)) ∗ (gridLoc d ↦{fullShare} m (gridLoc d)) ∗ (a2Loc d ↦{fullShare} m (a2Loc d))
          ∗ (featLoc d ↦{fullShare} featOf m d) ∗ (oLoc d ↦{fullShare} OUT d) ∗ rLoc d ↦{fullShare} resOf (OUT d)) := by
  rw [held_S6, R2_a0, R2_a1, R2_a2, R2_v0, R2_v1, R2_v2]

/-- What @main leaves the claim: the three arguments whole as launched, the result at the kernel's rows reshaped. -/
abbrev FIN (d : Dev nD) : sProp 𝕄 :=
  iprop((iiLoc d ↦{fullShare} m (iiLoc d)) ∗ (gridLoc d ↦{fullShare} m (gridLoc d)) ∗ (a2Loc d ↦{fullShare} m (a2Loc d))
    ∗ rLoc d ↦{fullShare} resOf (OUT d))

/-- @main on device `d`'s TensorCore: the features flattened, the call (the inputs cut into the workers' read shares, the
    result into their blocks of rows; all put together after it), the result reshaped. -/
theorem hmain (κ : GSem nD τ sig → ℕ) (d : Dev nD) :
    iprop((K (F := F)).ctx EH (P m (featOf m) OUT) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m OUT d) := by
  unfold SparseCore.Cfg.tcRes
  rw [unscoped_held]
  simp only [main, wp_bind, wp_pure]
  iintro ⟨#Hctx, Hst, ⟨Hb, Hheld, -, -⟩, -⟩
  -- the features flattened
  iapply (wp_hlo_within 𝒱 (SparseCore.T d) none Set.univ (op := opR1) (S := S6) hR1 (V := V0 m d)) $$ [Hb Hheld]
  · isplitl [Hb]; · iexact Hb
    iexact Hheld
  iintro ⟨Hb, Hheld⟩
  ihave Hh := (Entails.of_eq (held_V1 (F := F) m d)) $$ Hheld
  icases Hh with ⟨Ha0, Ha1, Ha2, Hv0, Hv1, Hv2⟩
  rw [wp_ret]; imodintro
  -- the inputs cut into 32 read shares each, the remainders kept aside
  ihave Ha0s := (Transfers.pointsTo_toks_split fullShare 32) $$ Ha0
  icases Ha0s with ⟨Ha0d, Ha0t⟩
  ihave Ha1s := (Transfers.pointsTo_toks_split fullShare 32) $$ Ha1
  icases Ha1s with ⟨Ha1d, Ha1t⟩
  ihave Hv0s := (Transfers.pointsTo_toks_split fullShare 32) $$ Hv0
  icases Hv0s with ⟨Hv0d, Hv0t⟩
  -- the call
  iapply ((K (F := F)).wp_run (D (F := F)) 𝒱 (EH := EH) (P := P m (featOf m) OUT) κ d 0) $$ [Hst Ha0t Ha1t Hv0t Hv1 Ha0d Ha1d Hv0d Hb Ha2 Hv2]
  isplitr; · iexact Hctx
  isplitl [Hst]; · iexact Hst
  isplitl [Ha0t Ha1t Hv0t Hv1]
  · rw [st0_eq]
    isplitl [Ha0t]; · iexact Ha0t
    isplitl [Ha1t]; · iexact Ha1t
    isplitl [Hv0t]; · iexact Hv0t
    iexact Hv1
  iintro ⟨Hst, Hdn⟩
  ihave Hdn' := (Entails.of_eq (dn0_eq m OUT (featOf m) d)) $$ Hdn
  icases Hdn' with ⟨Ha0t, Ha1t, Hv0t, Hv1⟩
  ihave Ha0 := (Transfers.pointsTo_toks_join fullShare 32) $$ [Ha0d Ha0t]
  · isplitl [Ha0d]; · iexact Ha0d
    iexact Ha0t
  ihave Ha1 := (Transfers.pointsTo_toks_join fullShare 32) $$ [Ha1d Ha1t]
  · isplitl [Ha1d]; · iexact Ha1d
    iexact Ha1t
  ihave Hv0 := (Transfers.pointsTo_toks_join fullShare 32) $$ [Hv0d Hv0t]
  · isplitl [Hv0d]; · iexact Hv0d
    iexact Hv0t
  -- the result reshaped
  iapply (wp_hlo_within 𝒱 (SparseCore.T d) none Set.univ (op := opR2) (S := S6) hR2 (V := V2 m OUT d)) $$ [Hb Ha0 Ha1 Ha2 Hv0 Hv1 Hv2]
  · isplitl [Hb]; · iexact Hb
    rw [held_V2]
    isplitl [Ha0]; · iexact Ha0
    isplitl [Ha1]; · iexact Ha1
    isplitl [Ha2]; · iexact Ha2
    isplitl [Hv0]; · iexact Hv0
    isplitl [Hv1]; · iexact Hv1
    iexact Hv2
  iintro ⟨Hb, Hheld⟩
  ihave Hh := (Entails.of_eq (held_V3 (F := F) m OUT d)) $$ Hheld
  icases Hh with ⟨Ha0, Ha1, Ha2, -, -, Hv2⟩
  rw [wp_ret]; imodintro; imodintro
  isplitl [Hst]; · iexact Hst
  isplitl [Ha0]; · iexact Ha0
  isplitl [Ha1]; · iexact Ha1
  isplitl [Ha2]; · iexact Ha2
  iexact Hv2

/-- What the claim reads off the final state: the result and the three arguments. -/
def fq (d : Dev nD) (s' : Phys nD τ sig (Elt F)) : Prop :=
  s'.mem.mem (rLoc d) = resOf (OUT d) ∧ s'.mem.mem (iiLoc d) = m (iiLoc d) ∧ s'.mem.mem (gridLoc d) = m (gridLoc d) ∧ s'.mem.mem (a2Loc d) = m (a2Loc d)

theorem hfin (d : Dev nD) (s' : Phys nD τ sig (Elt F)) : iprop(FIN m OUT d ∗ SI s') ⊢ (⌜fq m OUT d s'⌝ : sProp 𝕄) := by
  iintro ⟨⟨Ha0, Ha1, Ha2, Hv2⟩, HSI⟩
  ihave H := (persistent_entails_right (SI_pointsTo_agree (st := s') (ℓ := iiLoc d) (I := Finset.univ) (q := fullShare) (f := m (iiLoc d)))) $$ [HSI Ha0]
  · isplitl [HSI] <;> iassumption
  icases H with ⟨%h0, HSI, -⟩
  ihave H := (persistent_entails_right (SI_pointsTo_agree (st := s') (ℓ := gridLoc d) (I := Finset.univ) (q := fullShare) (f := m (gridLoc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (SI_pointsTo_agree (st := s') (ℓ := rLoc d) (I := Finset.univ) (q := fullShare) (f := resOf (OUT d))) $$ [HSI Hv2]
  · isplitl [HSI] <;> iassumption
  icases H with %h3
  ipureintro
  exact ⟨funext fun i => h3 i (Finset.mem_univ i), funext fun i => h0 i (Finset.mem_univ i), funext fun i => h1 i (Finset.mem_univ i),
    funext fun i => h2 i (Finset.mem_univ i)⟩

/-! ## The program's run -/

/-- The run's post: on every device the result is the kernel's flat result reshaped and the three arguments are as launched. -/
def QC : PUnit × MemSt nD τ sig (Elt F) → Prop := fun r => ∀ c : Dev nD,
  r.2.mem ((c.tc : Thread nD τ).loc main_v2) = resOf (OUT c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

/-- The whole device program runs, given that every vector subcore's body meets its obligation. -/
theorem run_main [∀ e, Nonempty (Elt F e)] (hT : (K (F := F)).TileObl (D (F := F)) 𝒱 (P m (featOf m) OUT) v₀ 0) :
    θ_run (Cert.Kernel.defs (F := F)) (Cert.Kernel.threads (F := F)) ⟨m, fun _ => 0, ρ⟩ (QC m OUT) :=
  SparseCore.Cfg.θ_run_sc (K := K (F := F)) (D := D (F := F)) (𝒱 := 𝒱) (EH := EH) (P := P m (featOf m) OUT) facts v₀
    (fun q hq => match q with | 0 => nomatch hq)
    (fun q _ => match q with | 0 => hT)
    (fun q _ => match q with | 0 => SparseCore.Cfg.VecSplit.of_plain (vecSplit m OUT (featOf m)))
    m ρ main (fun _ => iprop(emp)) (FIN m OUT) (u₀ (F := F)) (sep_elim_left.trans (hu₀ m OUT (featOf m))) (hmain m ρ OUT) (fq m OUT) (hfin m OUT)
    (QC m OUT) (fun _ h => h)

end Cert.Proof.KB

end
-- ==== Proof.BRows.lean ====
/-
  The sampling kernel on one vector subcore: the rows of the flat result a subcore owns, one per trip of its outer
  loop, and where the kernel's slices of the image indices, the grid and the result sit in the whole arrays.
-/
import proofs.«207350_g59966333387111_cont_9to1_m_496_19_alg».proof.Proof.BPay
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

open Idealize.ShloMosaic.ValueIdx

/-!
  The rows of the flat result, one at a time.

  Subcore `s` of SparseCore `c` owns rows `32·(2·s + c) … 32·(2·s + c) + 31` of the flat result (1024 × 65536).
  Trip `k` of its outer loop slices row `64·s + 32·c + k` of the result, element `64·s + 32·c + k` of the grid and,
  before the loop, elements `64·s + 32·c … 64·s + 32·c + 31` of the image indices. The 32 rows of the trips are
  pairwise disjoint and together are the block the subcore owns; each slice places its own index at the expected
  place of the whole array.
-/

theorem bound_zero : grid0.bound 0 = 2 := rfl
theorem bound_one : grid0.bound 1 = 16 := rfl
theorem t1_trips : k0_t1_loop.trips = 32 := rfl

/-- The SparseCore and the subcore of a grid point. -/
abbrev cOf (L : grid0.Coords) : Fin 2 := Fin.cast bound_zero (L 0)
abbrev sOf (L : grid0.Coords) : Fin 16 := Fin.cast bound_one (L 1)

/-- Row `64·s + 32·c + k` of the flat result, as trip `k` slices it. -/
abbrev rowRect (L : grid0.Coords) (k : Fin k0_t1_loop.trips) : Rect S1024x65536 :=
  Rect.unit (s := S1024x65536) (k0_off15 L k) S1x65536.size (k0_off15_inb L k)
abbrev rowMem (L : grid0.Coords) (k : Fin k0_t1_loop.trips) : Memref sig .scVector .hbm S1x65536 .f32 :=
  (a5).slice (rowRect L k) (fun _ => rfl)
abbrev rowSetK (L : grid0.Coords) (k : Fin k0_t1_loop.trips) : Finset S1024x65536.Idx := (rowMem L k).view.set

theorem rowSetK_eq (L : grid0.Coords) (k : Fin k0_t1_loop.trips) : rowSetK L k = (rowRect L k).set := by
  show ((View.whole (main_v1_scv : Ref sig .scVector)).slice (rowRect L k)).set = _
  rw [View.set_slice]; exact Finset.map_refl

/-- An index of the flat result lies in trip `k`'s row exactly when its row number is `64·s + 32·c + k`. -/
theorem mem_rowSetK (L : grid0.Coords) (k : Fin k0_t1_loop.trips) (i : S1024x65536.Idx) :
    i ∈ rowSetK L k ↔ (i 0).val = 64 * (L 1).val + 32 * (L 0).val + k.val := by
  rw [rowSetK_eq, Rect.mem_set_unit, k0_off15_eq, Fin.forall_fin_two]
  have h1 : (i 1).val < 65536 := (i 1).isLt
  show ((64 * (L 1).val + 32 * (L 0).val + k.val ≤ (i 0).val ∧ (i 0).val < 64 * (L 1).val + 32 * (L 0).val + k.val + 1)
    ∧ (0 ≤ (i 1).val ∧ (i 1).val < 0 + 65536)) ↔ _
  omega

/-- An index of the flat result lies in the block of worker `(c, s)` exactly when its row number is in
    `[32·(2·s + c), 32·(2·s + c) + 32)`. -/
theorem mem_outRows (c : Fin 2) (s : Fin 16) (i : S1024x65536.Idx) :
    i ∈ outRows c s ↔ 32 * (2 * s.val + c.val) ≤ (i 0).val ∧ (i 0).val < 32 * (2 * s.val + c.val) + 32 := by
  show i ∈ (Rect.unit (s := S1024x65536) _ _ _).set ↔ _
  rw [Rect.mem_set_unit, Fin.forall_fin_two]
  have h1 : (i 1).val < 65536 := (i 1).isLt
  show (((2 * s.val + c.val) * 32 ≤ (i 0).val ∧ (i 0).val < (2 * s.val + c.val) * 32 + 32)
    ∧ (0 * 65536 ≤ (i 1).val ∧ (i 1).val < 0 * 65536 + 65536)) ↔ _
  omega

theorem rows_disjointK (L : grid0.Coords) :
    ∀ k ∈ (Finset.univ : Finset (Fin k0_t1_loop.trips)), ∀ k' ∈ (Finset.univ : Finset (Fin k0_t1_loop.trips)), k ≠ k' →
      Disjoint (rowSetK L k) (rowSetK L k') := by
  intro k _ k' _ h
  rw [Finset.disjoint_left]
  intro i hi hi'
  rw [mem_rowSetK] at hi hi'
  exact h (Fin.ext (by omega))

theorem rows_coverK (L : grid0.Coords) :
    (Finset.univ : Finset (Fin k0_t1_loop.trips)).biUnion (rowSetK L) = outRows (cOf L) (sOf L) := by
  ext i
  rw [mem_outRows]
  simp only [Finset.mem_biUnion, Finset.mem_univ, true_and, mem_rowSetK]
  show (∃ k : Fin k0_t1_loop.trips, (i 0).val = 64 * (L 1).val + 32 * (L 0).val + k.val)
    ↔ 32 * (2 * (L 1).val + (L 0).val) ≤ (i 0).val ∧ (i 0).val < 32 * (2 * (L 1).val + (L 0).val) + 32
  constructor
  · rintro ⟨k, hk⟩
    have hk32 : k.val < 32 := k.isLt
    omega
  · rintro ⟨hlo, hhi⟩
    exact ⟨⟨(i 0).val - (64 * (L 1).val + 32 * (L 0).val), by show _ < 32; omega⟩, by show _ = _ + ((i 0).val - _); omega⟩

/-- The block a worker owns, held whole, is its 32 rows held one by one. -/
theorem block_rows (d : Dev nD) (L : grid0.Coords) (f : Buf (Elt F) (oLoc d)) :
    (oLoc d ↦[outRows (cOf L) (sOf L)]{fullShare} f : sProp 𝕄)
      = bigSep Finset.univ fun k : Fin k0_t1_loop.trips => oLoc d ↦[rowSetK L k]{fullShare} f := by
  rw [← pointsTo_biUnion Finset.univ (ℓ := oLoc d) (rowSetK L) (rows_disjointK L), rows_coverK]

/-- Holding trip `k`'s row through the memref the kernel slices is holding that row of the flat result. -/
theorem pts_row (d : Dev nD) (L : grid0.Coords) (k : Fin k0_t1_loop.trips) (f : Buf (Elt F) (oLoc d)) :
    ((rowMem L k).view.loc (V d (cV L) (jV L)) ↦[(rowMem L k).view.set]{fullShare} f : sProp 𝕄)
      = oLoc d ↦[rowSetK L k]{fullShare} f := rfl

/-- Where trip `k`'s row places its own index: row `64·s + 32·c + k`, the same column. -/
theorem row_emb (L : grid0.Coords) (k : Fin k0_t1_loop.trips) (x : S1x65536.Idx) :
    ((rowMem L k).view.emb x 0).val = 64 * (L 1).val + 32 * (L 0).val + k.val
      ∧ ((rowMem L k).view.emb x 1).val = (x 1).val := by
  have h0 : (x 0).val < 1 := (x 0).isLt
  have e := k0_off15_eq L k
  constructor
  · show k0_off15 L k 0 + 1 * (x 0).val = _
    rw [e]; show 64 * (L 1).val + 32 * (L 0).val + k.val + 1 * (x 0).val = _; omega
  · show k0_off15 L k 1 + 1 * (x 1).val = _
    rw [e]; show 0 + 1 * (x 1).val = _; omega

/-- The same as an equation of indices of the flat result. -/
theorem row_emb_ix (L : grid0.Coords) (k : Fin k0_t1_loop.trips) (x : S1x65536.Idx) :
    (rowMem L k).view.emb x
      = ix2 (⟨64 * (L 1).val + 32 * (L 0).val + k.val, by
          show _ < 1024
          have h1 : (L 1).val < 16 := (L 1).isLt
          have h0 : (L 0).val < 2 := (L 0).isLt
          have hk : k.val < 32 := k.isLt
          omega⟩ : Fin 1024) (x 1) := by
  obtain ⟨e0, e1⟩ := row_emb L k x
  funext a
  match a with
  | ⟨0, _⟩ => exact Fin.ext e0
  | ⟨1, _⟩ => exact Fin.ext e1

/-- The row number `64·s + 32·c + k` is `32·(2·s + c) + k`: row `k` of the block of worker `2·s + c`. -/
theorem row_num (L : grid0.Coords) (k : Fin k0_t1_loop.trips) :
    64 * (L 1).val + 32 * (L 0).val + k.val = 32 * (wid (cOf L) (sOf L)).val + k.val := by
  show _ = 32 * (2 * (L 1).val + (L 0).val) + k.val
  omega

/-! ### The image indices and the grid, as the kernel slices them -/

/-- Elements `64·s + 32·c … + 31` of the image indices: the first copy's source. -/
abbrev iiRect (L : grid0.Coords) : Rect S1024 := Rect.unit (s := S1024) (k0_off1 L) S32.size (k0_off1_inb L)
abbrev iiMem (L : grid0.Coords) : Memref sig .scVector .hbm S32 .i32 := (a2).slice (iiRect L) (fun _ => rfl)

theorem ii_emb (L : grid0.Coords) (x : S32.Idx) :
    ((iiMem L).view.emb x 0).val = 64 * (L 1).val + 32 * (L 0).val + (x 0).val := by
  show k0_off1 L 0 + 1 * (x 0).val = _
  rw [k0_off1_eq]; show 64 * (L 1).val + 32 * (L 0).val + 1 * (x 0).val = _; omega

/-- Element `64·s + 32·c + k` of the grid (a 2 × 512 plane), as trip `k` slices it. -/
abbrev gridRect (L : grid0.Coords) (k : Fin k0_t1_loop.trips) : Rect S1024x2x512 :=
  Rect.unit (s := S1024x2x512) (k0_off3 L k) S1x2x512.size (k0_off3_inb L k)
abbrev gridMem (L : grid0.Coords) (k : Fin k0_t1_loop.trips) : Memref sig .scVector .hbm S1x2x512 .f32 :=
  (a3).slice (gridRect L k) (fun _ => rfl)

theorem grid_emb (L : grid0.Coords) (k : Fin k0_t1_loop.trips) (x : S1x2x512.Idx) :
    ((gridMem L k).view.emb x 0).val = 64 * (L 1).val + 32 * (L 0).val + k.val
      ∧ ((gridMem L k).view.emb x 1).val = (x 1).val ∧ ((gridMem L k).view.emb x 2).val = (x 2).val := by
  have h0 : (x 0).val < 1 := (x 0).isLt
  have e := k0_off3_eq L k
  refine ⟨?_, ?_, ?_⟩
  · show k0_off3 L k 0 + 1 * (x 0).val = _
    rw [e]; show 64 * (L 1).val + 32 * (L 0).val + k.val + 1 * (x 0).val = _; omega
  · show k0_off3 L k 1 + 1 * (x 1).val = _
    rw [e]; show 0 + 1 * (x 1).val = _; omega
  · show k0_off3 L k 2 + 1 * (x 2).val = _
    rw [e]; show 0 + 1 * (x 2).val = _; omega

end Cert.Proof.KB

end
-- ==== Proof.BObl.lean ====
import proofs.«207350_g59966333387111_cont_9to1_m_496_19_alg».proof.Proof.BLaunch
import proofs.«207350_g59966333387111_cont_9to1_m_496_19_alg».proof.Proof.BRows

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

/-!
  The obligation of a vector subcore at the one call, from the run of the kernel's body: the body's program is the
  call's program on that subcore, its pieces are the subcore's pieces, and what it hands back is what the call takes back.
-/

variable [FloatOps F]

-- What the kernel leaves in the flat result, as a function of the three inputs.
variable (OUTF : (S1024.Idx → BitVec 32) → (S1024x2x512.Idx → Elt F .f32) → (S33554432.Idx → Elt F .f32) → (S1024x65536.Idx → Elt F .f32))

/-- The flat result on every device, from that device's inputs. -/
abbrev outOf (m : (ℓ : Loc nD τ sig) → Buf (Elt F) ℓ) (FEAT : (d : Dev nD) → Buf (Elt F) (featLoc d)) : (d : Dev nD) → Buf (Elt F) (oLoc d) :=
  fun d => OUTF (m (iiLoc d)) (m (gridLoc d)) (FEAT d)

/-- The run of the kernel's body on the subcore of grid point `L` of device `d`: from its read shares of the three inputs
    and its 32 rows of the result, with every image index in `[0, 1023]`, it ends with the same shares and its rows at
    `OUTF` of the inputs; its own buffers and semaphores as it found them; nothing waited for that it may not. -/
abbrev BodyObl : Prop :=
  ∀ (m : (ℓ : Loc nD τ sig) → Buf (Elt F) ℓ) (FEAT : (d : Dev nD) → Buf (Elt F) (featLoc d)) (d : Dev nD) (L : grid0.Coords)
    (O : CellTallies nD τ sig (HIx 1)) (W : Waits sig (HIx 1)), (∀ g, O g none = 0) →
    (∀ b, 0 ≤ (m (iiLoc d) b).toInt ∧ (m (iiLoc d) b).toInt ≤ 1023) →
    iprop(levAts (K (F := F)).L (K (F := F)).lev ∗ emp ∗ goP m FEAT d (cOf L) (sOf L) ∗ scopedBufs (V d (cV L) (jV L)) ∗ scopedSems0 (V d (cV L) (jV L))
        ∗ owes (V d (cV L) (jV L)) O W)
      ⊢ wp frame (wpE (defs₀ (F := F)) 𝒱₀ (V d (cV L) (jV L)) none) Set.univ
          (cc0__sc_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            a10 (Memref.isWhole_whole _) a11 (Memref.isWhole_whole _) cc0_scratch6 cc0_scoped0 cc0_scoped1 cc0_scoped2)
          fun _ => iprop(tdP m FEAT (outOf OUTF m FEAT) d (cOf L) (sOf L) ∗ scopedBufs (V d (cV L) (jV L)) ∗ scopedSems0 (V d (cV L) (jV L))
            ∗ ∃ W', ⌜∀ p ∈ W', p ∈ W ∨ p.2 = none⌝ ∗ owes (V d (cV L) (jV L)) O W')

/-- The call's program on a vector subcore is the kernel's body at the subcore's grid point. -/
theorem defs₀_vector (c : Fin τ.nSC) (s : Fin τ.nSub) :
    defs₀ (F := F) (.scVector c s) 0 ()
      = SparseCore.onTile hcore0 hsub0 (fun c s => cc0__sc_body (coordsV c s)
          a2 (Memref.isWhole_whole _) a3 (Memref.isWhole_whole _) a4 (Memref.isWhole_whole _) a5 (Memref.isWhole_whole _)
          a6 (Memref.isWhole_whole _) a7 (Memref.isWhole_whole _) a8 (Memref.isWhole_whole _) a9 (Memref.isWhole_whole _)
          a10 (Memref.isWhole_whole _) a11 (Memref.isWhole_whole _) cc0_scratch6 cc0_scoped0 cc0_scoped1 cc0_scoped2) ⟨⟩ c s := rfl

omit [FloatOps F] in
/-- A wait the body may not make is one the call may not make. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The subcore's obligation at the call, from the body's run. -/
theorem tileObl_of (m : (ℓ : Loc nD τ sig) → Buf (Elt F) ℓ)
    (hii : ∀ (d : Dev nD) (b : S1024.Idx), 0 ≤ (m (iiLoc d) b).toInt ∧ (m (iiLoc d) b).toInt ≤ 1023) (hbody : BodyObl OUTF) :
    (K (F := F)).TileObl (D (F := F)) 𝒱 (P m (featOf m) (outOf OUTF m (featOf m))) v₀ 0 := by
  intro d c i O W hO _ _
  -- the kernel owes nothing for a protocol of its own
  simp only [show (P m (featOf m) (outOf OUTF m (featOf m))).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody m (featOf m) d (coordsV ⟨_, hc.1⟩ ⟨_, hc.2⟩) O W hO (hii d)).trans (wp_mono frame _ _ fun _ => obl_post)

end Cert.Proof.KB

end
-- ==== Proof.BPre.lean ====
import proofs.«207350_g59966333387111_cont_9to1_m_496_19_alg».proof.Proof.BPay
import Idealize.ShloMosaic.Lib.ReduceAll

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

/-!
  The precondition read back: the conjunction of three `all`s (the grid finite, the features finite, every image
  index in `[0, 1023]`) is one, so each conjunct is, at every element.
-/

instance : Subsingleton Cert.Pre_input_domain.S_.Idx := ⟨fun a b => funext fun d => d.elim0⟩

variable [FloatOps F] [Cert.Pre_input_domain.Facts]

/-- The printed precondition over device `d`'s three arguments. -/
abbrev PreAt (m : (ℓ : Loc nD τ sig) → Buf (Elt F) ℓ) (d : Dev nD) : Prop :=
  Cert.Pre_input_domain.fn (F := F) (m ((SparseCore.T d).loc main_arg0)) (m ((SparseCore.T d).loc main_arg1)) (m ((SparseCore.T d).loc main_arg2)) = (fun _ => 1#1)

/-- Every image index is a row number of the feature table: between 0 and 1023, read signed. -/
theorem ii_range (m : (ℓ : Loc nD τ sig) → Buf (Elt F) ℓ) (d : Dev nD) (h : PreAt m d) (b : S1024.Idx) :
    0 ≤ (m (iiLoc d) b).toInt ∧ (m (iiLoc d) b).toInt ≤ 1023 := by
  have e := congrFun h (fun a => a.elim0)
  dsimp only [Cert.Pre_input_domain.fn] at e
  obtain ⟨-, e14⟩ := IntOp.andi_eq_one.1 e
  have e13 := Host.reduce_andi_all _ _ _ _ _ e14 b
  obtain ⟨e10, e12⟩ := IntOp.andi_eq_one.1 e13
  have h10 := IntOp.cmpi_sge.1 e10
  have h12 := IntOp.cmpi_sle.1 e12
  exact ⟨h10, h12⟩

end Cert.Proof.KB

end
-- ==== Proof.BTables.lean ====
import proofs.«207350_g59966333387111_cont_9to1_m_496_19_alg».proof.Proof.BBase
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

variable [FloatOps F]

/-! ## The tables a query builds from its grid row

For each of the 32 chunks of 16 sample points, the two coordinate rows of the chunk give four rows of flat corner
offsets (row·16 + column, each line pulled back into 0 … 15) and four rows of corner weights. -/

/-- The 16 x-coordinates (row 0) and y-coordinates (row 1) of chunk `k`. -/
def xLd (gv : S1x2x512.Idx → Elt F EltTy.f32) (k : Fin k0_t2_loop.trips) : Vec F S1x1x16 .f32 :=
  (a7).view.readAt (Elt F) (Rect.unit (s := S1x2x512) (k0_off4 k) S1x1x16.size (k0_off4_inb k)).toLoadRect gv
def yLd (gv : S1x2x512.Idx → Elt F EltTy.f32) (k : Fin k0_t2_loop.trips) : Vec F S1x1x16 .f32 :=
  (a7).view.readAt (Elt F) (Rect.unit (s := S1x2x512) (k0_off5 k) S1x1x16.size (k0_off5_inb k)).toLoadRect gv

/-- Row `r` of the offsets table on chunk `k`. -/
def idxRow (gv : S1x2x512.Idx → Elt F EltTy.f32) (r : ℕ) (k : Fin k0_t2_loop.trips) : S1x16.Idx → BitVec 32 :=
  match r with
  | 0 => shapeCast S1x16 (k0_pay28 (k0_pay18 (xLd gv k)) (k0_pay19 (yLd gv k))) shapeCasts_S16_S1x16
  | 1 => shapeCast S1x16 (k0_pay29 (k0_pay18 (xLd gv k)) (k0_pay19 (yLd gv k))) shapeCasts_S16_S1x16
  | 2 => shapeCast S1x16 (k0_pay30 (k0_pay18 (xLd gv k)) (k0_pay19 (yLd gv k))) shapeCasts_S16_S1x16
  | _ => shapeCast S1x16 (k0_pay2 (k0_pay25 (k0_pay18 (xLd gv k))) (k0_pay27 (k0_pay19 (yLd gv k)))) shapeCasts_S16_S1x16

/-- The two upper weights and the two lower weights of chunk `k`. -/
def wx1 (gv : S1x2x512.Idx → Elt F EltTy.f32) (k : Fin k0_t2_loop.trips) : FVec F S16 .f32 := k0_pay20 (xLd gv k)
def wy1 (gv : S1x2x512.Idx → Elt F EltTy.f32) (k : Fin k0_t2_loop.trips) : FVec F S16 .f32 := k0_pay21 (yLd gv k)
def wx0 (gv : S1x2x512.Idx → Elt F EltTy.f32) (k : Fin k0_t2_loop.trips) : FVec F S16 .f32 := k0_pay22 (wx1 gv k) (Scalar.ofBits .f32 0x3F800000#32)
def wy0 (gv : S1x2x512.Idx → Elt F EltTy.f32) (k : Fin k0_t2_loop.trips) : FVec F S16 .f32 := k0_pay23 (wy1 gv k)

/-- Row `r` of the weights table on chunk `k`. -/
def wRow (gv : S1x2x512.Idx → Elt F EltTy.f32) (r : ℕ) (k : Fin k0_t2_loop.trips) : S1x16.Idx → Elt F EltTy.f32 :=
  match r with
  | 0 => shapeCast S1x16 (k0_pay3 (wx0 gv k) (wy0 gv k)) shapeCasts_S16_S1x16
  | 1 => shapeCast S1x16 (k0_pay4 (wx1 gv k) (wy0 gv k)) shapeCasts_S16_S1x16
  | 2 => shapeCast S1x16 (k0_pay5 (wy1 gv k) (wx0 gv k)) shapeCasts_S16_S1x16
  | _ => shapeCast S1x16 (k0_pay6 (wx1 gv k) (wy1 gv k)) shapeCasts_S16_S1x16

theorem t2_trips : k0_t2_loop.trips = 32 := rfl

/-- The chunk and the lane of a column. -/
def chunkOf (y : S4x512.Idx) : Fin k0_t2_loop.trips := ⟨(y 1).val / 16, by
  have h : (y 1).val < 512 := (y 1).isLt
  show (y 1).val / 16 < 32
  omega⟩
def laneOf (y : S4x512.Idx) : S1x16.Idx := Idealize.ShloMosaic.ValueIdx.ix2 (0 : Fin 1) (⟨(y 1).val % 16, Nat.mod_lt _ (by norm_num)⟩ : Fin 16)

/-- The offsets table and the weights table, whole. -/
def GIdx (gv : S1x2x512.Idx → Elt F EltTy.f32) : S4x512.Idx → BitVec 32 := fun y => idxRow gv (y 0).val (chunkOf y) (laneOf y)
def GW (gv : S1x2x512.Idx → Elt F EltTy.f32) : S4x512.Idx → Elt F EltTy.f32 := fun y => wRow gv (y 0).val (chunkOf y) (laneOf y)

/-- A table entry named by row, chunk and position within the chunk. -/
theorem chunk_lane (y : S4x512.Idx) (k : Fin k0_t2_loop.trips) (x : S1x16.Idx) (h1 : (y 1).val = 16 * k.val + (x 1).val) :
    chunkOf y = k ∧ laneOf y = x := by
  have hx : (x 1).val < 16 := (x 1).isLt
  have hk : k.val < 32 := k.isLt
  refine ⟨Fin.ext (by show (y 1).val / 16 = k.val; omega), ?_⟩
  funext a
  match a with
  | ⟨0, _⟩ => exact Fin.ext (by have h0 : (x 0).val < 1 := (x 0).isLt; show (0 : ℕ) = (x 0).val; omega)
  | ⟨1, _⟩ => exact Fin.ext (by show (y 1).val % 16 = (x 1).val; omega)

set_option maxHeartbeats 4000000 in
theorem t2_trip (d : Dev nD) (L : grid0.Coords) (k : Fin k0_t2_loop.trips) (acc : BitVec 32)
    (gv : S1x2x512.Idx → Elt F EltTy.f32) (iv : S4x512.Idx → BitVec 32) (wv : S4x512.Idx → Elt F EltTy.f32) :
    iprop(((a7).view.loc (V d (cV L) (jV L)) ↦{fullShare} gv) ∗ ((a9).view.loc (V d (cV L) (jV L)) ↦{fullShare} iv) ∗ ((a10).view.loc (V d (cV L) (jV L)) ↦{fullShare} wv))
      ⊢ (wp frame (wpE (defs₀ (F := F)) 𝒱₀ (V d (cV L) (jV L)) none) Set.univ
          (k0_t2_body L a2 (Memref.isWhole_whole _) a3 (Memref.isWhole_whole _) a4 (Memref.isWhole_whole _) a5 (Memref.isWhole_whole _) a6 (Memref.isWhole_whole _) a7 (Memref.isWhole_whole _)
            a8 (Memref.isWhole_whole _) a9 (Memref.isWhole_whole _) a10 (Memref.isWhole_whole _) a11 (Memref.isWhole_whole _) cc0_scratch6 cc0_scoped0 cc0_scoped1 cc0_scoped2 k acc)
          (fun _ => iprop(((a7).view.loc (V d (cV L) (jV L)) ↦{fullShare} gv)
            ∗ ((a9).view.loc (V d (cV L) (jV L)) ↦{fullShare} (a9).view.writes (Elt F) iv
                [⟨Rect.unit (k0_off9 k) S1x16.size (k0_off9_inb k), idxRow gv 3 k⟩, ⟨Rect.unit (k0_off8 k) S1x16.size (k0_off8_inb k), idxRow gv 2 k⟩,
                 ⟨Rect.unit (k0_off7 k) S1x16.size (k0_off7_inb k), idxRow gv 1 k⟩, ⟨Rect.unit (k0_off6 k) S1x16.size (k0_off6_inb k), idxRow gv 0 k⟩])
            ∗ ((a10).view.loc (V d (cV L) (jV L)) ↦{fullShare} (a10).view.writes (Elt F) wv
                [⟨Rect.unit (k0_off9 k) S1x16.size (k0_off9_inb k), wRow gv 3 k⟩, ⟨Rect.unit (k0_off8 k) S1x16.size (k0_off8_inb k), wRow gv 2 k⟩,
                 ⟨Rect.unit (k0_off7 k) S1x16.size (k0_off7_inb k), wRow gv 1 k⟩, ⟨Rect.unit (k0_off6 k) S1x16.size (k0_off6_inb k), wRow gv 0 k⟩]))) : sProp 𝕄) := by
  unfold k0_t2_body
  iintro ⟨Hg, Hi, Hw⟩
  sl_exec
  sl_step
  isplitl [Hg]; · iexact Hg
  isplitl [Hi]
  · iexact Hi
  · iexact Hw

end Cert.Proof.KB

end
-- ==== Proof.BTablesLoop.lean ====
import proofs.«207350_g59966333387111_cont_9to1_m_496_19_alg».proof.Proof.BTables
import Idealize.ShloMosaic.Lib.WritesUnit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

variable [FloatOps F]

theorem GIdx_at (gv : S1x2x512.Idx → Elt F EltTy.f32) (k : Fin k0_t2_loop.trips) (y : S4x512.Idx) (x : S1x16.Idx) (r : ℕ)
    (h0 : (y 0).val = r) (h1 : (y 1).val = 16 * k.val + (x 1).val) : GIdx gv y = idxRow gv r k x := by
  obtain ⟨hk, hx⟩ := chunk_lane y k x h1
  unfold GIdx; rw [hk, hx, h0]

theorem GIdx_step (gv : S1x2x512.Idx → Elt F EltTy.f32) (k : Fin k0_t2_loop.trips) (f : S4x512.Idx → BitVec 32)
    (hf : ∀ y : S4x512.Idx, (y 1).val < 16 * k.val → f y = GIdx gv y) (y : S4x512.Idx) (hy : (y 1).val < 16 * (k.val + 1)) :
    (a9).view.writes (Elt F) f
        [⟨Rect.unit (k0_off9 k) S1x16.size (k0_off9_inb k), idxRow gv 3 k⟩, ⟨Rect.unit (k0_off8 k) S1x16.size (k0_off8_inb k), idxRow gv 2 k⟩,
         ⟨Rect.unit (k0_off7 k) S1x16.size (k0_off7_inb k), idxRow gv 1 k⟩, ⟨Rect.unit (k0_off6 k) S1x16.size (k0_off6_inb k), idxRow gv 0 k⟩] y = GIdx gv y := by
  have hy0 : (y 0).val < 4 := (y 0).isLt
  have hrd : ∀ g : S4x512.Idx → BitVec 32, (a9).view.read (Elt F) g = g := fun _ => rfl
  rw [← hrd ((a9).view.writes (Elt F) f _)]
  by_cases hc : 16 * k.val ≤ (y 1).val
  · -- a column of this chunk: the piece of its row
    let x : S1x16.Idx := Idealize.ShloMosaic.ValueIdx.ix2 (0 : Fin 1) (⟨(y 1).val - 16 * k.val, by omega⟩ : Fin 16)
    have hx1 : (y 1).val = 16 * k.val + (x 1).val := by show _ = 16 * k.val + ((y 1).val - 16 * k.val); omega
    have hx0 : (x 0).val = 0 := rfl
    by_cases h3 : (y 0).val = 3
    · refine (View.read_writes_cons_unit_of_mem (Val := Elt F) (a9).view f (off := k0_off9 k) (size := S1x16.size) (k0_off9_inb k) (idxRow gv 3 k) _ y x (k0_off9_eq k) (Fin.forall_fin_two.mpr ⟨by show _ = 3 + (x 0).val; omega, hx1⟩)).trans ?_
      exact (GIdx_at gv k y x 3 h3 hx1).symm
    refine (View.read_writes_cons_unit_of_not_mem (Val := Elt F) (a9).view f (off := k0_off9 k) (size := S1x16.size) (k0_off9_inb k) (idxRow gv 3 k) _ y (k0_off9_eq k) 0 (Or.inl (by show (y 0).val < 3; omega))).trans ?_
    by_cases h2 : (y 0).val = 2
    · refine (View.read_writes_cons_unit_of_mem (Val := Elt F) (a9).view f (off := k0_off8 k) (size := S1x16.size) (k0_off8_inb k) (idxRow gv 2 k) _ y x (k0_off8_eq k) (Fin.forall_fin_two.mpr ⟨by show _ = 2 + (x 0).val; omega, hx1⟩)).trans ?_
      exact (GIdx_at gv k y x 2 h2 hx1).symm
    refine (View.read_writes_cons_unit_of_not_mem (Val := Elt F) (a9).view f (off := k0_off8 k) (size := S1x16.size) (k0_off8_inb k) (idxRow gv 2 k) _ y (k0_off8_eq k) 0 (Or.inl (by show (y 0).val < 2; omega))).trans ?_
    by_cases h1 : (y 0).val = 1
    · refine (View.read_writes_cons_unit_of_mem (Val := Elt F) (a9).view f (off := k0_off7 k) (size := S1x16.size) (k0_off7_inb k) (idxRow gv 1 k) _ y x (k0_off7_eq k) (Fin.forall_fin_two.mpr ⟨by show _ = 1 + (x 0).val; omega, hx1⟩)).trans ?_
      exact (GIdx_at gv k y x 1 h1 hx1).symm
    refine (View.read_writes_cons_unit_of_not_mem (Val := Elt F) (a9).view f (off := k0_off7 k) (size := S1x16.size) (k0_off7_inb k) (idxRow gv 1 k) _ y (k0_off7_eq k) 0 (Or.inl (by show (y 0).val < 1; omega))).trans ?_
    have h0 : (y 0).val = 0 := by omega
    refine (View.read_writes_cons_unit_of_mem (Val := Elt F) (a9).view f (off := k0_off6 k) (size := S1x16.size) (k0_off6_inb k) (idxRow gv 0 k) _ y x (k0_off6_eq k) (Fin.forall_fin_two.mpr ⟨by show _ = 0 + (x 0).val; omega, hx1⟩)).trans ?_
    exact (GIdx_at gv k y x 0 h0 hx1).symm
  · -- a column of an earlier chunk: untouched
    have hlt : (y 1).val < 16 * k.val := by omega
    refine (View.read_writes_cons_unit_of_not_mem (Val := Elt F) (a9).view f (off := k0_off9 k) (size := S1x16.size) (k0_off9_inb k) (idxRow gv 3 k) _ y (k0_off9_eq k) 1 (Or.inl (by show (y 1).val < 16 * k.val; exact hlt))).trans ?_
    refine (View.read_writes_cons_unit_of_not_mem (Val := Elt F) (a9).view f (off := k0_off8 k) (size := S1x16.size) (k0_off8_inb k) (idxRow gv 2 k) _ y (k0_off8_eq k) 1 (Or.inl (by show (y 1).val < 16 * k.val; exact hlt))).trans ?_
    refine (View.read_writes_cons_unit_of_not_mem (Val := Elt F) (a9).view f (off := k0_off7 k) (size := S1x16.size) (k0_off7_inb k) (idxRow gv 1 k) _ y (k0_off7_eq k) 1 (Or.inl (by show (y 1).val < 16 * k.val; exact hlt))).trans ?_
    refine (View.read_writes_cons_unit_of_not_mem (Val := Elt F) (a9).view f (off := k0_off6 k) (size := S1x16.size) (k0_off6_inb k) (idxRow gv 0 k) _ y (k0_off6_eq k) 1 (Or.inl (by show (y 1).val < 16 * k.val; exact hlt))).trans ?_
    rw [View.writes_nil]
    exact hf y hlt

theorem GW_at (gv : S1x2x512.Idx → Elt F EltTy.f32) (k : Fin k0_t2_loop.trips) (y : S4x512.Idx) (x : S1x16.Idx) (r : ℕ)
    (h0 : (y 0).val = r) (h1 : (y 1).val = 16 * k.val + (x 1).val) : GW gv y = wRow gv r k x := by
  obtain ⟨hk, hx⟩ := chunk_lane y k x h1
  unfold GW; rw [hk, hx, h0]

theorem GW_step (gv : S1x2x512.Idx → Elt F EltTy.f32) (k : Fin k0_t2_loop.trips) (f : S4x512.Idx → Elt F EltTy.f32)
    (hf : ∀ y : S4x512.Idx, (y 1).val < 16 * k.val → f y = GW gv y) (y : S4x512.Idx) (hy : (y 1).val < 16 * (k.val + 1)) :
    (a10).view.writes (Elt F) f
        [⟨Rect.unit (k0_off9 k) S1x16.size (k0_off9_inb k), wRow gv 3 k⟩, ⟨Rect.unit (k0_off8 k) S1x16.size (k0_off8_inb k), wRow gv 2 k⟩,
         ⟨Rect.unit (k0_off7 k) S1x16.size (k0_off7_inb k), wRow gv 1 k⟩, ⟨Rect.unit (k0_off6 k) S1x16.size (k0_off6_inb k), wRow gv 0 k⟩] y = GW gv y := by
  have hy0 : (y 0).val < 4 := (y 0).isLt
  have hrd : ∀ g : S4x512.Idx → Elt F EltTy.f32, (a10).view.read (Elt F) g = g := fun _ => rfl
  rw [← hrd ((a10).view.writes (Elt F) f _)]
  by_cases hc : 16 * k.val ≤ (y 1).val
  · -- a column of this chunk: the piece of its row
    let x : S1x16.Idx := Idealize.ShloMosaic.ValueIdx.ix2 (0 : Fin 1) (⟨(y 1).val - 16 * k.val, by omega⟩ : Fin 16)
    have hx1 : (y 1).val = 16 * k.val + (x 1).val := by show _ = 16 * k.val + ((y 1).val - 16 * k.val); omega
    have hx0 : (x 0).val = 0 := rfl
    by_cases h3 : (y 0).val = 3
    · refine (View.read_writes_cons_unit_of_mem (Val := Elt F) (a10).view f (off := k0_off9 k) (size := S1x16.size) (k0_off9_inb k) (wRow gv 3 k) _ y x (k0_off9_eq k) (Fin.forall_fin_two.mpr ⟨by show _ = 3 + (x 0).val; omega, hx1⟩)).trans ?_
      exact (GW_at gv k y x 3 h3 hx1).symm
    refine (View.read_writes_cons_unit_of_not_mem (Val := Elt F) (a10).view f (off := k0_off9 k) (size := S1x16.size) (k0_off9_inb k) (wRow gv 3 k) _ y (k0_off9_eq k) 0 (Or.inl (by show (y 0).val < 3; omega))).trans ?_
    by_cases h2 : (y 0).val = 2
    · refine (View.read_writes_cons_unit_of_mem (Val := Elt F) (a10).view f (off := k0_off8 k) (size := S1x16.size) (k0_off8_inb k) (wRow gv 2 k) _ y x (k0_off8_eq k) (Fin.forall_fin_two.mpr ⟨by show _ = 2 + (x 0).val; omega, hx1⟩)).trans ?_
      exact (GW_at gv k y x 2 h2 hx1).symm
    refine (View.read_writes_cons_unit_of_not_mem (Val := Elt F) (a10).view f (off := k0_off8 k) (size := S1x16.size) (k0_off8_inb k) (wRow gv 2 k) _ y (k0_off8_eq k) 0 (Or.inl (by show (y 0).val < 2; omega))).trans ?_
    by_cases h1 : (y 0).val = 1
    · refine (View.read_writes_cons_unit_of_mem (Val := Elt F) (a10).view f (off := k0_off7 k) (size := S1x16.size) (k0_off7_inb k) (wRow gv 1 k) _ y x (k0_off7_eq k) (Fin.forall_fin_two.mpr ⟨by show _ = 1 + (x 0).val; omega, hx1⟩)).trans ?_
      exact (GW_at gv k y x 1 h1 hx1).symm
    refine (View.read_writes_cons_unit_of_not_mem (Val := Elt F) (a10).view f (off := k0_off7 k) (size := S1x16.size) (k0_off7_inb k) (wRow gv 1 k) _ y (k0_off7_eq k) 0 (Or.inl (by show (y 0).val < 1; omega))).trans ?_
    have h0 : (y 0).val = 0 := by omega
    refine (View.read_writes_cons_unit_of_mem (Val := Elt F) (a10).view f (off := k0_off6 k) (size := S1x16.size) (k0_off6_inb k) (wRow gv 0 k) _ y x (k0_off6_eq k) (Fin.forall_fin_two.mpr ⟨by show _ = 0 + (x 0).val; omega, hx1⟩)).trans ?_
    exact (GW_at gv k y x 0 h0 hx1).symm
  · -- a column of an earlier chunk: untouched
    have hlt : (y 1).val < 16 * k.val := by omega
    refine (View.read_writes_cons_unit_of_not_mem (Val := Elt F) (a10).view f (off := k0_off9 k) (size := S1x16.size) (k0_off9_inb k) (wRow gv 3 k) _ y (k0_off9_eq k) 1 (Or.inl (by show (y 1).val < 16 * k.val; exact hlt))).trans ?_
    refine (View.read_writes_cons_unit_of_not_mem (Val := Elt F) (a10).view f (off := k0_off8 k) (size := S1x16.size) (k0_off8_inb k) (wRow gv 2 k) _ y (k0_off8_eq k) 1 (Or.inl (by show (y 1).val < 16 * k.val; exact hlt))).trans ?_
    refine (View.read_writes_cons_unit_of_not_mem (Val := Elt F) (a10).view f (off := k0_off7 k) (size := S1x16.size) (k0_off7_inb k) (wRow gv 1 k) _ y (k0_off7_eq k) 1 (Or.inl (by show (y 1).val < 16 * k.val; exact hlt))).trans ?_
    refine (View.read_writes_cons_unit_of_not_mem (Val := Elt F) (a10).view f (off := k0_off6 k) (size := S1x16.size) (k0_off6_inb k) (wRow gv 0 k) _ y (k0_off6_eq k) 1 (Or.inl (by show (y 1).val < 16 * k.val; exact hlt))).trans ?_
    rw [View.writes_nil]
    exact hf y hlt

/-- Before chunk `k`: the grid row as fetched, the two tables right on the columns of the chunks done. -/
def invT2 (d : Dev nD) (L : grid0.Coords) (gv : S1x2x512.Idx → Elt F EltTy.f32) (k : Nat) (_ : BitVec 32) : sProp 𝕄 :=
  iprop(((a7).view.loc (V d (cV L) (jV L)) ↦{fullShare} gv)
    ∗ (∃ fi : S4x512.Idx → BitVec 32, ((a9).view.loc (V d (cV L) (jV L)) ↦{fullShare} fi) ∗ ⌜∀ y : S4x512.Idx, (y 1).val < 16 * k → fi y = GIdx gv y⌝)
    ∗ (∃ fw : S4x512.Idx → Elt F EltTy.f32, ((a10).view.loc (V d (cV L) (jV L)) ↦{fullShare} fw) ∗ ⌜∀ y : S4x512.Idx, (y 1).val < 16 * k → fw y = GW gv y⌝))

set_option maxHeartbeats 4000000 in
/-- The weights loop: from the grid row, the two tables whole. -/
theorem t2_loop (d : Dev nD) (L : grid0.Coords)
    (gv : S1x2x512.Idx → Elt F EltTy.f32) (iv : S4x512.Idx → BitVec 32) (wv : S4x512.Idx → Elt F EltTy.f32) :
    iprop(((a7).view.loc (V d (cV L) (jV L)) ↦{fullShare} gv) ∗ ((a9).view.loc (V d (cV L) (jV L)) ↦{fullShare} iv) ∗ ((a10).view.loc (V d (cV L) (jV L)) ↦{fullShare} wv))
      ⊢ (wp frame (wpE (defs₀ (F := F)) 𝒱₀ (V d (cV L) (jV L)) none) Set.univ
          (Scf.Loop.for k0_t2_loop k0_t2_ok 0#32 (k0_t2_body L a2 (Memref.isWhole_whole _) a3 (Memref.isWhole_whole _) a4 (Memref.isWhole_whole _) a5 (Memref.isWhole_whole _) a6 (Memref.isWhole_whole _) a7 (Memref.isWhole_whole _)
            a8 (Memref.isWhole_whole _) a9 (Memref.isWhole_whole _) a10 (Memref.isWhole_whole _) a11 (Memref.isWhole_whole _) cc0_scratch6 cc0_scoped0 cc0_scoped1 cc0_scoped2))
          (fun _ => iprop(((a7).view.loc (V d (cV L) (jV L)) ↦{fullShare} gv)
            ∗ ((a9).view.loc (V d (cV L) (jV L)) ↦{fullShare} GIdx gv) ∗ ((a10).view.loc (V d (cV L) (jV L)) ↦{fullShare} GW gv))) : sProp 𝕄) := by
  iintro ⟨Hg, Hi, Hw⟩
  sl_for (invT2 d L gv) $$ [Hg Hi Hw]
  case region =>
    intro k acc
    unfold invT2
    iintro ⟨Hg, ⟨%fi, Hi, %hfi⟩, ⟨%fw, Hw, %hfw⟩⟩
    iapply (wp_wand_r frame (wpE (defs₀ (F := F)) 𝒱₀ (V d (cV L) (jV L)) none) Set.univ)
    isplitl [Hg Hi Hw]
    · iapply (t2_trip d L k acc gv fi fw)
      isplitl [Hg]; · iexact Hg
      isplitl [Hi]; · iexact Hi
      iexact Hw
    iintro %_ ⟨Hg, Hi, Hw⟩
    isplitl [Hg]; · iexact Hg
    isplitl [Hi]
    · iexists _; isplitl [Hi]; · iexact Hi
      ipureintro; exact fun y hy => GIdx_step gv k fi hfi y hy
    · iexists _; isplitl [Hw]; · iexact Hw
      ipureintro; exact fun y hy => GW_step gv k fw hfw y hy
  unfold invT2
  isplitl [Hg Hi Hw]
  · isplitl [Hg]; · iexact Hg
    isplitl [Hi]
    · iexists iv; isplitl [Hi]; · iexact Hi
      ipureintro; intro y hy; omega
    · iexists wv; isplitl [Hw]; · iexact Hw
      ipureintro; intro y hy; omega
  iintro %_ ⟨Hg, ⟨%fi, Hi, %hfi⟩, ⟨%fw, Hw, %hfw⟩⟩
  have ei : fi = GIdx gv := funext fun y => hfi y (by have h512 : (y 1).val < 512 := (y 1).isLt; show (y 1).val < 16 * 32; omega)
  have ew : fw = GW gv := funext fun y => hfw y (by have h512 : (y 1).val < 512 := (y 1).isLt; show (y 1).val < 16 * 32; omega)
  subst ei; subst ew
  isplitl [Hg]; · iexact Hg
  isplitl [Hi]; · iexact Hi
  iexact Hw

end Cert.Proof.KB

end
-- ==== Proof.BTablesBound.lean ====
import proofs.«207350_g59966333387111_cont_9to1_m_496_19_alg».proof.Proof.BTables
import proofs.«207350_g59966333387111_cont_9to1_m_496_19_alg».proof.Proof.SpecRange

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

variable [FloatOps F]

/-! ## Every entry of the offsets table is below 256

Each entry is `16 · a + b` for two words `a`, `b` that were pulled back into 0 … 15 (signed maximum with 0, then signed
minimum with 15), so it is at most `16 · 15 + 15`, whatever the coordinates were. -/

/-- A word pulled back into 0 … 15 is below 16 as an unsigned number. -/
theorem clampWord_lt (n : BitVec 32) : (IntOp.minsi 15#32 (IntOp.maxsi 0#32 n)).toNat < 16 :=
  Cert.Spec.toNat_lt_of_toInt (Cert.Spec.clampWord_bounds n).1 (Cert.Spec.clampWord_bounds n).2

/-- `16 · a + b` with `a, b < 16` is below 256, and the 32-bit arithmetic does not wrap. -/
theorem flat_lt {a b : BitVec 32} (ha : a.toNat < 16) (hb : b.toNat < 16) :
    (IntOp.addi (IntOp.muli a 16#32) b).toNat < 256 := by
  unfold IntOp.addi IntOp.muli
  have h16 : (16#32 : BitVec 32).toNat = 16 := rfl
  rw [BitVec.toNat_add, BitVec.toNat_mul, h16]
  omega

theorem idxRow_lt (gv : S1x2x512.Idx → Elt F EltTy.f32) (r : ℕ) (k : Fin k0_t2_loop.trips) (x : S1x16.Idx) :
    (idxRow gv r k x).toNat < 256 := by
  unfold idxRow
  split <;> (unfold shapeCast; exact flat_lt (clampWord_lt _) (clampWord_lt _))

/-- Every entry of the offsets table is below 256. -/
theorem GIdx_lt (gv : S1x2x512.Idx → Elt F EltTy.f32) (y : S4x512.Idx) : (GIdx gv y).toNat < 256 :=
  idxRow_lt gv _ _ _

end Cert.Proof.KB

end
-- ==== Proof.BAccumDefs.lean ====
/-
  The gather-and-accumulate loops of the sampling kernel: the value they leave in the output row,
  stated pointwise, and the bookkeeping of which columns are final before a given trip.
-/
import proofs.«207350_g59966333387111_cont_9to1_m_496_19_alg».proof.Proof.BBase
import Idealize.ShloMosaic.Lib.ValueIdx
import Idealize.ShloMosaic.Lib.ValueLayout
import Idealize.ShloMosaic.Lib.WritesUnit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

/-! ## The sampled value, pointwise

Column `col = 512 * ch + p` of the output row holds channel `ch` at sample point `p`: the four
corner features of that channel's plane, each times the point's corner weight, summed left to
right. Corner `r` of point `p` is the word `iv (r, p)`; channel `ch`'s plane starts `256 * ch`
words further on. -/

/-- The feature index of corner `r` of point `p` in channel `ch`: the word `iv (r, p) + 256 * ch`
    (32-bit addition) as a natural number, reduced below the feature buffer's length so that the
    definition is total. -/
def tapIx (iv : S4x512.Idx → BitVec 32) (r : Fin 4) (p : Fin 512) (ch : ℕ) : S32768.Idx :=
  ix1 (⟨(iv (ix2 r p) + BitVec.ofNat 32 (256 * ch)).toNat % 32768, Nat.mod_lt _ (by decide)⟩ : Fin 32768)

variable [FloatOps F]

/-- One corner's contribution: the feature times the weight. -/
def tapTerm (iv : S4x512.Idx → BitVec 32) (wv : S4x512.Idx → F .f32) (fv : S32768.Idx → F .f32)
    (ch : ℕ) (p : Fin 512) (r : Fin 4) : F .f32 :=
  FloatOps.mulf (fv (tapIx iv r p ch)) (wv (ix2 r p))

/-- Channel `ch` at point `p`: `((t₀ + t₁) + t₂) + t₃`. -/
def OutAt (iv : S4x512.Idx → BitVec 32) (wv : S4x512.Idx → F .f32) (fv : S32768.Idx → F .f32)
    (ch : ℕ) (p : Fin 512) : F .f32 :=
  FloatOps.addf (FloatOps.addf (FloatOps.addf (tapTerm iv wv fv ch p 0) (tapTerm iv wv fv ch p 1))
    (tapTerm iv wv fv ch p 2)) (tapTerm iv wv fv ch p 3)

/-- The point a column belongs to. -/
def colPt (y : S1x65536.Idx) : Fin 512 := ⟨(y 1).val % 512, Nat.mod_lt _ (by decide)⟩
/-- The channel a column belongs to. -/
def colCh (y : S1x65536.Idx) : ℕ := (y 1).val / 512

/-- The output row after the two loops. -/
def OutV (iv : S4x512.Idx → BitVec 32) (wv : S4x512.Idx → F .f32) (fv : S32768.Idx → F .f32) :
    S1x65536.Idx → F .f32 :=
  fun y => OutAt iv wv fv (colCh y) (colPt y)

/-! ## What is written before a trip -/

/-- Before chunk `k` of the outer loop: every channel of the points below `16 * k`. -/
def Done3 (k : ℕ) (y : S1x65536.Idx) : Prop := (colPt y).val < 16 * k

/-- Before channel `ch` of chunk `k`'s inner loop: moreover the channels below `ch` of the
    chunk's own sixteen points. -/
def Done4 (k ch : ℕ) (y : S1x65536.Idx) : Prop :=
  (colPt y).val < 16 * k ∨ ((colPt y).val < 16 * k + 16 ∧ colCh y < ch)

instance (k : ℕ) (y : S1x65536.Idx) : Decidable (Done3 k y) := by unfold Done3; infer_instance
instance (k ch : ℕ) (y : S1x65536.Idx) : Decidable (Done4 k ch y) := by unfold Done4; infer_instance

/-- The row with the columns of `P` at their final value and the others as they were. -/
def mix (iv : S4x512.Idx → BitVec 32) (wv : S4x512.Idx → F .f32) (fv : S32768.Idx → F .f32)
    (ov : S1x65536.Idx → F .f32) (P : S1x65536.Idx → Prop) [DecidablePred P] : S1x65536.Idx → F .f32 :=
  fun y => if P y then OutV iv wv fv y else ov y

omit [FloatOps F] in
theorem colCh_lt (y : S1x65536.Idx) : colCh y < 128 := by
  have h : (y 1).val < 65536 := idx2_lt1 y
  unfold colCh; omega

theorem mix_congr (iv : S4x512.Idx → BitVec 32) (wv : S4x512.Idx → F .f32) (fv : S32768.Idx → F .f32)
    (ov : S1x65536.Idx → F .f32) (P Q : S1x65536.Idx → Prop) [DecidablePred P] [DecidablePred Q]
    (h : ∀ y, P y ↔ Q y) : mix iv wv fv ov P = mix iv wv fv ov Q := by
  funext y; unfold mix
  by_cases hp : P y
  · rw [if_pos hp, if_pos ((h y).1 hp)]
  · rw [if_neg hp, if_neg (fun hq => hp ((h y).2 hq))]

/-- No channel of the chunk's own points is done when its inner loop starts. -/
theorem mix_Done4_zero (iv wv fv ov) (k : ℕ) :
    mix (F := F) iv wv fv ov (Done4 k 0) = mix iv wv fv ov (Done3 k) :=
  mix_congr iv wv fv ov _ _ fun y => by unfold Done4 Done3; omega

/-- All 128 channels of the chunk's own points are done when its inner loop ends. -/
theorem mix_Done4_last (iv wv fv ov) (k : ℕ) :
    mix (F := F) iv wv fv ov (Done4 k 128) = mix iv wv fv ov (Done3 (k + 1)) :=
  mix_congr iv wv fv ov _ _ fun y => by
    have := colCh_lt y
    unfold Done4 Done3; omega

/-- Nothing is done before the first chunk. -/
theorem mix_Done3_zero (iv wv fv ov) : mix (F := F) iv wv fv ov (Done3 0) = ov := by
  funext y
  have h : ¬ Done3 0 y := by unfold Done3; omega
  unfold mix; rw [if_neg h]

/-- Everything is done after the last chunk. -/
theorem mix_Done3_last (iv wv fv ov) : mix (F := F) iv wv fv ov (Done3 32) = OutV iv wv fv := by
  funext y
  have h : Done3 32 y := by have := (colPt y).isLt; unfold Done3; omega
  unfold mix; rw [if_pos h]

/-! ## The values the inner loop carries -/

/-- Corner `r`'s index vector before channel `ch` of chunk `k`: the chunk's sixteen words of row
    `r`, each moved on by `256 * ch`. -/
def carIx (iv : S4x512.Idx → BitVec 32) (k : ℕ) (r : Fin 4) (ch : ℕ) : IVec S16 32 :=
  fun x => iv (ix2 r (⟨(16 * k + (x 0).val) % 512, Nat.mod_lt _ (by decide)⟩ : Fin 512)) + BitVec.ofNat 32 (256 * ch)

/-- The store offset before channel `ch` of chunk `k`. -/
def carOff (k ch : ℕ) : BitVec 32 := BitVec.ofNat 32 (16 * k + 512 * ch)

end Cert.Proof.KB

end
-- ==== Proof.BQuery.lean ====
import proofs.«207350_g59966333387111_cont_9to1_m_496_19_alg».proof.Proof.BTablesLoop
import proofs.«207350_g59966333387111_cont_9to1_m_496_19_alg».proof.Proof.BTablesBound
import proofs.«207350_g59966333387111_cont_9to1_m_496_19_alg».proof.Proof.BAccumDefs
import proofs.«207350_g59966333387111_cont_9to1_m_496_19_alg».proof.Proof.BRows

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

variable [FloatOps F]

/-! ## One query of a worker

Query `k` of the worker at grid point `L`: its image number read out of the worker's index scratch, the image's
feature planes and the query's grid row fetched, the two tables built, the samples accumulated, the row written out. -/

/-- The query's number is a lane of the index scratch. -/
theorem chk1_all : ∀ k : Fin k0_t1_loop.trips, k0_chk1 (broadcast S16 (Scf.iv 0#32 1#32 k)) := by decide +kernel

/-- The image number of query `k`. -/
def imgOf (iiv : S32.Idx → BitVec 32) (k : Fin k0_t1_loop.trips) : BitVec 32 :=
  extractAt ![0] (k0_pay1 (F := F) (loadIdx (View.read (Elt F) ((a6).access (Rect.whole cc0_scratch0.ty.shape)) iiv) ![broadcast S16 (Scf.iv 0#32 1#32 k)] (k0_idx1_inb _ (chk1_all k)))) inpos_S1_p0

/-- The query's grid row and its image's feature planes, as the copies read them out of the whole arrays. -/
def gvOf (grid : S1024x2x512.Idx → Elt F EltTy.f32) (L : grid0.Coords) (k : Fin k0_t1_loop.trips) : S1x2x512.Idx → Elt F EltTy.f32 :=
  View.read (Elt F) ((a3).slice (Rect.unit (s := S1024x2x512) (k0_off3 L k) S1x2x512.size (k0_off3_inb L k)) (fun _ => rfl)).view grid
def fvOf (feat : S33554432.Idx → Elt F EltTy.f32) (img : BitVec 32) (h2 : k0_chk2 img) : S32768.Idx → Elt F EltTy.f32 :=
  View.read (Elt F) ((a4).slice (Rect.unit (s := S33554432) (k0_off2 img) S32768.size (k0_off2_inb img h2)) (fun _ => rfl)).view feat
/-- The row the query writes out. -/
def rowX (grid : S1024x2x512.Idx → Elt F EltTy.f32) (feat : S33554432.Idx → Elt F EltTy.f32) (iiv : S32.Idx → BitVec 32) (L : grid0.Coords) (k : Fin k0_t1_loop.trips)
    (h2 : k0_chk2 (imgOf (F := F) iiv k)) : S1x65536.Idx → Elt F EltTy.f32 :=
  OutV (GIdx (gvOf grid L k)) (GW (gvOf grid L k)) (fvOf feat (imgOf (F := F) iiv k) h2)

set_option maxHeartbeats 8000000 in
theorem t1_trip (d : Dev nD) (L : grid0.Coords) (k : Fin k0_t1_loop.trips) (acc : BitVec 32) (q : PosShare TreeShare)
    (O : CellTallies nD τ sig (HIx 1)) (W : Waits sig (HIx 1))
    (grid : S1024x2x512.Idx → Elt F EltTy.f32) (feat : S33554432.Idx → Elt F EltTy.f32) (out : S1024x65536.Idx → Elt F EltTy.f32)
    (iiv : S32.Idx → BitVec 32) (gv : S1x2x512.Idx → Elt F EltTy.f32) (fv : S32768.Idx → Elt F EltTy.f32) (iv : S4x512.Idx → BitVec 32) (wv : S4x512.Idx → Elt F EltTy.f32)
    (ov : S1x65536.Idx → Elt F EltTy.f32)
    (h2 : k0_chk2 (imgOf (F := F) iiv k))
    (hT3 : ∀ (iv : S4x512.Idx → BitVec 32) (wv : S4x512.Idx → Elt F EltTy.f32) (fv : S32768.Idx → Elt F EltTy.f32) (ov : S1x65536.Idx → Elt F EltTy.f32), (∀ y, (iv y).toNat < 256) →
      (iprop(((a9).view.loc (V d (cV L) (jV L)) ↦{fullShare} iv) ∗ ((a10).view.loc (V d (cV L) (jV L)) ↦{fullShare} wv) ∗ ((a8).view.loc (V d (cV L) (jV L)) ↦{fullShare} fv) ∗ ((a11).view.loc (V d (cV L) (jV L)) ↦{fullShare} ov))
        ⊢ (wp frame (wpE (defs₀ (F := F)) 𝒱₀ (V d (cV L) (jV L)) none) Set.univ
          (Scf.Loop.for k0_t3_loop k0_t3_ok 0#32 (k0_t3_body L a2 (Memref.isWhole_whole _) a3 (Memref.isWhole_whole _) a4 (Memref.isWhole_whole _) a5 (Memref.isWhole_whole _) a6 (Memref.isWhole_whole _) a7 (Memref.isWhole_whole _)
            a8 (Memref.isWhole_whole _) a9 (Memref.isWhole_whole _) a10 (Memref.isWhole_whole _) a11 (Memref.isWhole_whole _) cc0_scratch6 cc0_scoped0 cc0_scoped1 cc0_scoped2))
          (fun _ => iprop(((a9).view.loc (V d (cV L) (jV L)) ↦{fullShare} iv) ∗ ((a10).view.loc (V d (cV L) (jV L)) ↦{fullShare} wv) ∗ ((a8).view.loc (V d (cV L) (jV L)) ↦{fullShare} fv)
            ∗ ((a11).view.loc (V d (cV L) (jV L)) ↦{fullShare} OutV iv wv fv))) : sProp 𝕄))) :
    iprop(Transfers.MayWaits (V d (cV L) (jV L)) (none : HIx 1) O
        ∗ ((a3).view.loc (V d (cV L) (jV L)) ↦{q} grid) ∗ ((a4).view.loc (V d (cV L) (jV L)) ↦{q} feat)
        ∗ ((rowMem L k).view.loc (V d (cV L) (jV L)) ↦[(rowMem L k).view.set]{fullShare} out)
        ∗ ((a6).view.loc (V d (cV L) (jV L)) ↦{fullShare} iiv) ∗ ((a7).view.loc (V d (cV L) (jV L)) ↦{fullShare} gv) ∗ ((a8).view.loc (V d (cV L) (jV L)) ↦{fullShare} fv)
        ∗ ((a9).view.loc (V d (cV L) (jV L)) ↦{fullShare} iv) ∗ ((a10).view.loc (V d (cV L) (jV L)) ↦{fullShare} wv) ∗ ((a11).view.loc (V d (cV L) (jV L)) ↦{fullShare} ov)
        ∗ semVal (V d (cV L) (jV L), SemLoc.dma cc0_scratch6.sem) 0 ∗ semVal (V d (cV L) (jV L), SemLoc.dma cc0_scoped1.sem) 0 ∗ semVal (V d (cV L) (jV L), SemLoc.dma cc0_scoped2.sem) 0
        ∗ owes (V d (cV L) (jV L)) O W)
      ⊢ (wp frame (wpE (defs₀ (F := F)) 𝒱₀ (V d (cV L) (jV L)) none) Set.univ
          (k0_t1_body L a2 (Memref.isWhole_whole _) a3 (Memref.isWhole_whole _) a4 (Memref.isWhole_whole _) a5 (Memref.isWhole_whole _) a6 (Memref.isWhole_whole _) a7 (Memref.isWhole_whole _)
            a8 (Memref.isWhole_whole _) a9 (Memref.isWhole_whole _) a10 (Memref.isWhole_whole _) a11 (Memref.isWhole_whole _) cc0_scratch6 cc0_scoped0 cc0_scoped1 cc0_scoped2 k acc)
          (fun _ => iprop(Transfers.MayWaits (V d (cV L) (jV L)) (none : HIx 1) O
            ∗ ((a3).view.loc (V d (cV L) (jV L)) ↦{q} grid) ∗ ((a4).view.loc (V d (cV L) (jV L)) ↦{q} feat)
            ∗ ((rowMem L k).view.loc (V d (cV L) (jV L)) ↦[(rowMem L k).view.set]{fullShare}
                (rowMem L k).view.writes (Elt F) out [⟨Rect.whole S1x65536, rowX grid feat iiv L k h2⟩])
            ∗ ((a6).view.loc (V d (cV L) (jV L)) ↦{fullShare} iiv)
            ∗ (∃ gv' : S1x2x512.Idx → Elt F EltTy.f32, (a7).view.loc (V d (cV L) (jV L)) ↦{fullShare} gv')
            ∗ (∃ fv' : S32768.Idx → Elt F EltTy.f32, (a8).view.loc (V d (cV L) (jV L)) ↦{fullShare} fv')
            ∗ (∃ iv' : S4x512.Idx → BitVec 32, (a9).view.loc (V d (cV L) (jV L)) ↦{fullShare} iv')
            ∗ (∃ wv' : S4x512.Idx → Elt F EltTy.f32, (a10).view.loc (V d (cV L) (jV L)) ↦{fullShare} wv')
            ∗ (∃ ov' : S1x65536.Idx → Elt F EltTy.f32, (a11).view.loc (V d (cV L) (jV L)) ↦{fullShare} ov')
            ∗ semVal (V d (cV L) (jV L), SemLoc.dma cc0_scratch6.sem) 0 ∗ semVal (V d (cV L) (jV L), SemLoc.dma cc0_scoped1.sem) 0 ∗ semVal (V d (cV L) (jV L), SemLoc.dma cc0_scoped2.sem) 0
            ∗ ∃ W', ⌜∀ p ∈ W', p ∈ W ∨ p.2 = none⌝ ∗ owes (V d (cV L) (jV L)) O W')) : sProp 𝕄) := by
  have h1 := chk1_all k
  unfold k0_t1_body
  iintro ⟨Hmw, H3, H4, H5, H6, H7, H8, H9, H10, H11, Hs6, Hs1, Hs2, HO⟩
  sl_exec
  ihave H6' := (Entails.of_eq (show ((a6).view.loc (V d (cV L) (jV L)) ↦{fullShare} iiv : sProp 𝕄) = (((a6).access (.whole S32)).loc (V d (cV L) (jV L)) ↦{fullShare} iiv) from rfl)) $$ H6
  iapply (SparseCore.wp_vectorLoadIdx 𝒱₀ (V d (cV L) (jV L)) none Set.univ (base := a6) (S := Finset.univ) (q := fullShare) (Finset.subset_univ _)) $$ H6'; iintro H6'
  have h2' : k0_chk2 (extractAt ![0] (k0_pay1 (F := F) (loadIdx (View.read (Elt F) ((a6).access (Rect.whole cc0_scratch0.ty.shape)) iiv) ![broadcast S16 (Scf.iv 0#32 1#32 k)] (k0_idx1_inb _ h1))) inpos_S1_p0) := h2
  sl_exec
  rw [wp_bind]
  iapply (wp_wand_r frame (wpE (defs₀ (F := F)) 𝒱₀ (V d (cV L) (jV L)) none) Set.univ)
  isplitl [H7 H9 H10]
  · iapply (t2_loop d L _ iv wv)
    isplitl [H7]; · iexact H7
    isplitl [H9]; · iexact H9
    iexact H10
  iintro %_ ⟨H7, H9, H10⟩
  rw [wp_bind]
  iapply (wp_wand_r frame (wpE (defs₀ (F := F)) 𝒱₀ (V d (cV L) (jV L)) none) Set.univ)
  isplitl [H8 H9 H10 H11]
  · iapply (hT3 _ _ _ ov (fun y => GIdx_lt _ y))
    isplitl [H9]; · iexact H9
    isplitl [H10]; · iexact H10
    isplitl [H8]; · iexact H8
    iexact H11
  iintro %_ ⟨H9, H10, H8, H11⟩
  sl_exec
  sl_step
  isplitl [Hmw]; · iexact Hmw
  isplitl [H3]; · iexact H3
  isplitl [H4]; · iexact H4
  isplitl [H5]
  · have e : t1_trip.sl.dma0_2 d L k grid feat iiv gv fv h2 h1 = rowX grid feat iiv L k h2 := by
      unfold t1_trip.sl.dma0_2 rowX gvOf fvOf
      simp only [View.write_whole_univ]
      rfl
    rw [e]; iexact H5
  isplitl [H6']; · iexact H6'
  isplitl [H7]; · iexists _; iexact H7
  isplitl [H8]; · iexists _; iexact H8
  isplitl [H9]; · iexists _; iexact H9
  isplitl [H10]; · iexists _; iexact H10
  isplitl [H11]; · iexists _; iexact H11
  isplitl [Hs6]; · iexact Hs6
  isplitl [Hs1]; · iexact Hs1
  isplitl [Hs2]; · iexact Hs2
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Cert.Proof.KB

end
-- ==== Proof.BOut.lean ====
import proofs.«207350_g59966333387111_cont_9to1_m_496_19_alg».proof.Proof.BQuery

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

open Idealize.ShloMosaic.ValueIdx

variable [FloatOps F]

/-! ## The whole flat result, pointwise

Row `b` of the flat result is the row its query writes: the samples of the feature planes of image `ii b` at the
512 points of grid row `b`. -/

/-- Grid row `b`, as a 1 × 2 × 512 array. -/
def gvRow (grid : S1024x2x512.Idx → Elt F EltTy.f32) (b : Fin 1024) : S1x2x512.Idx → Elt F EltTy.f32 :=
  fun z => grid (ix3 b (z 1) (z 2))

/-- The 128 feature planes of the image numbered by the word `img`, flat. -/
def fvSlab (feat : S33554432.Idx → Elt F EltTy.f32) (img : BitVec 32) : S32768.Idx → Elt F EltTy.f32 :=
  fun z => feat (ix1 (⟨(img.toNat * 32768 + (z 0).val) % 33554432, Nat.mod_lt _ (by norm_num)⟩ : Fin 33554432))

/-- The flat result. -/
def OutFlat (ii : S1024.Idx → BitVec 32) (grid : S1024x2x512.Idx → Elt F EltTy.f32) (feat : S33554432.Idx → Elt F EltTy.f32) :
    S1024x65536.Idx → Elt F EltTy.f32 :=
  fun y => OutV (GIdx (gvRow grid (y 0))) (GW (gvRow grid (y 0))) (fvSlab feat (ii (ix1 (y 0)))) (ix2 (0 : Fin 1) (y 1))

end Cert.Proof.KB

end
-- ==== Proof.BLoop.lean ====
import proofs.«207350_g59966333387111_cont_9to1_m_496_19_alg».proof.Proof.BOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

open Idealize.ShloMosaic.ValueIdx

variable [FloatOps F]

/-! ## The worker's loop over its 32 queries -/

/-- The worker's 32 rows of the flat result before query `k`: the rows of the queries done hold the result, the others
    what they held at the start. -/
def rowsAt (d : Dev nD) (L : grid0.Coords) (OUT out0 : S1024x65536.Idx → Elt F EltTy.f32) (k : Nat) : sProp 𝕄 :=
  bigSep Finset.univ fun j : Fin k0_t1_loop.trips => oLoc d ↦[rowSetK L j]{fullShare} (if j.val < k then OUT else out0)

/-- Before query `k`. -/
def invT1 (d : Dev nD) (L : grid0.Coords) (q : PosShare TreeShare) (O : CellTallies nD τ sig (HIx 1)) (W : Waits sig (HIx 1))
    (grid : S1024x2x512.Idx → Elt F EltTy.f32) (feat : S33554432.Idx → Elt F EltTy.f32) (OUT out0 : S1024x65536.Idx → Elt F EltTy.f32)
    (iiv : S32.Idx → BitVec 32) (k : Nat) (_ : BitVec 32) : sProp 𝕄 :=
  iprop(Transfers.MayWaits (V d (cV L) (jV L)) (none : HIx 1) O
    ∗ ((a3).view.loc (V d (cV L) (jV L)) ↦{q} grid) ∗ ((a4).view.loc (V d (cV L) (jV L)) ↦{q} feat)
    ∗ rowsAt d L OUT out0 k
    ∗ ((a6).view.loc (V d (cV L) (jV L)) ↦{fullShare} iiv)
    ∗ (∃ gv' : S1x2x512.Idx → Elt F EltTy.f32, (a7).view.loc (V d (cV L) (jV L)) ↦{fullShare} gv')
    ∗ (∃ fv' : S32768.Idx → Elt F EltTy.f32, (a8).view.loc (V d (cV L) (jV L)) ↦{fullShare} fv')
    ∗ (∃ iv' : S4x512.Idx → BitVec 32, (a9).view.loc (V d (cV L) (jV L)) ↦{fullShare} iv')
    ∗ (∃ wv' : S4x512.Idx → Elt F EltTy.f32, (a10).view.loc (V d (cV L) (jV L)) ↦{fullShare} wv')
    ∗ (∃ ov' : S1x65536.Idx → Elt F EltTy.f32, (a11).view.loc (V d (cV L) (jV L)) ↦{fullShare} ov')
    ∗ semVal ((V d (cV L) (jV L)), SemLoc.dma cc0_scratch6.sem) 0 ∗ semVal ((V d (cV L) (jV L)), SemLoc.dma cc0_scoped1.sem) 0 ∗ semVal ((V d (cV L) (jV L)), SemLoc.dma cc0_scoped2.sem) 0
    ∗ ∃ W', ⌜∀ p ∈ W', p ∈ W ∨ p.2 = none⌝ ∗ owes (V d (cV L) (jV L)) O W')

theorem rowsAt_step (d : Dev nD) (L : grid0.Coords) (OUT out0 : S1024x65536.Idx → Elt F EltTy.f32) (k : Fin k0_t1_loop.trips) :
    (bigSep ((Finset.univ : Finset (Fin k0_t1_loop.trips)).erase k) fun j => (oLoc d ↦[rowSetK L j]{fullShare} (if j.val < k.val then OUT else out0) : sProp 𝕄))
      = bigSep ((Finset.univ : Finset (Fin k0_t1_loop.trips)).erase k) fun j => oLoc d ↦[rowSetK L j]{fullShare} (if j.val < k.val + 1 then OUT else out0) := by
  refine bigSep_congr fun j hj => ?_
  have hne : j ≠ k := (Finset.mem_erase.mp hj).1
  have hv : j.val ≠ k.val := fun e => hne (Fin.ext e)
  by_cases h : j.val < k.val
  · rw [if_pos h, if_pos (by omega)]
  · rw [if_neg h, if_neg (by omega)]

set_option maxHeartbeats 8000000 in
theorem t1_loop (d : Dev nD) (L : grid0.Coords) (q : PosShare TreeShare) (O : CellTallies nD τ sig (HIx 1)) (W : Waits sig (HIx 1))
    (ii : S1024.Idx → BitVec 32) (grid : S1024x2x512.Idx → Elt F EltTy.f32) (feat : S33554432.Idx → Elt F EltTy.f32) (out0 : S1024x65536.Idx → Elt F EltTy.f32)
    (iiv : S32.Idx → BitVec 32)
    (hchk2 : ∀ k : Fin k0_t1_loop.trips, k0_chk2 (imgOf (F := F) iiv k))
    (hrow : ∀ (k : Fin k0_t1_loop.trips) (h2 : k0_chk2 (imgOf (F := F) iiv k)), ∀ y ∈ rowSetK L k,
      ((rowMem L k).view.writes (Elt F) out0 [⟨Rect.whole S1x65536, rowX grid feat iiv L k h2⟩]) y = OutFlat ii grid feat y)
    (hT3 : ∀ (iv : S4x512.Idx → BitVec 32) (wv : S4x512.Idx → Elt F EltTy.f32) (fv : S32768.Idx → Elt F EltTy.f32) (ov : S1x65536.Idx → Elt F EltTy.f32), (∀ y, (iv y).toNat < 256) →
      (iprop(((a9).view.loc (V d (cV L) (jV L)) ↦{fullShare} iv) ∗ ((a10).view.loc (V d (cV L) (jV L)) ↦{fullShare} wv) ∗ ((a8).view.loc (V d (cV L) (jV L)) ↦{fullShare} fv) ∗ ((a11).view.loc (V d (cV L) (jV L)) ↦{fullShare} ov))
        ⊢ (wp frame (wpE (defs₀ (F := F)) 𝒱₀ (V d (cV L) (jV L)) none) Set.univ
          (Scf.Loop.for k0_t3_loop k0_t3_ok 0#32 (k0_t3_body L a2 (Memref.isWhole_whole _) a3 (Memref.isWhole_whole _) a4 (Memref.isWhole_whole _) a5 (Memref.isWhole_whole _) a6 (Memref.isWhole_whole _) a7 (Memref.isWhole_whole _)
            a8 (Memref.isWhole_whole _) a9 (Memref.isWhole_whole _) a10 (Memref.isWhole_whole _) a11 (Memref.isWhole_whole _) cc0_scratch6 cc0_scoped0 cc0_scoped1 cc0_scoped2))
          (fun _ => iprop(((a9).view.loc (V d (cV L) (jV L)) ↦{fullShare} iv) ∗ ((a10).view.loc (V d (cV L) (jV L)) ↦{fullShare} wv) ∗ ((a8).view.loc (V d (cV L) (jV L)) ↦{fullShare} fv)
            ∗ ((a11).view.loc (V d (cV L) (jV L)) ↦{fullShare} OutV iv wv fv))) : sProp 𝕄))) :
    invT1 d L q O W grid feat (OutFlat ii grid feat) out0 iiv 0 0#32
      ⊢ (wp frame (wpE (defs₀ (F := F)) 𝒱₀ (V d (cV L) (jV L)) none) Set.univ
          (Scf.Loop.for k0_t1_loop k0_t1_ok 0#32 (k0_t1_body L a2 (Memref.isWhole_whole _) a3 (Memref.isWhole_whole _) a4 (Memref.isWhole_whole _) a5 (Memref.isWhole_whole _) a6 (Memref.isWhole_whole _) a7 (Memref.isWhole_whole _)
            a8 (Memref.isWhole_whole _) a9 (Memref.isWhole_whole _) a10 (Memref.isWhole_whole _) a11 (Memref.isWhole_whole _) cc0_scratch6 cc0_scoped0 cc0_scoped1 cc0_scoped2))
          (fun acc => invT1 d L q O W grid feat (OutFlat ii grid feat) out0 iiv 32 acc) : sProp 𝕄) := by
  iintro HI
  sl_for (invT1 d L q O W grid feat (OutFlat ii grid feat) out0 iiv) $$ [HI]
  case region =>
    intro k acc
    unfold invT1 rowsAt
    iintro ⟨Hmw, H3, H4, Hrows, H6, ⟨%gv, H7⟩, ⟨%fv, H8⟩, ⟨%iv, H9⟩, ⟨%wv, H10⟩, ⟨%ov, H11⟩, Hs6, Hs1, Hs2, %W', %hW', HO⟩
    ihave Hr := (Entails.of_eq (SparseCore.bigSep_erase' (Finset.mem_univ k))) $$ Hrows
    icases Hr with ⟨Hrow, Hrest⟩
    ihave Hrow := (Entails.of_eq (show (oLoc d ↦[rowSetK L k]{fullShare} (if k.val < k.val then OutFlat ii grid feat else out0) : sProp 𝕄)
        = ((rowMem L k).view.loc (V d (cV L) (jV L)) ↦[(rowMem L k).view.set]{fullShare} out0) from by rw [if_neg (lt_irrefl _)])) $$ Hrow
    iapply (wp_wand_r frame (wpE (defs₀ (F := F)) 𝒱₀ (V d (cV L) (jV L)) none) Set.univ)
    isplitl [Hmw H3 H4 Hrow H6 H7 H8 H9 H10 H11 Hs6 Hs1 Hs2 HO]
    · iapply (t1_trip d L k acc q O W' grid feat out0 iiv gv fv iv wv ov (hchk2 k) hT3)
      isplitl [Hmw]; · iexact Hmw
      isplitl [H3]; · iexact H3
      isplitl [H4]; · iexact H4
      isplitl [Hrow]; · iexact Hrow
      isplitl [H6]; · iexact H6
      isplitl [H7]; · iexact H7
      isplitl [H8]; · iexact H8
      isplitl [H9]; · iexact H9
      isplitl [H10]; · iexact H10
      isplitl [H11]; · iexact H11
      isplitl [Hs6]; · iexact Hs6
      isplitl [Hs1]; · iexact Hs1
      isplitl [Hs2]; · iexact Hs2
      iexact HO
    iintro %_ ⟨Hmw, H3, H4, Hrow, H6, H7, H8, H9, H10, H11, Hs6, Hs1, Hs2, %W'', %hW'', HO⟩
    ihave Hrow := (Entails.of_eq (show (((rowMem L k).view.loc (V d (cV L) (jV L)) ↦[(rowMem L k).view.set]{fullShare}
          (rowMem L k).view.writes (Elt F) out0 [⟨Rect.whole S1x65536, rowX grid feat iiv L k (hchk2 k)⟩]) : sProp 𝕄)
        = (oLoc d ↦[rowSetK L k]{fullShare} (if k.val < k.val + 1 then OutFlat ii grid feat else out0)) from by
          rw [if_pos (Nat.lt_succ_self _)]
          exact pointsTo_congr (hrow k (hchk2 k)))) $$ Hrow
    ihave Hrest := (Entails.of_eq (rowsAt_step d L (OutFlat ii grid feat) out0 k)) $$ Hrest
    isplitl [Hmw]; · iexact Hmw
    isplitl [H3]; · iexact H3
    isplitl [H4]; · iexact H4
    isplitl [Hrow Hrest]
    · iapply (Entails.of_eq (SparseCore.bigSep_erase' (Finset.mem_univ k)).symm)
      isplitl [Hrow]; · iexact Hrow
      iexact Hrest
    isplitl [H6]; · iexact H6
    isplitl [H7]; · iexact H7
    isplitl [H8]; · iexact H8
    isplitl [H9]; · iexact H9
    isplitl [H10]; · iexact H10
    isplitl [H11]; · iexact H11
    isplitl [Hs6]; · iexact Hs6
    isplitl [Hs1]; · iexact Hs1
    isplitl [Hs2]; · iexact Hs2
    iexists W''; isplitr
    · ipureintro; intro p hp
      rcases hW'' p hp with h | h
      · exact hW' p h
      · exact .inr h
    · iexact HO
  isplitl [HI]; · iexact HI
  iintro %acc HI
  iexact HI

end Cert.Proof.KB

end
-- ==== Proof.BOwn.lean ====
/-
  The sampling kernel on one vector subcore: what the subcore owns at launch, with the semaphore cells and scratch
  buffers the kernel names taken out of the whole.
-/
import proofs.«207350_g59966333387111_cont_9to1_m_496_19_alg».proof.Proof.BBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

/-!
  What a vector subcore owns, with the cells and buffers this kernel names taken out.

  The subcore's own semaphore cells are its four DMA semaphores (the scratch operand's and the three scoped
  allocations') and the rest; its own buffers are its six scratch buffers and the rest.
-/

/-- The four DMA semaphore cells of subcore `i` of SparseCore `c`: the scratch operand's and the three scoped ones. -/
abbrev cellQ (d : Dev nD) (c : Fin τ.nSC) (i : Fin τ.nSub) : GSem nD τ sig := (V d c i, .dma cc0_scratch6.sem)
abbrev cellA (d : Dev nD) (c : Fin τ.nSC) (i : Fin τ.nSub) : GSem nD τ sig := (V d c i, .dma cc0_scoped0.sem)
abbrev cellB (d : Dev nD) (c : Fin τ.nSC) (i : Fin τ.nSub) : GSem nD τ sig := (V d c i, .dma cc0_scoped1.sem)
abbrev cellC (d : Dev nD) (c : Fin τ.nSC) (i : Fin τ.nSub) : GSem nD τ sig := (V d c i, .dma cc0_scoped2.sem)

variable (d : Dev nD) (L : grid0.Coords)

/-- The subcore's own cells other than the four. -/
abbrev restCells : Finset (GSem nD τ sig) :=
  (((((ownCells (V d (cV L) (jV L))).erase (cellQ d (cV L) (jV L))).erase (cellA d (cV L) (jV L))).erase (cellB d (cV L) (jV L))).erase (cellC d (cV L) (jV L)))
/-- The subcore's own buffers other than the six scratch buffers. -/
abbrev restRefs : Finset (DevRef τ sig) :=
  (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))

theorem ownSems0_V4 :
    (ownSems0 (V d (cV L) (jV L)) : sProp 𝕄)
      = iprop(semVal (cellQ d (cV L) (jV L)) 0 ∗ semVal (cellA d (cV L) (jV L)) 0 ∗ semVal (cellB d (cV L) (jV L)) 0
          ∗ semVal (cellC d (cV L) (jV L)) 0 ∗ bigSep (restCells d L) fun g => semVal g 0) := by
  unfold SparseCore.Cfg.ownSems0
  rw [SparseCore.bigSep_erase' ((mem_ownCells (g := cellQ d (cV L) (jV L))).mpr ⟨rfl, by show (SemLoc.dma cc0_scratch6.sem : SemLoc sig).isScoped .scVector = true; decide⟩),
    SparseCore.bigSep_erase' (Finset.mem_erase.mpr ⟨fun e => absurd (congrArg Prod.snd e) (show (SemLoc.dma cc0_scoped0.sem : SemLoc sig) ≠ SemLoc.dma cc0_scratch6.sem by decide), (mem_ownCells (g := cellA d (cV L) (jV L))).mpr ⟨rfl, by show (SemLoc.dma cc0_scoped0.sem : SemLoc sig).isScoped .scVector = true; decide⟩⟩),
    SparseCore.bigSep_erase' (Finset.mem_erase.mpr ⟨fun e => absurd (congrArg Prod.snd e) (show (SemLoc.dma cc0_scoped1.sem : SemLoc sig) ≠ SemLoc.dma cc0_scoped0.sem by decide), Finset.mem_erase.mpr ⟨fun e => absurd (congrArg Prod.snd e) (show (SemLoc.dma cc0_scoped1.sem : SemLoc sig) ≠ SemLoc.dma cc0_scratch6.sem by decide), (mem_ownCells (g := cellB d (cV L) (jV L))).mpr ⟨rfl, by show (SemLoc.dma cc0_scoped1.sem : SemLoc sig).isScoped .scVector = true; decide⟩⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), Finset.mem_erase.mpr ⟨fun e => absurd (congrArg Prod.snd e) (show (SemLoc.dma cc0_scoped2.sem : SemLoc sig) ≠ SemLoc.dma cc0_scratch6.sem by decide), (mem_ownCells (g := cellC d (cV L) (jV L))).mpr ⟨rfl, by show (SemLoc.dma cc0_scoped2.sem : SemLoc sig).isScoped .scVector = true; decide⟩⟩⟩⟩)]

/-- The six scratch buffers are among the subcore's own: they are them, each at some contents, and the rest. -/
theorem ownBufs_V6 :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := (Proc.scVector (cV L) (jV L)).devRef cc0_scratch5) rfl⟩⟩⟩⟩⟩)]

end Cert.Proof.KB

end
-- ==== Proof.BQueryFacts.lean ====
/-
  The sampling kernel on one vector subcore: the values one query reads and writes, as values of the whole arrays.
-/
import proofs.«207350_g59966333387111_cont_9to1_m_496_19_alg».proof.Proof.BOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

open Idealize.ShloMosaic.ValueIdx

variable [FloatOps F]

/-!
  One query's values, as values of the whole arrays.

  The image number of query `k` is lane `k` of the index scratch; the grid row and the feature planes the copies
  read are grid row `64·s + 32·c + k` and the planes of that image; the row the query writes is the corresponding
  row of the flat result stated pointwise.
-/

/-- Trip `k`'s induction word is `k`. -/
theorem t1_iv_toNat : ∀ k : Fin k0_t1_loop.trips, (Scf.iv 0#32 1#32 k).toNat = k.val := by decide +kernel

/-- The image number of query `k` is lane `k` of the index scratch. -/
theorem imgOf_eq (iiv : S32.Idx → BitVec 32) (k : Fin k0_t1_loop.trips) :
    imgOf (F := F) iiv k = iiv (ix1 (⟨k.val, k.isLt⟩ : Fin 32)) := by
  unfold imgOf k0_pay1 extractAt extractStridedSlice loadIdx idxAt
  rw [Memref.read_access_whole]
  show iiv _ = iiv _
  congr 1
  funext a
  match a with
  | ⟨0, _⟩ => exact Fin.ext (t1_iv_toNat k)

/-- An image number in `[0, 1023]` names a slab inside the flat features. -/
theorem chk2_of_range (img : BitVec 32) (h : 0 ≤ img.toInt ∧ img.toInt ≤ 1023) : k0_chk2 img := by
  obtain ⟨h0, h1⟩ := h
  have hlt : img.toNat < 4294967296 := img.isLt
  have hn : img.toNat ≤ 1023 := by
    rw [BitVec.toInt_eq_toNat_cond] at h0 h1
    split at h0 <;> omega
  intro a
  match a with
  | ⟨0, _⟩ =>
    show (Scalar.muli img 32768#32).toNat + 32768 ≤ 33554432
    have e : (Scalar.muli img 32768#32).toNat = (img.toNat * 32768) % 4294967296 := by
      show (img * 32768#32).toNat = _
      rw [BitVec.toNat_mul]; rfl
    rw [e]; omega

/-- The grid row the copy reads is grid row `64·s + 32·c + k`. -/
theorem gvOf_eq (grid : S1024x2x512.Idx → Elt F EltTy.f32) (L : grid0.Coords) (k : Fin k0_t1_loop.trips) :
    gvOf grid L k = gvRow grid (⟨64 * (L 1).val + 32 * (L 0).val + k.val, by
      have h1 : (L 1).val < 16 := (L 1).isLt
      have h0 : (L 0).val < 2 := (L 0).isLt
      have hk : k.val < 32 := k.isLt
      omega⟩ : Fin 1024) := by
  funext z
  obtain ⟨e0, e1, e2⟩ := grid_emb L k z
  unfold gvOf gvRow
  refine ((View.read_apply _ _).trans (cast_eq _ _)).trans ?_
  congr 1
  funext a
  match a with
  | ⟨0, _⟩ => exact Fin.ext e0
  | ⟨1, _⟩ => exact Fin.ext e1
  | ⟨2, _⟩ => exact Fin.ext e2

/-- The feature planes the copy reads are the planes of the image the word numbers. -/
theorem fvOf_eq (feat : S33554432.Idx → Elt F EltTy.f32) (img : BitVec 32) (h2 : k0_chk2 img) :
    fvOf feat img h2 = fvSlab feat img := by
  funext z
  unfold fvOf fvSlab
  refine ((View.read_apply _ _).trans (cast_eq _ _)).trans ?_
  congr 1
  funext a
  match a with
  | ⟨0, _⟩ =>
    refine Fin.ext ?_
    have hz : (z 0).val < 32768 := (z 0).isLt
    have hb : (Scalar.muli img 32768#32).toNat + 32768 ≤ 33554432 := h2 0
    have e : (Scalar.muli img 32768#32).toNat = (img.toNat * 32768) % 4294967296 := by
      show (img * 32768#32).toNat = _
      rw [BitVec.toNat_mul]; rfl
    show (Scalar.muli img 32768#32).toNat + 1 * (z 0).val = (img.toNat * 32768 + (z 0).val) % 33554432
    rw [e] at hb ⊢; omega

/-- Lane `k` of the index scratch, when the scratch holds the worker's 32 image indices, is image index
    `64·s + 32·c + k`. -/
theorem ii_at (L : grid0.Coords) (k : Fin k0_t1_loop.trips) :
    (iiMem L).view.emb (ix1 (⟨k.val, k.isLt⟩ : Fin 32))
      = ix1 (⟨64 * (L 1).val + 32 * (L 0).val + k.val, by
          have h1 : (L 1).val < 16 := (L 1).isLt
          have h0 : (L 0).val < 2 := (L 0).isLt
          have hk : k.val < 32 := k.isLt
          omega⟩ : Fin 1024) := by
  funext a
  match a with
  | ⟨0, _⟩ => exact Fin.ext (ii_emb L (ix1 (⟨k.val, k.isLt⟩ : Fin 32)))

/-- The output row is a function of its three tables and the place. -/
theorem OutV_congr {iv iv' : S4x512.Idx → BitVec 32} {wv wv' : S4x512.Idx → Elt F EltTy.f32} {fv fv' : S32768.Idx → Elt F EltTy.f32}
    {y y' : S1x65536.Idx} (h1 : iv = iv') (h2 : wv = wv') (h3 : fv = fv') (h4 : y = y') :
    OutV iv wv fv y = OutV iv' wv' fv' y' := by
  subst h1 h2 h3 h4; rfl

/-- The row query `k` writes is row `64·s + 32·c + k` of the flat result. -/
theorem row_lands (L : grid0.Coords) (k : Fin k0_t1_loop.trips) (ii : S1024.Idx → BitVec 32)
    (grid : S1024x2x512.Idx → Elt F EltTy.f32) (feat : S33554432.Idx → Elt F EltTy.f32) (out : S1024x65536.Idx → Elt F EltTy.f32)
    (iiv : S32.Idx → BitVec 32) (hiiv : ∀ x, iiv x = ii ((iiMem L).view.emb x)) (h2 : k0_chk2 (imgOf (F := F) iiv k)) :
    ∀ y ∈ rowSetK L k,
      ((rowMem L k).view.writes (Elt F) out [⟨Rect.whole S1x65536, rowX grid feat iiv L k h2⟩]) y = OutFlat ii grid feat y := by
  intro y hy
  obtain ⟨x, -, rfl⟩ := Finset.mem_map.mp hy
  have hr := congrFun (View.read_writes_whole (rowMem L k).view out (rowX grid feat iiv L k h2)) x
  rw [View.read_apply] at hr
  refine ((cast_eq _ _).symm.trans hr).trans ?_
  obtain ⟨e0, e1⟩ := row_emb L k x
  have h0 : (rowMem L k).view.emb x 0 = (⟨64 * (L 1).val + 32 * (L 0).val + k.val, by
      have h1 : (L 1).val < 16 := (L 1).isLt
      have h0 : (L 0).val < 2 := (L 0).isLt
      have hk : k.val < 32 := k.isLt
      omega⟩ : Fin 1024) := Fin.ext e0
  have hx : x = ix2 (0 : Fin 1) ((rowMem L k).view.emb x 1) := by
    funext a
    match a with
    | ⟨0, _⟩ => exact Fin.ext (by have hx0 : (x 0).val < 1 := (x 0).isLt; show (x 0).val = 0; omega)
    | ⟨1, _⟩ => exact Fin.ext e1.symm
  show OutV (GIdx (gvOf grid L k)) (GW (gvOf grid L k)) (fvOf feat (imgOf (F := F) iiv k) h2) x
    = OutV (GIdx (gvRow grid ((rowMem L k).view.emb x 0))) (GW (gvRow grid ((rowMem L k).view.emb x 0)))
        (fvSlab feat (ii (ix1 ((rowMem L k).view.emb x 0)))) (ix2 (0 : Fin 1) ((rowMem L k).view.emb x 1))
  have hA : gvOf grid L k = gvRow grid ((rowMem L k).view.emb x 0) := by
    rw [gvOf_eq]; exact congrArg (gvRow grid) h0.symm
  have hC : fvOf feat (imgOf (F := F) iiv k) h2 = fvSlab feat (ii (ix1 ((rowMem L k).view.emb x 0))) := by
    rw [fvOf_eq, imgOf_eq, hiiv, ii_at]; exact congrArg (fun b : Fin 1024 => fvSlab feat (ii (ix1 b))) h0.symm
  exact OutV_congr (congrArg GIdx hA) (congrArg GW hA) hC hx

/-- What the first copy leaves in the index scratch: the worker's 32 image indices. -/
theorem ii_lands (L : grid0.Coords) (ii : S1024.Idx → BitVec 32) (iiv0 : S32.Idx → BitVec 32) :
    ∀ x, ((a6).view.write (Elt F) iiv0 ((iiMem L).view.read (Elt F) ii) Finset.univ) x = ii ((iiMem L).view.emb x) := by
  intro x
  have h := congrFun (View.write_whole_univ (Val := Elt F) cc0_scratch0 iiv0 ((iiMem L).view.read (Elt F) ii)) x
  exact h.trans ((View.read_apply _ _).trans (cast_eq _ _))

/-- The same, the data read as they are. -/
theorem ii_lands_same (L : grid0.Coords) (ii : S1024.Idx → BitVec 32) (iiv0 : S32.Idx → BitVec 32) :
    ∀ x, ((a6).view.write (Elt F) iiv0
        ((ReadAs.same : ReadAs (Elt F) S32 EltTy.i32 S32 EltTy.i32).apply ((iiMem L).view.read (Elt F) ii)) Finset.univ) x
      = ii ((iiMem L).view.emb x) :=
  ii_lands L ii iiv0

end Cert.Proof.KB

end
-- ==== Proof.BAccumLemmas.lean ====
/-
  The gather-and-accumulate loops: the carried words in closed form, and the effect of one store of
  the inner loop on the output row.
-/
import proofs.«207350_g59966333387111_cont_9to1_m_496_19_alg».proof.Proof.BBase
import proofs.«207350_g59966333387111_cont_9to1_m_496_19_alg».proof.Proof.BAccumDefs
import Idealize.ShloMosaic.Lib.ValueIdx
import Idealize.ShloMosaic.Lib.ValueLayout
import Idealize.ShloMosaic.Lib.WritesUnit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

variable [FloatOps F]

/-! ## Words -/

omit [FloatOps F] in
/-- A carried index is its loaded word plus `256 * ch`, as natural numbers: nothing wraps. -/
theorem carIx_toNat (iv : S4x512.Idx → BitVec 32) (hiv : ∀ y, (iv y).toNat < 256) (k : ℕ) (r : Fin 4) (ch : ℕ)
    (hch : ch < 128) (x : S16.Idx) :
    (carIx iv k r ch x).toNat
      = (iv (ix2 r (⟨(16 * k + (x 0).val) % 512, Nat.mod_lt _ (by decide)⟩ : Fin 512))).toNat + 256 * ch := by
  have h := hiv (ix2 r (⟨(16 * k + (x 0).val) % 512, Nat.mod_lt _ (by decide)⟩ : Fin 512))
  unfold carIx
  rw [BitVec.toNat_add, BitVec.toNat_ofNat]
  omega

omit [FloatOps F] in
theorem carIx_lt (iv : S4x512.Idx → BitVec 32) (hiv : ∀ y, (iv y).toNat < 256) (k : ℕ) (r : Fin 4) (ch : ℕ)
    (hch : ch < 128) (x : S16.Idx) : (carIx iv k r ch x).toNat < 32768 := by
  have h := hiv (ix2 r (⟨(16 * k + (x 0).val) % 512, Nat.mod_lt _ (by decide)⟩ : Fin 512))
  rw [carIx_toNat iv hiv k r ch hch x]; omega

omit [FloatOps F] in
/-- One more channel: each carried index moves on by 256. -/
theorem carIx_succ (iv : S4x512.Idx → BitVec 32) (k : ℕ) (r : Fin 4) (ch : ℕ) :
    addi (carIx iv k r ch) (broadcast S16 256#32) = carIx iv k r (ch + 1) := by
  funext x
  show carIx iv k r ch x + 256#32 = carIx iv k r (ch + 1) x
  unfold carIx
  rw [BitVec.add_assoc]
  congr 1
  apply BitVec.eq_of_toNat_eq
  rw [BitVec.toNat_add, BitVec.toNat_ofNat, BitVec.toNat_ofNat, BitVec.toNat_ofNat]
  omega

omit [FloatOps F] in
theorem carOff_toNat (k ch : ℕ) (hk : k < 32) (hch : ch < 128) : (carOff k ch).toNat = 16 * k + 512 * ch := by
  unfold carOff; rw [BitVec.toNat_ofNat]; omega

omit [FloatOps F] in
theorem carOff_succ (k ch : ℕ) : Scalar.addi (carOff k ch) 512#32 = carOff k (ch + 1) := by
  show carOff k ch + 512#32 = carOff k (ch + 1)
  unfold carOff
  apply BitVec.eq_of_toNat_eq
  rw [BitVec.toNat_add, BitVec.toNat_ofNat, BitVec.toNat_ofNat, BitVec.toNat_ofNat]
  omega

omit [FloatOps F] in
/-- The store's offsets before channel `ch` of chunk `k`: row 0, column `16 * k + 512 * ch`. -/
theorem off14_car (k ch : ℕ) (hk : k < 32) (hch : ch < 128) : k0_off14 (carOff k ch) = ![0, 16 * k + 512 * ch] := by
  show ![0, (carOff k ch).toNat] = _
  rw [carOff_toNat k ch hk hch]

/-! ## One store of the inner loop -/

/-- Storing channel `ch` of chunk `k`'s sixteen points finishes exactly those columns. -/
theorem store_eff (iv : S4x512.Idx → BitVec 32) (wv : S4x512.Idx → F .f32) (fv : S32768.Idx → F .f32)
    (ov : S1x65536.Idx → F .f32) (k ch : ℕ) (hk : k < 32) (hch : ch < 128)
    {off : Fin 2 → ℕ} (inb : ∀ a, off a + S1x16.size a ≤ S1x65536.size a)
    (w : (Rect.unit (s := S1x65536) off S1x16.size inb).shape.Idx → F .f32)
    (hoff : off = ![0, 16 * k + 512 * ch])
    (hw : ∀ j : S1x16.Idx, w j = OutAt iv wv fv ch (⟨(16 * k + (j 1).val) % 512, Nat.mod_lt _ (by decide)⟩ : Fin 512)) :
    (a11).view.writes (Elt F) (mix iv wv fv ov (Done4 k ch)) [⟨Rect.unit (s := S1x65536) off S1x16.size inb, w⟩]
      = mix iv wv fv ov (Done4 k (ch + 1)) := by
  refine funext fun (y : S1x65536.Idx) => ?_
  have hr : ∀ g : S1x65536.Idx → F .f32, (a11).view.read (Elt F) g y = g y := fun g =>
    congrFun (View.read_whole (Val := Elt F) cc0_scratch5 g) y
  have hy0 : (y 0).val < 1 := idx2_lt0 y
  have hy1 : (y 1).val < 65536 := idx2_lt1 y
  refine (hr _).symm.trans ?_
  rw [View.read_writes_cons_unit (Val := Elt F) (a11).view (mix iv wv fv ov (Done4 k ch)) inb w [] y hoff]
  split
  · rename_i h
    rw [hw]
    have h1' : 16 * k + 512 * ch ≤ (y 1).val ∧ (y 1).val < 16 * k + 512 * ch + 16 :=
      (Fin.forall_fin_two.mp h).2
    have hd : Done4 k (ch + 1) y := by unfold Done4 colPt colCh; simp only []; omega
    have e1 : colCh y = ch := by unfold colCh; omega
    unfold mix; rw [if_pos hd]
    unfold OutV; rw [e1]
    refine congrArg (OutAt iv wv fv ch) (Fin.ext ?_)
    show (16 * k + ((y 1).val - (16 * k + 512 * ch))) % 512 = (y 1).val % 512
    omega
  · rename_i h
    rw [View.writes_nil, hr]
    have hn : ¬ (16 * k + 512 * ch ≤ (y 1).val ∧ (y 1).val < 16 * k + 512 * ch + 16) := fun hc =>
      h (Fin.forall_fin_two.mpr ⟨⟨Nat.zero_le _, by show (y 0).val < 0 + 1; omega⟩, hc⟩)
    have hiff : Done4 k ch y ↔ Done4 k (ch + 1) y := by unfold Done4 colPt colCh; simp only []; omega
    unfold mix
    by_cases hd : Done4 k ch y
    · rw [if_pos hd, if_pos (hiff.1 hd)]
    · rw [if_neg hd, if_neg (fun hq => hd (hiff.2 hq))]

/-! ## The stored vector -/

/-- The point of chunk `k` that lane `x` works on. -/
abbrev lanePt (k x : ℕ) : Fin 512 := ⟨(16 * k + x) % 512, Nat.mod_lt _ (by decide)⟩

/-- A gather through corner `r`'s carried indices reads, in lane `x`, the feature of that corner of
    the lane's point in channel `ch`. -/
theorem gather_at (iv : S4x512.Idx → BitVec 32) (hiv : ∀ y, (iv y).toNat < 256) (fv : S32768.Idx → F .f32)
    (k : ℕ) (r : Fin 4) (ch : ℕ) (hch : ch < 128)
    (h : ∀ a x, ((![carIx iv k r ch] : Fin 1 → IVec S16 32) a x).toNat < S32768.size a) (x : S16.Idx) :
    loadIdx (F := F) (s := S32768) (e := .f32) fv ![carIx iv k r ch] h x = fv (tapIx iv r (lanePt k (x 0).val) ch) := by
  show fv (idxAt ![carIx iv k r ch] h x) = fv _
  refine congrArg fv (funext fun a => ?_)
  match a with
  | ⟨0, _⟩ =>
    apply Fin.ext
    show (carIx iv k r ch x).toNat = (iv (ix2 r (lanePt k (x 0).val)) + BitVec.ofNat 32 (256 * ch)).toNat % 32768
    have hlt := carIx_lt iv hiv k r ch hch x
    rw [Nat.mod_eq_of_lt (by exact hlt)]
    rfl

/-- The stored vector, read at a position of the store's rectangle: the final value of the lane's
    point in channel `ch`. The weights are the chunk's sixteen of each row; the gathered vectors are
    the four corners' features. -/
theorem pay11_at (iv : S4x512.Idx → BitVec 32) (wv : S4x512.Idx → F .f32) (fv : S32768.Idx → F .f32) (k ch : ℕ)
    (w0 w1 w2 w3 : Vec F S1x16 .f32) (g0 g1 g2 g3 : Vec F S16 .f32)
    (hw0 : ∀ x : Fin 16, w0 (ix2 (0 : Fin 1) x) = wv (ix2 0 (lanePt k x.val)))
    (hw1 : ∀ x : Fin 16, w1 (ix2 (0 : Fin 1) x) = wv (ix2 1 (lanePt k x.val)))
    (hw2 : ∀ x : Fin 16, w2 (ix2 (0 : Fin 1) x) = wv (ix2 2 (lanePt k x.val)))
    (hw3 : ∀ x : Fin 16, w3 (ix2 (0 : Fin 1) x) = wv (ix2 3 (lanePt k x.val)))
    (hg0 : ∀ x : S16.Idx, g0 x = fv (tapIx iv 0 (lanePt k (x 0).val) ch))
    (hg1 : ∀ x : S16.Idx, g1 x = fv (tapIx iv 1 (lanePt k (x 0).val) ch))
    (hg2 : ∀ x : S16.Idx, g2 x = fv (tapIx iv 2 (lanePt k (x 0).val) ch))
    (hg3 : ∀ x : S16.Idx, g3 x = fv (tapIx iv 3 (lanePt k (x 0).val) ch))
    (j : S1x16.Idx) :
    shapeCast S1x16 (k0_pay11 w0 w1 w2 w3 g0 g1 g2 g3) shapeCasts_S16_S1x16 j
      = OutAt iv wv fv ch (lanePt k (j 1).val) := by
  obtain ⟨u, i, rfl⟩ : ∃ (u : Fin 1) (i : Fin 16), j = ix2 u i := ⟨j 0, j 1, eq_ix2 j⟩
  refine (shapeCast_a_1a_apply (k0_pay11 w0 w1 w2 w3 g0 g1 g2 g3) shapeCasts_S16_S1x16 u i).trans ?_
  show FloatOps.addf (FloatOps.addf (FloatOps.addf
        (FloatOps.mulf (g0 (ix1 i)) (shapeCast S16 w0 shapeCasts_S1x16_S16 (ix1 i)))
        (FloatOps.mulf (g1 (ix1 i)) (shapeCast S16 w1 shapeCasts_S1x16_S16 (ix1 i))))
        (FloatOps.mulf (g2 (ix1 i)) (shapeCast S16 w2 shapeCasts_S1x16_S16 (ix1 i))))
        (FloatOps.mulf (g3 (ix1 i)) (shapeCast S16 w3 shapeCasts_S1x16_S16 (ix1 i))) = _
  rw [shapeCast_1a_a_apply w0, shapeCast_1a_a_apply w1, shapeCast_1a_a_apply w2, shapeCast_1a_a_apply w3,
    hw0, hw1, hw2, hw3, hg0, hg1, hg2, hg3]
  rfl

/-! ## What a chunk loads before its inner loop -/

omit [FloatOps F] in
/-- The chunk's sixteen words of row `r` of the index scratch are what the inner loop first carries. -/
theorem idxLoad_at (iv : S4x512.Idx → BitVec 32) (k : ℕ) (hk : k < 32) (r : Fin 4) {off : Fin 2 → ℕ}
    (inb : ∀ a, off a + S1x16.size a ≤ S4x512.size a) (hoff : off = ![r.val, 16 * k]) :
    shapeCast S16 ((a9).view.readAt (Elt F) (Rect.unit (s := S4x512) off S1x16.size inb).toLoadRect iv) shapeCasts_S1x16_S16
      = carIx iv k r 0 := by
  subst hoff
  funext x
  obtain ⟨i, rfl⟩ : ∃ i : Fin 16, x = ix1 i := ⟨x 0, eq_ix1 x⟩
  refine (shapeCast_1a_a_apply _ shapeCasts_S1x16_S16 i).trans ?_
  rw [View.readAt_apply]
  refine (congrFun (View.read_whole (Val := Elt F) cc0_scratch3 iv) _).trans ?_
  unfold carIx
  rw [Nat.mul_zero]
  refine (congrArg iv ?_).trans (BitVec.add_zero _).symm
  funext a
  match a with
  | ⟨0, _⟩ => exact Fin.ext (show r.val + 1 * 0 = r.val by omega)
  | ⟨1, _⟩ => exact Fin.ext (show 16 * k + 1 * i.val = (16 * k + i.val) % 512 by have := i.isLt; omega)

omit [FloatOps F] in
/-- The chunk's sixteen weights of row `r`, lane by lane. -/
theorem wLoad_at (wv : S4x512.Idx → F .f32) (k : ℕ) (hk : k < 32) (r : Fin 4) {off : Fin 2 → ℕ}
    (inb : ∀ a, off a + S1x16.size a ≤ S4x512.size a) (hoff : off = ![r.val, 16 * k]) (x : Fin 16) :
    (a10).view.readAt (Elt F) (Rect.unit (s := S4x512) off S1x16.size inb).toLoadRect wv (ix2 (0 : Fin 1) x)
      = wv (ix2 r (lanePt k x.val)) := by
  subst hoff
  rw [View.readAt_apply]
  refine (congrFun (View.read_whole (Val := Elt F) cc0_scratch4 wv) _).trans ?_
  refine congrArg wv ?_
  funext a
  match a with
  | ⟨0, _⟩ => exact Fin.ext (show r.val + 1 * 0 = r.val by omega)
  | ⟨1, _⟩ => exact Fin.ext (show 16 * k + 1 * x.val = (16 * k + x.val) % 512 by have := x.isLt; omega)

omit [FloatOps F] in
/-- The store offset a chunk's inner loop starts from. -/
theorem off_init (k : ℕ) (hk : k < 32) : Scalar.muli (Scf.iv 0#32 1#32 k) 16#32 = carOff k 0 := by
  unfold carOff
  apply BitVec.eq_of_toNat_eq
  show ((0#32 + BitVec.ofNat 32 k * 1#32) * 16#32).toNat = (BitVec.ofNat 32 (16 * k + 512 * 0)).toNat
  simp only [BitVec.toNat_mul, BitVec.toNat_add, BitVec.toNat_ofNat, Nat.reducePow, Nat.reduceMod]
  omega

end Cert.Proof.KB

end
-- ==== Proof.BAccumTrip.lean ====
/-
  The inner loop of the gather-and-accumulate stage: its invariant and one trip at a symbolic channel.
-/
import proofs.«207350_g59966333387111_cont_9to1_m_496_19_alg».proof.Proof.BBase
import proofs.«207350_g59966333387111_cont_9to1_m_496_19_alg».proof.Proof.BAccumDefs
import proofs.«207350_g59966333387111_cont_9to1_m_496_19_alg».proof.Proof.BAccumLemmas
import Idealize.ShloMosaic.Lib.ValueIdx
import Idealize.ShloMosaic.Lib.ValueLayout
import Idealize.ShloMosaic.Lib.WritesUnit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

variable [FloatOps F]

/-! ## The inner loop: one channel per trip -/

/-- The values the inner loop carries: the four corners' index vectors and the store offset. -/
abbrev Acc4 (F : FTy → Type) : Type := Vec F S16 .i32 × Vec F S16 .i32 × Vec F S16 .i32 × Vec F S16 .i32 × BitVec 32

/-- Before channel `ch` of chunk `k`: the carried values in closed form, the feature scratch as it
    was, and the output row final on the columns done so far. -/
def inv4 (d : Dev nD) (L : grid0.Coords) (iv : S4x512.Idx → BitVec 32) (wv : S4x512.Idx → F .f32)
    (fv : S32768.Idx → F .f32) (ov : S1x65536.Idx → F .f32) (k : ℕ) (ch : ℕ) (acc : Acc4 F) : sProp 𝕄 :=
  iprop(⌜acc = (carIx iv k 0 ch, carIx iv k 1 ch, carIx iv k 2 ch, carIx iv k 3 ch, carOff k ch)⌝
    ∗ ((a8).view.loc (V d (cV L) (jV L)) ↦{fullShare} fv)
    ∗ ((a11).view.loc (V d (cV L) (jV L)) ↦{fullShare} mix iv wv fv ov (Done4 k ch)))

omit [FloatOps F] in
/-- The feature scratch held whole is held as the indexed load addresses it. -/
theorem pts_a8 (d : Dev nD) (L : grid0.Coords) (f : S32768.Idx → F .f32) :
    (((a8).view.loc (V d (cV L) (jV L)) ↦{fullShare} f : sProp 𝕄))
      = (((a8).access (.whole S32768)).loc (V d (cV L) (jV L)) ↦{fullShare} f) := rfl

/-- The output row after channel `ch`'s store, the stored vector being the combination of the four
    gathers through the carried indices with the chunk's weights. -/
theorem store_pts (d : Dev nD) (L : grid0.Coords) (iv : S4x512.Idx → BitVec 32) (hiv : ∀ y, (iv y).toNat < 256)
    (wv : S4x512.Idx → F .f32) (fv : S32768.Idx → F .f32) (ov : S1x65536.Idx → F .f32)
    (k ch : ℕ) (hk : k < 32) (hch : ch < 128) (w0 w1 w2 w3 : Vec F S1x16 .f32)
    (hw0 : ∀ x : Fin 16, w0 (ix2 (0 : Fin 1) x) = wv (ix2 0 (lanePt k x.val)))
    (hw1 : ∀ x : Fin 16, w1 (ix2 (0 : Fin 1) x) = wv (ix2 1 (lanePt k x.val)))
    (hw2 : ∀ x : Fin 16, w2 (ix2 (0 : Fin 1) x) = wv (ix2 2 (lanePt k x.val)))
    (hw3 : ∀ x : Fin 16, w3 (ix2 (0 : Fin 1) x) = wv (ix2 3 (lanePt k x.val)))
    (inb : ∀ a, k0_off14 (carOff k ch) a + S1x16.size a ≤ S1x65536.size a)
    (h0 : ∀ a x, ((![carIx iv k 0 ch] : Fin 1 → IVec S16 32) a x).toNat < S32768.size a)
    (h1 : ∀ a x, ((![carIx iv k 1 ch] : Fin 1 → IVec S16 32) a x).toNat < S32768.size a)
    (h2 : ∀ a x, ((![carIx iv k 2 ch] : Fin 1 → IVec S16 32) a x).toNat < S32768.size a)
    (h3 : ∀ a x, ((![carIx iv k 3 ch] : Fin 1 → IVec S16 32) a x).toNat < S32768.size a) :
    ((a11).view.loc (V d (cV L) (jV L)) ↦{fullShare}
        (a11).view.writes (Elt F) (mix iv wv fv ov (Done4 k ch))
          [⟨Rect.unit (s := S1x65536) (k0_off14 (carOff k ch)) S1x16.size inb,
            shapeCast S1x16 (k0_pay11 w0 w1 w2 w3
              (loadIdx (((a8).access (Rect.whole S32768)).read (Elt F) fv) ![carIx iv k 0 ch] h0)
              (loadIdx (((a8).access (Rect.whole S32768)).read (Elt F) fv) ![carIx iv k 1 ch] h1)
              (loadIdx (((a8).access (Rect.whole S32768)).read (Elt F) fv) ![carIx iv k 2 ch] h2)
              (loadIdx (((a8).access (Rect.whole S32768)).read (Elt F) fv) ![carIx iv k 3 ch] h3))
              shapeCasts_S16_S1x16⟩] : sProp 𝕄)
      ⊢ ((a11).view.loc (V d (cV L) (jV L)) ↦{fullShare} mix iv wv fv ov (Done4 k (ch + 1))) := by
  have hread : ((a8).access (Rect.whole S32768)).read (Elt F) fv = fv := Memref.read_access_whole (Elt F) cc0_scratch2 fv
  rw [hread]
  exact Entails.of_eq (congrArg (fun g => ((a11).view.loc (V d (cV L) (jV L)) ↦{fullShare} g : sProp 𝕄))
    (store_eff iv wv fv ov k ch hk hch inb _ (off14_car k ch hk hch) fun j =>
      pay11_at iv wv fv k ch w0 w1 w2 w3 _ _ _ _ hw0 hw1 hw2 hw3
        (gather_at iv hiv fv k 0 ch hch h0) (gather_at iv hiv fv k 1 ch hch h1)
        (gather_at iv hiv fv k 2 ch hch h2) (gather_at iv hiv fv k 3 ch hch h3) j))

set_option maxHeartbeats 4000000 in
/-- One trip of the inner loop: the five assumed side conditions hold of the closed forms, the four
    gathers and the store take the row from channel `ch` to channel `ch + 1`. -/
theorem t4_step (d : Dev nD) (L : grid0.Coords) (iv : S4x512.Idx → BitVec 32) (wv : S4x512.Idx → F .f32)
    (fv : S32768.Idx → F .f32) (ov : S1x65536.Idx → F .f32) (hiv : ∀ y, (iv y).toNat < 256)
    (k : ℕ) (hk : k < 32) (w0 w1 w2 w3 : Vec F S1x16 .f32)
    (hw0 : ∀ x : Fin 16, w0 (ix2 (0 : Fin 1) x) = wv (ix2 0 (lanePt k x.val)))
    (hw1 : ∀ x : Fin 16, w1 (ix2 (0 : Fin 1) x) = wv (ix2 1 (lanePt k x.val)))
    (hw2 : ∀ x : Fin 16, w2 (ix2 (0 : Fin 1) x) = wv (ix2 2 (lanePt k x.val)))
    (hw3 : ∀ x : Fin 16, w3 (ix2 (0 : Fin 1) x) = wv (ix2 3 (lanePt k x.val)))
    (ch : Fin k0_t4_loop.trips) (acc : Acc4 F) :
    inv4 d L iv wv fv ov k ch acc
      ⊢ (wp frame (wpE (defs₀ (F := F)) 𝒱₀ (V d (cV L) (jV L)) none) Set.univ
          (k0_t4_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch6 cc0_scoped0 cc0_scoped1 cc0_scoped2 w0 w1 w2 w3 ch acc)
          (inv4 d L iv wv fv ov k (ch.val + 1)) : sProp 𝕄) := by
  have hch : ch.val < 128 := lt_of_lt_of_le ch.isLt k0_t4_abs.2.1
  rcases acc with ⟨a18, a19, a20, a21, off⟩
  unfold k0_t4_body
  simp only [Prog.lift, Prog.bind_op, Prog.bind_ret, Prog.pure_eq_ret]
  unfold inv4
  iintro ⟨%hacc, Hf, Ho⟩
  simp only [Prod.mk.injEq] at hacc
  obtain ⟨rfl, rfl, rfl, rfl, rfl⟩ := hacc
  have h7 : k0_chk7 (carOff k ch) := by
    intro a; rw [off14_car k ch hk hch]; revert a
    exact Fin.forall_fin_two.mpr ⟨by show 0 + 1 ≤ 1; omega, by show 16 * k + 512 * ch.val + 16 ≤ 65536; omega⟩
  have hc : ∀ r : Fin 4, ∀ a x, ((![carIx iv k r ch] : Fin 1 → IVec S16 32) a x).toNat < S32768.size a := by
    intro r a x
    match a with
    | ⟨0, _⟩ => exact carIx_lt iv hiv k r ch hch x
  have h6 : k0_chk6 (carIx iv k 3 ch) := hc 3
  have h5 : k0_chk5 (carIx iv k 2 ch) := hc 2
  have h4 : k0_chk4 (carIx iv k 1 ch) := hc 1
  have h3 : k0_chk3 (carIx iv k 0 ch) := hc 0
  rw [wp_assume_of _ _ _ _ h7]
  rw [wp_assume_of _ _ _ _ h6]
  rw [wp_assume_of _ _ _ _ h5]
  rw [wp_assume_of _ _ _ _ h4]
  rw [wp_assume_of _ _ _ _ h3]
  ihave Hf' := (Entails.of_eq (pts_a8 (F := F) d L _)) $$ Hf
  iapply (SparseCore.wp_vectorLoadIdx 𝒱₀ (V d (cV L) (jV L)) none Set.univ (base := a8) (S := Finset.univ) (q := fullShare) (Finset.subset_univ _)) $$ Hf'; iintro Hf'
  iapply (SparseCore.wp_vectorLoadIdx 𝒱₀ (V d (cV L) (jV L)) none Set.univ (base := a8) (S := Finset.univ) (q := fullShare) (Finset.subset_univ _)) $$ Hf'; iintro Hf'
  iapply (SparseCore.wp_vectorLoadIdx 𝒱₀ (V d (cV L) (jV L)) none Set.univ (base := a8) (S := Finset.univ) (q := fullShare) (Finset.subset_univ _)) $$ Hf'; iintro Hf'
  iapply (SparseCore.wp_vectorLoadIdx 𝒱₀ (V d (cV L) (jV L)) none Set.univ (base := a8) (S := Finset.univ) (q := fullShare) (Finset.subset_univ _)) $$ Hf'; iintro Hf'
  iapply (wp_load 𝒱₀ (V d (cV L) (jV L)) none Set.univ (m := a11) (S := Finset.univ) (Finset.subset_univ _)) $$ Ho; iintro Ho
  iapply (wp_store_writes₀ 𝒱₀ (V d (cV L) (jV L)) none Set.univ (m := a11) (Finset.subset_univ _)) $$ Ho; iintro Ho
  rw [wp_ret]; imodintro
  isplitr
  · ipureintro
    rw [← carIx_succ iv k 0 ch, ← carIx_succ iv k 1 ch, ← carIx_succ iv k 2 ch, ← carIx_succ iv k 3 ch, ← carOff_succ k ch]
    rfl
  isplitl [Hf']
  · iapply (Entails.of_eq (pts_a8 (F := F) d L _).symm); iexact Hf'
  · iapply (store_pts d L iv hiv wv fv ov k ch hk hch w0 w1 w2 w3 hw0 hw1 hw2 hw3 _ _ _ _ _); iexact Ho

end Cert.Proof.KB

end
-- ==== Proof.BAccum.lean ====
/-
  The gather-and-accumulate loops of the sampling kernel on one vector subcore: the outer loop over
  chunks of sixteen sample points, the inner loop over the 128 channels, and the value they leave in
  the output row.
-/
import proofs.«207350_g59966333387111_cont_9to1_m_496_19_alg».proof.Proof.BBase
import proofs.«207350_g59966333387111_cont_9to1_m_496_19_alg».proof.Proof.BAccumDefs
import proofs.«207350_g59966333387111_cont_9to1_m_496_19_alg».proof.Proof.BAccumLemmas
import proofs.«207350_g59966333387111_cont_9to1_m_496_19_alg».proof.Proof.BAccumTrip
import Idealize.ShloMosaic.Lib.ValueIdx
import Idealize.ShloMosaic.Lib.ValueLayout
import Idealize.ShloMosaic.Lib.WritesUnit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

variable [FloatOps F]

/-! ## The outer loop: sixteen sample points per trip -/

/-- Before chunk `k`: the three scratches the loops read as they were, the output row final on the
    points of the chunks before `k`. -/
def inv3 (d : Dev nD) (L : grid0.Coords) (iv : S4x512.Idx → BitVec 32) (wv : S4x512.Idx → F .f32)
    (fv : S32768.Idx → F .f32) (ov : S1x65536.Idx → F .f32) (k : ℕ) (_ : BitVec 32) : sProp 𝕄 :=
  iprop(((a9).view.loc (V d (cV L) (jV L)) ↦{fullShare} iv)
    ∗ ((a10).view.loc (V d (cV L) (jV L)) ↦{fullShare} wv)
    ∗ ((a8).view.loc (V d (cV L) (jV L)) ↦{fullShare} fv)
    ∗ ((a11).view.loc (V d (cV L) (jV L)) ↦{fullShare} mix iv wv fv ov (Done3 k)))

omit [FloatOps F] in
theorem trips4 : k0_t4_loop.trips = 128 := by decide
omit [FloatOps F] in
theorem trips3 : k0_t3_loop.trips = 32 := by decide

set_option maxHeartbeats 4000000 in
/-- One trip of the outer loop: the chunk's index words and weights are loaded, the inner loop runs
    by its invariant, and the chunk's sixteen points are final in every channel. -/
theorem t3_step (d : Dev nD) (L : grid0.Coords) (iv : S4x512.Idx → BitVec 32) (wv : S4x512.Idx → F .f32)
    (fv : S32768.Idx → F .f32) (ov : S1x65536.Idx → F .f32) (hiv : ∀ y, (iv y).toNat < 256)
    (k : Fin k0_t3_loop.trips) (acc : BitVec 32) :
    inv3 d L iv wv fv ov k acc
      ⊢ (wp frame (wpE (defs₀ (F := F)) 𝒱₀ (V d (cV L) (jV L)) none) Set.univ
          (k0_t3_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch6 cc0_scoped0 cc0_scoped1 cc0_scoped2 k acc)
          (inv3 d L iv wv fv ov (k.val + 1)) : sProp 𝕄) := by
  have hk : k.val < 32 := lt_of_lt_of_le k.isLt k0_t3_abs.2.1
  unfold k0_t3_body
  simp only [Prog.lift, Prog.bind_op, Prog.bind_ret, Prog.pure_eq_ret]
  unfold inv3
  iintro ⟨Hi, Hw, Hf, Ho⟩
  iapply (wp_load 𝒱₀ (V d (cV L) (jV L)) none Set.univ (m := a9) (S := Finset.univ) (Finset.subset_univ _)) $$ Hi; iintro Hi
  iapply (wp_load 𝒱₀ (V d (cV L) (jV L)) none Set.univ (m := a9) (S := Finset.univ) (Finset.subset_univ _)) $$ Hi; iintro Hi
  iapply (wp_load 𝒱₀ (V d (cV L) (jV L)) none Set.univ (m := a9) (S := Finset.univ) (Finset.subset_univ _)) $$ Hi; iintro Hi
  iapply (wp_load 𝒱₀ (V d (cV L) (jV L)) none Set.univ (m := a9) (S := Finset.univ) (Finset.subset_univ _)) $$ Hi; iintro Hi
  iapply (wp_load 𝒱₀ (V d (cV L) (jV L)) none Set.univ (m := a10) (S := Finset.univ) (Finset.subset_univ _)) $$ Hw; iintro Hw
  iapply (wp_load 𝒱₀ (V d (cV L) (jV L)) none Set.univ (m := a10) (S := Finset.univ) (Finset.subset_univ _)) $$ Hw; iintro Hw
  iapply (wp_load 𝒱₀ (V d (cV L) (jV L)) none Set.univ (m := a10) (S := Finset.univ) (Finset.subset_univ _)) $$ Hw; iintro Hw
  iapply (wp_load 𝒱₀ (V d (cV L) (jV L)) none Set.univ (m := a10) (S := Finset.univ) (Finset.subset_univ _)) $$ Hw; iintro Hw
  sl_for (inv4 d L iv wv fv ov k) $$ [Hf Ho]
  case region =>
    intro ch acc4
    exact t4_step d L iv wv fv ov hiv k hk _ _ _ _ (fun x => wLoad_at wv k hk 0 (k0_off10_inb k) (k0_off10_eq k) x) (fun x => wLoad_at wv k hk 1 (k0_off11_inb k) (k0_off11_eq k) x)
      (fun x => wLoad_at wv k hk 2 (k0_off12_inb k) (k0_off12_eq k) x) (fun x => wLoad_at wv k hk 3 (k0_off13_inb k) (k0_off13_eq k) x) ch acc4
  · unfold inv4
    isplitr
    · ipureintro
      rw [← idxLoad_at (F := F) iv k hk 0 (k0_off10_inb k) (k0_off10_eq k), ← idxLoad_at (F := F) iv k hk 1 (k0_off11_inb k) (k0_off11_eq k),
        ← idxLoad_at (F := F) iv k hk 2 (k0_off12_inb k) (k0_off12_eq k), ← idxLoad_at (F := F) iv k hk 3 (k0_off13_inb k) (k0_off13_eq k), ← off_init k hk]
      rfl
    isplitl [Hf]; · iexact Hf
    rw [mix_Done4_zero]; iexact Ho
  iintro %acc' HI
  rw [show Scf.trips k0_t4_loop.lb k0_t4_loop.ub k0_t4_loop.st = 128 from trips4]
  unfold inv4
  icases HI with ⟨-, Hf, Ho⟩
  rw [mix_Done4_last]
  sl_exec
  sl_step
  isplitl [Hi]; · iexact Hi
  isplitl [Hw]; · iexact Hw
  isplitl [Hf]; · iexact Hf
  iexact Ho

set_option maxHeartbeats 4000000 in
/-- The gather-and-accumulate loops: from the index, weight and feature scratches they leave the
    output row at `OutV`, whatever it held, and the three scratches as they were. -/
theorem t3_loop (d : Dev nD) (L : grid0.Coords) (iv : S4x512.Idx → BitVec 32) (wv : S4x512.Idx → F .f32)
    (fv : S32768.Idx → F .f32) (ov : S1x65536.Idx → F .f32) (hiv : ∀ y, (iv y).toNat < 256) :
    iprop(((a9).view.loc (V d (cV L) (jV L)) ↦{fullShare} iv)
        ∗ ((a10).view.loc (V d (cV L) (jV L)) ↦{fullShare} wv)
        ∗ ((a8).view.loc (V d (cV L) (jV L)) ↦{fullShare} fv)
        ∗ ((a11).view.loc (V d (cV L) (jV L)) ↦{fullShare} ov))
      ⊢ (wp frame (wpE (defs₀ (F := F)) 𝒱₀ (V d (cV L) (jV L)) none) Set.univ
          (Scf.Loop.for k0_t3_loop k0_t3_ok 0#32 (k0_t3_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch6 cc0_scoped0 cc0_scoped1 cc0_scoped2))
          (fun _ => iprop(((a9).view.loc (V d (cV L) (jV L)) ↦{fullShare} iv)
            ∗ ((a10).view.loc (V d (cV L) (jV L)) ↦{fullShare} wv)
            ∗ ((a8).view.loc (V d (cV L) (jV L)) ↦{fullShare} fv)
            ∗ ((a11).view.loc (V d (cV L) (jV L)) ↦{fullShare} OutV iv wv fv))) : sProp 𝕄) := by
  iintro ⟨Hi, Hw, Hf, Ho⟩
  sl_for (inv3 d L iv wv fv ov) $$ [Hi Hw Hf Ho]
  case region => exact t3_step d L iv wv fv ov hiv
  isplitl [Hi Hw Hf Ho]
  · unfold inv3
    rw [mix_Done3_zero]
    isplitl [Hi]; · iexact Hi
    isplitl [Hw]; · iexact Hw
    isplitl [Hf]; · iexact Hf
    iexact Ho
  · iintro %acc HI
    rw [show Scf.trips k0_t3_loop.lb k0_t3_loop.ub k0_t3_loop.st = 32 from trips3]
    unfold inv3
    rw [mix_Done3_last]
    iexact HI

end Cert.Proof.KB

end
-- ==== Proof.BBody.lean ====
import proofs.«207350_g59966333387111_cont_9to1_m_496_19_alg».proof.Proof.BLoop
import proofs.«207350_g59966333387111_cont_9to1_m_496_19_alg».proof.Proof.BOwn
import proofs.«207350_g59966333387111_cont_9to1_m_496_19_alg».proof.Proof.BObl
import proofs.«207350_g59966333387111_cont_9to1_m_496_19_alg».proof.Proof.BQueryFacts
import proofs.«207350_g59966333387111_cont_9to1_m_496_19_alg».proof.Proof.BAccum

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "a2" => (Memref.whole Cert.Kernel.main_arg0_scv : Memref Cert.Kernel.sig Kind.scVector Space.hbm Cert.Kernel.S1024 EltTy.i32)
local notation "a3" => (Memref.whole Cert.Kernel.main_arg1_scv : Memref Cert.Kernel.sig Kind.scVector Space.hbm Cert.Kernel.S1024x2x512 EltTy.f32)
local notation "a4" => (Memref.whole Cert.Kernel.main_v0_scv : Memref Cert.Kernel.sig Kind.scVector Space.hbm Cert.Kernel.S33554432 EltTy.f32)
local notation "a5" => (Memref.whole Cert.Kernel.main_v1_scv : Memref Cert.Kernel.sig Kind.scVector Space.hbm Cert.Kernel.S1024x65536 EltTy.f32)
local notation "a6" => (Memref.whole Cert.Kernel.cc0_scratch0 : Memref Cert.Kernel.sig Kind.scVector Space.vmem Cert.Kernel.S32 EltTy.i32)
local notation "a7" => (Memref.whole Cert.Kernel.cc0_scratch1 : Memref Cert.Kernel.sig Kind.scVector Space.vmem Cert.Kernel.S1x2x512 EltTy.f32)
local notation "a8" => (Memref.whole Cert.Kernel.cc0_scratch2 : Memref Cert.Kernel.sig Kind.scVector Space.vmem Cert.Kernel.S32768 EltTy.f32)
local notation "a9" => (Memref.whole Cert.Kernel.cc0_scratch3 : Memref Cert.Kernel.sig Kind.scVector Space.vmem Cert.Kernel.S4x512 EltTy.i32)
local notation "a10" => (Memref.whole Cert.Kernel.cc0_scratch4 : Memref Cert.Kernel.sig Kind.scVector Space.vmem Cert.Kernel.S4x512 EltTy.f32)
local notation "a11" => (Memref.whole Cert.Kernel.cc0_scratch5 : Memref Cert.Kernel.sig Kind.scVector Space.vmem Cert.Kernel.S1x65536 EltTy.f32)

open Idealize.ShloMosaic.ValueIdx

variable [FloatOps F]

/-! ## The worker's whole task

The worker fetches its 32 image numbers, runs its 32 queries, and hands back its read shares of the three inputs and
its 32 rows of the flat result, each row holding the samples of its query. -/

theorem rowsAt_zero (d : Dev nD) (L : grid0.Coords) (OUT out0 : S1024x65536.Idx → Elt F EltTy.f32) :
    (rowsAt d L OUT out0 0 : sProp 𝕄) = bigSep Finset.univ fun k : Fin k0_t1_loop.trips => oLoc d ↦[rowSetK L k]{fullShare} out0 :=
  bigSep_congr fun j _ => by rw [if_neg (Nat.not_lt_zero _)]
theorem rowsAt_full (d : Dev nD) (L : grid0.Coords) (OUT out0 : S1024x65536.Idx → Elt F EltTy.f32) :
    (rowsAt d L OUT out0 32 : sProp 𝕄) = bigSep Finset.univ fun k : Fin k0_t1_loop.trips => oLoc d ↦[rowSetK L k]{fullShare} OUT :=
  bigSep_congr fun j _ => by rw [if_pos (show j.val < 32 from j.isLt)]

set_option maxHeartbeats 8000000 in
theorem tile_body (hF : (K (F := F)).Facts) :
    BodyObl (F := F) OutFlat := by
  intro m FEAT d L O W hO hii
  have hT3 := fun (d : Dev nD) (L : grid0.Coords) (iv : S4x512.Idx → BitVec 32) (wv : S4x512.Idx → Elt F EltTy.f32) (fv : S32768.Idx → Elt F EltTy.f32)
    (ov : S1x65536.Idx → Elt F EltTy.f32) (hiv : ∀ y, (iv y).toNat < 256) => t3_loop (F := F) d L iv wv fv ov hiv
  have chk2_of_range' := chk2_of_range
  have imgOf_eq' := imgOf_eq (F := F)
  have ii_lands' := ii_lands (F := F)
  have row_lands' := row_lands (F := F)
  simp only [cc0__sc_body_eq_skeleton]; unfold cc0__sc_body_skel
  rw [(K (F := F)).scopedBufs_V hF d (cV L) (jV L), SparseCore.Cfg.scopedSems0_V (Val := Elt F) d (cV L) (jV L), ownSems0_V4, ownBufs_V6]
  iintro ⟨#Hlv, -, ⟨Hii, Hgrid, Hfeat, Hout⟩, ⟨⟨%f0, H6⟩, ⟨%f1, H7⟩, ⟨%f2, H8⟩, ⟨%f3, H9⟩, ⟨%f4, H10⟩, ⟨%f5, H11⟩, Hbufs⟩, ⟨Hs6, Hs0, Hs1, Hs2, Hsems⟩, HO⟩
  ihave Hmw := ((K (F := F)).mayWaits_none (thr := V d (cV L) (jV L)) hO) $$ Hlv
  ihave H2 := (Entails.of_eq (show (iiLoc d ↦{rq (cOf L) (sOf L)} m (iiLoc d) : sProp 𝕄) = ((a2).view.loc (V d (cV L) (jV L)) ↦{rq (cOf L) (sOf L)} m (iiLoc d)) from rfl)) $$ Hii
  ihave H3 := (Entails.of_eq (show (gridLoc d ↦{rq (cOf L) (sOf L)} m (gridLoc d) : sProp 𝕄) = ((a3).view.loc (V d (cV L) (jV L)) ↦{rq (cOf L) (sOf L)} m (gridLoc d)) from rfl)) $$ Hgrid
  ihave H4 := (Entails.of_eq (show (featLoc d ↦{rq (cOf L) (sOf L)} FEAT d : sProp 𝕄) = ((a4).view.loc (V d (cV L) (jV L)) ↦{rq (cOf L) (sOf L)} FEAT d) from rfl)) $$ Hfeat
  ihave H6 := (Entails.of_eq (show ((V d (cV L) (jV L)).loc cc0_scratch0 ↦{fullShare} f0 : sProp 𝕄) = ((a6).view.loc (V d (cV L) (jV L)) ↦{fullShare} f0) from rfl)) $$ H6
  sl_exec
  have hiiv : ∀ x : S32.Idx, (View.write (Elt F) (a6).view f0 (tile_body.sl.dma0 m d L) Finset.univ) x = m (iiLoc d) ((iiMem L).view.emb x) :=
    fun x => ii_lands' L (m (iiLoc d)) f0 x
  have hchk2 : ∀ k : Fin k0_t1_loop.trips, k0_chk2 (imgOf (F := F) (View.write (Elt F) (a6).view f0 (tile_body.sl.dma0 m d L) Finset.univ) k) :=
    fun k => chk2_of_range' _ (by rw [imgOf_eq', hiiv]; exact hii _)
  ihave Hrows := (Entails.of_eq ((block_rows d L (m (oLoc d))).trans (rowsAt_zero d L (OutFlat (m (iiLoc d)) (m (gridLoc d)) (FEAT d)) (m (oLoc d))).symm)) $$ Hout
  rw [wp_bind]
  iapply (wp_wand_r frame (wpE (defs₀ (F := F)) 𝒱₀ (V d (cV L) (jV L)) none) Set.univ)
  isplitl [H3 H4 Hrows H6 H7 H8 H9 H10 H11 Hs6 Hs1 Hs2 HO]
  · iapply (t1_loop d L (rq (cOf L) (sOf L)) O (insert ((SemLoc.dma cc0_scoped0.sem : SemLoc sig), (default : HIx 1)) W) (m (iiLoc d)) (m (gridLoc d)) (FEAT d) (m (oLoc d)) _ hchk2
      (fun k h2 => row_lands' L k (m (iiLoc d)) (m (gridLoc d)) (FEAT d) (m (oLoc d)) _ hiiv h2) (hT3 d L))
    unfold invT1
    isplitr; · iexact Hmw
    isplitl [H3]; · iexact H3
    isplitl [H4]; · iexact H4
    isplitl [Hrows]; · iexact Hrows
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [Hs6]; · iexact Hs6
    isplitl [Hs1]; · iexact Hs1
    isplitl [Hs2]; · iexact Hs2
    iexists _; isplitr
    rotate_left
    · iexact HO
    · ipureintro; exact fun p hp => .inl hp
  iintro %acc HI
  unfold invT1
  icases HI with ⟨-, H3, H4, Hrows, H6, ⟨%gv, H7⟩, ⟨%fv, H8⟩, ⟨%iv, H9⟩, ⟨%wv, H10⟩, ⟨%ov, H11⟩, Hs6, Hs1, Hs2, %W', %hW', HO⟩
  ihave Hout := (Entails.of_eq ((rowsAt_full d L (OutFlat (m (iiLoc d)) (m (gridLoc d)) (FEAT d)) (m (oLoc d))).trans (block_rows d L (OutFlat (m (iiLoc d)) (m (gridLoc d)) (FEAT d))).symm)) $$ Hrows
  sl_step
  isplitl [H2 H3 H4 Hout]
  · isplitl [H2]; · iexact H2
    isplitl [H3]; · iexact H3
    isplitl [H4]; · iexact H4
    iexact Hout
  isplitl [H6 H7 H8 H9 H10 H11 Hbufs]
  · isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexact Hbufs
  isplitl [Hs6 Hs0 Hs1 Hs2 Hsems]
  · isplitl [Hs6]; · iexact Hs6
    isplitl [Hs0]; · iexact Hs0
    isplitl [Hs1]; · iexact Hs1
    isplitl [Hs2]; · iexact Hs2
    iexact Hsems
  iexists W'; isplitr
  · ipureintro; intro p hp
    rcases hW' p hp with h | h
    · rcases Finset.mem_insert.mp h with h | h
      · exact .inr (h ▸ rfl)
      · exact .inl h
    · exact .inr h
  · iexact HO

end Cert.Proof.KB

end
-- ==== Proof.RefOps.lean ====
/-
  The reference program's @main as a list of host operations.

  The functions the program calls (the indexed row selection with its bounds mask, and the clamp of a coordinate
  into 0 … 15) are listed at their call sites over the buffers of each call.  The list is cut into thirteen pieces
  along the stages of the computation: the selected feature planes; the sample positions rescaled; the continuous
  pixel coordinates; their integer parts and the interpolation weights; the clamped grid lines (columns, then rows);
  the planes moved to channel-last order; the four corner reads; the weighted sum.
-/
import proofs.«207350_g59966333387111_cont_9to1_m_496_19_alg».proof.Proof.Gen.ReferenceIdeal
import Idealize.ShloMosaic.Lib.StableHlo.Run

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- Three index columns [1024, 512, 1, 1] side by side along the last axis: one index triple per sample. -/
def cat3 (u0 u1 u2 : (⟨S1024x512x1x1, .i32⟩ : BufTy).Contents (Elt F)) : (⟨S1024x512x1x3, .i32⟩ : BufTy).Contents (Elt F) :=
  concatenate S1024x512x1x3 3 [⟨S1024x512x1x1, u0⟩, ⟨S1024x512x1x1, u1⟩, ⟨S1024x512x1x1, u2⟩] concatenates_S1024x512x1x1_S1024x512x1x1_S1024x512x1x1_S1024x512x1x3_d3

/-- The selected planes: the row index wrapped if negative, the in-range mask, the row gather, the masked select. -/
abbrev cTake : List (HloOp τ sig (Elt F)) :=
  [ StableHlo.TRef.nullary main_call0.c (constantI S_ 32 0#32),
    StableHlo.TRef.unary main_call0.c main_call0.v0 (broadcastInDim S1024 ![] bcast_S_S1024),
    StableHlo.TRef.binary (StableHlo.TRef.of main_arg0 : StableHlo.TRef sig ⟨S1024, .i32⟩) main_call0.v0 main_call0.v1 (cmpi .slt),
    StableHlo.TRef.nullary main_call0.c_0 (constantI S_ 32 1024#32),
    StableHlo.TRef.unary main_call0.c_0 main_call0.v2 (broadcastInDim S1024 ![] bcast_S_S1024),
    StableHlo.TRef.binary (StableHlo.TRef.of main_arg0 : StableHlo.TRef sig ⟨S1024, .i32⟩) main_call0.v2 main_call0.v3 addi,
    StableHlo.TRef.ternary main_call0.v1 main_call0.v3 (StableHlo.TRef.of main_arg0 : StableHlo.TRef sig ⟨S1024, .i32⟩) main_call0.call0.v0 select,
    StableHlo.TRef.unary main_call0.call0.v0 main_call0.v5 (broadcastInDim S1024x1 ![0] bcast_S1024_S1024x1_0),
    StableHlo.TRef.nullary main_call0.c_1 (constantI S1 32 1023#32),
    StableHlo.TRef.nullary main_call0.c_2 (constantI S_ 32 0#32),
    StableHlo.TRef.unary main_call0.c_2 main_call0.v6 (broadcastInDim S1024x1 ![] bcast_S_S1024x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1024x1 ![0, 1] bcast_S1x1_S1024x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1024x1_S1024_d1 h_S_),
    StableHlo.TRef.binary (StableHlo.TRef.of main_arg2 : StableHlo.TRef sig ⟨S1024x128x16x16, .f32⟩) main_call0.v5 main_call0.v13 (fun x i => Host.gather gather_S1024x128x16x16_S1024x1_S1024x128x16x16_123_0_n_n_0_1_11281616 x i),
    StableHlo.TRef.unary main_call0.v12 main_call0.v14 (broadcastInDim S1024x128x16x16 ![0] bcast_S1024_S1024x128x16x16_0),
    StableHlo.TRef.nullary main_call0.cst (constant S_ .f32 0x7FC00000#32),
    StableHlo.TRef.unary main_call0.cst main_call0.v15 (broadcastInDim S1024x128x16x16 ![] bcast_S_S1024x128x16x16),
    StableHlo.TRef.ternary main_call0.v14 main_call0.v13 main_call0.v15 main_call0.v16 select ]

/-- The sample positions: axes moved so the coordinate pair is last, rescaled `2 g - 1`, split into x and y. -/
abbrev cGrid : List (HloOp τ sig (Elt F)) :=
  [ StableHlo.unary main_arg1 main_v1 ((transpose S1024x512x2 [0, 2, 1] · transposes_S1024x2x512_S1024x512x2_0_2_1) : (⟨S1024x2x512, .f32⟩ : BufTy).Contents (Elt F) → (⟨S1024x512x2, .f32⟩ : BufTy).Contents (Elt F)),
    StableHlo.unary main_v1 main_v2 (broadcastInDim S1024x512x1x2 ![0, 1, 3] bcast_S1024x512x2_S1024x512x1x2_0_1_3 : (⟨S1024x512x2, .f32⟩ : BufTy).Contents (Elt F) → (⟨S1024x512x1x2, .f32⟩ : BufTy).Contents (Elt F)),
    StableHlo.nullary main_cst (constant S_ .f32 0x40000000#32),
    StableHlo.unary main_cst main_v3 (broadcastInDim S1024x512x1x2 ![] bcast_S_S1024x512x1x2 : (⟨S_, .f32⟩ : BufTy).Contents (Elt F) → (⟨S1024x512x1x2, .f32⟩ : BufTy).Contents (Elt F)),
    StableHlo.binary main_v2 main_v3 main_v4 (mulf : (⟨S1024x512x1x2, .f32⟩ : BufTy).Contents (Elt F) → (⟨S1024x512x1x2, .f32⟩ : BufTy).Contents (Elt F) → (⟨S1024x512x1x2, .f32⟩ : BufTy).Contents (Elt F)),
    StableHlo.nullary main_cst_0 (constant S_ .f32 0x3F800000#32),
    StableHlo.unary main_cst_0 main_v5 (broadcastInDim S1024x512x1x2 ![] bcast_S_S1024x512x1x2 : (⟨S_, .f32⟩ : BufTy).Contents (Elt F) → (⟨S1024x512x1x2, .f32⟩ : BufTy).Contents (Elt F)),
    StableHlo.binary main_v4 main_v5 main_v6 (subf : (⟨S1024x512x1x2, .f32⟩ : BufTy).Contents (Elt F) → (⟨S1024x512x1x2, .f32⟩ : BufTy).Contents (Elt F) → (⟨S1024x512x1x2, .f32⟩ : BufTy).Contents (Elt F)),
    StableHlo.unary main_v6 main_v7 ((extractStridedSlice S1024x512x1x1 ![0, 0, 0, 0] · slices_S1024x512x1x2_S1024x512x1x1_0_0_0_0) : (⟨S1024x512x1x2, .f32⟩ : BufTy).Contents (Elt F) → (⟨S1024x512x1x1, .f32⟩ : BufTy).Contents (Elt F)),
    StableHlo.reshape main_v7 main_v8 rfl shapeCasts_S1024x512x1x1_S1024x512x1,
    StableHlo.unary main_v6 main_v9 ((extractStridedSlice S1024x512x1x1 ![0, 0, 0, 1] · slices_S1024x512x1x2_S1024x512x1x1_0_0_0_1) : (⟨S1024x512x1x2, .f32⟩ : BufTy).Contents (Elt F) → (⟨S1024x512x1x1, .f32⟩ : BufTy).Contents (Elt F)),
    StableHlo.reshape main_v9 main_v10 rfl shapeCasts_S1024x512x1x1_S1024x512x1 ]

/-- The continuous pixel coordinates `((g + 1) 16 - 1) / 2`, x then y. -/
abbrev cCoord : List (HloOp τ sig (Elt F)) :=
  [ StableHlo.nullary main_cst_1 (constant S_ .f32 0x3F800000#32),
    StableHlo.unary main_cst_1 main_v11 (broadcastInDim S1024x512x1 ![] bcast_S_S1024x512x1 : (⟨S_, .f32⟩ : BufTy).Contents (Elt F) → (⟨S1024x512x1, .f32⟩ : BufTy).Contents (Elt F)),
    StableHlo.binary main_v8 main_v11 main_v12 (addf : (⟨S1024x512x1, .f32⟩ : BufTy).Contents (Elt F) → (⟨S1024x512x1, .f32⟩ : BufTy).Contents (Elt F) → (⟨S1024x512x1, .f32⟩ : BufTy).Contents (Elt F)),
    StableHlo.nullary main_cst_2 (constant S_ .f32 0x41800000#32),
    StableHlo.unary main_cst_2 main_v13 (broadcastInDim S1024x512x1 ![] bcast_S_S1024x512x1 : (⟨S_, .f32⟩ : BufTy).Contents (Elt F) → (⟨S1024x512x1, .f32⟩ : BufTy).Contents (Elt F)),
    StableHlo.binary main_v12 main_v13 main_v14 (mulf : (⟨S1024x512x1, .f32⟩ : BufTy).Contents (Elt F) → (⟨S1024x512x1, .f32⟩ : BufTy).Contents (Elt F) → (⟨S1024x512x1, .f32⟩ : BufTy).Contents (Elt F)),
    StableHlo.nullary main_cst_3 (constant S_ .f32 0x3F800000#32),
    StableHlo.unary main_cst_3 main_v15 (broadcastInDim S1024x512x1 ![] bcast_S_S1024x512x1 : (⟨S_, .f32⟩ : BufTy).Contents (Elt F) → (⟨S1024x512x1, .f32⟩ : BufTy).Contents (Elt F)),
    StableHlo.binary main_v14 main_v15 main_v16 (subf : (⟨S1024x512x1, .f32⟩ : BufTy).Contents (Elt F) → (⟨S1024x512x1, .f32⟩ : BufTy).Contents (Elt F) → (⟨S1024x512x1, .f32⟩ : BufTy).Contents (Elt F)),
    StableHlo.nullary main_cst_4 (constant S_ .f32 0x40000000#32),
    StableHlo.unary main_cst_4 main_v17 (broadcastInDim S1024x512x1 ![] bcast_S_S1024x512x1 : (⟨S_, .f32⟩ : BufTy).Contents (Elt F) → (⟨S1024x512x1, .f32⟩ : BufTy).Contents (Elt F)),
    StableHlo.binary main_v16 main_v17 main_v18 (Host.divf : (⟨S1024x512x1, .f32⟩ : BufTy).Contents (Elt F) → (⟨S1024x512x1, .f32⟩ : BufTy).Contents (Elt F) → (⟨S1024x512x1, .f32⟩ : BufTy).Contents (Elt F)),
    StableHlo.nullary main_cst_5 (constant S_ .f32 0x3F800000#32),
    StableHlo.unary main_cst_5 main_v19 (broadcastInDim S1024x512x1 ![] bcast_S_S1024x512x1 : (⟨S_, .f32⟩ : BufTy).Contents (Elt F) → (⟨S1024x512x1, .f32⟩ : BufTy).Contents (Elt F)),
    StableHlo.binary main_v10 main_v19 main_v20 (addf : (⟨S1024x512x1, .f32⟩ : BufTy).Contents (Elt F) → (⟨S1024x512x1, .f32⟩ : BufTy).Contents (Elt F) → (⟨S1024x512x1, .f32⟩ : BufTy).Contents (Elt F)),
    StableHlo.nullary main_cst_6 (constant S_ .f32 0x41800000#32),
    StableHlo.unary main_cst_6 main_v21 (broadcastInDim S1024x512x1 ![] bcast_S_S1024x512x1 : (⟨S_, .f32⟩ : BufTy).Contents (Elt F) → (⟨S1024x512x1, .f32⟩ : BufTy).Contents (Elt F)),
    StableHlo.binary main_v20 main_v21 main_v22 (mulf : (⟨S1024x512x1, .f32⟩ : BufTy).Contents (Elt F) → (⟨S1024x512x1, .f32⟩ : BufTy).Contents (Elt F) → (⟨S1024x512x1, .f32⟩ : BufTy).Contents (Elt F)),
    StableHlo.nullary main_cst_7 (constant S_ .f32 0x3F800000#32),
    StableHlo.unary main_cst_7 main_v23 (broadcastInDim S1024x512x1 ![] bcast_S_S1024x512x1 : (⟨S_, .f32⟩ : BufTy).Contents (Elt F) → (⟨S1024x512x1, .f32⟩ : BufTy).Contents (Elt F)),
    StableHlo.binary main_v22 main_v23 main_v24 (subf : (⟨S1024x512x1, .f32⟩ : BufTy).Contents (Elt F) → (⟨S1024x512x1, .f32⟩ : BufTy).Contents (Elt F) → (⟨S1024x512x1, .f32⟩ : BufTy).Contents (Elt F)),
    StableHlo.nullary main_cst_8 (constant S_ .f32 0x40000000#32),
    StableHlo.unary main_cst_8 main_v25 (broadcastInDim S1024x512x1 ![] bcast_S_S1024x512x1 : (⟨S_, .f32⟩ : BufTy).Contents (Elt F) → (⟨S1024x512x1, .f32⟩ : BufTy).Contents (Elt F)),
    StableHlo.binary main_v24 main_v25 main_v26 (Host.divf : (⟨S1024x512x1, .f32⟩ : BufTy).Contents (Elt F) → (⟨S1024x512x1, .f32⟩ : BufTy).Contents (Elt F) → (⟨S1024x512x1, .f32⟩ : BufTy).Contents (Elt F)) ]

/-- The integer parts (floor), the upper weights `t - ⌊t⌋` and the lower weights `1 - (t - ⌊t⌋)`. -/
abbrev cFrac : List (HloOp τ sig (Elt F)) :=
  [ StableHlo.unary main_v18 main_v27 (Host.floor : (⟨S1024x512x1, .f32⟩ : BufTy).Contents (Elt F) → (⟨S1024x512x1, .f32⟩ : BufTy).Contents (Elt F)),
    StableHlo.unary main_v26 main_v28 (Host.floor : (⟨S1024x512x1, .f32⟩ : BufTy).Contents (Elt F) → (⟨S1024x512x1, .f32⟩ : BufTy).Contents (Elt F)),
    StableHlo.binary main_v18 main_v27 main_v29 (subf : (⟨S1024x512x1, .f32⟩ : BufTy).Contents (Elt F) → (⟨S1024x512x1, .f32⟩ : BufTy).Contents (Elt F) → (⟨S1024x512x1, .f32⟩ : BufTy).Contents (Elt F)),
    StableHlo.binary main_v26 main_v28 main_v30 (subf : (⟨S1024x512x1, .f32⟩ : BufTy).Contents (Elt F) → (⟨S1024x512x1, .f32⟩ : BufTy).Contents (Elt F) → (⟨S1024x512x1, .f32⟩ : BufTy).Contents (Elt F)),
    StableHlo.nullary main_cst_9 (constant S_ .f32 0x3F800000#32),
    StableHlo.unary main_cst_9 main_v31 (broadcastInDim S1024x512x1 ![] bcast_S_S1024x512x1 : (⟨S_, .f32⟩ : BufTy).Contents (Elt F) → (⟨S1024x512x1, .f32⟩ : BufTy).Contents (Elt F)),
    StableHlo.binary main_v31 main_v29 main_v32 (subf : (⟨S1024x512x1, .f32⟩ : BufTy).Contents (Elt F) → (⟨S1024x512x1, .f32⟩ : BufTy).Contents (Elt F) → (⟨S1024x512x1, .f32⟩ : BufTy).Contents (Elt F)),
    StableHlo.nullary main_cst_10 (constant S_ .f32 0x3F800000#32),
    StableHlo.unary main_cst_10 main_v33 (broadcastInDim S1024x512x1 ![] bcast_S_S1024x512x1 : (⟨S_, .f32⟩ : BufTy).Contents (Elt F) → (⟨S1024x512x1, .f32⟩ : BufTy).Contents (Elt F)),
    StableHlo.binary main_v33 main_v30 main_v34 (subf : (⟨S1024x512x1, .f32⟩ : BufTy).Contents (Elt F) → (⟨S1024x512x1, .f32⟩ : BufTy).Contents (Elt F) → (⟨S1024x512x1, .f32⟩ : BufTy).Contents (Elt F)) ]

/-- The column lines: `⌊tx⌋` and `⌊tx⌋ + 1` clamped into 0 … 15 and converted to integers. -/
abbrev cClipX : List (HloOp τ sig (Elt F)) :=
  [ StableHlo.nullary main_c (constantI S_ 32 0#32),
    StableHlo.nullary main_c_11 (constantI S_ 32 15#32),
    StableHlo.TRef.unary (StableHlo.TRef.of main_c : StableHlo.TRef sig ⟨S_, .i32⟩) main_call1.v0 (sitofp .f32),
    StableHlo.TRef.unary main_call1.v0 main_call1.v1 (broadcastInDim S1024x512x1 ![] bcast_S_S1024x512x1),
    StableHlo.TRef.binary main_call1.v1 (StableHlo.TRef.of main_v27 : StableHlo.TRef sig ⟨S1024x512x1, .f32⟩) main_call1.v2 maximumf,
    StableHlo.TRef.unary (StableHlo.TRef.of main_c_11 : StableHlo.TRef sig ⟨S_, .i32⟩) main_call1.v3 (sitofp .f32),
    StableHlo.TRef.unary main_call1.v3 main_call1.v4 (broadcastInDim S1024x512x1 ![] bcast_S_S1024x512x1),
    StableHlo.TRef.binary main_call1.v4 main_call1.v2 main_call1.v5 minimumf,
    StableHlo.unary main_v35 main_v36 (fptosi 32 : (⟨S1024x512x1, .f32⟩ : BufTy).Contents (Elt F) → (⟨S1024x512x1, .i32⟩ : BufTy).Contents (Elt F)),
    StableHlo.nullary main_cst_12 (constant S_ .f32 0x3F800000#32),
    StableHlo.unary main_cst_12 main_v37 (broadcastInDim S1024x512x1 ![] bcast_S_S1024x512x1 : (⟨S_, .f32⟩ : BufTy).Contents (Elt F) → (⟨S1024x512x1, .f32⟩ : BufTy).Contents (Elt F)),
    StableHlo.binary main_v27 main_v37 main_v38 (addf : (⟨S1024x512x1, .f32⟩ : BufTy).Contents (Elt F) → (⟨S1024x512x1, .f32⟩ : BufTy).Contents (Elt F) → (⟨S1024x512x1, .f32⟩ : BufTy).Contents (Elt F)),
    StableHlo.nullary main_c_13 (constantI S_ 32 0#32),
    StableHlo.nullary main_c_14 (constantI S_ 32 15#32),
    StableHlo.TRef.unary (StableHlo.TRef.of main_c_13 : StableHlo.TRef sig ⟨S_, .i32⟩) main_call2.v0 (sitofp .f32),
    StableHlo.TRef.unary main_call2.v0 main_call2.v1 (broadcastInDim S1024x512x1 ![] bcast_S_S1024x512x1),
    StableHlo.TRef.binary main_call2.v1 (StableHlo.TRef.of main_v38 : StableHlo.TRef sig ⟨S1024x512x1, .f32⟩) main_call2.v2 maximumf,
    StableHlo.TRef.unary (StableHlo.TRef.of main_c_14 : StableHlo.TRef sig ⟨S_, .i32⟩) main_call2.v3 (sitofp .f32),
    StableHlo.TRef.unary main_call2.v3 main_call2.v4 (broadcastInDim S1024x512x1 ![] bcast_S_S1024x512x1),
    StableHlo.TRef.binary main_call2.v4 main_call2.v2 main_call2.v5 minimumf,
    StableHlo.unary main_v39 main_v40 (fptosi 32 : (⟨S1024x512x1, .f32⟩ : BufTy).Contents (Elt F) → (⟨S1024x512x1, .i32⟩ : BufTy).Contents (Elt F)),
    StableHlo.nullary main_c_15 (constantI S_ 32 0#32),
    StableHlo.nullary main_c_16 (constantI S_ 32 15#32) ]

/-- The row lines: `⌊ty⌋` and `⌊ty⌋ + 1` clamped into 0 … 15 and converted to integers. -/
abbrev cClipY : List (HloOp τ sig (Elt F)) :=
  [ StableHlo.TRef.unary (StableHlo.TRef.of main_c_15 : StableHlo.TRef sig ⟨S_, .i32⟩) main_call3.v0 (sitofp .f32),
    StableHlo.TRef.unary main_call3.v0 main_call3.v1 (broadcastInDim S1024x512x1 ![] bcast_S_S1024x512x1),
    StableHlo.TRef.binary main_call3.v1 (StableHlo.TRef.of main_v28 : StableHlo.TRef sig ⟨S1024x512x1, .f32⟩) main_call3.v2 maximumf,
    StableHlo.TRef.unary (StableHlo.TRef.of main_c_16 : StableHlo.TRef sig ⟨S_, .i32⟩) main_call3.v3 (sitofp .f32),
    StableHlo.TRef.unary main_call3.v3 main_call3.v4 (broadcastInDim S1024x512x1 ![] bcast_S_S1024x512x1),
    StableHlo.TRef.binary main_call3.v4 main_call3.v2 main_call3.v5 minimumf,
    StableHlo.unary main_v41 main_v42 (fptosi 32 : (⟨S1024x512x1, .f32⟩ : BufTy).Contents (Elt F) → (⟨S1024x512x1, .i32⟩ : BufTy).Contents (Elt F)),
    StableHlo.nullary main_cst_17 (constant S_ .f32 0x3F800000#32),
    StableHlo.unary main_cst_17 main_v43 (broadcastInDim S1024x512x1 ![] bcast_S_S1024x512x1 : (⟨S_, .f32⟩ : BufTy).Contents (Elt F) → (⟨S1024x512x1, .f32⟩ : BufTy).Contents (Elt F)),
    StableHlo.binary main_v28 main_v43 main_v44 (addf : (⟨S1024x512x1, .f32⟩ : BufTy).Contents (Elt F) → (⟨S1024x512x1, .f32⟩ : BufTy).Contents (Elt F) → (⟨S1024x512x1, .f32⟩ : BufTy).Contents (Elt F)),
    StableHlo.nullary main_c_18 (constantI S_ 32 0#32),
    StableHlo.nullary main_c_19 (constantI S_ 32 15#32),
    StableHlo.TRef.unary (StableHlo.TRef.of main_c_18 : StableHlo.TRef sig ⟨S_, .i32⟩) main_call4.v0 (sitofp .f32),
    StableHlo.TRef.unary main_call4.v0 main_call4.v1 (broadcastInDim S1024x512x1 ![] bcast_S_S1024x512x1),
    StableHlo.TRef.binary main_call4.v1 (StableHlo.TRef.of main_v44 : StableHlo.TRef sig ⟨S1024x512x1, .f32⟩) main_call4.v2 maximumf,
    StableHlo.TRef.unary (StableHlo.TRef.of main_c_19 : StableHlo.TRef sig ⟨S_, .i32⟩) main_call4.v3 (sitofp .f32),
    StableHlo.TRef.unary main_call4.v3 main_call4.v4 (broadcastInDim S1024x512x1 ![] bcast_S_S1024x512x1),
    StableHlo.TRef.binary main_call4.v4 main_call4.v2 main_call4.v5 minimumf,
    StableHlo.unary main_v45 main_v46 (fptosi 32 : (⟨S1024x512x1, .f32⟩ : BufTy).Contents (Elt F) → (⟨S1024x512x1, .i32⟩ : BufTy).Contents (Elt F)) ]

/-- The planes in channel-last order, and the query number of each row. -/
abbrev cPlane : List (HloOp τ sig (Elt F)) :=
  [ StableHlo.unary main_v0 main_v47 ((transpose S1024x16x16x128 [0, 2, 3, 1] · transposes_S1024x128x16x16_S1024x16x16x128_0_2_3_1) : (⟨S1024x128x16x16, .f32⟩ : BufTy).Contents (Elt F) → (⟨S1024x16x16x128, .f32⟩ : BufTy).Contents (Elt F)),
    StableHlo.nullary main_v48 (iotaInDim S1024 32 0),
    StableHlo.unary main_v48 main_v49 (broadcastInDim S1024x1x1 ![0] bcast_S1024_S1024x1x1_0 : (⟨S1024, .i32⟩ : BufTy).Contents (Elt F) → (⟨S1024x1x1, .i32⟩ : BufTy).Contents (Elt F)) ]

/-- The corner (lower row line, lower column line): negative indices wrapped, the index triples, the gather. -/
abbrev cCorner00 : List (HloOp τ sig (Elt F)) :=
  [ StableHlo.nullary main_c_20 (constantI S_ 32 0#32),
    StableHlo.unary main_c_20 main_v50 (broadcastInDim S1024x1x1 ![] bcast_S_S1024x1x1 : (⟨S_, .i32⟩ : BufTy).Contents (Elt F) → (⟨S1024x1x1, .i32⟩ : BufTy).Contents (Elt F)),
    StableHlo.binary main_v49 main_v50 main_v51 (cmpi .slt : (⟨S1024x1x1, .i32⟩ : BufTy).Contents (Elt F) → (⟨S1024x1x1, .i32⟩ : BufTy).Contents (Elt F) → (⟨S1024x1x1, .i1⟩ : BufTy).Contents (Elt F)),
    StableHlo.nullary main_c_21 (constantI S_ 32 1024#32),
    StableHlo.unary main_c_21 main_v52 (broadcastInDim S1024x1x1 ![] bcast_S_S1024x1x1 : (⟨S_, .i32⟩ : BufTy).Contents (Elt F) → (⟨S1024x1x1, .i32⟩ : BufTy).Contents (Elt F)),
    StableHlo.binary main_v49 main_v52 main_v53 (addi : (⟨S1024x1x1, .i32⟩ : BufTy).Contents (Elt F) → (⟨S1024x1x1, .i32⟩ : BufTy).Contents (Elt F) → (⟨S1024x1x1, .i32⟩ : BufTy).Contents (Elt F)),
    StableHlo.ternary main_v51 main_v53 main_v49 main_v54 (select : (⟨S1024x1x1, .i1⟩ : BufTy).Contents (Elt F) → (⟨S1024x1x1, .i32⟩ : BufTy).Contents (Elt F) → (⟨S1024x1x1, .i32⟩ : BufTy).Contents (Elt F) → (⟨S1024x1x1, .i32⟩ : BufTy).Contents (Elt F)),
    StableHlo.nullary main_c_22 (constantI S_ 32 0#32),
    StableHlo.unary main_c_22 main_v55 (broadcastInDim S1024x512x1 ![] bcast_S_S1024x512x1 : (⟨S_, .i32⟩ : BufTy).Contents (Elt F) → (⟨S1024x512x1, .i32⟩ : BufTy).Contents (Elt F)),
    StableHlo.binary main_v42 main_v55 main_v56 (cmpi .slt : (⟨S1024x512x1, .i32⟩ : BufTy).Contents (Elt F) → (⟨S1024x512x1, .i32⟩ : BufTy).Contents (Elt F) → (⟨S1024x512x1, .i1⟩ : BufTy).Contents (Elt F)),
    StableHlo.nullary main_c_23 (constantI S_ 32 16#32),
    StableHlo.unary main_c_23 main_v57 (broadcastInDim S1024x512x1 ![] bcast_S_S1024x512x1 : (⟨S_, .i32⟩ : BufTy).Contents (Elt F) → (⟨S1024x512x1, .i32⟩ : BufTy).Contents (Elt F)),
    StableHlo.binary main_v42 main_v57 main_v58 (addi : (⟨S1024x512x1, .i32⟩ : BufTy).Contents (Elt F) → (⟨S1024x512x1, .i32⟩ : BufTy).Contents (Elt F) → (⟨S1024x512x1, .i32⟩ : BufTy).Contents (Elt F)),
    StableHlo.ternary main_v56 main_v58 main_v42 main_v59 (select : (⟨S1024x512x1, .i1⟩ : BufTy).Contents (Elt F) → (⟨S1024x512x1, .i32⟩ : BufTy).Contents (Elt F) → (⟨S1024x512x1, .i32⟩ : BufTy).Contents (Elt F) → (⟨S1024x512x1, .i32⟩ : BufTy).Contents (Elt F)),
    StableHlo.nullary main_c_24 (constantI S_ 32 0#32),
    StableHlo.unary main_c_24 main_v60 (broadcastInDim S1024x512x1 ![] bcast_S_S1024x512x1 : (⟨S_, .i32⟩ : BufTy).Contents (Elt F) → (⟨S1024x512x1, .i32⟩ : BufTy).Contents (Elt F)),
    StableHlo.binary main_v36 main_v60 main_v61 (cmpi .slt : (⟨S1024x512x1, .i32⟩ : BufTy).Contents (Elt F) → (⟨S1024x512x1, .i32⟩ : BufTy).Contents (Elt F) → (⟨S1024x512x1, .i1⟩ : BufTy).Contents (Elt F)),
    StableHlo.nullary main_c_25 (constantI S_ 32 16#32),
    StableHlo.unary main_c_25 main_v62 (broadcastInDim S1024x512x1 ![] bcast_S_S1024x512x1 : (⟨S_, .i32⟩ : BufTy).Contents (Elt F) → (⟨S1024x512x1, .i32⟩ : BufTy).Contents (Elt F)),
    StableHlo.binary main_v36 main_v62 main_v63 (addi : (⟨S1024x512x1, .i32⟩ : BufTy).Contents (Elt F) → (⟨S1024x512x1, .i32⟩ : BufTy).Contents (Elt F) → (⟨S1024x512x1, .i32⟩ : BufTy).Contents (Elt F)),
    StableHlo.ternary main_v61 main_v63 main_v36 main_v64 (select : (⟨S1024x512x1, .i1⟩ : BufTy).Contents (Elt F) → (⟨S1024x512x1, .i32⟩ : BufTy).Contents (Elt F) → (⟨S1024x512x1, .i32⟩ : BufTy).Contents (Elt F) → (⟨S1024x512x1, .i32⟩ : BufTy).Contents (Elt F)),
    StableHlo.unary main_v54 main_v65 (broadcastInDim S1024x512x1 ![0, 1, 2] bcast_S1024x1x1_S1024x512x1_0_1_2 : (⟨S1024x1x1, .i32⟩ : BufTy).Contents (Elt F) → (⟨S1024x512x1, .i32⟩ : BufTy).Contents (Elt F)),
    StableHlo.unary main_v65 main_v66 (broadcastInDim S1024x512x1x1 ![0, 1, 2] bcast_S1024x512x1_S1024x512x1x1_0_1_2 : (⟨S1024x512x1, .i32⟩ : BufTy).Contents (Elt F) → (⟨S1024x512x1x1, .i32⟩ : BufTy).Contents (Elt F)),
    StableHlo.unary main_v59 main_v67 (broadcastInDim S1024x512x1x1 ![0, 1, 2] bcast_S1024x512x1_S1024x512x1x1_0_1_2 : (⟨S1024x512x1, .i32⟩ : BufTy).Contents (Elt F) → (⟨S1024x512x1x1, .i32⟩ : BufTy).Contents (Elt F)),
    StableHlo.unary main_v64 main_v68 (broadcastInDim S1024x512x1x1 ![0, 1, 2] bcast_S1024x512x1_S1024x512x1x1_0_1_2 : (⟨S1024x512x1, .i32⟩ : BufTy).Contents (Elt F) → (⟨S1024x512x1x1, .i32⟩ : BufTy).Contents (Elt F)),
    StableHlo.nary ![main_v66, main_v67, main_v68] main_v69 (fun u => cat3 (F := F) (u 0) (u 1) (u 2)),
    StableHlo.binary main_v47 main_v69 main_v70 ((fun x i => Host.gather gather_S1024x16x16x128_S1024x512x1x3_S1024x512x1x128_3_012_n_n_012_3_111128 x i) : (⟨S1024x16x16x128, .f32⟩ : BufTy).Contents (Elt F) → (⟨S1024x512x1x3, .i32⟩ : BufTy).Contents (Elt F) → (⟨S1024x512x1x128, .f32⟩ : BufTy).Contents (Elt F)) ]

/-- The index columns of the corner (lower row line, upper column line). -/
abbrev cIdx01 : List (HloOp τ sig (Elt F)) :=
  [ StableHlo.nullary main_c_26 (constantI S_ 32 0#32),
    StableHlo.unary main_c_26 main_v71 (broadcastInDim S1024x1x1 ![] bcast_S_S1024x1x1 : (⟨S_, .i32⟩ : BufTy).Contents (Elt F) → (⟨S1024x1x1, .i32⟩ : BufTy).Contents (Elt F)),
    StableHlo.binary main_v49 main_v71 main_v72 (cmpi .slt : (⟨S1024x1x1, .i32⟩ : BufTy).Contents (Elt F) → (⟨S1024x1x1, .i32⟩ : BufTy).Contents (Elt F) → (⟨S1024x1x1, .i1⟩ : BufTy).Contents (Elt F)),
    StableHlo.nullary main_c_27 (constantI S_ 32 1024#32),
    StableHlo.unary main_c_27 main_v73 (broadcastInDim S1024x1x1 ![] bcast_S_S1024x1x1 : (⟨S_, .i32⟩ : BufTy).Contents (Elt F) → (⟨S1024x1x1, .i32⟩ : BufTy).Contents (Elt F)),
    StableHlo.binary main_v49 main_v73 main_v74 (addi : (⟨S1024x1x1, .i32⟩ : BufTy).Contents (Elt F) → (⟨S1024x1x1, .i32⟩ : BufTy).Contents (Elt F) → (⟨S1024x1x1, .i32⟩ : BufTy).Contents (Elt F)),
    StableHlo.ternary main_v72 main_v74 main_v49 main_v75 (select : (⟨S1024x1x1, .i1⟩ : BufTy).Contents (Elt F) → (⟨S1024x1x1, .i32⟩ : BufTy).Contents (Elt F) → (⟨S1024x1x1, .i32⟩ : BufTy).Contents (Elt F) → (⟨S1024x1x1, .i32⟩ : BufTy).Contents (Elt F)),
    StableHlo.nullary main_c_28 (constantI S_ 32 0#32),
    StableHlo.unary main_c_28 main_v76 (broadcastInDim S1024x512x1 ![] bcast_S_S1024x512x1 : (⟨S_, .i32⟩ : BufTy).Contents (Elt F) → (⟨S1024x512x1, .i32⟩ : BufTy).Contents (Elt F)),
    StableHlo.binary main_v42 main_v76 main_v77 (cmpi .slt : (⟨S1024x512x1, .i32⟩ : BufTy).Contents (Elt F) → (⟨S1024x512x1, .i32⟩ : BufTy).Contents (Elt F) → (⟨S1024x512x1, .i1⟩ : BufTy).Contents (Elt F)),
    StableHlo.nullary main_c_29 (constantI S_ 32 16#32),
    StableHlo.unary main_c_29 main_v78 (broadcastInDim S1024x512x1 ![] bcast_S_S1024x512x1 : (⟨S_, .i32⟩ : BufTy).Contents (Elt F) → (⟨S1024x512x1, .i32⟩ : BufTy).Contents (Elt F)),
    StableHlo.binary main_v42 main_v78 main_v79 (addi : (⟨S1024x512x1, .i32⟩ : BufTy).Contents (Elt F) → (⟨S1024x512x1, .i32⟩ : BufTy).Contents (Elt F) → (⟨S1024x512x1, .i32⟩ : BufTy).Contents (Elt F)),
    StableHlo.ternary main_v77 main_v79 main_v42 main_v80 (select : (⟨S1024x512x1, .i1⟩ : BufTy).Contents (Elt F) → (⟨S1024x512x1, .i32⟩ : BufTy).Contents (Elt F) → (⟨S1024x512x1, .i32⟩ : BufTy).Contents (Elt F) → (⟨S1024x512x1, .i32⟩ : BufTy).Contents (Elt F)),
    StableHlo.nullary main_c_30 (constantI S_ 32 0#32),
    StableHlo.unary main_c_30 main_v81 (broadcastInDim S1024x512x1 ![] bcast_S_S1024x512x1 : (⟨S_, .i32⟩ : BufTy).Contents (Elt F) → (⟨S1024x512x1, .i32⟩ : BufTy).Contents (Elt F)),
    StableHlo.binary main_v40 main_v81 main_v82 (cmpi .slt : (⟨S1024x512x1, .i32⟩ : BufTy).Contents (Elt F) → (⟨S1024x512x1, .i32⟩ : BufTy).Contents (Elt F) → (⟨S1024x512x1, .i1⟩ : BufTy).Contents (Elt F)),
    StableHlo.nullary main_c_31 (constantI S_ 32 16#32),
    StableHlo.unary main_c_31 main_v83 (broadcastInDim S1024x512x1 ![] bcast_S_S1024x512x1 : (⟨S_, .i32⟩ : BufTy).Contents (Elt F) → (⟨S1024x512x1, .i32⟩ : BufTy).Contents (Elt F)),
    StableHlo.binary main_v40 main_v83 main_v84 (addi : (⟨S1024x512x1, .i32⟩ : BufTy).Contents (Elt F) → (⟨S1024x512x1, .i32⟩ : BufTy).Contents (Elt F) → (⟨S1024x512x1, .i32⟩ : BufTy).Contents (Elt F)),
    StableHlo.ternary main_v82 main_v84 main_v40 main_v85 (select : (⟨S1024x512x1, .i1⟩ : BufTy).Contents (Elt F) → (⟨S1024x512x1, .i32⟩ : BufTy).Contents (Elt F) → (⟨S1024x512x1, .i32⟩ : BufTy).Contents (Elt F) → (⟨S1024x512x1, .i32⟩ : BufTy).Contents (Elt F)) ]

/-- The corner (lower row line, upper column line): the index triples and the gather. -/
abbrev cCorner01 : List (HloOp τ sig (Elt F)) :=
  [ StableHlo.unary main_v75 main_v86 (broadcastInDim S1024x512x1 ![0, 1, 2] bcast_S1024x1x1_S1024x512x1_0_1_2 : (⟨S1024x1x1, .i32⟩ : BufTy).Contents (Elt F) → (⟨S1024x512x1, .i32⟩ : BufTy).Contents (Elt F)),
    StableHlo.unary main_v86 main_v87 (broadcastInDim S1024x512x1x1 ![0, 1, 2] bcast_S1024x512x1_S1024x512x1x1_0_1_2 : (⟨S1024x512x1, .i32⟩ : BufTy).Contents (Elt F) → (⟨S1024x512x1x1, .i32⟩ : BufTy).Contents (Elt F)),
    StableHlo.unary main_v80 main_v88 (broadcastInDim S1024x512x1x1 ![0, 1, 2] bcast_S1024x512x1_S1024x512x1x1_0_1_2 : (⟨S1024x512x1, .i32⟩ : BufTy).Contents (Elt F) → (⟨S1024x512x1x1, .i32⟩ : BufTy).Contents (Elt F)),
    StableHlo.unary main_v85 main_v89 (broadcastInDim S1024x512x1x1 ![0, 1, 2] bcast_S1024x512x1_S1024x512x1x1_0_1_2 : (⟨S1024x512x1, .i32⟩ : BufTy).Contents (Elt F) → (⟨S1024x512x1x1, .i32⟩ : BufTy).Contents (Elt F)),
    StableHlo.nary ![main_v87, main_v88, main_v89] main_v90 (fun u => cat3 (F := F) (u 0) (u 1) (u 2)),
    StableHlo.binary main_v47 main_v90 main_v91 ((fun x i => Host.gather gather_S1024x16x16x128_S1024x512x1x3_S1024x512x1x128_3_012_n_n_012_3_111128 x i) : (⟨S1024x16x16x128, .f32⟩ : BufTy).Contents (Elt F) → (⟨S1024x512x1x3, .i32⟩ : BufTy).Contents (Elt F) → (⟨S1024x512x1x128, .f32⟩ : BufTy).Contents (Elt F)) ]

/-- The corner (upper row line, lower column line). -/
abbrev cCorner10 : List (HloOp τ sig (Elt F)) :=
  [ StableHlo.nullary main_c_32 (constantI S_ 32 0#32),
    StableHlo.unary main_c_32 main_v92 (broadcastInDim S1024x1x1 ![] bcast_S_S1024x1x1 : (⟨S_, .i32⟩ : BufTy).Contents (Elt F) → (⟨S1024x1x1, .i32⟩ : BufTy).Contents (Elt F)),
    StableHlo.binary main_v49 main_v92 main_v93 (cmpi .slt : (⟨S1024x1x1, .i32⟩ : BufTy).Contents (Elt F) → (⟨S1024x1x1, .i32⟩ : BufTy).Contents (Elt F) → (⟨S1024x1x1, .i1⟩ : BufTy).Contents (Elt F)),
    StableHlo.nullary main_c_33 (constantI S_ 32 1024#32),
    StableHlo.unary main_c_33 main_v94 (broadcastInDim S1024x1x1 ![] bcast_S_S1024x1x1 : (⟨S_, .i32⟩ : BufTy).Contents (Elt F) → (⟨S1024x1x1, .i32⟩ : BufTy).Contents (Elt F)),
    StableHlo.binary main_v49 main_v94 main_v95 (addi : (⟨S1024x1x1, .i32⟩ : BufTy).Contents (Elt F) → (⟨S1024x1x1, .i32⟩ : BufTy).Contents (Elt F) → (⟨S1024x1x1, .i32⟩ : BufTy).Contents (Elt F)),
    StableHlo.ternary main_v93 main_v95 main_v49 main_v96 (select : (⟨S1024x1x1, .i1⟩ : BufTy).Contents (Elt F) → (⟨S1024x1x1, .i32⟩ : BufTy).Contents (Elt F) → (⟨S1024x1x1, .i32⟩ : BufTy).Contents (Elt F) → (⟨S1024x1x1, .i32⟩ : BufTy).Contents (Elt F)),
    StableHlo.nullary main_c_34 (constantI S_ 32 0#32),
    StableHlo.unary main_c_34 main_v97 (broadcastInDim S1024x512x1 ![] bcast_S_S1024x512x1 : (⟨S_, .i32⟩ : BufTy).Contents (Elt F) → (⟨S1024x512x1, .i32⟩ : BufTy).Contents (Elt F)),
    StableHlo.binary main_v46 main_v97 main_v98 (cmpi .slt : (⟨S1024x512x1, .i32⟩ : BufTy).Contents (Elt F) → (⟨S1024x512x1, .i32⟩ : BufTy).Contents (Elt F) → (⟨S1024x512x1, .i1⟩ : BufTy).Contents (Elt F)),
    StableHlo.nullary main_c_35 (constantI S_ 32 16#32),
    StableHlo.unary main_c_35 main_v99 (broadcastInDim S1024x512x1 ![] bcast_S_S1024x512x1 : (⟨S_, .i32⟩ : BufTy).Contents (Elt F) → (⟨S1024x512x1, .i32⟩ : BufTy).Contents (Elt F)),
    StableHlo.binary main_v46 main_v99 main_v100 (addi : (⟨S1024x512x1, .i32⟩ : BufTy).Contents (Elt F) → (⟨S1024x512x1, .i32⟩ : BufTy).Contents (Elt F) → (⟨S1024x512x1, .i32⟩ : BufTy).Contents (Elt F)),
    StableHlo.ternary main_v98 main_v100 main_v46 main_v101 (select : (⟨S1024x512x1, .i1⟩ : BufTy).Contents (Elt F) → (⟨S1024x512x1, .i32⟩ : BufTy).Contents (Elt F) → (⟨S1024x512x1, .i32⟩ : BufTy).Contents (Elt F) → (⟨S1024x512x1, .i32⟩ : BufTy).Contents (Elt F)),
    StableHlo.nullary main_c_36 (constantI S_ 32 0#32),
    StableHlo.unary main_c_36 main_v102 (broadcastInDim S1024x512x1 ![] bcast_S_S1024x512x1 : (⟨S_, .i32⟩ : BufTy).Contents (Elt F) → (⟨S1024x512x1, .i32⟩ : BufTy).Contents (Elt F)),
    StableHlo.binary main_v36 main_v102 main_v103 (cmpi .slt : (⟨S1024x512x1, .i32⟩ : BufTy).Contents (Elt F) → (⟨S1024x512x1, .i32⟩ : BufTy).Contents (Elt F) → (⟨S1024x512x1, .i1⟩ : BufTy).Contents (Elt F)),
    StableHlo.nullary main_c_37 (constantI S_ 32 16#32),
    StableHlo.unary main_c_37 main_v104 (broadcastInDim S1024x512x1 ![] bcast_S_S1024x512x1 : (⟨S_, .i32⟩ : BufTy).Contents (Elt F) → (⟨S1024x512x1, .i32⟩ : BufTy).Contents (Elt F)),
    StableHlo.binary main_v36 main_v104 main_v105 (addi : (⟨S1024x512x1, .i32⟩ : BufTy).Contents (Elt F) → (⟨S1024x512x1, .i32⟩ : BufTy).Contents (Elt F) → (⟨S1024x512x1, .i32⟩ : BufTy).Contents (Elt F)),
    StableHlo.ternary main_v103 main_v105 main_v36 main_v106 (select : (⟨S1024x512x1, .i1⟩ : BufTy).Contents (Elt F) → (⟨S1024x512x1, .i32⟩ : BufTy).Contents (Elt F) → (⟨S1024x512x1, .i32⟩ : BufTy).Contents (Elt F) → (⟨S1024x512x1, .i32⟩ : BufTy).Contents (Elt F)),
    StableHlo.unary main_v96 main_v107 (broadcastInDim S1024x512x1 ![0, 1, 2] bcast_S1024x1x1_S1024x512x1_0_1_2 : (⟨S1024x1x1, .i32⟩ : BufTy).Contents (Elt F) → (⟨S1024x512x1, .i32⟩ : BufTy).Contents (Elt F)),
    StableHlo.unary main_v107 main_v108 (broadcastInDim S1024x512x1x1 ![0, 1, 2] bcast_S1024x512x1_S1024x512x1x1_0_1_2 : (⟨S1024x512x1, .i32⟩ : BufTy).Contents (Elt F) → (⟨S1024x512x1x1, .i32⟩ : BufTy).Contents (Elt F)),
    StableHlo.unary main_v101 main_v109 (broadcastInDim S1024x512x1x1 ![0, 1, 2] bcast_S1024x512x1_S1024x512x1x1_0_1_2 : (⟨S1024x512x1, .i32⟩ : BufTy).Contents (Elt F) → (⟨S1024x512x1x1, .i32⟩ : BufTy).Contents (Elt F)),
    StableHlo.unary main_v106 main_v110 (broadcastInDim S1024x512x1x1 ![0, 1, 2] bcast_S1024x512x1_S1024x512x1x1_0_1_2 : (⟨S1024x512x1, .i32⟩ : BufTy).Contents (Elt F) → (⟨S1024x512x1x1, .i32⟩ : BufTy).Contents (Elt F)),
    StableHlo.nary ![main_v108, main_v109, main_v110] main_v111 (fun u => cat3 (F := F) (u 0) (u 1) (u 2)),
    StableHlo.binary main_v47 main_v111 main_v112 ((fun x i => Host.gather gather_S1024x16x16x128_S1024x512x1x3_S1024x512x1x128_3_012_n_n_012_3_111128 x i) : (⟨S1024x16x16x128, .f32⟩ : BufTy).Contents (Elt F) → (⟨S1024x512x1x3, .i32⟩ : BufTy).Contents (Elt F) → (⟨S1024x512x1x128, .f32⟩ : BufTy).Contents (Elt F)) ]

/-- The corner (upper row line, upper column line). -/
abbrev cCorner11 : List (HloOp τ sig (Elt F)) :=
  [ StableHlo.nullary main_c_38 (constantI S_ 32 0#32),
    StableHlo.unary main_c_38 main_v113 (broadcastInDim S1024x1x1 ![] bcast_S_S1024x1x1 : (⟨S_, .i32⟩ : BufTy).Contents (Elt F) → (⟨S1024x1x1, .i32⟩ : BufTy).Contents (Elt F)),
    StableHlo.binary main_v49 main_v113 main_v114 (cmpi .slt : (⟨S1024x1x1, .i32⟩ : BufTy).Contents (Elt F) → (⟨S1024x1x1, .i32⟩ : BufTy).Contents (Elt F) → (⟨S1024x1x1, .i1⟩ : BufTy).Contents (Elt F)),
    StableHlo.nullary main_c_39 (constantI S_ 32 1024#32),
    StableHlo.unary main_c_39 main_v115 (broadcastInDim S1024x1x1 ![] bcast_S_S1024x1x1 : (⟨S_, .i32⟩ : BufTy).Contents (Elt F) → (⟨S1024x1x1, .i32⟩ : BufTy).Contents (Elt F)),
    StableHlo.binary main_v49 main_v115 main_v116 (addi : (⟨S1024x1x1, .i32⟩ : BufTy).Contents (Elt F) → (⟨S1024x1x1, .i32⟩ : BufTy).Contents (Elt F) → (⟨S1024x1x1, .i32⟩ : BufTy).Contents (Elt F)),
    StableHlo.ternary main_v114 main_v116 main_v49 main_v117 (select : (⟨S1024x1x1, .i1⟩ : BufTy).Contents (Elt F) → (⟨S1024x1x1, .i32⟩ : BufTy).Contents (Elt F) → (⟨S1024x1x1, .i32⟩ : BufTy).Contents (Elt F) → (⟨S1024x1x1, .i32⟩ : BufTy).Contents (Elt F)),
    StableHlo.nullary main_c_40 (constantI S_ 32 0#32),
    StableHlo.unary main_c_40 main_v118 (broadcastInDim S1024x512x1 ![] bcast_S_S1024x512x1 : (⟨S_, .i32⟩ : BufTy).Contents (Elt F) → (⟨S1024x512x1, .i32⟩ : BufTy).Contents (Elt F)),
    StableHlo.binary main_v46 main_v118 main_v119 (cmpi .slt : (⟨S1024x512x1, .i32⟩ : BufTy).Contents (Elt F) → (⟨S1024x512x1, .i32⟩ : BufTy).Contents (Elt F) → (⟨S1024x512x1, .i1⟩ : BufTy).Contents (Elt F)),
    StableHlo.nullary main_c_41 (constantI S_ 32 16#32),
    StableHlo.unary main_c_41 main_v120 (broadcastInDim S1024x512x1 ![] bcast_S_S1024x512x1 : (⟨S_, .i32⟩ : BufTy).Contents (Elt F) → (⟨S1024x512x1, .i32⟩ : BufTy).Contents (Elt F)),
    StableHlo.binary main_v46 main_v120 main_v121 (addi : (⟨S1024x512x1, .i32⟩ : BufTy).Contents (Elt F) → (⟨S1024x512x1, .i32⟩ : BufTy).Contents (Elt F) → (⟨S1024x512x1, .i32⟩ : BufTy).Contents (Elt F)),
    StableHlo.ternary main_v119 main_v121 main_v46 main_v122 (select : (⟨S1024x512x1, .i1⟩ : BufTy).Contents (Elt F) → (⟨S1024x512x1, .i32⟩ : BufTy).Contents (Elt F) → (⟨S1024x512x1, .i32⟩ : BufTy).Contents (Elt F) → (⟨S1024x512x1, .i32⟩ : BufTy).Contents (Elt F)),
    StableHlo.nullary main_c_42 (constantI S_ 32 0#32),
    StableHlo.unary main_c_42 main_v123 (broadcastInDim S1024x512x1 ![] bcast_S_S1024x512x1 : (⟨S_, .i32⟩ : BufTy).Contents (Elt F) → (⟨S1024x512x1, .i32⟩ : BufTy).Contents (Elt F)),
    StableHlo.binary main_v40 main_v123 main_v124 (cmpi .slt : (⟨S1024x512x1, .i32⟩ : BufTy).Contents (Elt F) → (⟨S1024x512x1, .i32⟩ : BufTy).Contents (Elt F) → (⟨S1024x512x1, .i1⟩ : BufTy).Contents (Elt F)),
    StableHlo.nullary main_c_43 (constantI S_ 32 16#32),
    StableHlo.unary main_c_43 main_v125 (broadcastInDim S1024x512x1 ![] bcast_S_S1024x512x1 : (⟨S_, .i32⟩ : BufTy).Contents (Elt F) → (⟨S1024x512x1, .i32⟩ : BufTy).Contents (Elt F)),
    StableHlo.binary main_v40 main_v125 main_v126 (addi : (⟨S1024x512x1, .i32⟩ : BufTy).Contents (Elt F) → (⟨S1024x512x1, .i32⟩ : BufTy).Contents (Elt F) → (⟨S1024x512x1, .i32⟩ : BufTy).Contents (Elt F)),
    StableHlo.ternary main_v124 main_v126 main_v40 main_v127 (select : (⟨S1024x512x1, .i1⟩ : BufTy).Contents (Elt F) → (⟨S1024x512x1, .i32⟩ : BufTy).Contents (Elt F) → (⟨S1024x512x1, .i32⟩ : BufTy).Contents (Elt F) → (⟨S1024x512x1, .i32⟩ : BufTy).Contents (Elt F)),
    StableHlo.unary main_v117 main_v128 (broadcastInDim S1024x512x1 ![0, 1, 2] bcast_S1024x1x1_S1024x512x1_0_1_2 : (⟨S1024x1x1, .i32⟩ : BufTy).Contents (Elt F) → (⟨S1024x512x1, .i32⟩ : BufTy).Contents (Elt F)),
    StableHlo.unary main_v128 main_v129 (broadcastInDim S1024x512x1x1 ![0, 1, 2] bcast_S1024x512x1_S1024x512x1x1_0_1_2 : (⟨S1024x512x1, .i32⟩ : BufTy).Contents (Elt F) → (⟨S1024x512x1x1, .i32⟩ : BufTy).Contents (Elt F)),
    StableHlo.unary main_v122 main_v130 (broadcastInDim S1024x512x1x1 ![0, 1, 2] bcast_S1024x512x1_S1024x512x1x1_0_1_2 : (⟨S1024x512x1, .i32⟩ : BufTy).Contents (Elt F) → (⟨S1024x512x1x1, .i32⟩ : BufTy).Contents (Elt F)),
    StableHlo.unary main_v127 main_v131 (broadcastInDim S1024x512x1x1 ![0, 1, 2] bcast_S1024x512x1_S1024x512x1x1_0_1_2 : (⟨S1024x512x1, .i32⟩ : BufTy).Contents (Elt F) → (⟨S1024x512x1x1, .i32⟩ : BufTy).Contents (Elt F)),
    StableHlo.nary ![main_v129, main_v130, main_v131] main_v132 (fun u => cat3 (F := F) (u 0) (u 1) (u 2)),
    StableHlo.binary main_v47 main_v132 main_v133 ((fun x i => Host.gather gather_S1024x16x16x128_S1024x512x1x3_S1024x512x1x128_3_012_n_n_012_3_111128 x i) : (⟨S1024x16x16x128, .f32⟩ : BufTy).Contents (Elt F) → (⟨S1024x512x1x3, .i32⟩ : BufTy).Contents (Elt F) → (⟨S1024x512x1x128, .f32⟩ : BufTy).Contents (Elt F)) ]

/-- The four weights, each corner times its weight, the sum left to right, and the result in [query, channel, sample] order. -/
abbrev cBlend : List (HloOp τ sig (Elt F)) :=
  [ StableHlo.binary main_v34 main_v32 main_v134 (mulf : (⟨S1024x512x1, .f32⟩ : BufTy).Contents (Elt F) → (⟨S1024x512x1, .f32⟩ : BufTy).Contents (Elt F) → (⟨S1024x512x1, .f32⟩ : BufTy).Contents (Elt F)),
    StableHlo.unary main_v134 main_v135 (broadcastInDim S1024x512x1x1 ![0, 1, 2] bcast_S1024x512x1_S1024x512x1x1_0_1_2 : (⟨S1024x512x1, .f32⟩ : BufTy).Contents (Elt F) → (⟨S1024x512x1x1, .f32⟩ : BufTy).Contents (Elt F)),
    StableHlo.binary main_v34 main_v29 main_v136 (mulf : (⟨S1024x512x1, .f32⟩ : BufTy).Contents (Elt F) → (⟨S1024x512x1, .f32⟩ : BufTy).Contents (Elt F) → (⟨S1024x512x1, .f32⟩ : BufTy).Contents (Elt F)),
    StableHlo.unary main_v136 main_v137 (broadcastInDim S1024x512x1x1 ![0, 1, 2] bcast_S1024x512x1_S1024x512x1x1_0_1_2 : (⟨S1024x512x1, .f32⟩ : BufTy).Contents (Elt F) → (⟨S1024x512x1x1, .f32⟩ : BufTy).Contents (Elt F)),
    StableHlo.binary main_v30 main_v32 main_v138 (mulf : (⟨S1024x512x1, .f32⟩ : BufTy).Contents (Elt F) → (⟨S1024x512x1, .f32⟩ : BufTy).Contents (Elt F) → (⟨S1024x512x1, .f32⟩ : BufTy).Contents (Elt F)),
    StableHlo.unary main_v138 main_v139 (broadcastInDim S1024x512x1x1 ![0, 1, 2] bcast_S1024x512x1_S1024x512x1x1_0_1_2 : (⟨S1024x512x1, .f32⟩ : BufTy).Contents (Elt F) → (⟨S1024x512x1x1, .f32⟩ : BufTy).Contents (Elt F)),
    StableHlo.binary main_v30 main_v29 main_v140 (mulf : (⟨S1024x512x1, .f32⟩ : BufTy).Contents (Elt F) → (⟨S1024x512x1, .f32⟩ : BufTy).Contents (Elt F) → (⟨S1024x512x1, .f32⟩ : BufTy).Contents (Elt F)),
    StableHlo.unary main_v140 main_v141 (broadcastInDim S1024x512x1x1 ![0, 1, 2] bcast_S1024x512x1_S1024x512x1x1_0_1_2 : (⟨S1024x512x1, .f32⟩ : BufTy).Contents (Elt F) → (⟨S1024x512x1x1, .f32⟩ : BufTy).Contents (Elt F)),
    StableHlo.unary main_v135 main_v142 (broadcastInDim S1024x512x1x128 ![0, 1, 2, 3] bcast_S1024x512x1x1_S1024x512x1x128_0_1_2_3 : (⟨S1024x512x1x1, .f32⟩ : BufTy).Contents (Elt F) → (⟨S1024x512x1x128, .f32⟩ : BufTy).Contents (Elt F)),
    StableHlo.binary main_v70 main_v142 main_v143 (mulf : (⟨S1024x512x1x128, .f32⟩ : BufTy).Contents (Elt F) → (⟨S1024x512x1x128, .f32⟩ : BufTy).Contents (Elt F) → (⟨S1024x512x1x128, .f32⟩ : BufTy).Contents (Elt F)),
    StableHlo.unary main_v137 main_v144 (broadcastInDim S1024x512x1x128 ![0, 1, 2, 3] bcast_S1024x512x1x1_S1024x512x1x128_0_1_2_3 : (⟨S1024x512x1x1, .f32⟩ : BufTy).Contents (Elt F) → (⟨S1024x512x1x128, .f32⟩ : BufTy).Contents (Elt F)),
    StableHlo.binary main_v91 main_v144 main_v145 (mulf : (⟨S1024x512x1x128, .f32⟩ : BufTy).Contents (Elt F) → (⟨S1024x512x1x128, .f32⟩ : BufTy).Contents (Elt F) → (⟨S1024x512x1x128, .f32⟩ : BufTy).Contents (Elt F)),
    StableHlo.binary main_v143 main_v145 main_v146 (addf : (⟨S1024x512x1x128, .f32⟩ : BufTy).Contents (Elt F) → (⟨S1024x512x1x128, .f32⟩ : BufTy).Contents (Elt F) → (⟨S1024x512x1x128, .f32⟩ : BufTy).Contents (Elt F)),
    StableHlo.unary main_v139 main_v147 (broadcastInDim S1024x512x1x128 ![0, 1, 2, 3] bcast_S1024x512x1x1_S1024x512x1x128_0_1_2_3 : (⟨S1024x512x1x1, .f32⟩ : BufTy).Contents (Elt F) → (⟨S1024x512x1x128, .f32⟩ : BufTy).Contents (Elt F)),
    StableHlo.binary main_v112 main_v147 main_v148 (mulf : (⟨S1024x512x1x128, .f32⟩ : BufTy).Contents (Elt F) → (⟨S1024x512x1x128, .f32⟩ : BufTy).Contents (Elt F) → (⟨S1024x512x1x128, .f32⟩ : BufTy).Contents (Elt F)),
    StableHlo.binary main_v146 main_v148 main_v149 (addf : (⟨S1024x512x1x128, .f32⟩ : BufTy).Contents (Elt F) → (⟨S1024x512x1x128, .f32⟩ : BufTy).Contents (Elt F) → (⟨S1024x512x1x128, .f32⟩ : BufTy).Contents (Elt F)),
    StableHlo.unary main_v141 main_v150 (broadcastInDim S1024x512x1x128 ![0, 1, 2, 3] bcast_S1024x512x1x1_S1024x512x1x128_0_1_2_3 : (⟨S1024x512x1x1, .f32⟩ : BufTy).Contents (Elt F) → (⟨S1024x512x1x128, .f32⟩ : BufTy).Contents (Elt F)),
    StableHlo.binary main_v133 main_v150 main_v151 (mulf : (⟨S1024x512x1x128, .f32⟩ : BufTy).Contents (Elt F) → (⟨S1024x512x1x128, .f32⟩ : BufTy).Contents (Elt F) → (⟨S1024x512x1x128, .f32⟩ : BufTy).Contents (Elt F)),
    StableHlo.binary main_v149 main_v151 main_v152 (addf : (⟨S1024x512x1x128, .f32⟩ : BufTy).Contents (Elt F) → (⟨S1024x512x1x128, .f32⟩ : BufTy).Contents (Elt F) → (⟨S1024x512x1x128, .f32⟩ : BufTy).Contents (Elt F)),
    StableHlo.reshape main_v152 main_v153 rfl shapeCasts_S1024x512x1x128_S1024x512x128,
    StableHlo.unary main_v153 main_v154 ((transpose S1024x128x512 [0, 2, 1] · transposes_S1024x512x128_S1024x128x512_0_2_1) : (⟨S1024x512x128, .f32⟩ : BufTy).Contents (Elt F) → (⟨S1024x128x512, .f32⟩ : BufTy).Contents (Elt F)) ]

/-- The operations of @main's window 0. -/
abbrev ops0 : List (HloOp τ sig (Elt F)) := cTake ++ (cGrid ++ (cCoord ++ (cFrac ++ (cClipX))))

/-- The operations of @main's window 1. -/
abbrev ops1 : List (HloOp τ sig (Elt F)) := cClipY ++ (cPlane ++ (cCorner00 ++ (cIdx01)))

/-- The operations of @main's window 2. -/
abbrev ops2 : List (HloOp τ sig (Elt F)) := cCorner01 ++ (cCorner10 ++ (cCorner11))

/-- The operations of @main's window 3. -/
abbrev ops3 : List (HloOp τ sig (Elt F)) := cBlend

/-- @main's 243 operations, in order. -/
abbrev ops : List (HloOp τ sig (Elt F)) := ops0 ++ (ops1 ++ (ops2 ++ ops3))

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

set_option maxRecDepth 8192 in
set_option maxHeartbeats 4000000 in
theorem main_part3_eq (c : Dev nD) : main_part3 (F := F) c = seq ops3 := rfl

/-- @main runs its four windows in order, and a list of operations run after another is their concatenation run. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem cTake_sub : (cTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxRecDepth 8192 in
theorem cGrid_sub : (cGrid : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub ..⟩

set_option maxRecDepth 8192 in
theorem cCoord_sub : (cCoord : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
theorem cFrac_sub : (cFrac : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., nullary_bufs_sub .., unary_bufs_sub .., binary_bufs_sub ..⟩

set_option maxRecDepth 8192 in
theorem cClipX_sub : (cClipX : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub ..⟩

set_option maxRecDepth 8192 in
theorem cClipY_sub : (cClipY : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub ..⟩

set_option maxRecDepth 8192 in
theorem cPlane_sub : (cPlane : List (HloOp τ sig (Elt F))).Forall fun op => op.bufs ⊆ tcRefs τ sig :=
  ⟨unary_bufs_sub .., nullary_bufs_sub .., unary_bufs_sub ..⟩

set_option maxRecDepth 8192 in
theorem cCorner00_sub : (cCorner00 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub ..⟩

set_option maxRecDepth 8192 in
theorem cIdx01_sub : (cIdx01 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩

set_option maxRecDepth 8192 in
theorem cCorner01_sub : (cCorner01 : List (HloOp τ sig (Elt F))).Forall fun op => op.bufs ⊆ tcRefs τ sig :=
  ⟨unary_bufs_sub .., unary_bufs_sub .., unary_bufs_sub .., unary_bufs_sub .., nary_bufs_sub .., binary_bufs_sub ..⟩

set_option maxRecDepth 8192 in
theorem cCorner10_sub : (cCorner10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub ..⟩

set_option maxRecDepth 8192 in
theorem cCorner11_sub : (cCorner11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub ..⟩

set_option maxRecDepth 8192 in
theorem cBlend_sub : (cBlend : List (HloOp τ sig (Elt F))).Forall fun op => op.bufs ⊆ tcRefs τ sig :=
  ⟨binary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., binary_bufs_sub .., binary_bufs_sub .., unary_bufs_sub .., binary_bufs_sub .., binary_bufs_sub .., reshape_bufs_sub .., unary_bufs_sub ..⟩

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops0_sub : (ops0 : List (HloOp τ sig (Elt F))).Forall fun op => op.bufs ⊆ tcRefs τ sig := forall_append cTake_sub (forall_append cGrid_sub (forall_append cCoord_sub (forall_append cFrac_sub (cClipX_sub))))
theorem ops1_sub : (ops1 : List (HloOp τ sig (Elt F))).Forall fun op => op.bufs ⊆ tcRefs τ sig := forall_append cClipY_sub (forall_append cPlane_sub (forall_append cCorner00_sub (cIdx01_sub)))
theorem ops2_sub : (ops2 : List (HloOp τ sig (Elt F))).Forall fun op => op.bufs ⊆ tcRefs τ sig := forall_append cCorner01_sub (forall_append cCorner10_sub (cCorner11_sub))
theorem ops3_sub : (ops3 : List (HloOp τ sig (Elt F))).Forall fun op => op.bufs ⊆ tcRefs τ sig := cBlend_sub

/-- Every operation touches TensorCore buffers only. -/
theorem ops_sub : (ops : List (HloOp τ sig (Elt F))).Forall fun op => op.bufs ⊆ tcRefs τ sig :=
  forall_append ops0_sub (forall_append ops1_sub (forall_append ops2_sub ops3_sub))

end Cert.RefValue

end
-- ==== Proof.RefStages.lean ====
/-
  The reference's result as a composition of named stages, each a pure function of whole arrays.

  From the three arguments (a row index per query, a pair of sample positions per query and sample, the feature
  planes): the plane each query selects; the sample positions rescaled to [-1, 1] and then to continuous pixel
  coordinates; per axis the floor, the two weights and the two grid lines clamped into 0 … 15; the planes in
  channel-last order; one gather per corner of the cell; and the weighted sum of the four corners, returned in
  [query, channel, sample] order.
-/
import proofs.«207350_g59966333387111_cont_9to1_m_496_19_alg».proof.Proof.RefOps

noncomputable section

namespace Cert.RefValue

open Cert.ReferenceIdeal Cert.ReferenceIdeal.Gen Idealize.ShloMosaic

variable {F : FTy → Type} [FloatOps F]

/-! ## The selected planes -/

/-- A scalar integer at every query. -/
def perQuery (v : IVec S_ 32) : IVec S1024 32 := broadcastInDim S1024 ![] bcast_S_S1024 v

/-- The row index of each query, a negative one counted from the end (1024 added). -/
def rowIdx (ii : IVec S1024 32) : IVec S1024 32 :=
  select (cmpi .slt ii (perQuery (constantI S_ 32 0#32))) (addi ii (perQuery (constantI S_ 32 1024#32))) ii

/-- The same as a column [1024, 1]: one index vector of length 1 per query. -/
def rowIdxCol (ii : IVec S1024 32) : IVec S1024x1 32 := broadcastInDim S1024x1 ![0] bcast_S1024_S1024x1_0 (rowIdx ii)

/-- Whether a query's row index lies in 0 … 1023. -/
def rowMask (ii : IVec S1024 32) : IVec S1024 1 :=
  Host.reduce IntOp.andi
    (andi (cmpi .sge (rowIdxCol ii) (broadcastInDim S1024x1 ![] bcast_S_S1024x1 (constantI S_ 32 0#32)))
      (cmpi .sle (rowIdxCol ii)
        (broadcastInDim S1024x1 ![0, 1] bcast_S1x1_S1024x1_0_1 (broadcastInDim S1x1 ![1] bcast_S1_S1x1_1 (constantI S1 32 1023#32)))))
    (constantI S_ 1 1#1) reducesTo_S1024x1_S1024_d1 h_S_

/-- The planes each query selects: row `rowIdx` of the features where that is in range, the fill value elsewhere. -/
def planes (ii : IVec S1024 32) (feat : FVec F S1024x128x16x16 .f32) : FVec F S1024x128x16x16 .f32 :=
  select (broadcastInDim S1024x128x16x16 ![0] bcast_S1024_S1024x128x16x16_0 (rowMask ii))
    (Host.gather gather_S1024x128x16x16_S1024x1_S1024x128x16x16_123_0_n_n_0_1_11281616 feat (rowIdxCol ii))
    (broadcastInDim S1024x128x16x16 ![] bcast_S_S1024x128x16x16 (constant S_ .f32 0x7FC00000#32))

/-! ## The sample positions -/

/-- The positions with the coordinate pair last, rescaled `2 g - 1`. -/
def gridPairs (grid : FVec F S1024x2x512 .f32) : FVec F S1024x512x1x2 .f32 :=
  subf
    (mulf
      (broadcastInDim S1024x512x1x2 ![0, 1, 3] bcast_S1024x512x2_S1024x512x1x2_0_1_3
        (transpose S1024x512x2 [0, 2, 1] grid transposes_S1024x2x512_S1024x512x2_0_2_1))
      (broadcastInDim S1024x512x1x2 ![] bcast_S_S1024x512x1x2 (constant S_ .f32 0x40000000#32)))
    (broadcastInDim S1024x512x1x2 ![] bcast_S_S1024x512x1x2 (constant S_ .f32 0x3F800000#32))

/-- The x coordinates (entry 0 of each pair). -/
def gx (grid : FVec F S1024x2x512 .f32) : FVec F S1024x512x1 .f32 :=
  fun i => shapeCast S1024x512x1 (extractStridedSlice S1024x512x1x1 ![0, 0, 0, 0] (gridPairs grid) slices_S1024x512x1x2_S1024x512x1x1_0_0_0_0)
    shapeCasts_S1024x512x1x1_S1024x512x1 i

/-- The y coordinates (entry 1 of each pair). -/
def gy (grid : FVec F S1024x2x512 .f32) : FVec F S1024x512x1 .f32 :=
  fun i => shapeCast S1024x512x1 (extractStridedSlice S1024x512x1x1 ![0, 0, 0, 1] (gridPairs grid) slices_S1024x512x1x2_S1024x512x1x1_0_0_0_1)
    shapeCasts_S1024x512x1x1_S1024x512x1 i

/-- A scalar float at every sample. -/
def perSample (v : FVec F S_ .f32) : FVec F S1024x512x1 .f32 := broadcastInDim S1024x512x1 ![] bcast_S_S1024x512x1 v

/-- A scalar integer at every sample. -/
def perSampleI (v : IVec S_ 32) : IVec S1024x512x1 32 := broadcastInDim S1024x512x1 ![] bcast_S_S1024x512x1 v

/-- The continuous pixel coordinate `((g + 1) 16 - 1) / 2`. -/
def pix (g : FVec F S1024x512x1 .f32) : FVec F S1024x512x1 .f32 :=
  Host.divf
    (subf (mulf (addf g (perSample (constant S_ .f32 0x3F800000#32))) (perSample (constant S_ .f32 0x41800000#32)))
      (perSample (constant S_ .f32 0x3F800000#32)))
    (perSample (constant S_ .f32 0x40000000#32))

/-- The weight of the upper grid line, `t - ⌊t⌋`. -/
def wHi (t : FVec F S1024x512x1 .f32) : FVec F S1024x512x1 .f32 := subf t (Host.floor t)

/-- The weight of the lower grid line, `1 - (t - ⌊t⌋)`. -/
def wLo (t : FVec F S1024x512x1 .f32) : FVec F S1024x512x1 .f32 := subf (perSample (constant S_ .f32 0x3F800000#32)) (wHi t)

/-- A real-valued grid line clamped between two integer bounds and converted to an integer. -/
def line (lo hi : IVec S_ 32) (x : FVec F S1024x512x1 .f32) : IVec S1024x512x1 32 :=
  fptosi 32 (minimumf (perSample (sitofp .f32 hi)) (maximumf (perSample (sitofp .f32 lo)) x))

/-- The lower grid line of a coordinate, clamped into 0 … 15. -/
def line0 (t : FVec F S1024x512x1 .f32) : IVec S1024x512x1 32 :=
  line (constantI S_ 32 0#32) (constantI S_ 32 15#32) (Host.floor t)

/-- The upper grid line of a coordinate, clamped into 0 … 15. -/
def line1 (t : FVec F S1024x512x1 .f32) : IVec S1024x512x1 32 :=
  line (constantI S_ 32 0#32) (constantI S_ 32 15#32) (addf (Host.floor t) (perSample (constant S_ .f32 0x3F800000#32)))

/-! ## The corner reads -/

/-- The planes in channel-last order [query, row, column, channel]. -/
def chanLast (pl : FVec F S1024x128x16x16 .f32) : FVec F S1024x16x16x128 .f32 :=
  transpose S1024x16x16x128 [0, 2, 3, 1] pl transposes_S1024x128x16x16_S1024x16x16x128_0_2_3_1

/-- The number of each query, as [1024, 1, 1]. -/
def queryNo : IVec S1024x1x1 32 := broadcastInDim S1024x1x1 ![0] bcast_S1024_S1024x1x1_0 (iotaInDim S1024 32 0)

/-- A query number, a negative one counted from the end (1024 added). -/
def wrapQ (q : IVec S1024x1x1 32) : IVec S1024x1x1 32 :=
  select (cmpi .slt q (broadcastInDim S1024x1x1 ![] bcast_S_S1024x1x1 (constantI S_ 32 0#32)))
    (addi q (broadcastInDim S1024x1x1 ![] bcast_S_S1024x1x1 (constantI S_ 32 1024#32))) q

/-- A grid line, a negative one counted from the end (16 added). -/
def wrapL (l : IVec S1024x512x1 32) : IVec S1024x512x1 32 :=
  select (cmpi .slt l (perSampleI (constantI S_ 32 0#32))) (addi l (perSampleI (constantI S_ 32 16#32))) l

/-- A per-sample array as a column [1024, 512, 1, 1]. -/
def col {α : Type} (l : S1024x512x1.Idx → α) : S1024x512x1x1.Idx → α :=
  broadcastInDim S1024x512x1x1 ![0, 1, 2] bcast_S1024x512x1_S1024x512x1x1_0_1_2 l

/-- A per-query array as a column [1024, 512, 1, 1]. -/
def qcol (q : IVec S1024x1x1 32) : IVec S1024x512x1x1 32 :=
  col (broadcastInDim S1024x512x1 ![0, 1, 2] bcast_S1024x1x1_S1024x512x1_0_1_2 q)

/-- One corner read from already wrapped indices: the channel vector at (query, row line, column line). -/
def cornerAt (pl : FVec F S1024x16x16x128 .f32) (q : IVec S1024x1x1 32) (iy ix : IVec S1024x512x1 32) :
    FVec F S1024x512x1x128 .f32 :=
  Host.gather gather_S1024x16x16x128_S1024x512x1x3_S1024x512x1x128_3_012_n_n_012_3_111128 pl
    (cat3 (F := F) (qcol q) (col iy) (col ix))

/-- One corner read: the indices wrapped, then `cornerAt`. -/
def corner (pl : FVec F S1024x16x16x128 .f32) (q : IVec S1024x1x1 32) (iy ix : IVec S1024x512x1 32) :
    FVec F S1024x512x1x128 .f32 :=
  cornerAt pl (wrapQ q) (wrapL iy) (wrapL ix)

/-! ## The weighted sum -/

/-- The product of a row weight and a column weight, at every channel. -/
def wgt (a b : FVec F S1024x512x1 .f32) : FVec F S1024x512x1x128 .f32 :=
  broadcastInDim S1024x512x1x128 ![0, 1, 2, 3] bcast_S1024x512x1x1_S1024x512x1x128_0_1_2_3 (col (mulf a b))

/-- The four corners times their weights, added left to right, in [query, channel, sample] order. -/
def blendAll (v00 v01 v10 v11 : FVec F S1024x512x1x128 .f32) (wy0 wx0 wx1 wy1 : FVec F S1024x512x1 .f32) :
    FVec F S1024x128x512 .f32 :=
  transpose S1024x128x512 [0, 2, 1]
    (fun i => shapeCast S1024x512x128
      (addf (addf (addf (mulf v00 (wgt wy0 wx0)) (mulf v01 (wgt wy0 wx1))) (mulf v10 (wgt wy1 wx0))) (mulf v11 (wgt wy1 wx1)))
      shapeCasts_S1024x512x1x128_S1024x512x128 i)
    transposes_S1024x512x128_S1024x128x512_0_2_1

/-- The reference's result as a function of its three arguments. -/
def refVal (ii : IVec S1024 32) (grid : FVec F S1024x2x512 .f32) (feat : FVec F S1024x128x16x16 .f32) :
    FVec F S1024x128x512 .f32 :=
  blendAll
    (corner (chanLast (planes ii feat)) queryNo (line0 (pix (gy grid))) (line0 (pix (gx grid))))
    (corner (chanLast (planes ii feat)) queryNo (line0 (pix (gy grid))) (line1 (pix (gx grid))))
    (corner (chanLast (planes ii feat)) queryNo (line1 (pix (gy grid))) (line0 (pix (gx grid))))
    (corner (chanLast (planes ii feat)) queryNo (line1 (pix (gy grid))) (line1 (pix (gx grid))))
    (wLo (pix (gy grid))) (wLo (pix (gx grid))) (wHi (pix (gx grid))) (wHi (pix (gy grid)))

end Cert.RefValue

end
-- ==== Proof.RefTake.lean ====
/-
  The buffers after selecting the planes: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vTake (V : Valuation τ sig (Elt F)) : Valuation τ sig (Elt F) := after cTake V

/-- The buffers this piece writes. -/
abbrev cTake_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

set_option maxRecDepth 8192 in
theorem cTake_writes : (cTake : List (HloOp τ sig (Elt F))).Forall fun op =>
    op.writes ⊆ (cTake_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vTake_keep (V : Valuation τ sig (Elt F)) (r : Ref sig .tc) (h : r ∉ cTake_W) :
    vTake V (no_index (Proc.devRef .tc r)) = V (Proc.devRef .tc r) :=
  after_of_writes_sub cTake _ cTake_writes h

set_option maxRecDepth 8192 in
set_option maxHeartbeats 2000000 in
theorem vTake_main_v0 (V : Valuation τ sig (Elt F)) :
    vTake V (no_index (Proc.devRef .tc main_v0)) = planes (V (Proc.devRef .tc main_arg0)) (V (Proc.devRef .tc main_arg2)) := by
  unfold vTake
  simp only [cTake]
  after_results_simp
  all_goals rfl

end Cert.RefValue

end
-- ==== Proof.RefGrid.lean ====
/-
  The buffers after rescaling the sample positions: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vGrid (V : Valuation τ sig (Elt F)) : Valuation τ sig (Elt F) := after cGrid V

/-- The buffers this piece writes. -/
abbrev cGrid_W : List (Ref sig .tc) := [main_v1, main_v2, main_cst, main_v3, main_v4, main_cst_0, main_v5, main_v6, main_v7, main_v8, main_v9, main_v10]

set_option maxRecDepth 8192 in
theorem cGrid_writes : (cGrid : List (HloOp τ sig (Elt F))).Forall fun op =>
    op.writes ⊆ (cGrid_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vGrid_keep (V : Valuation τ sig (Elt F)) (r : Ref sig .tc) (h : r ∉ cGrid_W) :
    vGrid V (no_index (Proc.devRef .tc r)) = V (Proc.devRef .tc r) :=
  after_of_writes_sub cGrid _ cGrid_writes h

set_option maxRecDepth 8192 in
set_option maxHeartbeats 2000000 in
theorem vGrid_main_v8 (V : Valuation τ sig (Elt F)) :
    vGrid V (no_index (Proc.devRef .tc main_v8)) = gx (V (Proc.devRef .tc main_arg1)) := by
  unfold vGrid
  simp only [cGrid]
  after_results_simp
  all_goals rfl

set_option maxRecDepth 8192 in
set_option maxHeartbeats 2000000 in
theorem vGrid_main_v10 (V : Valuation τ sig (Elt F)) :
    vGrid V (no_index (Proc.devRef .tc main_v10)) = gy (V (Proc.devRef .tc main_arg1)) := by
  unfold vGrid
  simp only [cGrid]
  after_results_simp
  all_goals rfl

end Cert.RefValue

end
-- ==== Proof.RefCoord.lean ====
/-
  The buffers after the pixel coordinates: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vCoord (V : Valuation τ sig (Elt F)) : Valuation τ sig (Elt F) := after cCoord V

/-- The buffers this piece writes. -/
abbrev cCoord_W : List (Ref sig .tc) := [main_cst_1, main_v11, main_v12, main_cst_2, main_v13, main_v14, main_cst_3, main_v15, main_v16, main_cst_4, main_v17, main_v18, main_cst_5, main_v19, main_v20, main_cst_6, main_v21, main_v22, main_cst_7, main_v23, main_v24, main_cst_8, main_v25, main_v26]

set_option maxRecDepth 8192 in
theorem cCoord_writes : (cCoord : List (HloOp τ sig (Elt F))).Forall fun op =>
    op.writes ⊆ (cCoord_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vCoord_keep (V : Valuation τ sig (Elt F)) (r : Ref sig .tc) (h : r ∉ cCoord_W) :
    vCoord V (no_index (Proc.devRef .tc r)) = V (Proc.devRef .tc r) :=
  after_of_writes_sub cCoord _ cCoord_writes h

set_option maxRecDepth 8192 in
set_option maxHeartbeats 2000000 in
theorem vCoord_main_v18 (V : Valuation τ sig (Elt F)) :
    vCoord V (no_index (Proc.devRef .tc main_v18)) = pix (V (Proc.devRef .tc main_v8)) := by
  unfold vCoord
  simp only [cCoord]
  after_results_simp
  all_goals rfl

set_option maxRecDepth 8192 in
set_option maxHeartbeats 2000000 in
theorem vCoord_main_v26 (V : Valuation τ sig (Elt F)) :
    vCoord V (no_index (Proc.devRef .tc main_v26)) = pix (V (Proc.devRef .tc main_v10)) := by
  unfold vCoord
  simp only [cCoord]
  after_results_simp
  all_goals rfl

end Cert.RefValue

end
-- ==== Proof.RefFrac.lean ====
/-
  The buffers after the floors and weights: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vFrac (V : Valuation τ sig (Elt F)) : Valuation τ sig (Elt F) := after cFrac V

/-- The buffers this piece writes. -/
abbrev cFrac_W : List (Ref sig .tc) := [main_v27, main_v28, main_v29, main_v30, main_cst_9, main_v31, main_v32, main_cst_10, main_v33, main_v34]

set_option maxRecDepth 8192 in
theorem cFrac_writes : (cFrac : List (HloOp τ sig (Elt F))).Forall fun op =>
    op.writes ⊆ (cFrac_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vFrac_keep (V : Valuation τ sig (Elt F)) (r : Ref sig .tc) (h : r ∉ cFrac_W) :
    vFrac V (no_index (Proc.devRef .tc r)) = V (Proc.devRef .tc r) :=
  after_of_writes_sub cFrac _ cFrac_writes h

set_option maxRecDepth 8192 in
set_option maxHeartbeats 2000000 in
theorem vFrac_main_v27 (V : Valuation τ sig (Elt F)) :
    vFrac V (no_index (Proc.devRef .tc main_v27)) = Host.floor (V (Proc.devRef .tc main_v18)) := by
  unfold vFrac
  simp only [cFrac]
  after_results_simp
  all_goals rfl

set_option maxRecDepth 8192 in
set_option maxHeartbeats 2000000 in
theorem vFrac_main_v28 (V : Valuation τ sig (Elt F)) :
    vFrac V (no_index (Proc.devRef .tc main_v28)) = Host.floor (V (Proc.devRef .tc main_v26)) := by
  unfold vFrac
  simp only [cFrac]
  after_results_simp
  all_goals rfl

set_option maxRecDepth 8192 in
set_option maxHeartbeats 2000000 in
theorem vFrac_main_v29 (V : Valuation τ sig (Elt F)) :
    vFrac V (no_index (Proc.devRef .tc main_v29)) = wHi (V (Proc.devRef .tc main_v18)) := by
  unfold vFrac
  simp only [cFrac]
  after_results_simp
  all_goals rfl

set_option maxRecDepth 8192 in
set_option maxHeartbeats 2000000 in
theorem vFrac_main_v30 (V : Valuation τ sig (Elt F)) :
    vFrac V (no_index (Proc.devRef .tc main_v30)) = wHi (V (Proc.devRef .tc main_v26)) := by
  unfold vFrac
  simp only [cFrac]
  after_results_simp
  all_goals rfl

set_option maxRecDepth 8192 in
set_option maxHeartbeats 2000000 in
theorem vFrac_main_v32 (V : Valuation τ sig (Elt F)) :
    vFrac V (no_index (Proc.devRef .tc main_v32)) = wLo (V (Proc.devRef .tc main_v18)) := by
  unfold vFrac
  simp only [cFrac]
  after_results_simp
  all_goals rfl

set_option maxRecDepth 8192 in
set_option maxHeartbeats 2000000 in
theorem vFrac_main_v34 (V : Valuation τ sig (Elt F)) :
    vFrac V (no_index (Proc.devRef .tc main_v34)) = wLo (V (Proc.devRef .tc main_v26)) := by
  unfold vFrac
  simp only [cFrac]
  after_results_simp
  all_goals rfl

end Cert.RefValue

end
-- ==== Proof.RefClipX.lean ====
/-
  The buffers after the column lines: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vClipX (V : Valuation τ sig (Elt F)) : Valuation τ sig (Elt F) := after cClipX V

/-- The buffers this piece writes. -/
abbrev cClipX_W : List (Ref sig .tc) := [main_c, main_c_11, main_call1_v0, main_call1_v1, main_call1_v2, main_call1_v3, main_call1_v4, main_v35, main_v36, main_cst_12, main_v37, main_v38, main_c_13, main_c_14, main_call2_v0, main_call2_v1, main_call2_v2, main_call2_v3, main_call2_v4, main_v39, main_v40, main_c_15, main_c_16]

set_option maxRecDepth 8192 in
theorem cClipX_writes : (cClipX : List (HloOp τ sig (Elt F))).Forall fun op =>
    op.writes ⊆ (cClipX_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vClipX_keep (V : Valuation τ sig (Elt F)) (r : Ref sig .tc) (h : r ∉ cClipX_W) :
    vClipX V (no_index (Proc.devRef .tc r)) = V (Proc.devRef .tc r) :=
  after_of_writes_sub cClipX _ cClipX_writes h

set_option maxRecDepth 8192 in
set_option maxHeartbeats 2000000 in
theorem vClipX_main_v36 (V : Valuation τ sig (Elt F)) :
    vClipX V (no_index (Proc.devRef .tc main_v36)) = line (constantI S_ 32 0#32) (constantI S_ 32 15#32) (V (Proc.devRef .tc main_v27)) := by
  unfold vClipX
  simp only [cClipX]
  after_results_simp
  all_goals rfl

set_option maxRecDepth 8192 in
set_option maxHeartbeats 2000000 in
theorem vClipX_main_v40 (V : Valuation τ sig (Elt F)) :
    vClipX V (no_index (Proc.devRef .tc main_v40)) = line (constantI S_ 32 0#32) (constantI S_ 32 15#32) (addf (V (Proc.devRef .tc main_v27)) (perSample (constant S_ .f32 0x3F800000#32))) := by
  unfold vClipX
  simp only [cClipX]
  after_results_simp
  all_goals rfl

set_option maxRecDepth 8192 in
set_option maxHeartbeats 2000000 in
theorem vClipX_main_c_15 (V : Valuation τ sig (Elt F)) :
    vClipX V (no_index (Proc.devRef .tc main_c_15)) = constantI S_ 32 0#32 := by
  unfold vClipX
  simp only [cClipX]
  after_results_simp
  all_goals rfl

set_option maxRecDepth 8192 in
set_option maxHeartbeats 2000000 in
theorem vClipX_main_c_16 (V : Valuation τ sig (Elt F)) :
    vClipX V (no_index (Proc.devRef .tc main_c_16)) = constantI S_ 32 15#32 := by
  unfold vClipX
  simp only [cClipX]
  after_results_simp
  all_goals rfl

end Cert.RefValue

end
-- ==== Proof.RefClipY.lean ====
/-
  The buffers after the row lines: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vClipY (V : Valuation τ sig (Elt F)) : Valuation τ sig (Elt F) := after cClipY V

/-- The buffers this piece writes. -/
abbrev cClipY_W : List (Ref sig .tc) := [main_call3_v0, main_call3_v1, main_call3_v2, main_call3_v3, main_call3_v4, main_v41, main_v42, main_cst_17, main_v43, main_v44, main_c_18, main_c_19, main_call4_v0, main_call4_v1, main_call4_v2, main_call4_v3, main_call4_v4, main_v45, main_v46]

set_option maxRecDepth 8192 in
theorem cClipY_writes : (cClipY : List (HloOp τ sig (Elt F))).Forall fun op =>
    op.writes ⊆ (cClipY_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vClipY_keep (V : Valuation τ sig (Elt F)) (r : Ref sig .tc) (h : r ∉ cClipY_W) :
    vClipY V (no_index (Proc.devRef .tc r)) = V (Proc.devRef .tc r) :=
  after_of_writes_sub cClipY _ cClipY_writes h

set_option maxRecDepth 8192 in
set_option maxHeartbeats 2000000 in
theorem vClipY_main_v42 (V : Valuation τ sig (Elt F)) :
    vClipY V (no_index (Proc.devRef .tc main_v42)) = line (V (Proc.devRef .tc main_c_15)) (V (Proc.devRef .tc main_c_16)) (V (Proc.devRef .tc main_v28)) := by
  unfold vClipY
  simp only [cClipY]
  after_results_simp
  all_goals rfl

set_option maxRecDepth 8192 in
set_option maxHeartbeats 2000000 in
theorem vClipY_main_v46 (V : Valuation τ sig (Elt F)) :
    vClipY V (no_index (Proc.devRef .tc main_v46)) = line (constantI S_ 32 0#32) (constantI S_ 32 15#32) (addf (V (Proc.devRef .tc main_v28)) (perSample (constant S_ .f32 0x3F800000#32))) := by
  unfold vClipY
  simp only [cClipY]
  after_results_simp
  all_goals rfl

end Cert.RefValue

end
-- ==== Proof.RefPlane.lean ====
/-
  The buffers after the channel-last planes: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vPlane (V : Valuation τ sig (Elt F)) : Valuation τ sig (Elt F) := after cPlane V

/-- The buffers this piece writes. -/
abbrev cPlane_W : List (Ref sig .tc) := [main_v47, main_v48, main_v49]

set_option maxRecDepth 8192 in
theorem cPlane_writes : (cPlane : List (HloOp τ sig (Elt F))).Forall fun op =>
    op.writes ⊆ (cPlane_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vPlane_keep (V : Valuation τ sig (Elt F)) (r : Ref sig .tc) (h : r ∉ cPlane_W) :
    vPlane V (no_index (Proc.devRef .tc r)) = V (Proc.devRef .tc r) :=
  after_of_writes_sub cPlane _ cPlane_writes h

set_option maxRecDepth 8192 in
set_option maxHeartbeats 2000000 in
theorem vPlane_main_v47 (V : Valuation τ sig (Elt F)) :
    vPlane V (no_index (Proc.devRef .tc main_v47)) = chanLast (V (Proc.devRef .tc main_v0)) := by
  unfold vPlane
  simp only [cPlane]
  after_results_simp
  all_goals rfl

set_option maxRecDepth 8192 in
set_option maxHeartbeats 2000000 in
theorem vPlane_main_v49 (V : Valuation τ sig (Elt F)) :
    vPlane V (no_index (Proc.devRef .tc main_v49)) = queryNo := by
  unfold vPlane
  simp only [cPlane]
  after_results_simp
  all_goals rfl

end Cert.RefValue

end
-- ==== Proof.RefCorner00.lean ====
/-
  The buffers after the first corner read: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vCorner00 (V : Valuation τ sig (Elt F)) : Valuation τ sig (Elt F) := after cCorner00 V

/-- The buffers this piece writes. -/
abbrev cCorner00_W : List (Ref sig .tc) := [main_c_20, main_v50, main_v51, main_c_21, main_v52, main_v53, main_v54, main_c_22, main_v55, main_v56, main_c_23, main_v57, main_v58, main_v59, main_c_24, main_v60, main_v61, main_c_25, main_v62, main_v63, main_v64, main_v65, main_v66, main_v67, main_v68, main_v69, main_v70]

set_option maxRecDepth 8192 in
theorem cCorner00_writes : (cCorner00 : List (HloOp τ sig (Elt F))).Forall fun op =>
    op.writes ⊆ (cCorner00_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vCorner00_keep (V : Valuation τ sig (Elt F)) (r : Ref sig .tc) (h : r ∉ cCorner00_W) :
    vCorner00 V (no_index (Proc.devRef .tc r)) = V (Proc.devRef .tc r) :=
  after_of_writes_sub cCorner00 _ cCorner00_writes h

set_option maxRecDepth 8192 in
set_option maxHeartbeats 2000000 in
theorem vCorner00_main_v70 (V : Valuation τ sig (Elt F)) :
    vCorner00 V (no_index (Proc.devRef .tc main_v70)) = corner (V (Proc.devRef .tc main_v47)) (V (Proc.devRef .tc main_v49)) (V (Proc.devRef .tc main_v42)) (V (Proc.devRef .tc main_v36)) := by
  unfold vCorner00
  simp only [cCorner00]
  after_results_simp
  try dsimp only [Matrix.cons_val]
  try after_results_simp
  all_goals rfl

end Cert.RefValue

end
-- ==== Proof.RefIdx01.lean ====
/-
  The buffers after the second corner's index columns: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vIdx01 (V : Valuation τ sig (Elt F)) : Valuation τ sig (Elt F) := after cIdx01 V

/-- The buffers this piece writes. -/
abbrev cIdx01_W : List (Ref sig .tc) := [main_c_26, main_v71, main_v72, main_c_27, main_v73, main_v74, main_v75, main_c_28, main_v76, main_v77, main_c_29, main_v78, main_v79, main_v80, main_c_30, main_v81, main_v82, main_c_31, main_v83, main_v84, main_v85]

set_option maxRecDepth 8192 in
theorem cIdx01_writes : (cIdx01 : List (HloOp τ sig (Elt F))).Forall fun op =>
    op.writes ⊆ (cIdx01_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vIdx01_keep (V : Valuation τ sig (Elt F)) (r : Ref sig .tc) (h : r ∉ cIdx01_W) :
    vIdx01 V (no_index (Proc.devRef .tc r)) = V (Proc.devRef .tc r) :=
  after_of_writes_sub cIdx01 _ cIdx01_writes h

set_option maxRecDepth 8192 in
set_option maxHeartbeats 2000000 in
theorem vIdx01_main_v75 (V : Valuation τ sig (Elt F)) :
    vIdx01 V (no_index (Proc.devRef .tc main_v75)) = wrapQ (V (Proc.devRef .tc main_v49)) := by
  unfold vIdx01
  simp only [cIdx01]
  after_results_simp
  all_goals rfl

set_option maxRecDepth 8192 in
set_option maxHeartbeats 2000000 in
theorem vIdx01_main_v80 (V : Valuation τ sig (Elt F)) :
    vIdx01 V (no_index (Proc.devRef .tc main_v80)) = wrapL (V (Proc.devRef .tc main_v42)) := by
  unfold vIdx01
  simp only [cIdx01]
  after_results_simp
  all_goals rfl

set_option maxRecDepth 8192 in
set_option maxHeartbeats 2000000 in
theorem vIdx01_main_v85 (V : Valuation τ sig (Elt F)) :
    vIdx01 V (no_index (Proc.devRef .tc main_v85)) = wrapL (V (Proc.devRef .tc main_v40)) := by
  unfold vIdx01
  simp only [cIdx01]
  after_results_simp
  all_goals rfl

end Cert.RefValue

end
-- ==== Proof.RefCorner01.lean ====
/-
  The buffers after the second corner read: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vCorner01 (V : Valuation τ sig (Elt F)) : Valuation τ sig (Elt F) := after cCorner01 V

/-- The buffers this piece writes. -/
abbrev cCorner01_W : List (Ref sig .tc) := [main_v86, main_v87, main_v88, main_v89, main_v90, main_v91]

set_option maxRecDepth 8192 in
theorem cCorner01_writes : (cCorner01 : List (HloOp τ sig (Elt F))).Forall fun op =>
    op.writes ⊆ (cCorner01_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vCorner01_keep (V : Valuation τ sig (Elt F)) (r : Ref sig .tc) (h : r ∉ cCorner01_W) :
    vCorner01 V (no_index (Proc.devRef .tc r)) = V (Proc.devRef .tc r) :=
  after_of_writes_sub cCorner01 _ cCorner01_writes h

set_option maxRecDepth 8192 in
set_option maxHeartbeats 2000000 in
theorem vCorner01_main_v91 (V : Valuation τ sig (Elt F)) :
    vCorner01 V (no_index (Proc.devRef .tc main_v91)) = cornerAt (V (Proc.devRef .tc main_v47)) (V (Proc.devRef .tc main_v75)) (V (Proc.devRef .tc main_v80)) (V (Proc.devRef .tc main_v85)) := by
  unfold vCorner01
  simp only [cCorner01]
  after_results_simp
  try dsimp only [Matrix.cons_val]
  try after_results_simp
  all_goals rfl

end Cert.RefValue

end
-- ==== Proof.RefCorner10.lean ====
/-
  The buffers after the third corner read: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vCorner10 (V : Valuation τ sig (Elt F)) : Valuation τ sig (Elt F) := after cCorner10 V

/-- The buffers this piece writes. -/
abbrev cCorner10_W : List (Ref sig .tc) := [main_c_32, main_v92, main_v93, main_c_33, main_v94, main_v95, main_v96, main_c_34, main_v97, main_v98, main_c_35, main_v99, main_v100, main_v101, main_c_36, main_v102, main_v103, main_c_37, main_v104, main_v105, main_v106, main_v107, main_v108, main_v109, main_v110, main_v111, main_v112]

set_option maxRecDepth 8192 in
theorem cCorner10_writes : (cCorner10 : List (HloOp τ sig (Elt F))).Forall fun op =>
    op.writes ⊆ (cCorner10_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vCorner10_keep (V : Valuation τ sig (Elt F)) (r : Ref sig .tc) (h : r ∉ cCorner10_W) :
    vCorner10 V (no_index (Proc.devRef .tc r)) = V (Proc.devRef .tc r) :=
  after_of_writes_sub cCorner10 _ cCorner10_writes h

set_option maxRecDepth 8192 in
set_option maxHeartbeats 2000000 in
theorem vCorner10_main_v112 (V : Valuation τ sig (Elt F)) :
    vCorner10 V (no_index (Proc.devRef .tc main_v112)) = corner (V (Proc.devRef .tc main_v47)) (V (Proc.devRef .tc main_v49)) (V (Proc.devRef .tc main_v46)) (V (Proc.devRef .tc main_v36)) := by
  unfold vCorner10
  simp only [cCorner10]
  after_results_simp
  try dsimp only [Matrix.cons_val]
  try after_results_simp
  all_goals rfl

end Cert.RefValue

end
-- ==== Proof.RefCorner11.lean ====
/-
  The buffers after the fourth corner read: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vCorner11 (V : Valuation τ sig (Elt F)) : Valuation τ sig (Elt F) := after cCorner11 V

/-- The buffers this piece writes. -/
abbrev cCorner11_W : List (Ref sig .tc) := [main_c_38, main_v113, main_v114, main_c_39, main_v115, main_v116, main_v117, main_c_40, main_v118, main_v119, main_c_41, main_v120, main_v121, main_v122, main_c_42, main_v123, main_v124, main_c_43, main_v125, main_v126, main_v127, main_v128, main_v129, main_v130, main_v131, main_v132, main_v133]

set_option maxRecDepth 8192 in
theorem cCorner11_writes : (cCorner11 : List (HloOp τ sig (Elt F))).Forall fun op =>
    op.writes ⊆ (cCorner11_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vCorner11_keep (V : Valuation τ sig (Elt F)) (r : Ref sig .tc) (h : r ∉ cCorner11_W) :
    vCorner11 V (no_index (Proc.devRef .tc r)) = V (Proc.devRef .tc r) :=
  after_of_writes_sub cCorner11 _ cCorner11_writes h

set_option maxRecDepth 8192 in
set_option maxHeartbeats 2000000 in
theorem vCorner11_main_v133 (V : Valuation τ sig (Elt F)) :
    vCorner11 V (no_index (Proc.devRef .tc main_v133)) = corner (V (Proc.devRef .tc main_v47)) (V (Proc.devRef .tc main_v49)) (V (Proc.devRef .tc main_v46)) (V (Proc.devRef .tc main_v40)) := by
  unfold vCorner11
  simp only [cCorner11]
  after_results_simp
  try dsimp only [Matrix.cons_val]
  try after_results_simp
  all_goals rfl

end Cert.RefValue

end
-- ==== Proof.RefBlend.lean ====
/-
  The buffers after the weighted sum: what the operations of this piece leave in the buffers later pieces read, as
  functions of what they found, and that they leave every other buffer alone.
-/
import proofs.«207350_g59966333387111_cont_9to1_m_496_19_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after this piece, from contents `V`. -/
def vBlend (V : Valuation τ sig (Elt F)) : Valuation τ sig (Elt F) := after cBlend V

/-- The buffers this piece writes. -/
abbrev cBlend_W : List (Ref sig .tc) := [main_v134, main_v135, main_v136, main_v137, main_v138, main_v139, main_v140, main_v141, main_v142, main_v143, main_v144, main_v145, main_v146, main_v147, main_v148, main_v149, main_v150, main_v151, main_v152, main_v153, main_v154]

set_option maxRecDepth 8192 in
theorem cBlend_writes : (cBlend : List (HloOp τ sig (Elt F))).Forall fun op =>
    op.writes ⊆ (cBlend_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer this piece does not write keeps its contents through it. -/
theorem vBlend_keep (V : Valuation τ sig (Elt F)) (r : Ref sig .tc) (h : r ∉ cBlend_W) :
    vBlend V (no_index (Proc.devRef .tc r)) = V (Proc.devRef .tc r) :=
  after_of_writes_sub cBlend _ cBlend_writes h

set_option maxRecDepth 8192 in
set_option maxHeartbeats 2000000 in
theorem vBlend_main_v154 (V : Valuation τ sig (Elt F)) :
    vBlend V (no_index (Proc.devRef .tc main_v154)) = blendAll (V (Proc.devRef .tc main_v70)) (V (Proc.devRef .tc main_v91)) (V (Proc.devRef .tc main_v112)) (V (Proc.devRef .tc main_v133)) (V (Proc.devRef .tc main_v34)) (V (Proc.devRef .tc main_v32)) (V (Proc.devRef .tc main_v29)) (V (Proc.devRef .tc main_v30)) := by
  unfold vBlend
  simp only [cBlend]
  after_results_simp
  all_goals rfl

end Cert.RefValue

end
-- ==== Proof.RefFresh.lean ====
/-
  Every operation of the reference determines its results from its operands: none of them hands out a buffer with
  contents left open.  Stated piece by piece and then for the whole list.
-/
import proofs.«207350_g59966333387111_cont_9to1_m_496_19_alg».proof.Proof.RefOps

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_mem_append {α : Type} {p : α → Prop} {l₁ l₂ : List α} (h₁ : ∀ x ∈ l₁, p x) (h₂ : ∀ x ∈ l₂, p x) :
    ∀ x ∈ l₁ ++ l₂, p x :=
  fun x hx => (List.mem_append.mp hx).elim (h₁ x) (h₂ x)

theorem cTake_fresh : ∀ op ∈ (cTake : List (HloOp τ sig (Elt F))), op.fresh = ∅ := by
  intro _ h; (repeat (cases h with | head => rfl | tail _ h => ?_)); exact nomatch h

theorem cGrid_fresh : ∀ op ∈ (cGrid : List (HloOp τ sig (Elt F))), op.fresh = ∅ := by
  intro _ h; (repeat (cases h with | head => rfl | tail _ h => ?_)); exact nomatch h

theorem cCoord_fresh : ∀ op ∈ (cCoord : List (HloOp τ sig (Elt F))), op.fresh = ∅ := by
  intro _ h; (repeat (cases h with | head => rfl | tail _ h => ?_)); exact nomatch h

theorem cFrac_fresh : ∀ op ∈ (cFrac : List (HloOp τ sig (Elt F))), op.fresh = ∅ := by
  intro _ h; (repeat (cases h with | head => rfl | tail _ h => ?_)); exact nomatch h

theorem cClipX_fresh : ∀ op ∈ (cClipX : List (HloOp τ sig (Elt F))), op.fresh = ∅ := by
  intro _ h; (repeat (cases h with | head => rfl | tail _ h => ?_)); exact nomatch h

theorem cClipY_fresh : ∀ op ∈ (cClipY : List (HloOp τ sig (Elt F))), op.fresh = ∅ := by
  intro _ h; (repeat (cases h with | head => rfl | tail _ h => ?_)); exact nomatch h

theorem cPlane_fresh : ∀ op ∈ (cPlane : List (HloOp τ sig (Elt F))), op.fresh = ∅ := by
  intro _ h; (repeat (cases h with | head => rfl | tail _ h => ?_)); exact nomatch h

theorem cCorner00_fresh : ∀ op ∈ (cCorner00 : List (HloOp τ sig (Elt F))), op.fresh = ∅ := by
  intro _ h; (repeat (cases h with | head => rfl | tail _ h => ?_)); exact nomatch h

theorem cIdx01_fresh : ∀ op ∈ (cIdx01 : List (HloOp τ sig (Elt F))), op.fresh = ∅ := by
  intro _ h; (repeat (cases h with | head => rfl | tail _ h => ?_)); exact nomatch h

theorem cCorner01_fresh : ∀ op ∈ (cCorner01 : List (HloOp τ sig (Elt F))), op.fresh = ∅ := by
  intro _ h; (repeat (cases h with | head => rfl | tail _ h => ?_)); exact nomatch h

theorem cCorner10_fresh : ∀ op ∈ (cCorner10 : List (HloOp τ sig (Elt F))), op.fresh = ∅ := by
  intro _ h; (repeat (cases h with | head => rfl | tail _ h => ?_)); exact nomatch h

theorem cCorner11_fresh : ∀ op ∈ (cCorner11 : List (HloOp τ sig (Elt F))), op.fresh = ∅ := by
  intro _ h; (repeat (cases h with | head => rfl | tail _ h => ?_)); exact nomatch h

theorem cBlend_fresh : ∀ op ∈ (cBlend : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  forall_mem_append (forall_mem_append cTake_fresh (forall_mem_append cGrid_fresh (forall_mem_append cCoord_fresh (forall_mem_append cFrac_fresh (cClipX_fresh))))) (forall_mem_append (forall_mem_append cClipY_fresh (forall_mem_append cPlane_fresh (forall_mem_append cCorner00_fresh (cIdx01_fresh)))) (forall_mem_append (forall_mem_append cCorner01_fresh (forall_mem_append cCorner10_fresh (cCorner11_fresh))) (cBlend_fresh)))

end Cert.RefValue

end
-- ==== Proof.RefRun.lean ====
/-
  The reference's run read back: every weakly fair execution of @main terminates, its result buffer holds the
  composed value `refVal` of the three argument arrays, and the arguments are left as they were.

  The operations run piece by piece; each piece's lemmas say what it leaves in the buffers later pieces read and that
  it leaves the others alone, so the result buffer is read by following those equations backwards from the last piece.
-/
import proofs.«207350_g59966333387111_cont_9to1_m_496_19_alg».proof.Proof.RefTake
import proofs.«207350_g59966333387111_cont_9to1_m_496_19_alg».proof.Proof.RefGrid
import proofs.«207350_g59966333387111_cont_9to1_m_496_19_alg».proof.Proof.RefCoord
import proofs.«207350_g59966333387111_cont_9to1_m_496_19_alg».proof.Proof.RefFrac
import proofs.«207350_g59966333387111_cont_9to1_m_496_19_alg».proof.Proof.RefClipX
import proofs.«207350_g59966333387111_cont_9to1_m_496_19_alg».proof.Proof.RefClipY
import proofs.«207350_g59966333387111_cont_9to1_m_496_19_alg».proof.Proof.RefPlane
import proofs.«207350_g59966333387111_cont_9to1_m_496_19_alg».proof.Proof.RefCorner00
import proofs.«207350_g59966333387111_cont_9to1_m_496_19_alg».proof.Proof.RefIdx01
import proofs.«207350_g59966333387111_cont_9to1_m_496_19_alg».proof.Proof.RefCorner01
import proofs.«207350_g59966333387111_cont_9to1_m_496_19_alg».proof.Proof.RefCorner10
import proofs.«207350_g59966333387111_cont_9to1_m_496_19_alg».proof.Proof.RefCorner11
import proofs.«207350_g59966333387111_cont_9to1_m_496_19_alg».proof.Proof.RefBlend
import proofs.«207350_g59966333387111_cont_9to1_m_496_19_alg».proof.Proof.RefFresh
import Idealize.ShloMosaic.Lib.Pipeline.Frame

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The contents after the whole list are the pieces' contents functions composed in order. -/
theorem after_ops (V : Valuation τ sig (Elt F)) :
    after ops V = vBlend (vCorner11 (vCorner10 (vCorner01 (vIdx01 (vCorner00 (vPlane (vClipY (vClipX (vFrac (vCoord (vGrid (vTake V)))))))))))) := by
  simp only [ops, ops0, ops1, ops2, ops3, after_append]
  rfl

set_option maxRecDepth 8192 in
set_option maxHeartbeats 2000000 in
/-- The result buffer after the whole list is `refVal` of the arguments' contents. -/
theorem out_eq (V : Valuation τ sig (Elt F)) :
    after ops V (Proc.devRef .tc main_v154) = refVal (V (Proc.devRef .tc main_arg0)) (V (Proc.devRef .tc main_arg1)) (V (Proc.devRef .tc main_arg2)) := by
  rw [after_ops]
  simp (disch := decide) only [vBlend_main_v154, vCorner11_main_v133, vCorner10_main_v112, vCorner01_main_v91, vIdx01_main_v75, vIdx01_main_v80, vIdx01_main_v85, vCorner00_main_v70, vPlane_main_v47, vPlane_main_v49, vClipY_main_v42, vClipY_main_v46, vClipX_main_v36, vClipX_main_v40, vClipX_main_c_15, vClipX_main_c_16, vFrac_main_v27, vFrac_main_v28, vFrac_main_v29, vFrac_main_v30, vFrac_main_v32, vFrac_main_v34, vCoord_main_v18, vCoord_main_v26, vGrid_main_v8, vGrid_main_v10, vTake_main_v0,
    vBlend_keep, vCorner11_keep, vCorner10_keep, vCorner01_keep, vIdx01_keep, vCorner00_keep, vPlane_keep, vClipY_keep, vClipX_keep, vFrac_keep, vCoord_keep, vGrid_keep, vTake_keep]
  rfl

/-- No operation writes `main_arg0`. -/
theorem main_arg0_eq (V : Valuation τ sig (Elt F)) : after ops V (Proc.devRef .tc main_arg0) = V (Proc.devRef .tc main_arg0) := by
  rw [after_ops]
  simp (disch := decide) only [vBlend_keep, vCorner11_keep, vCorner10_keep, vCorner01_keep, vIdx01_keep, vCorner00_keep, vPlane_keep, vClipY_keep, vClipX_keep, vFrac_keep, vCoord_keep, vGrid_keep, vTake_keep]

/-- No operation writes `main_arg1`. -/
theorem main_arg1_eq (V : Valuation τ sig (Elt F)) : after ops V (Proc.devRef .tc main_arg1) = V (Proc.devRef .tc main_arg1) := by
  rw [after_ops]
  simp (disch := decide) only [vBlend_keep, vCorner11_keep, vCorner10_keep, vCorner01_keep, vIdx01_keep, vCorner00_keep, vPlane_keep, vClipY_keep, vClipX_keep, vFrac_keep, vCoord_keep, vGrid_keep, vTake_keep]

/-- No operation writes `main_arg2`. -/
theorem main_arg2_eq (V : Valuation τ sig (Elt F)) : after ops V (Proc.devRef .tc main_arg2) = V (Proc.devRef .tc main_arg2) := by
  rw [after_ops]
  simp (disch := decide) only [vBlend_keep, vCorner11_keep, vCorner10_keep, vCorner01_keep, vIdx01_keep, vCorner00_keep, vPlane_keep, vClipY_keep, vClipX_keep, vFrac_keep, vCoord_keep, vGrid_keep, vTake_keep]

/-- On every device, for any float values, from any memory with zero counters: every weakly fair execution of @main
    terminates with the result at `refVal` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v154) = refVal (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v154).trans (out_eq (launchContents m c)),
      (h c main_arg0).trans (main_arg0_eq (launchContents m c)),
      (h c main_arg1).trans (main_arg1_eq (launchContents m c)),
      (h c main_arg2).trans (main_arg2_eq (launchContents m c))⟩)
    (run_seq scopedRefs_eq scopedSems_eq defs main (fun _ => ops) main_eq (fun _ => ops_sub) m ρ (fun _ => ops_fresh))

end Cert.RefValue

end
-- ==== Proof.RefReadAxis.lean ====
/-
  One axis of a sample, read at an index.

  The sample positions rescaled, at (query, sample): entry k of the pair is `2 g - 1` of the argument at
  (query, k, sample).  From such a coordinate the reference's pixel coordinate, floor, weights and clamped grid lines
  are, field by field, the "floor first" axis data of the specification.
-/
import proofs.«207350_g59966333387111_cont_9to1_m_496_19_alg».proof.Proof.RefStages
import proofs.«207350_g59966333387111_cont_9to1_m_496_19_alg».proof.Proof.Spec
import Idealize.ShloMosaic.Lib.Pipeline.Value

noncomputable section

namespace Cert.RefValue

open Cert.ReferenceIdeal Cert.ReferenceIdeal.Gen Idealize.ShloMosaic Idealize.ShloMosaic.ValueIdx

open Cert

/-- The rescaled pair at (query b, sample p), entry k: the argument at (b, k, p), doubled, less one. -/
theorem gridPairs_apply (grid : FVec Ideal S1024x2x512 .f32) (b : Fin 1024) (p : Fin 512) (k : Fin 2) :
    gridPairs (F := Ideal) grid (ix4 b p 0 k) = grid (ix3 b k p) * Spec.c2 - Spec.c1 := by
  show (broadcastInDim S1024x512x1x2 ![0, 1, 3] bcast_S1024x512x2_S1024x512x1x2_0_1_3
      (transpose S1024x512x2 [0, 2, 1] grid transposes_S1024x2x512_S1024x512x2_0_2_1)) (ix4 b p 0 k) * Spec.c2 - Spec.c1 = _
  refine congrArg (fun v : EReal => v * Spec.c2 - Spec.c1) ?_
  refine (broadcastInDim_apply _ _ _ (ix4 b p 0 k) (ix3 b p k)
    (fun a => match a with | ⟨0, _⟩ => rfl | ⟨1, _⟩ => rfl | ⟨2, _⟩ => rfl)).trans ?_
  exact transpose_apply _ _ _ (ix3 b p k) (ix3 b k p) (fun a => match a with | ⟨0, _⟩ => rfl | ⟨1, _⟩ => rfl | ⟨2, _⟩ => rfl)

/-- The x coordinate of sample p of query b. -/
theorem gx_apply (grid : FVec Ideal S1024x2x512 .f32) (b : Fin 1024) (p : Fin 512) :
    gx (F := Ideal) grid (ix3 b p 0) = grid (ix3 b 0 p) * Spec.c2 - Spec.c1 := by
  unfold gx
  refine (shapeCast_apply _ _ (ix3 b p 0) (ix4 b p 0 0) ?_).trans ?_
  · rw [Shape.rowMajor_val_four, Shape.rowMajor_val_three]
    show ((b.val * 512 + p.val) * 1 + 0) * 1 + 0 = (b.val * 512 + p.val) * 1 + 0
    omega
  refine (extractStridedSlice_apply _ _ _ (ix4 b p 0 0) (ix4 b p 0 0) (fun a => match a with
    | ⟨0, _⟩ => by show b.val = 0 + b.val; omega
    | ⟨1, _⟩ => by show p.val = 0 + p.val; omega
    | ⟨2, _⟩ => by show 0 = 0 + 0; omega
    | ⟨3, _⟩ => by show 0 = 0 + 0; omega)).trans ?_
  exact gridPairs_apply grid b p 0

/-- The y coordinate of sample p of query b. -/
theorem gy_apply (grid : FVec Ideal S1024x2x512 .f32) (b : Fin 1024) (p : Fin 512) :
    gy (F := Ideal) grid (ix3 b p 0) = grid (ix3 b 1 p) * Spec.c2 - Spec.c1 := by
  unfold gy
  refine (shapeCast_apply _ _ (ix3 b p 0) (ix4 b p 0 0) ?_).trans ?_
  · rw [Shape.rowMajor_val_four, Shape.rowMajor_val_three]
    show ((b.val * 512 + p.val) * 1 + 0) * 1 + 0 = (b.val * 512 + p.val) * 1 + 0
    omega
  refine (extractStridedSlice_apply _ _ _ (ix4 b p 0 0) (ix4 b p 0 1) (fun a => match a with
    | ⟨0, _⟩ => by show b.val = 0 + b.val; omega
    | ⟨1, _⟩ => by show p.val = 0 + p.val; omega
    | ⟨2, _⟩ => by show 0 = 0 + 0; omega
    | ⟨3, _⟩ => by show 1 = 1 + 0; omega)).trans ?_
  exact gridPairs_apply grid b p 1

/-- From a rescaled coordinate `2 x - 1` at an index, the lower clamped grid line is the specification's. -/
theorem line0_pix (g : FVec Ideal S1024x512x1 .f32) (i : S1024x512x1.Idx) (x : EReal) (hg : g i = x * Spec.c2 - Spec.c1) :
    line0 (F := Ideal) (pix g) i = (Spec.floorFirst x).i0 := by
  show Ideal.fptosi 32 (Spec.clipLine (Ideal.liftRound Int.floor (Ideal.div ((g i + Spec.c1) * Spec.c16 - Spec.c1) Spec.c2))) = _
  rw [hg]; rfl

/-- … the upper clamped grid line. -/
theorem line1_pix (g : FVec Ideal S1024x512x1 .f32) (i : S1024x512x1.Idx) (x : EReal) (hg : g i = x * Spec.c2 - Spec.c1) :
    line1 (F := Ideal) (pix g) i = (Spec.floorFirst x).i1 := by
  show Ideal.fptosi 32 (Spec.clipLine (Ideal.liftRound Int.floor (Ideal.div ((g i + Spec.c1) * Spec.c16 - Spec.c1) Spec.c2) + Spec.c1)) = _
  rw [hg]; rfl

/-- … the weight of the upper line. -/
theorem wHi_pix (g : FVec Ideal S1024x512x1 .f32) (i : S1024x512x1.Idx) (x : EReal) (hg : g i = x * Spec.c2 - Spec.c1) :
    wHi (F := Ideal) (pix g) i = (Spec.floorFirst x).w1 := by
  show Ideal.div ((g i + Spec.c1) * Spec.c16 - Spec.c1) Spec.c2
      - Ideal.liftRound Int.floor (Ideal.div ((g i + Spec.c1) * Spec.c16 - Spec.c1) Spec.c2) = _
  rw [hg]; rfl

/-- … the weight of the lower line. -/
theorem wLo_pix (g : FVec Ideal S1024x512x1 .f32) (i : S1024x512x1.Idx) (x : EReal) (hg : g i = x * Spec.c2 - Spec.c1) :
    wLo (F := Ideal) (pix g) i = (Spec.floorFirst x).w0 := by
  show Spec.c1 - (Ideal.div ((g i + Spec.c1) * Spec.c16 - Spec.c1) Spec.c2
      - Ideal.liftRound Int.floor (Ideal.div ((g i + Spec.c1) * Spec.c16 - Spec.c1) Spec.c2)) = _
  rw [hg]; rfl

end Cert.RefValue

end
-- ==== Proof.RefReadBits.lean ====
/-
  Facts about 32-bit words read as signed integers: the comparisons and the wrap-around select at a word known to be
  non-negative, a gather's clamp at a word known to be in range, and the word of a small natural number.
-/
import Idealize.ShloMosaic.PureOps.Ideal
import Idealize.ShloMosaic.Lib.ValueIdx

noncomputable section

namespace Cert.RefValue

open Idealize.ShloMosaic Idealize.ShloMosaic.ValueIdx

/-- A non-negative word is not below zero. -/
theorem cmpi_slt_zero (x : BitVec 32) (h : 0 ≤ x.toInt) : IntOp.cmpi .slt x 0#32 = 0#1 := by
  have e : x.slt 0#32 = false := by
    rw [BitVec.slt, decide_eq_false_iff_not, BitVec.toInt_zero]; omega
  show BitVec.ofBool (x.slt 0#32) = 0#1
  rw [e]; rfl

/-- "If negative, add the extent": a non-negative word is kept. -/
theorem wrap_keep (x k : BitVec 32) (h : 0 ≤ x.toInt) :
    Scalar.select (IntOp.cmpi .slt x 0#32) (IntOp.addi x k) x = x := by
  rw [cmpi_slt_zero x h, select_zero]

/-- A word in 0 … 1023 passes both bounds tests. -/
theorem in_range_1023 (x : BitVec 32) (h0 : 0 ≤ x.toInt) (h1 : x.toInt ≤ 1023) :
    IntOp.andi (IntOp.cmpi .sge x 0#32) (IntOp.cmpi .sle x 1023#32) = 1#1 := by
  have a : (0#32 : BitVec 32).sle x = true := by
    rw [BitVec.sle, decide_eq_true_iff, BitVec.toInt_zero]; exact h0
  have b : x.sle 1023#32 = true := by
    have e : (1023#32 : BitVec 32).toInt = 1023 := by decide
    rw [BitVec.sle, decide_eq_true_iff, e]; exact h1
  show BitVec.ofBool ((0#32 : BitVec 32).sle x) &&& BitVec.ofBool (x.sle 1023#32) = 1#1
  rw [a, b]; rfl

/-- A non-negative word read signed is the word read unsigned. -/
theorem toInt_eq_toNat (x : BitVec 32) (h : 0 ≤ x.toInt) : x.toInt = (x.toNat : Int) := by
  have hlt := x.isLt
  rw [BitVec.toInt_eq_toNat_cond] at h ⊢
  split at h <;> rename_i hc
  · rw [if_pos hc]
  · exfalso; omega

/-- The clamp of a start index into 0 … 1023 at a word already there. -/
theorem clamp_1023 (x : BitVec 32) (h0 : 0 ≤ x.toInt) (h1 : x.toInt ≤ 1023) : min x.toInt.toNat 1023 = x.toNat % 1024 := by
  rw [toInt_eq_toNat x h0] at h1 ⊢; omega

/-- The clamp of a start index into 0 … 15 at a word already there. -/
theorem clamp_15 (x : BitVec 32) (h0 : 0 ≤ x.toInt) (h1 : x.toInt ≤ 15) : min x.toInt.toNat 15 = x.toNat % 16 := by
  rw [toInt_eq_toNat x h0] at h1 ⊢; omega

/-- The word of a natural number below 1024, read signed, is that number. -/
theorem toInt_ofNat_small (n : Nat) (h : n < 1024) : (BitVec.ofNat 32 n).toInt = (n : Int) := by
  have e : (BitVec.ofNat 32 n).toNat = n := by rw [BitVec.toNat_ofNat]; exact Nat.mod_eq_of_lt (by omega)
  rw [BitVec.toInt_eq_toNat_cond, e, if_pos (by omega)]

/-- A reduction by `and` of an array of ones, from one, is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  have key : ∀ l : List (Fin s.numel), l.foldl (fun r n => IntOp.andi r (x (s.rowMajor.symm n))) 1#1 = 1#1 := by
    intro l
    induction l with
    | nil => rfl
    | cons n l ih =>
      have e : IntOp.andi 1#1 1#1 = (1#1 : BitVec 1) := by decide
      rw [List.foldl_cons, hx, e]; exact ih
  unfold Host.reduce
  rw [hi]
  exact key _

end Cert.RefValue

end
-- ==== Proof.RefReadGather.lean ====
/-
  Two facts about a gather's operand index, for axes decided on literal dimension numbers: an operand axis the start
  index map does not name starts at 0, and an axis that is neither collapsed nor batching takes the result's
  coordinate on the offset axis in its position.
-/
import Idealize.ShloMosaic.PureOps.Ideal
import Idealize.ShloMosaic.Lib.ValueIdx

noncomputable section

namespace Cert.RefValue

open Idealize.ShloMosaic Idealize.ShloMosaic.ValueIdx

variable {s si t : Shape}

/-- The slice starts at 0 on an operand axis the start index map does not name. -/
theorem start_of_not_mem (d : GatherDims s si t) {w : Nat} (j : t.Idx) (idx : IVec si w) (a : Fin s.rank)
    (h : a ∉ d.startIndexMap) : d.start j idx a = 0 := by
  unfold GatherDims.start; rw [dif_neg h]

/-- On a kept operand axis the offset coordinate is the result's coordinate on the offset axis in that position. -/
theorem offCoord_of (d : GatherDims s si t) (j : t.Idx) (a : Fin s.rank) (ha : a ∈ d.sKept) (o : Fin t.rank)
    (ho : d.offsetDims[d.sKept.idxOf a]'(by rw [d.offset_length]; exact List.idxOf_lt_length_iff.2 ha) = o) :
    d.offCoord j a = (j o).val := by
  unfold GatherDims.offCoord; rw [dif_pos ha, ho]

end Cert.RefValue

end
-- ==== Proof.RefReadTake.lean ====
/-
  The planes a query selects, read at an index.

  With every row index in 0 … 1023 the wrap-around select keeps the index, the bounds mask is all ones, the gather's
  clamp is the identity, and the selected plane of query b is row `image_index b` of the features.
-/
import proofs.«207350_g59966333387111_cont_9to1_m_496_19_alg».proof.Proof.RefStages
import proofs.«207350_g59966333387111_cont_9to1_m_496_19_alg».proof.Proof.RefReadBits
import proofs.«207350_g59966333387111_cont_9to1_m_496_19_alg».proof.Proof.RefReadGather
import Idealize.ShloMosaic.Lib.Pipeline.Value

noncomputable section

namespace Cert.RefValue

open Cert.ReferenceIdeal Cert.ReferenceIdeal.Gen Idealize.ShloMosaic Idealize.ShloMosaic.ValueIdx

/-- The dimension numbers of the row gather: start index = row, the other three axes whole. -/
abbrev rowDims : GatherDims S1024x128x16x16 S1024x1 S1024x128x16x16 := gather_S1024x128x16x16_S1024x1_S1024x128x16x16_123_0_n_n_0_1_11281616

/-- The row gather read at (b, c, y, x): the operand at row `idx (b, 0)` read signed and clamped into 0 … 1023. -/
theorem gather_rows_apply {α : Type} (feat : S1024x128x16x16.Idx → α) (idx : IVec S1024x1 32)
    (b : Fin 1024) (c : Fin 128) (y x : Fin 16) :
    Host.gather rowDims feat idx (ix4 b c y x) = feat (ix4 ⟨min (idx (ix2 b 0)).toInt.toNat 1023, by omega⟩ c y x) := by
  unfold Host.gather
  refine congrArg feat (funext fun a => Fin.ext ?_)
  match a with
  | ⟨0, _⟩ =>
    show rowDims.start (ix4 b c y x) idx 0 + rowDims.batchCoord (ix4 b c y x) 0 + rowDims.offCoord (ix4 b c y x) 0
      = min (idx (ix2 b 0)).toInt.toNat 1023
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 4) ∈ rowDims.startIndexMap from List.mem_singleton.mpr rfl)]
    have hsi : rowDims.siIdx (ix4 b c y x) ⟨List.idxOf (0 : Fin 4) rowDims.startIndexMap,
        List.idxOf_lt_length_iff.2 (List.mem_singleton.mpr rfl)⟩ = ix2 b 0 := by
      funext d; refine Fin.ext ?_
      match d with
      | ⟨0, _⟩ => rfl
      | ⟨1, _⟩ => rfl
    rw [hsi]
    rfl
  | ⟨1, _⟩ =>
    show rowDims.start (ix4 b c y x) idx 1 + rowDims.batchCoord (ix4 b c y x) 1 + rowDims.offCoord (ix4 b c y x) 1 = c.val
    rw [GatherDims.batchCoord_eq_zero _ _ _ List.not_mem_nil, start_of_not_mem _ _ _ _ (by decide),
      offCoord_of _ _ _ (by decide) 1 (by decide)]
    simp only [Nat.zero_add]
  | ⟨2, _⟩ =>
    show rowDims.start (ix4 b c y x) idx 2 + rowDims.batchCoord (ix4 b c y x) 2 + rowDims.offCoord (ix4 b c y x) 2 = y.val
    rw [GatherDims.batchCoord_eq_zero _ _ _ List.not_mem_nil, start_of_not_mem _ _ _ _ (by decide),
      offCoord_of _ _ _ (by decide) 2 (by decide)]
    simp only [Nat.zero_add]
  | ⟨3, _⟩ =>
    show rowDims.start (ix4 b c y x) idx 3 + rowDims.batchCoord (ix4 b c y x) 3 + rowDims.offCoord (ix4 b c y x) 3 = x.val
    rw [GatherDims.batchCoord_eq_zero _ _ _ List.not_mem_nil, start_of_not_mem _ _ _ _ (by decide),
      offCoord_of _ _ _ (by decide) 3 (by decide)]
    simp only [Nat.zero_add]

/-- The row index column at (b, z) is the argument's entry b when that is non-negative. -/
theorem rowIdxCol_apply (ii : IVec S1024 32) (b : Fin 1024) (z : Fin 1) (h : 0 ≤ (ii (ix1 b)).toInt) :
    rowIdxCol ii (ix2 b z) = ii (ix1 b) := by
  unfold rowIdxCol
  refine (broadcastInDim_apply _ _ _ (ix2 b z) (ix1 b) (fun a => match a with | ⟨0, _⟩ => rfl)).trans ?_
  show Scalar.select (IntOp.cmpi .slt (ii (ix1 b)) 0#32) (IntOp.addi (ii (ix1 b)) 1024#32) (ii (ix1 b)) = _
  exact wrap_keep _ _ h

/-- With every row index in 0 … 1023 the bounds mask is one everywhere. -/
theorem rowMask_apply (ii : IVec S1024 32) (hii : ∀ i, 0 ≤ (ii i).toInt ∧ (ii i).toInt ≤ 1023) (j : S1024.Idx) :
    rowMask ii j = 1#1 := by
  unfold rowMask
  refine reduce_andi_ones _ _ _ _ (fun i => ?_) (fun _ => rfl) j
  obtain ⟨b, z, rfl⟩ : ∃ (b : Fin 1024) (z : Fin 1), i = ix2 b z := ⟨i 0, i 1, eq_ix2 i⟩
  show IntOp.andi (IntOp.cmpi .sge (rowIdxCol ii (ix2 b z)) 0#32) (IntOp.cmpi .sle (rowIdxCol ii (ix2 b z)) 1023#32) = 1#1
  rw [rowIdxCol_apply ii b z (hii _).1]
  exact in_range_1023 _ (hii _).1 (hii _).2

/-- The selected planes at (b, c, y, x): the features at row `image_index b`. -/
theorem planes_apply (ii : IVec S1024 32) (feat : FVec Ideal S1024x128x16x16 .f32)
    (hii : ∀ i, 0 ≤ (ii i).toInt ∧ (ii i).toInt ≤ 1023) (b : Fin 1024) (c : Fin 128) (y x : Fin 16) :
    planes (F := Ideal) ii feat (ix4 b c y x)
      = feat (ix4 ⟨(ii (ix1 b)).toNat % 1024, Nat.mod_lt _ (by decide)⟩ c y x) := by
  have hm : broadcastInDim S1024x128x16x16 ![0] bcast_S1024_S1024x128x16x16_0 (rowMask ii) (ix4 b c y x) = 1#1 :=
    (broadcastInDim_apply _ _ _ (ix4 b c y x) (ix1 b) (fun a => match a with | ⟨0, _⟩ => rfl)).trans (rowMask_apply ii hii _)
  show Scalar.select (broadcastInDim S1024x128x16x16 ![0] bcast_S1024_S1024x128x16x16_0 (rowMask ii) (ix4 b c y x))
      (Host.gather rowDims feat (rowIdxCol ii) (ix4 b c y x)) _ = _
  rw [hm, select_one, gather_rows_apply]
  have e : min (rowIdxCol ii (ix2 b 0)).toInt.toNat 1023 = (ii (ix1 b)).toNat % 1024 := by
    rw [rowIdxCol_apply ii b 0 (hii _).1]; exact clamp_1023 _ (hii _).1 (hii _).2
  exact congrArg (fun n : Fin 1024 => feat (ix4 n c y x)) (Fin.ext e)

end Cert.RefValue

end
-- ==== Proof.RefReadCorner.lean ====
/-
  One corner read at an index.

  The index triple of sample p of query b is (b, row line, column line); with the lines in 0 … 15 neither the
  wrap-around selects nor the gather's clamps change them, so the corner is the channel vector of the channel-last
  planes at (b, row line, column line).
-/
import proofs.«207350_g59966333387111_cont_9to1_m_496_19_alg».proof.Proof.RefStages
import proofs.«207350_g59966333387111_cont_9to1_m_496_19_alg».proof.Proof.RefReadBits
import proofs.«207350_g59966333387111_cont_9to1_m_496_19_alg».proof.Proof.RefReadGather
import Idealize.ShloMosaic.Lib.Pipeline.Value

noncomputable section

namespace Cert.RefValue

open Cert.ReferenceIdeal Cert.ReferenceIdeal.Gen Idealize.ShloMosaic Idealize.ShloMosaic.ValueIdx

/-- The dimension numbers of the corner gather: start index = (query, row, column), the channel axis whole. -/
abbrev cornerDims : GatherDims S1024x16x16x128 S1024x512x1x3 S1024x512x1x128 := gather_S1024x16x16x128_S1024x512x1x3_S1024x512x1x128_3_012_n_n_012_3_111128

/-- The corner gather read at (b, p, 0, c): the operand at the triple `idx (b, p, 0, ·)`, each entry read signed and
    clamped into its axis, and channel c. -/
theorem gather_corner_apply {α : Type} (pl : S1024x16x16x128.Idx → α) (idx : IVec S1024x512x1x3 32)
    (b : Fin 1024) (p : Fin 512) (c : Fin 128) :
    Host.gather cornerDims pl idx (ix4 b p 0 c)
      = pl (ix4 ⟨min (idx (ix4 b p 0 0)).toInt.toNat 1023, by omega⟩ ⟨min (idx (ix4 b p 0 1)).toInt.toNat 15, by omega⟩
          ⟨min (idx (ix4 b p 0 2)).toInt.toNat 15, by omega⟩ c) := by
  unfold Host.gather
  refine congrArg pl (funext fun a => Fin.ext ?_)
  match a with
  | ⟨0, _⟩ =>
    show cornerDims.start (ix4 b p 0 c) idx 0 + cornerDims.batchCoord (ix4 b p 0 c) 0 + cornerDims.offCoord (ix4 b p 0 c) 0
      = min (idx (ix4 b p 0 0)).toInt.toNat 1023
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 4) ∈ cornerDims.startIndexMap from by decide)]
    have hsi : cornerDims.siIdx (ix4 b p 0 c) ⟨List.idxOf (0 : Fin 4) cornerDims.startIndexMap,
        List.idxOf_lt_length_iff.2 (by decide)⟩ = ix4 b p 0 0 := by
      funext d; refine Fin.ext ?_
      match d with
      | ⟨0, _⟩ => rfl
      | ⟨1, _⟩ => rfl
      | ⟨2, _⟩ => rfl
      | ⟨3, _⟩ => rfl
    rw [hsi]
    rfl
  | ⟨1, _⟩ =>
    show cornerDims.start (ix4 b p 0 c) idx 1 + cornerDims.batchCoord (ix4 b p 0 c) 1 + cornerDims.offCoord (ix4 b p 0 c) 1
      = min (idx (ix4 b p 0 1)).toInt.toNat 15
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 4) ∈ cornerDims.startIndexMap from by decide)]
    have hsi : cornerDims.siIdx (ix4 b p 0 c) ⟨List.idxOf (1 : Fin 4) cornerDims.startIndexMap,
        List.idxOf_lt_length_iff.2 (by decide)⟩ = ix4 b p 0 1 := by
      funext d; refine Fin.ext ?_
      match d with
      | ⟨0, _⟩ => rfl
      | ⟨1, _⟩ => rfl
      | ⟨2, _⟩ => rfl
      | ⟨3, _⟩ => rfl
    rw [hsi]
    rfl
  | ⟨2, _⟩ =>
    show cornerDims.start (ix4 b p 0 c) idx 2 + cornerDims.batchCoord (ix4 b p 0 c) 2 + cornerDims.offCoord (ix4 b p 0 c) 2
      = min (idx (ix4 b p 0 2)).toInt.toNat 15
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 4) ∈ cornerDims.startIndexMap from by decide)]
    have hsi : cornerDims.siIdx (ix4 b p 0 c) ⟨List.idxOf (2 : Fin 4) cornerDims.startIndexMap,
        List.idxOf_lt_length_iff.2 (by decide)⟩ = ix4 b p 0 2 := by
      funext d; refine Fin.ext ?_
      match d with
      | ⟨0, _⟩ => rfl
      | ⟨1, _⟩ => rfl
      | ⟨2, _⟩ => rfl
      | ⟨3, _⟩ => rfl
    rw [hsi]
    rfl
  | ⟨3, _⟩ =>
    show cornerDims.start (ix4 b p 0 c) idx 3 + cornerDims.batchCoord (ix4 b p 0 c) 3 + cornerDims.offCoord (ix4 b p 0 c) 3 = c.val
    rw [GatherDims.batchCoord_eq_zero _ _ _ List.not_mem_nil, start_of_not_mem _ _ _ _ (by decide),
      offCoord_of _ _ _ (by decide) 3 (by decide)]
    simp only [Nat.zero_add]

/-- Entry 0 of an index triple is the first column's. -/
theorem cat3_apply0 (u0 u1 u2 : IVec S1024x512x1x1 32) (b : Fin 1024) (p : Fin 512) :
    cat3 (F := Ideal) u0 u1 u2 (ix4 b p 0 0) = u0 (ix4 b p 0 0) := by
  unfold cat3
  exact concatenate_apply_piece (t := S1024x512x1x3) 3 [⟨S1024x512x1x1, u0⟩, ⟨S1024x512x1x1, u1⟩, ⟨S1024x512x1x1, u2⟩]
    concatenates_S1024x512x1x1_S1024x512x1x1_S1024x512x1x1_S1024x512x1x3_d3 (ix4 b p 0 0) 0 (by show 0 < 3; omega) S1024x512x1x1 u0 rfl rfl 0 rfl (ix4 b p 0 0)
    (fun a h => match a with
      | ⟨0, _⟩ => rfl
      | ⟨1, _⟩ => rfl
      | ⟨2, _⟩ => rfl
      | ⟨3, _⟩ => (h (Fin.ext rfl)).elim) rfl

/-- Entry 1 of an index triple is the second column's. -/
theorem cat3_apply1 (u0 u1 u2 : IVec S1024x512x1x1 32) (b : Fin 1024) (p : Fin 512) :
    cat3 (F := Ideal) u0 u1 u2 (ix4 b p 0 1) = u1 (ix4 b p 0 0) := by
  unfold cat3
  exact concatenate_apply_piece (t := S1024x512x1x3) 3 [⟨S1024x512x1x1, u0⟩, ⟨S1024x512x1x1, u1⟩, ⟨S1024x512x1x1, u2⟩]
    concatenates_S1024x512x1x1_S1024x512x1x1_S1024x512x1x1_S1024x512x1x3_d3 (ix4 b p 0 1) 1 (by show 1 < 3; omega) S1024x512x1x1 u1 rfl rfl 1 rfl (ix4 b p 0 0)
    (fun a h => match a with
      | ⟨0, _⟩ => rfl
      | ⟨1, _⟩ => rfl
      | ⟨2, _⟩ => rfl
      | ⟨3, _⟩ => (h (Fin.ext rfl)).elim) rfl

/-- Entry 2 of an index triple is the third column's. -/
theorem cat3_apply2 (u0 u1 u2 : IVec S1024x512x1x1 32) (b : Fin 1024) (p : Fin 512) :
    cat3 (F := Ideal) u0 u1 u2 (ix4 b p 0 2) = u2 (ix4 b p 0 0) := by
  unfold cat3
  exact concatenate_apply_piece (t := S1024x512x1x3) 3 [⟨S1024x512x1x1, u0⟩, ⟨S1024x512x1x1, u1⟩, ⟨S1024x512x1x1, u2⟩]
    concatenates_S1024x512x1x1_S1024x512x1x1_S1024x512x1x1_S1024x512x1x3_d3 (ix4 b p 0 2) 2 (by show 2 < 3; omega) S1024x512x1x1 u2 rfl rfl 2 rfl (ix4 b p 0 0)
    (fun a h => match a with
      | ⟨0, _⟩ => rfl
      | ⟨1, _⟩ => rfl
      | ⟨2, _⟩ => rfl
      | ⟨3, _⟩ => (h (Fin.ext rfl)).elim) rfl

/-- A per-sample column at (b, p, 0, z) is the array at (b, p, 0). -/
theorem col_apply {α : Type} (l : S1024x512x1.Idx → α) (b : Fin 1024) (p : Fin 512) (z : Fin 1) :
    col l (ix4 b p 0 z) = l (ix3 b p 0) := by
  unfold col
  exact broadcastInDim_apply _ _ _ (ix4 b p 0 z) (ix3 b p 0) (fun a => match a with | ⟨0, _⟩ => rfl | ⟨1, _⟩ => rfl | ⟨2, _⟩ => rfl)

/-- A per-query column at (b, p, 0, z) is the array at (b, 0, 0). -/
theorem qcol_apply (q : IVec S1024x1x1 32) (b : Fin 1024) (p : Fin 512) (z : Fin 1) :
    qcol q (ix4 b p 0 z) = q (ix3 b 0 0) := by
  unfold qcol
  refine (col_apply _ b p z).trans ?_
  exact broadcastInDim_apply _ _ _ (ix3 b p 0) (ix3 b 0 0) (fun a => match a with | ⟨0, _⟩ => rfl | ⟨1, _⟩ => rfl | ⟨2, _⟩ => rfl)

/-- The query number at (b, 0, 0) is the word of b. -/
theorem queryNo_apply (b : Fin 1024) : queryNo (ix3 b 0 0) = BitVec.ofNat 32 b.val := by
  unfold queryNo
  exact broadcastInDim_apply _ _ _ (ix3 b 0 0) (ix1 b) (fun a => match a with | ⟨0, _⟩ => rfl)

/-- The wrap-around select keeps a non-negative query number. -/
theorem wrapQ_apply (q : IVec S1024x1x1 32) (i : S1024x1x1.Idx) (h : 0 ≤ (q i).toInt) : wrapQ q i = q i := by
  show Scalar.select (IntOp.cmpi .slt (q i) 0#32) (IntOp.addi (q i) 1024#32) (q i) = _
  exact wrap_keep _ _ h

/-- The wrap-around select keeps a non-negative grid line. -/
theorem wrapL_apply (l : IVec S1024x512x1 32) (i : S1024x512x1.Idx) (h : 0 ≤ (l i).toInt) : wrapL l i = l i := by
  show Scalar.select (IntOp.cmpi .slt (l i) 0#32) (IntOp.addi (l i) 16#32) (l i) = _
  exact wrap_keep _ _ h

/-- A corner read from wrapped indices whose clamps are known. -/
theorem cornerAt_apply (pl : FVec Ideal S1024x16x16x128 .f32) (q : IVec S1024x1x1 32) (iy ix : IVec S1024x512x1 32)
    (b : Fin 1024) (p : Fin 512) (c : Fin 128) (B : Fin 1024) (Y X : Fin 16)
    (hq : min (q (ix3 b 0 0)).toInt.toNat 1023 = B.val) (hy : min (iy (ix3 b p 0)).toInt.toNat 15 = Y.val)
    (hx : min (ix (ix3 b p 0)).toInt.toNat 15 = X.val) :
    cornerAt (F := Ideal) pl q iy ix (ix4 b p 0 c) = pl (ix4 B Y X c) := by
  unfold cornerAt
  refine (gather_corner_apply pl _ b p c).trans (congrArg pl (funext fun a => Fin.ext ?_))
  match a with
  | ⟨0, _⟩ =>
    show min (cat3 (F := Ideal) (qcol q) (col iy) (col ix) (ix4 b p 0 0)).toInt.toNat 1023 = B.val
    rw [cat3_apply0, qcol_apply]; exact hq
  | ⟨1, _⟩ =>
    show min (cat3 (F := Ideal) (qcol q) (col iy) (col ix) (ix4 b p 0 1)).toInt.toNat 15 = Y.val
    rw [cat3_apply1, col_apply]; exact hy
  | ⟨2, _⟩ =>
    show min (cat3 (F := Ideal) (qcol q) (col iy) (col ix) (ix4 b p 0 2)).toInt.toNat 15 = X.val
    rw [cat3_apply2, col_apply]; exact hx
  | ⟨3, _⟩ => rfl

/-- One corner of sample p of query b, channel c, with both grid lines in 0 … 15: the channel-last planes at
    (b, row line, column line, c). -/
theorem corner_apply (pl : FVec Ideal S1024x16x16x128 .f32) (iy ix : IVec S1024x512x1 32)
    (b : Fin 1024) (p : Fin 512) (c : Fin 128)
    (hy : 0 ≤ (iy (ix3 b p 0)).toInt ∧ (iy (ix3 b p 0)).toInt ≤ 15)
    (hx : 0 ≤ (ix (ix3 b p 0)).toInt ∧ (ix (ix3 b p 0)).toInt ≤ 15) :
    corner (F := Ideal) pl queryNo iy ix (ix4 b p 0 c)
      = pl (ix4 b ⟨(iy (ix3 b p 0)).toNat % 16, Nat.mod_lt _ (by decide)⟩ ⟨(ix (ix3 b p 0)).toNat % 16, Nat.mod_lt _ (by decide)⟩ c) := by
  have hb : (queryNo (ix3 b 0 0)).toInt = (b.val : Int) := by rw [queryNo_apply]; exact toInt_ofNat_small _ b.isLt
  unfold corner
  refine cornerAt_apply pl _ _ _ b p c b _ _ ?_ ?_ ?_
  · rw [wrapQ_apply _ _ (by rw [hb]; omega), hb]; have := b.isLt; omega
  · rw [wrapL_apply _ _ hy.1]; exact clamp_15 _ hy.1 hy.2
  · rw [wrapL_apply _ _ hx.1]; exact clamp_15 _ hx.1 hx.2

end Cert.RefValue

end
-- ==== Proof.RefReadBlend.lean ====
/-
  The weighted sum read at an index, and the channel-last planes read at an index.

  The result at (query b, channel c, sample p) is the sum, left to right, of the four corners' channel c at
  (b, p) each times the product of its row weight and its column weight at (b, p).
-/
import proofs.«207350_g59966333387111_cont_9to1_m_496_19_alg».proof.Proof.RefStages
import Idealize.ShloMosaic.Lib.Pipeline.Value
import Idealize.ShloMosaic.Lib.ValueIdx

noncomputable section

namespace Cert.RefValue

open Cert.ReferenceIdeal Cert.ReferenceIdeal.Gen Idealize.ShloMosaic Idealize.ShloMosaic.ValueIdx

/-- The channel-last planes at (b, y, x, c) are the planes at (b, c, y, x). -/
theorem chanLast_apply (pl : FVec Ideal S1024x128x16x16 .f32) (b : Fin 1024) (y x : Fin 16) (c : Fin 128) :
    chanLast (F := Ideal) pl (ix4 b y x c) = pl (ix4 b c y x) := by
  unfold chanLast
  exact transpose_apply _ _ _ (ix4 b y x c) (ix4 b c y x) (fun a => match a with | ⟨0, _⟩ => rfl | ⟨1, _⟩ => rfl | ⟨2, _⟩ => rfl | ⟨3, _⟩ => rfl)

/-- A weight product at (b, p, 0, c): the product of the two weights at (b, p, 0), whatever the channel. -/
theorem wgt_apply (u w : FVec Ideal S1024x512x1 .f32) (b : Fin 1024) (p : Fin 512) (c : Fin 128) :
    wgt (F := Ideal) u w (ix4 b p 0 c) = u (ix3 b p 0) * w (ix3 b p 0) := by
  unfold wgt
  refine (broadcastInDim_apply _ _ _ (ix4 b p 0 c) (ix4 b p 0 0) (fun a => match a with | ⟨0, _⟩ => rfl | ⟨1, _⟩ => rfl | ⟨2, _⟩ => rfl | ⟨3, _⟩ => rfl)).trans ?_
  unfold col
  exact broadcastInDim_apply _ _ _ (ix4 b p 0 0) (ix3 b p 0) (fun a => match a with | ⟨0, _⟩ => rfl | ⟨1, _⟩ => rfl | ⟨2, _⟩ => rfl)

/-- The weighted sum at (b, c, p). -/
theorem blendAll_apply (v00 v01 v10 v11 : FVec Ideal S1024x512x1x128 .f32) (wy0 wx0 wx1 wy1 : FVec Ideal S1024x512x1 .f32)
    (b : Fin 1024) (c : Fin 128) (p : Fin 512) :
    blendAll (F := Ideal) v00 v01 v10 v11 wy0 wx0 wx1 wy1 (ix3 b c p)
      = v00 (ix4 b p 0 c) * (wy0 (ix3 b p 0) * wx0 (ix3 b p 0)) + v01 (ix4 b p 0 c) * (wy0 (ix3 b p 0) * wx1 (ix3 b p 0))
        + v10 (ix4 b p 0 c) * (wy1 (ix3 b p 0) * wx0 (ix3 b p 0)) + v11 (ix4 b p 0 c) * (wy1 (ix3 b p 0) * wx1 (ix3 b p 0)) := by
  unfold blendAll
  refine (transpose_apply _ _ _ (ix3 b c p) (ix3 b p c) (fun a => match a with | ⟨0, _⟩ => rfl | ⟨1, _⟩ => rfl | ⟨2, _⟩ => rfl)).trans ?_
  refine (shapeCast_apply _ _ (ix3 b p c) (ix4 b p 0 c) ?_).trans ?_
  · rw [Shape.rowMajor_val_four, Shape.rowMajor_val_three]
    show ((b.val * 512 + p.val) * 1 + 0) * 128 + c.val = (b.val * 512 + p.val) * 128 + c.val
    omega
  show v00 (ix4 b p 0 c) * wgt (F := Ideal) wy0 wx0 (ix4 b p 0 c) + v01 (ix4 b p 0 c) * wgt (F := Ideal) wy0 wx1 (ix4 b p 0 c)
      + v10 (ix4 b p 0 c) * wgt (F := Ideal) wy1 wx0 (ix4 b p 0 c) + v11 (ix4 b p 0 c) * wgt (F := Ideal) wy1 wx1 (ix4 b p 0 c) = _
  rw [wgt_apply, wgt_apply, wgt_apply, wgt_apply]

end Cert.RefValue

end
-- ==== Proof.RefRead.lean ====
/-
  The reference's value at an index.

  At (query b, channel c, sample p), with every row index in 0 … 1023, the reference's result is the bilinear blend of
  the specification: the "floor first" axis data of the sample's y and x coordinates, and the corner values read from
  the features' row `image_index b`, channel c.
-/
import proofs.«207350_g59966333387111_cont_9to1_m_496_19_alg».proof.Proof.RefReadAxis
import proofs.«207350_g59966333387111_cont_9to1_m_496_19_alg».proof.Proof.RefReadTake
import proofs.«207350_g59966333387111_cont_9to1_m_496_19_alg».proof.Proof.RefReadCorner
import proofs.«207350_g59966333387111_cont_9to1_m_496_19_alg».proof.Proof.RefReadBlend
import proofs.«207350_g59966333387111_cont_9to1_m_496_19_alg».proof.Proof.SpecRange

noncomputable section

namespace Cert.RefValue

open Cert.ReferenceIdeal Cert.ReferenceIdeal.Gen Idealize.ShloMosaic Idealize.ShloMosaic.ValueIdx

open Cert

theorem refVal_apply (ii : S1024.Idx → BitVec 32) (grid : S1024x2x512.Idx → EReal) (feat : S1024x128x16x16.Idx → EReal)
    (hii : ∀ b, 0 ≤ (ii b).toInt ∧ (ii b).toInt ≤ 1023) (b : Fin 1024) (c : Fin 128) (p : Fin 512) :
    refVal (F := Ideal) ii grid feat (ix3 b c p)
      = Spec.blend (Spec.floorFirst (grid (ix3 b 1 p))) (Spec.floorFirst (grid (ix3 b 0 p)))
          (fun iy ix => feat (ix4 ⟨(ii (ix1 b)).toNat % 1024, Nat.mod_lt _ (by decide)⟩ c
            ⟨iy.toNat % 16, Nat.mod_lt _ (by decide)⟩ ⟨ix.toNat % 16, Nat.mod_lt _ (by decide)⟩)) := by
  have hx := gx_apply grid b p
  have hy := gy_apply grid b p
  have x0 := line0_pix (gx (F := Ideal) grid) (ix3 b p 0) _ hx
  have x1 := line1_pix (gx (F := Ideal) grid) (ix3 b p 0) _ hx
  have y0 := line0_pix (gy (F := Ideal) grid) (ix3 b p 0) _ hy
  have y1 := line1_pix (gy (F := Ideal) grid) (ix3 b p 0) _ hy
  have rx0 : 0 ≤ (line0 (F := Ideal) (pix (gx grid)) (ix3 b p 0)).toInt ∧ (line0 (F := Ideal) (pix (gx grid)) (ix3 b p 0)).toInt ≤ 15 := by
    rw [x0]; exact Spec.floorFirst_i0_toInt _
  have rx1 : 0 ≤ (line1 (F := Ideal) (pix (gx grid)) (ix3 b p 0)).toInt ∧ (line1 (F := Ideal) (pix (gx grid)) (ix3 b p 0)).toInt ≤ 15 := by
    rw [x1]; exact Spec.floorFirst_i1_toInt _
  have ry0 : 0 ≤ (line0 (F := Ideal) (pix (gy grid)) (ix3 b p 0)).toInt ∧ (line0 (F := Ideal) (pix (gy grid)) (ix3 b p 0)).toInt ≤ 15 := by
    rw [y0]; exact Spec.floorFirst_i0_toInt _
  have ry1 : 0 ≤ (line1 (F := Ideal) (pix (gy grid)) (ix3 b p 0)).toInt ∧ (line1 (F := Ideal) (pix (gy grid)) (ix3 b p 0)).toInt ≤ 15 := by
    rw [y1]; exact Spec.floorFirst_i1_toInt _
  unfold refVal
  rw [blendAll_apply, corner_apply _ _ _ b p c ry0 rx0, corner_apply _ _ _ b p c ry0 rx1, corner_apply _ _ _ b p c ry1 rx0,
    corner_apply _ _ _ b p c ry1 rx1]
  simp only [chanLast_apply, planes_apply ii feat hii]
  rw [x0, x1, y0, y1, wLo_pix _ _ _ hx, wHi_pix _ _ _ hx, wLo_pix _ _ _ hy, wHi_pix _ _ _ hy]
  rfl

end Cert.RefValue

end
-- ==== Proof.lean ====
/-
  The five claims of this certificate, assembled.

  The programs.  For each of 1024 queries b the kernel reads one image number, 512 sample positions (x, y) in the unit
  square and the 128 feature planes (16 × 16) of that image, and returns, per channel and sample, the bilinear
  interpolation of the plane at the position with the border rule: the position is rescaled to pixel coordinates, the
  four surrounding grid lines are pulled back into 0 … 15, and the four corner values are added with the products of
  the row and column weights.  The reference computes the same from a floor of the unclipped coordinate; the kernel
  clips the coordinate first and truncates.

  The claims, and where each is proved.
  * The kernel runs (at the word level, and read over the extended reals): every weakly fair execution of the device
    program — its host operations and the thirty-two vector subcores, each with thirty-two queries — terminates
    without a fault, the arguments as they were and the result the flat per-query result in its final shape.  The
    launch (`run_main`, modules KLaunch / BLaunch) asks of every subcore the obligation `tileObl_of` (KObl / BObl)
    gives from the body's run on one subcore (`tile_body`, KBody / BBody), which needs every image number to be a
    row of the feature table: the precondition read back (`ii_range`, KPre / BPre).
  * The reference runs: its 243 host operations in order leave the composed value `refVal` of the three arguments
    in the result buffer and write no argument (`Cert.RefValue.run`, module RefRun).
  * The idealized kernel is the kernel's own text read over the extended reals: the ideal pass rewrote nothing.
  * The two idealized programs return equal arrays.  At (query b, channel c, sample p) the kernel's result is the
    blend of the four corner features of plane (image of b, c) at the "floor first" axis data of the sample's two
    coordinates — the clip-first data it computes agrees with them at real inputs, the two differing only where both
    lines collapse onto one border line (`kernel_value`, module KValueIdeal) — and the reference's result is the
    same expression (`Cert.RefValue.refVal_apply`, module RefRead); `value_eq` below puts the two together.
-/
import proofs.«207350_g59966333387111_cont_9to1_m_496_19_alg».proof.Defs
import proofs.«207350_g59966333387111_cont_9to1_m_496_19_alg».proof.Proof.Gen.Kernel
import proofs.«207350_g59966333387111_cont_9to1_m_496_19_alg».proof.Proof.Gen.Kernel.Skeleton
import proofs.«207350_g59966333387111_cont_9to1_m_496_19_alg».proof.Proof.Gen.KernelIdeal
import proofs.«207350_g59966333387111_cont_9to1_m_496_19_alg».proof.Proof.Gen.KernelIdeal.Skeleton
import proofs.«207350_g59966333387111_cont_9to1_m_496_19_alg».proof.Proof.Gen.ReferenceIdeal
import proofs.«207350_g59966333387111_cont_9to1_m_496_19_alg».proof.Proof.Gen.Pre_input_domain
import proofs.«207350_g59966333387111_cont_9to1_m_496_19_alg».proof.Proof.KObl
import proofs.«207350_g59966333387111_cont_9to1_m_496_19_alg».proof.Proof.KPre
import proofs.«207350_g59966333387111_cont_9to1_m_496_19_alg».proof.Proof.KOut
import proofs.«207350_g59966333387111_cont_9to1_m_496_19_alg».proof.Proof.KBody
import proofs.«207350_g59966333387111_cont_9to1_m_496_19_alg».proof.Proof.KValueIdeal
import proofs.«207350_g59966333387111_cont_9to1_m_496_19_alg».proof.Proof.BObl
import proofs.«207350_g59966333387111_cont_9to1_m_496_19_alg».proof.Proof.BPre
import proofs.«207350_g59966333387111_cont_9to1_m_496_19_alg».proof.Proof.BOut
import proofs.«207350_g59966333387111_cont_9to1_m_496_19_alg».proof.Proof.BBody
import proofs.«207350_g59966333387111_cont_9to1_m_496_19_alg».proof.Proof.RefRun
import proofs.«207350_g59966333387111_cont_9to1_m_496_19_alg».proof.Proof.RefRead
import Idealize.ShloMosaic.Adequacy
import Idealize.ShloMosaic.Init

noncomputable section

namespace Cert.Proof

open Idealize.ShloMosaic Idealize.SL.Sem Idealize.ShloMosaic.ValueIdx

/-- On every device, under the precondition, the reference's value of the three arguments is the kernel's result:
    index by index both are the same blend of four corner features. -/
theorem value_eq (m : (ℓ : Loc Cert.KernelIdeal.nD Cert.KernelIdeal.τ Cert.KernelIdeal.sig) → Buf (Elt Ideal) ℓ)
    (c : Dev Cert.KernelIdeal.nD) (hpre : KI.PreAt (F := Ideal) m c) :
    Cert.RefValue.refVal (F := Ideal) (m (KI.iiLoc c)) (m (KI.gridLoc c)) (m (KI.a2Loc c))
      = KI.resOf (d := c) (KI.OutFlat (m (KI.iiLoc c)) (m (KI.gridLoc c)) (KI.featOf m c)) := by
  funext j
  obtain ⟨b, ch, p, rfl⟩ : ∃ (b : Fin 1024) (ch : Fin 128) (p : Fin 512), j = ix3 b ch p := ⟨j 0, j 1, j 2, eq_ix3 j⟩
  rw [KI.kernel_value m c hpre b ch p]
  exact Cert.RefValue.refVal_apply _ _ _ (KI.ii_range m c hpre) b ch p

/-- The kernel as printed runs and leaves its arguments alone. -/
theorem frame_Kernel : Cert.frame_Kernel := fun m g hpre =>
  (θ_run Cert.Kernel.defs _ _).mono (fun _ h c => (h c).2)
    (KB.run_main (F := Bits) m g (KB.outOf KB.OutFlat m (KB.featOf m))
      (KB.tileObl_of KB.OutFlat m (fun d b => KB.ii_range m d (hpre d) b) (KB.tile_body KB.facts)))

/-- The idealized kernel runs and leaves its arguments alone. -/
theorem frame_KernelIdeal : Cert.frame_KernelIdeal := fun m g hpre =>
  (θ_run Cert.KernelIdeal.defs _ _).mono (fun _ h c => (h c).2)
    (KI.run_main (F := Ideal) m g (KI.outOf KI.OutFlat m (KI.featOf m))
      (KI.tileObl_of KI.OutFlat m (fun d b => KI.ii_range m d (hpre d) b) (KI.tile_body KI.facts)))

/-- The reference runs and leaves its arguments alone: its run with the result dropped. -/
theorem frame_ReferenceIdeal : Cert.frame_ReferenceIdeal := fun m g _ =>
  (θ_run Cert.ReferenceIdeal.defs _ _).mono (fun _ h c => (h c).2) (Cert.RefValue.run (F := Ideal) m g)

/-- The ideal pass rewrote no operation. -/
theorem preserves : Cert.preserves_Kernel_KernelIdeal := trivial

/-- From memories agreeing on the arguments both idealized programs run and end with the same result: the kernel's
    flat result in its final shape, which the reference's composed value equals by `value_eq`. -/
theorem algebraic : Cert.algebraic_KernelIdeal_ReferenceIdeal := fun m g m' g' hpre hagree =>
  ⟨fun c => KI.resOf (d := c) (KI.OutFlat (m (KI.iiLoc c)) (m (KI.gridLoc c)) (KI.featOf m c)),
    KI.run_main (F := Ideal) m g (KI.outOf KI.OutFlat m (KI.featOf m))
      (KI.tileObl_of KI.OutFlat m (fun d b => KI.ii_range m d (hpre d) b) (KI.tile_body KI.facts)),
    (θ_run Cert.ReferenceIdeal.defs _ _).mono
      (fun _ h c => ⟨(h c).1.trans (by
          rw [(hagree c).1, (hagree c).2.1, (hagree c).2.2]
          exact value_eq m c (hpre c)), (h c).2⟩)
      (Cert.RefValue.run (F := Ideal) m' g')⟩

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, preserves, algebraic⟩

end Cert.Proof

end
